-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v185)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v185) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v231) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000x16 : Shape := ⟨2, ![640000, 16]⟩
abbrev S100000 : Shape := ⟨1, ![100000]⟩
abbrev S128x16 : Shape := ⟨2, ![128, 16]⟩
abbrev S128 : Shape := ⟨1, ![128]⟩
abbrev S1x128 : Shape := ⟨2, ![1, 128]⟩
abbrev S1 : Shape := ⟨1, ![1]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000x16 : S_.BroadcastsInDim S640000x16 (![] : Fin 0 → Fin S640000x16.rank)
  reducesTo_S640000x16_S_d0_1 : S640000x16.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_

variable [Facts]

def fn_part5 {F : FTy → Type} [FloatOps F] (main_arg20 : FVec F S1x128 .f32) (main_arg21 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S1x128 .f32 := Host.absf main_arg20
  let main_cst_34 : FVec F S_ .f32 := constant S_ .f32 0x7F800000#32
  let main_v90 : FVec F S1x128 .f32 := broadcastInDim S1x128 ![] bcast_S_S1x128 main_cst_34
  let main_v91 : IVec S1x128 1 := cmpf .olt main_v89 main_v90
  let main_c_35 : IVec S_ 1 := constantI S_ 1 1#1
  let main_v92 : IVec S_ 1 := (fun x v => Host.reduce IntOp.andi x v reducesTo_S1x128_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg16 : FVec F S128x128 .f32) (main_arg17 : FVec F S128 .f32) (main_arg18 : FVec F S128 .f32) (main_arg19 : FVec F S128 .f32) (main_arg20 : FVec F S1x128 .f32) (main_arg21 : FVec F S1 .f32) (main_v63 : IVec S_ 1) (main_v67 : IVec S_ 1) : IVec S_ 1 :=
  let main_v68 : IVec S_ 1 := andi main_v63 main_v67
  let main_v69 : FVec F S128x128 .f32 := Host.absf main_arg16
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_v63 main_v67

def fn_part2 {F : FTy → Type} [FloatOps F] (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S1x128 .f32) (main_arg7 : FVec F S1 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x128 .f32) (main_arg1 : IVec S2x640000 32) (main_arg2 : FVec F S640000x16 .f32) (main_arg3 : IVec S100000 32) (main_arg4 : FVec F S128x16 .f32) (main_arg5 : FVec F S128 .f32) (main_arg6 : FVec F S1x128 .f32) (main_arg7 : FVec F S1 .f32) (main_arg8 : FVec F S128x128 .f32) (main_arg9 : FVec F S128 .f32) (main_arg10 : FVec F S128 .f32) (main_arg11 : FVec F S128 .f32) (main_arg12 : FVec F S128x128 .f32) (main_arg13 : FVec F S128 .f32) (main_arg14 : FVec F S128 .f32) (main_arg15 : FVec F S128 .f32) (main_arg16 : FVec F S128x128 .f32) (main_arg17 : FVec F S128 .f32) (main_arg18 : FVec F S128 .f32) (main_arg19 : FVec F S128 .f32) (main_arg20 : FVec F S1x128 .f32) (main_arg21 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000x16 .f32 := Host.absf main_arg2
  let main_cst_0 : FVec F S_ .f32 := constant S_ .f32 0x7F800000#32
  let main_v5 : FVec F S640000x16 .f32 := broadcastInDim S640000x16 ![] bcast_S_S640000x16 main_cst_0
  let main_v6 : IVec S640000x16 1 := cmpf .olt main_v4 main_v5
  let main_c_1 : IVec S_ 1 := constantI S_ 1 1#1
  let main_v7 : IVec S_ 1 := (fun x v => Host.reduce IntOp.andi x v reducesTo_S640000x16_S_d0_1 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S2x640000 : Shape := ⟨2, ![2, 640000]⟩
abbrev S640000x16 : Shape := ⟨2, ![640000, 16]⟩
abbrev S100000 : Shape := ⟨1, ![100000]⟩
abbrev S128x16 : Shape := ⟨2, ![128, 16]⟩
abbrev S128 : Shape := ⟨1, ![128]⟩
abbrev S1x128 : Shape := ⟨2, ![1, 128]⟩
abbrev S1 : Shape := ⟨1, ![1]⟩
abbrev S128x128 : Shape := ⟨2, ![128, 128]⟩
abbrev S1x640000 : Shape := ⟨2, ![1, 640000]⟩
abbrev S640000 : Shape := ⟨1, ![640000]⟩
abbrev S640000x1 : Shape := ⟨2, ![640000, 1]⟩
abbrev S8000x16 : Shape := ⟨2, ![8000, 16]⟩
abbrev S8000x1 : Shape := ⟨2, ![8000, 1]⟩
abbrev S16x128 : Shape := ⟨2, ![16, 128]⟩
abbrev S8000x128 : Shape := ⟨2, ![8000, 128]⟩
abbrev S128x1 : Shape := ⟨2, ![128, 1]⟩
abbrev S1x1 : Shape := ⟨2, ![1, 1]⟩
abbrev S5000x128 : Shape := ⟨2, ![5000, 128]⟩
abbrev S_ : Shape := ⟨0, ![]⟩
abbrev S640000x128 : Shape := ⟨2, ![640000, 128]⟩
abbrev S100000x1 : Shape := ⟨2, ![100000, 1]⟩
abbrev S512x128 : Shape := ⟨2, ![512, 128]⟩
abbrev S512 : Shape := ⟨1, ![512]⟩
abbrev S512x1 : Shape := ⟨2, ![512, 1]⟩

abbrev nBuf : Space → Nat
  | .hbm => 263
  | .vmem => 68
  | .smem => 0
  | _ => 0

abbrev hbmTy0_0 (i : Nat) : BufTy := match i % 128 with
  | 0 => ⟨S100000x128, .f32⟩
  | 1 => ⟨S2x640000, .i32⟩
  | 2 => ⟨S640000x16, .f32⟩
  | 3 => ⟨S100000, .i32⟩
  | 4 => ⟨S128x16, .f32⟩
  | 5 => ⟨S128, .f32⟩
  | 6 => ⟨S1x128, .f32⟩
  | 7 => ⟨S1, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S128x128, .f32⟩
  | 17 => ⟨S128, .f32⟩
  | 18 => ⟨S128, .f32⟩
  | 19 => ⟨S128, .f32⟩
  | 20 => ⟨S1x128, .f32⟩
  | 21 => ⟨S1, .f32⟩
  | 22 => ⟨S1x640000, .i32⟩
  | 23 => ⟨S640000, .i32⟩
  | 24 => ⟨S1x640000, .i32⟩
  | 25 => ⟨S640000, .i32⟩
  | 26 => ⟨S640000x1, .f32⟩
  | 27 => ⟨S640000, .f32⟩
  | 28 => ⟨S100000x128, .f32⟩
  | 29 => ⟨S_, .f32⟩
  | 30 => ⟨S100000, .f32⟩
  | 31 => ⟨S640000x1, .i32⟩
  | 32 => ⟨S100000, .f32⟩
  | 33 => ⟨S_, .f32⟩
  | 34 => ⟨S100000, .f32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S640000, .i32⟩
  | 46 => ⟨S640000, .i1⟩
  | 47 => ⟨S_, .i32⟩
  | 48 => ⟨S640000, .i32⟩
  | 49 => ⟨S640000, .i32⟩
  | 50 => ⟨S640000, .i32⟩
  | 51 => ⟨S640000x1, .i32⟩
  | 52 => ⟨S640000, .f32⟩
  | 53 => ⟨S640000, .f32⟩
  | 54 => ⟨S_, .i32⟩
  | 55 => ⟨S640000, .i32⟩
  | 56 => ⟨S640000, .i1⟩
  | 57 => ⟨S_, .i32⟩
  | 58 => ⟨S640000, .i32⟩
  | 59 => ⟨S640000, .i32⟩
  | 60 => ⟨S640000, .i32⟩
  | 61 => ⟨S640000x1, .i32⟩
  | 62 => ⟨S640000, .f32⟩
  | 63 => ⟨S640000, .f32⟩
  | 64 => ⟨S_, .i32⟩
  | 65 => ⟨S640000, .i32⟩
  | 66 => ⟨S640000, .i1⟩
  | 67 => ⟨S_, .i32⟩
  | 68 => ⟨S640000, .i32⟩
  | 69 => ⟨S640000, .i32⟩
  | 70 => ⟨S640000, .i32⟩
  | 71 => ⟨S640000x1, .i32⟩
  | 72 => ⟨S640000x128, .f32⟩
  | 73 => ⟨S640000x1, .f32⟩
  | 74 => ⟨S640000x128, .f32⟩
  | 75 => ⟨S640000x128, .f32⟩
  | 76 => ⟨S_, .f32⟩
  | 77 => ⟨S100000x128, .f32⟩
  | 78 => ⟨S640000x1, .i32⟩
  | 79 => ⟨S100000x128, .f32⟩
  | 80 => ⟨S100000, .f32⟩
  | 81 => ⟨S100000x1, .f32⟩
  | 82 => ⟨S100000x128, .f32⟩
  | 83 => ⟨S100000x128, .f32⟩
  | 84 => ⟨S100000x128, .f32⟩
  | 85 => ⟨S100000x128, .f32⟩
  | 86 => ⟨S1x128, .f32⟩
  | 87 => ⟨S1x128, .f32⟩
  | 88 => ⟨S128, .f32⟩
  | 89 => ⟨S_, .f32⟩
  | 90 => ⟨S128, .f32⟩
  | 91 => ⟨S128, .f32⟩
  | 92 => ⟨S128, .f32⟩
  | 93 => ⟨S_, .f32⟩
  | 94 => ⟨S128, .f32⟩
  | 95 => ⟨S128, .f32⟩
  | 96 => ⟨S128, .f32⟩
  | 97 => ⟨S128, .f32⟩
  | 98 => ⟨S100000x128, .f32⟩
  | 99 => ⟨S100000x128, .f32⟩
  | 100 => ⟨S_, .f32⟩
  | 101 => ⟨S100000, .f32⟩
  | 102 => ⟨S640000x1, .i32⟩
  | 103 => ⟨S100000, .f32⟩
  | 104 => ⟨S_, .f32⟩
  | 105 => ⟨S100000, .f32⟩
  | 106 => ⟨S100000, .f32⟩
  | 107 => ⟨S_, .f32⟩
  | 108 => ⟨S100000, .f32⟩
  | 109 => ⟨S100000, .i1⟩
  | 110 => ⟨S100000, .f32⟩
  | 111 => ⟨S_, .f32⟩
  | 112 => ⟨S_, .f32⟩
  | 113 => ⟨S100000, .f32⟩
  | 114 => ⟨S100000, .f32⟩
  | 115 => ⟨S_, .i32⟩
  | 116 => ⟨S640000, .i32⟩
  | 117 => ⟨S640000, .i1⟩
  | 118 => ⟨S_, .i32⟩
  | 119 => ⟨S640000, .i32⟩
  | 120 => ⟨S640000, .i32⟩
  | 121 => ⟨S640000, .i32⟩
  | 122 => ⟨S640000x1, .i32⟩
  | 123 => ⟨S640000, .f32⟩
  | 124 => ⟨S640000, .f32⟩
  | 125 => ⟨S_, .i32⟩
  | 126 => ⟨S640000, .i32⟩
  | 127 => ⟨S640000, .i1⟩
  | _ => ⟨S100000x128, .f32⟩

abbrev hbmTy0_1 (i : Nat) : BufTy := match i % 128 with
  | 0 => ⟨S_, .i32⟩
  | 1 => ⟨S640000, .i32⟩
  | 2 => ⟨S640000, .i32⟩
  | 3 => ⟨S640000, .i32⟩
  | 4 => ⟨S640000x1, .i32⟩
  | 5 => ⟨S640000, .f32⟩
  | 6 => ⟨S640000, .f32⟩
  | 7 => ⟨S_, .i32⟩
  | 8 => ⟨S640000, .i32⟩
  | 9 => ⟨S640000, .i1⟩
  | 10 => ⟨S_, .i32⟩
  | 11 => ⟨S640000, .i32⟩
  | 12 => ⟨S640000, .i32⟩
  | 13 => ⟨S640000, .i32⟩
  | 14 => ⟨S640000x1, .i32⟩
  | 15 => ⟨S640000x128, .f32⟩
  | 16 => ⟨S640000x1, .f32⟩
  | 17 => ⟨S640000x128, .f32⟩
  | 18 => ⟨S640000x128, .f32⟩
  | 19 => ⟨S_, .f32⟩
  | 20 => ⟨S100000x128, .f32⟩
  | 21 => ⟨S640000x1, .i32⟩
  | 22 => ⟨S100000x128, .f32⟩
  | 23 => ⟨S100000, .f32⟩
  | 24 => ⟨S100000x1, .f32⟩
  | 25 => ⟨S100000x128, .f32⟩
  | 26 => ⟨S100000x128, .f32⟩
  | 27 => ⟨S100000x128, .f32⟩
  | 28 => ⟨S100000x128, .f32⟩
  | 29 => ⟨S1x128, .f32⟩
  | 30 => ⟨S1x128, .f32⟩
  | 31 => ⟨S128, .f32⟩
  | 32 => ⟨S_, .f32⟩
  | 33 => ⟨S128, .f32⟩
  | 34 => ⟨S128, .f32⟩
  | 35 => ⟨S128, .f32⟩
  | 36 => ⟨S_, .f32⟩
  | 37 => ⟨S128, .f32⟩
  | 38 => ⟨S128, .f32⟩
  | 39 => ⟨S128, .f32⟩
  | 40 => ⟨S128, .f32⟩
  | 41 => ⟨S100000x128, .f32⟩
  | 42 => ⟨S100000x128, .f32⟩
  | 43 => ⟨S_, .f32⟩
  | 44 => ⟨S100000, .f32⟩
  | 45 => ⟨S640000x1, .i32⟩
  | 46 => ⟨S100000, .f32⟩
  | 47 => ⟨S_, .f32⟩
  | 48 => ⟨S100000, .f32⟩
  | 49 => ⟨S100000, .f32⟩
  | 50 => ⟨S_, .f32⟩
  | 51 => ⟨S100000, .f32⟩
  | 52 => ⟨S100000, .i1⟩
  | 53 => ⟨S100000, .f32⟩
  | 54 => ⟨S_, .f32⟩
  | 55 => ⟨S_, .f32⟩
  | 56 => ⟨S100000, .f32⟩
  | 57 => ⟨S100000, .f32⟩
  | 58 => ⟨S_, .i32⟩
  | 59 => ⟨S640000, .i32⟩
  | 60 => ⟨S640000, .i1⟩
  | 61 => ⟨S_, .i32⟩
  | 62 => ⟨S640000, .i32⟩
  | 63 => ⟨S640000, .i32⟩
  | 64 => ⟨S640000, .i32⟩
  | 65 => ⟨S640000x1, .i32⟩
  | 66 => ⟨S640000, .f32⟩
  | 67 => ⟨S640000, .f32⟩
  | 68 => ⟨S_, .i32⟩
  | 69 => ⟨S640000, .i32⟩
  | 70 => ⟨S640000, .i1⟩
  | 71 => ⟨S_, .i32⟩
  | 72 => ⟨S640000, .i32⟩
  | 73 => ⟨S640000, .i32⟩
  | 74 => ⟨S640000, .i32⟩
  | 75 => ⟨S640000x1, .i32⟩
  | 76 => ⟨S640000, .f32⟩
  | 77 => ⟨S640000, .f32⟩
  | 78 => ⟨S_, .i32⟩
  | 79 => ⟨S640000, .i32⟩
  | 80 => ⟨S640000, .i1⟩
  | 81 => ⟨S_, .i32⟩
  | 82 => ⟨S640000, .i32⟩
  | 83 => ⟨S640000, .i32⟩
  | 84 => ⟨S640000, .i32⟩
  | 85 => ⟨S640000x1, .i32⟩
  | 86 => ⟨S640000x128, .f32⟩
  | 87 => ⟨S640000x1, .f32⟩
  | 88 => ⟨S640000x128, .f32⟩
  | 89 => ⟨S640000x128, .f32⟩
  | 90 => ⟨S_, .f32⟩
  | 91 => ⟨S100000x128, .f32⟩
  | 92 => ⟨S640000x1, .i32⟩
  | 93 => ⟨S100000x128, .f32⟩
  | 94 => ⟨S100000, .f32⟩
  | 95 => ⟨S100000x1, .f32⟩
  | 96 => ⟨S100000x128, .f32⟩
  | 97 => ⟨S100000x128, .f32⟩
  | 98 => ⟨S100000x128, .f32⟩
  | 99 => ⟨S100000x128, .f32⟩
  | 100 => ⟨S1x128, .f32⟩
  | 101 => ⟨S1x128, .f32⟩
  | 102 => ⟨S128, .f32⟩
  | 103 => ⟨S_, .f32⟩
  | 104 => ⟨S128, .f32⟩
  | 105 => ⟨S128, .f32⟩
  | 106 => ⟨S128, .f32⟩
  | 107 => ⟨S_, .f32⟩
  | 108 => ⟨S128, .f32⟩
  | 109 => ⟨S128, .f32⟩
  | 110 => ⟨S128, .f32⟩
  | 111 => ⟨S128, .f32⟩
  | 112 => ⟨S100000x128, .f32⟩
  | 113 => ⟨S_, .f32⟩
  | 114 => ⟨S512x128, .f32⟩
  | 115 => ⟨S100000x1, .i32⟩
  | 116 => ⟨S512x128, .f32⟩
  | 117 => ⟨S_, .f32⟩
  | 118 => ⟨S100000, .f32⟩
  | 119 => ⟨S_, .f32⟩
  | 120 => ⟨S512, .f32⟩
  | 121 => ⟨S100000x1, .i32⟩
  | 122 => ⟨S512, .f32⟩
  | 123 => ⟨S_, .f32⟩
  | 124 => ⟨S512, .f32⟩
  | 125 => ⟨S512, .f32⟩
  | 126 => ⟨S512x1, .f32⟩
  | 127 => ⟨S512x128, .f32⟩
  | _ => ⟨S100000x128, .f32⟩

abbrev hbmTy0_2 (i : Nat) : BufTy := match i % 128 with
  | 0 => ⟨S512x128, .f32⟩
  | 1 => ⟨S128x1, .f32⟩
  | 2 => ⟨S512x1, .f32⟩
  | 3 => ⟨S1x1, .f32⟩
  | 4 => ⟨S512x1, .f32⟩
  | 5 => ⟨S512x1, .f32⟩
  | 6 => ⟨S512, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S8000x16, .f32⟩
  | .local _ .vmem, ⟨1, _⟩ => ⟨S8000x16, .f32⟩
  | .local _ .vmem, ⟨2, _⟩ => ⟨S128x16, .f32⟩
  | .local _ .vmem, ⟨3, _⟩ => ⟨S128, .f32⟩
  | .local _ .vmem, ⟨4, _⟩ => ⟨S1x128, .f32⟩
  | .local _ .vmem, ⟨5, _⟩ => ⟨S1, .f32⟩
  | .local _ .vmem, ⟨6, _⟩ => ⟨S8000x1, .f32⟩
  | .local _ .vmem, ⟨7, _⟩ => ⟨S8000x1, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S128, .f32⟩
  | .local _ .vmem, ⟨43, _⟩ => ⟨S128, .f32⟩
  | .local _ .vmem, ⟨44, _⟩ => ⟨S128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S128, .f32⟩
  | .local _ .vmem, ⟨63, _⟩ => ⟨S128, .f32⟩
  | .local _ .vmem, ⟨64, _⟩ => ⟨S128, .f32⟩
  | .local _ .vmem, ⟨65, _⟩ => ⟨S128, .f32⟩
  | .local _ .vmem, ⟨66, _⟩ => ⟨S5000x128, .f32⟩
  | .local _ .vmem, ⟨67, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_4 : Ref sig .tc := ⟨.hbm, 54, rfl⟩
abbrev main_v24 : Ref sig .tc := ⟨.hbm, 55, rfl⟩
abbrev main_v25 : Ref sig .tc := ⟨.hbm, 56, rfl⟩
abbrev main_c_5 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_8 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50_0 : Ref sig .tc := ⟨.hbm, 85, rfl⟩
abbrev main_v50_1 : Ref sig .tc := ⟨.hbm, 86, rfl⟩
abbrev main_v50_2 : Ref sig .tc := ⟨.hbm, 87, rfl⟩
abbrev main_v51 : Ref sig .tc := ⟨.hbm, 88, rfl⟩
abbrev main_cst_9 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_10 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_11 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_12 : Ref sig .tc := ⟨.hbm, 104, rfl⟩
abbrev main_v64 : Ref sig .tc := ⟨.hbm, 105, rfl⟩
abbrev main_v65 : Ref sig .tc := ⟨.hbm, 106, rfl⟩
abbrev main_cst_13 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_14 : Ref sig .tc := ⟨.hbm, 111, rfl⟩
abbrev main_call1_v0 : Ref sig .tc := ⟨.hbm, 112, rfl⟩
abbrev main_call1_v1 : Ref sig .tc := ⟨.hbm, 113, rfl⟩
abbrev main_v69 : Ref sig .tc := ⟨.hbm, 114, rfl⟩
abbrev main_c_15 : Ref sig .tc := ⟨.hbm, 115, rfl⟩
abbrev main_v70 : Ref sig .tc := ⟨.hbm, 116, rfl⟩
abbrev main_v71 : Ref sig .tc := ⟨.hbm, 117, rfl⟩
abbrev main_c_16 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c_17 : Ref sig .tc := ⟨.hbm, 125, rfl⟩
abbrev main_v78 : Ref sig .tc := ⟨.hbm, 126, rfl⟩
abbrev main_v79 : Ref sig .tc := ⟨.hbm, 127, rfl⟩
abbrev main_c_18 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_19 : Ref sig .tc := ⟨.hbm, 135, rfl⟩
abbrev main_v86 : Ref sig .tc := ⟨.hbm, 136, rfl⟩
abbrev main_v87 : Ref sig .tc := ⟨.hbm, 137, rfl⟩
abbrev main_c_20 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_21 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104_0 : Ref sig .tc := ⟨.hbm, 156, rfl⟩
abbrev main_v104_1 : Ref sig .tc := ⟨.hbm, 157, rfl⟩
abbrev main_v104_2 : Ref sig .tc := ⟨.hbm, 158, rfl⟩
abbrev main_v105 : Ref sig .tc := ⟨.hbm, 159, rfl⟩
abbrev main_cst_22 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_23 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_24 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_25 : Ref sig .tc := ⟨.hbm, 175, rfl⟩
abbrev main_v118 : Ref sig .tc := ⟨.hbm, 176, rfl⟩
abbrev main_v119 : Ref sig .tc := ⟨.hbm, 177, rfl⟩
abbrev main_cst_26 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_cst_27 : Ref sig .tc := ⟨.hbm, 182, rfl⟩
abbrev main_call2_v0 : Ref sig .tc := ⟨.hbm, 183, rfl⟩
abbrev main_call2_v1 : Ref sig .tc := ⟨.hbm, 184, rfl⟩
abbrev main_v123 : Ref sig .tc := ⟨.hbm, 185, rfl⟩
abbrev main_c_28 : Ref sig .tc := ⟨.hbm, 186, rfl⟩
abbrev main_v124 : Ref sig .tc := ⟨.hbm, 187, rfl⟩
abbrev main_v125 : Ref sig .tc := ⟨.hbm, 188, rfl⟩
abbrev main_c_29 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_c_30 : Ref sig .tc := ⟨.hbm, 196, rfl⟩
abbrev main_v132 : Ref sig .tc := ⟨.hbm, 197, rfl⟩
abbrev main_v133 : Ref sig .tc := ⟨.hbm, 198, rfl⟩
abbrev main_c_31 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_c_32 : Ref sig .tc := ⟨.hbm, 206, rfl⟩
abbrev main_v140 : Ref sig .tc := ⟨.hbm, 207, rfl⟩
abbrev main_v141 : Ref sig .tc := ⟨.hbm, 208, rfl⟩
abbrev main_c_33 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_cst_34 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158_0 : Ref sig .tc := ⟨.hbm, 227, rfl⟩
abbrev main_v158_1 : Ref sig .tc := ⟨.hbm, 228, rfl⟩
abbrev main_v158_2 : Ref sig .tc := ⟨.hbm, 229, rfl⟩
abbrev main_v159 : Ref sig .tc := ⟨.hbm, 230, rfl⟩
abbrev main_cst_35 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_36 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_v166 : Ref sig .tc := ⟨.hbm, 239, rfl⟩
abbrev main_v167 : Ref sig .tc := ⟨.hbm, 240, rfl⟩
abbrev main_cst_37 : Ref sig .tc := ⟨.hbm, 241, rfl⟩
abbrev main_v168 : Ref sig .tc := ⟨.hbm, 242, rfl⟩
abbrev main_v169 : Ref sig .tc := ⟨.hbm, 243, rfl⟩
abbrev main_v170 : Ref sig .tc := ⟨.hbm, 244, rfl⟩
abbrev main_cst_38 : Ref sig .tc := ⟨.hbm, 245, rfl⟩
abbrev main_v171 : Ref sig .tc := ⟨.hbm, 246, rfl⟩
abbrev main_cst_39 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_cst_40 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg4_0 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg5_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg4_0 : Ref sig .tc := ⟨.vmem, 59, rfl⟩
abbrev cc9_stg0_0 : Ref sig .tc := ⟨.vmem, 60, rfl⟩
abbrev cc9_stg0_1 : Ref sig .tc := ⟨.vmem, 61, rfl⟩
abbrev cc9_stg1_0 : Ref sig .tc := ⟨.vmem, 62, rfl⟩
abbrev cc9_stg2_0 : Ref sig .tc := ⟨.vmem, 63, rfl⟩
abbrev cc9_stg3_0 : Ref sig .tc := ⟨.vmem, 64, rfl⟩
abbrev cc9_stg4_0 : Ref sig .tc := ⟨.vmem, 65, rfl⟩
abbrev cc9_stg5_0 : Ref sig .tc := ⟨.vmem, 66, rfl⟩
abbrev cc9_stg5_1 : Ref sig .tc := ⟨.vmem, 67, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem4_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc5_sem3_0 : DmaSem sig := 38
abbrev cc5_sem4_0 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem5_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem2_0 : DmaSem sig := 56
abbrev cc8_sem2_1 : DmaSem sig := 57
abbrev cc8_sem3_0 : DmaSem sig := 58
abbrev cc8_sem4_0 : DmaSem sig := 59
abbrev cc9_sem0_0 : DmaSem sig := 60
abbrev cc9_sem0_1 : DmaSem sig := 61
abbrev cc9_sem1_0 : DmaSem sig := 62
abbrev cc9_sem2_0 : DmaSem sig := 63
abbrev cc9_sem3_0 : DmaSem sig := 64
abbrev cc9_sem4_0 : DmaSem sig := 65
abbrev cc9_sem5_0 : DmaSem sig := 66
abbrev cc9_sem5_1 : DmaSem sig := 67

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_2 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_3 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  transposes_S128x16_p1_0_S16x128 : S128x16.Transposes [1, 0] S16x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S1_S1_0 : ∀ a, (![0] : Fin 1 → Nat) a + S1.size a ≤ S1.size a
  h_S1 : 0 < S1.numel
  shapeCasts_S1_S1x1 : S1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  shapeCasts_S640000x1_S640000 : S640000x1.ShapeCasts S640000
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S5000x128_S5000x128 : S5000x128.ShapeCasts S5000x128
  broadcasts_S1x128_S5000x128 : S1x128.Broadcasts S5000x128
  shapeCasts_S1x128_S1x128 : S1x128.ShapeCasts S1x128
  reduces_S5000x128_S128 : S5000x128.Reduces [0] S128
  shapeCasts_S1x128_S128 : S1x128.ShapeCasts S128
  bcast_S_S128 : S_.BroadcastsInDim S128 (![] : Fin 0 → Fin S128.rank)
  shapeCasts_S128_S128 : S128.ShapeCasts S128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  transposes_S1x128_S128x1_1_0 : S1x128.Transposes [1, 0] S128x1
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  shapeCasts_S512x1_S512 : S512x1.ShapeCasts S512
  dot_S8000x16_S16x128_S8000x128_1_0_0_1_n_n_wf : DotDims.WF S8000x16 S16x128 S8000x128 [1] [0] [0] [1] [] []
  dot_S8000x128_S128x1_S8000x1_1_0_0_1_n_n_wf : DotDims.WF S8000x128 S128x1 S8000x1 [1] [0] [0] [1] [] []
  dot_S5000x128_S128x128_S5000x128_1_0_0_1_n_n_wf : DotDims.WF S5000x128 S128x128 S5000x128 [1] [0] [0] [1] [] []
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S640000x16.size a
  hwx0_0 : ∀ i : grid0.Coords, EltTy.bits .f32 = 32 ∨ (Rect.block (s := S640000x16) S8000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x1.size a ≤ S640000x1.size a
  hwx0_5 : ∀ i : grid0.Coords, EltTy.bits .f32 = 32 ∨ (Rect.block (s := S640000x1) S8000x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128.size a ≤ S128.size a
  hwx6_1 : ∀ i : grid6.Coords, EltTy.bits .f32 = 32 ∨ (Rect.block (s := S128) S128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128.size a ≤ S128.size a
  hwx6_2 : ∀ i : grid6.Coords, EltTy.bits .f32 = 32 ∨ (Rect.block (s := S128) S128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128.size a ≤ S128.size a
  hwx6_3 : ∀ i : grid6.Coords, EltTy.bits .f32 = 32 ∨ (Rect.block (s := S128) S128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128.size a ≤ S128.size a
  hwx6_4 : ∀ i : grid6.Coords, EltTy.bits .f32 = 32 ∨ (Rect.block (s := S128) S128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128.size a ≤ S128.size a
  hwx8_1 : ∀ i : grid8.Coords, EltTy.bits .f32 = 32 ∨ (Rect.block (s := S128) S128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128.size a ≤ S128.size a
  hwx9_1 : ∀ i : grid9.Coords, EltTy.bits .f32 = 32 ∨ (Rect.block (s := S128) S128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128.size a ≤ S128.size a
  hwx9_2 : ∀ i : grid9.Coords, EltTy.bits .f32 = 32 ∨ (Rect.block (s := S128) S128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128.size a ≤ S128.size a
  hwx9_3 : ∀ i : grid9.Coords, EltTy.bits .f32 = 32 ∨ (Rect.block (s := S128) S128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S128.size a ≤ S128.size a
  hwx9_4 : ∀ i : grid9.Coords, EltTy.bits .f32 = 32 ∨ (Rect.block (s := S128) S128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)

variable [Facts₀]

def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def dot_S8000x128_S128x1_S8000x1_1_0_0_1_n_n : DotDims S8000x128 S128x1 S8000x1 where
  lhsContracting := [1]
  rhsContracting := [0]
  lhsNonContracting := [0]
  rhsNonContracting := [1]
  lhsBatch := []
  rhsBatch := []
  wf := dot_S8000x128_S128x1_S8000x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg2) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8000x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50_0) S5000x128.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v50_1) S1x128.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50_2) S1x128.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg13) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104_0) S5000x128.size cc5_transform_2 reads5_2 true false 2 stage5_2 sem5_2
    hrank5 hreads5_2 hinb5_2 nbuf5_2 (Memref.isWhole_whole _) hwx5_2 hstage5_2

abbrev win5_3 : Pipeline.Window sig grid5 :=
  Pipeline.Window.ofSpec (Memref.whole main_v104_1) S1x128.size cc5_transform_3 reads5_3 true true 1 stage5_3 sem5_3
    hrank5 hreads5_3 hinb5_3 nbuf5_3 (Memref.isWhole_whole _) hwx5_3 hstage5_3

abbrev win5_4 : Pipeline.Window sig grid5 :=
  Pipeline.Window.ofSpec (Memref.whole main_v104_2) S1x128.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v104_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v107) S128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v112) S128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg14) S128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg15) S128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v113) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v113) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg16) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v114) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v157) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg17) S128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v158_0) S5000x128.size cc8_transform_2 reads8_2 true false 2 stage8_2 sem8_2
    hrank8 hreads8_2 hinb8_2 nbuf8_2 (Memref.isWhole_whole _) hwx8_2 hstage8_2

abbrev win8_3 : Pipeline.Window sig grid8 :=
  Pipeline.Window.ofSpec (Memref.whole main_v158_1) S1x128.size cc8_transform_3 reads8_3 true true 1 stage8_3 sem8_3
    hrank8 hreads8_3 hinb8_3 nbuf8_3 (Memref.isWhole_whole _) hwx8_3 hstage8_3

abbrev win8_4 : Pipeline.Window sig grid8 :=
  Pipeline.Window.ofSpec (Memref.whole main_v158_2) S1x128.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v158_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v161) S128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v166) S128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_arg18) S128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg19) S128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v167) S5000x128.size cc9_transform_5 reads9_5 true false 2 stage9_5 sem9_5
    hrank9 hreads9_5 hinb9_5 nbuf9_5 (Memref.isWhole_whole _) hwx9_5 hstage9_5

abbrev win9 : Fin 6 → Pipeline.Window sig grid9 := fun | 0 => win9_0 | 1 => win9_1 | 2 => win9_2 | 3 => win9_3 | 4 => win9_4 | 5 => win9_5 | ⟨_ + 6, h⟩ => absurd h (Nat.not_lt.2 (Nat.le_add_left _ _))
abbrev spec9 : Fin 6 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000x16 : Shape := ⟨2, ![640000, 16]⟩
abbrev S100000 : Shape := ⟨1, ![100000]⟩
abbrev S128x16 : Shape := ⟨2, ![128, 16]⟩
abbrev S128 : Shape := ⟨1, ![128]⟩
abbrev S1x128 : Shape := ⟨2, ![1, 128]⟩
abbrev S1 : Shape := ⟨1, ![1]⟩
abbrev S128x128 : Shape := ⟨2, ![128, 128]⟩
abbrev S1x640000 : Shape := ⟨2, ![1, 640000]⟩
abbrev S640000 : Shape := ⟨1, ![640000]⟩
abbrev S16x128 : Shape := ⟨2, ![16, 128]⟩
abbrev S640000x128 : Shape := ⟨2, ![640000, 128]⟩
abbrev S_ : Shape := ⟨0, ![]⟩
abbrev S128x1 : Shape := ⟨2, ![128, 1]⟩
abbrev S640000x1 : Shape := ⟨2, ![640000, 1]⟩
abbrev S1x1 : Shape := ⟨2, ![1, 1]⟩
abbrev S740000 : Shape := ⟨1, ![740000]⟩
abbrev S740000x1 : Shape := ⟨2, ![740000, 1]⟩
abbrev S740000x128 : Shape := ⟨2, ![740000, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩

abbrev nBuf : Space → Nat
  | .hbm => 380
  | .vmem => 0
  | .smem => 0
  | _ => 0

abbrev hbmTy0_0 (i : Nat) : BufTy := match i % 128 with
  | 0 => ⟨S100000x128, .f32⟩
  | 1 => ⟨S2x640000, .i32⟩
  | 2 => ⟨S640000x16, .f32⟩
  | 3 => ⟨S100000, .i32⟩
  | 4 => ⟨S128x16, .f32⟩
  | 5 => ⟨S128, .f32⟩
  | 6 => ⟨S1x128, .f32⟩
  | 7 => ⟨S1, .f32⟩
  | 8 => ⟨S128x128, .f32⟩
  | 9 => ⟨S128, .f32⟩
  | 10 => ⟨S128, .f32⟩
  | 11 => ⟨S128, .f32⟩
  | 12 => ⟨S128x128, .f32⟩
  | 13 => ⟨S128, .f32⟩
  | 14 => ⟨S128, .f32⟩
  | 15 => ⟨S128, .f32⟩
  | 16 => ⟨S128x128, .f32⟩
  | 17 => ⟨S128, .f32⟩
  | 18 => ⟨S128, .f32⟩
  | 19 => ⟨S128, .f32⟩
  | 20 => ⟨S1x128, .f32⟩
  | 21 => ⟨S1, .f32⟩
  | 22 => ⟨S1x640000, .i32⟩
  | 23 => ⟨S640000, .i32⟩
  | 24 => ⟨S1x640000, .i32⟩
  | 25 => ⟨S640000, .i32⟩
  | 26 => ⟨S16x128, .f32⟩
  | 27 => ⟨S640000x128, .f32⟩
  | 28 => ⟨S1x128, .f32⟩
  | 29 => ⟨S640000x128, .f32⟩
  | 30 => ⟨S640000x128, .f32⟩
  | 31 => ⟨S_, .f32⟩
  | 32 => ⟨S640000x128, .f32⟩
  | 33 => ⟨S640000x128, .f32⟩
  | 34 => ⟨S128x1, .f32⟩
  | 35 => ⟨S640000x1, .f32⟩
  | 36 => ⟨S1x1, .f32⟩
  | 37 => ⟨S640000x1, .f32⟩
  | 38 => ⟨S640000x1, .f32⟩
  | 39 => ⟨S640000, .f32⟩
  | 40 => ⟨S128x128, .f32⟩
  | 41 => ⟨S100000x128, .f32⟩
  | 42 => ⟨S100000, .i32⟩
  | 43 => ⟨S740000, .i32⟩
  | 44 => ⟨S740000, .i32⟩
  | 45 => ⟨S_, .f32⟩
  | 46 => ⟨S100000, .f32⟩
  | 47 => ⟨S740000, .f32⟩
  | 48 => ⟨S_, .f32⟩
  | 49 => ⟨S100000, .f32⟩
  | 50 => ⟨S740000x1, .i32⟩
  | 51 => ⟨S100000, .f32⟩
  | 52 => ⟨S_, .f32⟩
  | 53 => ⟨S100000, .f32⟩
  | 54 => ⟨S100000, .i1⟩
  | 55 => ⟨S100000, .f32⟩
  | 56 => ⟨S_, .f32⟩
  | 57 => ⟨S_, .f32⟩
  | 58 => ⟨S100000, .f32⟩
  | 59 => ⟨S100000, .f32⟩
  | 60 => ⟨S_, .i32⟩
  | 61 => ⟨S740000, .i32⟩
  | 62 => ⟨S740000, .i1⟩
  | 63 => ⟨S_, .i32⟩
  | 64 => ⟨S740000, .i32⟩
  | 65 => ⟨S740000, .i32⟩
  | 66 => ⟨S740000, .i32⟩
  | 67 => ⟨S740000x1, .i32⟩
  | 68 => ⟨S740000, .f32⟩
  | 69 => ⟨S740000, .f32⟩
  | 70 => ⟨S_, .i32⟩
  | 71 => ⟨S740000, .i32⟩
  | 72 => ⟨S740000, .i1⟩
  | 73 => ⟨S_, .i32⟩
  | 74 => ⟨S740000, .i32⟩
  | 75 => ⟨S740000, .i32⟩
  | 76 => ⟨S740000, .i32⟩
  | 77 => ⟨S740000x1, .i32⟩
  | 78 => ⟨S740000, .f32⟩
  | 79 => ⟨S740000, .f32⟩
  | 80 => ⟨S_, .i32⟩
  | 81 => ⟨S740000, .i32⟩
  | 82 => ⟨S740000, .i1⟩
  | 83 => ⟨S_, .i32⟩
  | 84 => ⟨S740000, .i32⟩
  | 85 => ⟨S740000, .i32⟩
  | 86 => ⟨S740000, .i32⟩
  | 87 => ⟨S740000x1, .i32⟩
  | 88 => ⟨S740000x128, .f32⟩
  | 89 => ⟨S740000x1, .f32⟩
  | 90 => ⟨S740000x128, .f32⟩
  | 91 => ⟨S740000x128, .f32⟩
  | 92 => ⟨S_, .f32⟩
  | 93 => ⟨S100000x128, .f32⟩
  | 94 => ⟨S740000x1, .i32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S128, .f32⟩
  | 101 => ⟨S_, .f32⟩
  | 102 => ⟨S128, .f32⟩
  | 103 => ⟨S128, .f32⟩
  | 104 => ⟨S_, .i32⟩
  | 105 => ⟨S_, .f32⟩
  | 106 => ⟨S128, .f32⟩
  | 107 => ⟨S1x128, .f32⟩
  | 108 => ⟨S_, .f32⟩
  | 109 => ⟨S1x128, .f32⟩
  | 110 => ⟨S1x128, .f32⟩
  | 111 => ⟨S100000x128, .f32⟩
  | 112 => ⟨S100000x128, .f32⟩
  | 113 => ⟨S100000x128, .f32⟩
  | 114 => ⟨S_, .f32⟩
  | 115 => ⟨S_, .f32⟩
  | 116 => ⟨S_, .f32⟩
  | 117 => ⟨S_, .f32⟩
  | 118 => ⟨S128, .f32⟩
  | 119 => ⟨S128, .f32⟩
  | 120 => ⟨S128, .f32⟩
  | 121 => ⟨S_, .f32⟩
  | 122 => ⟨S_, .i1⟩
  | 123 => ⟨S_, .f32⟩
  | 124 => ⟨S_, .f32⟩
  | 125 => ⟨S128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S_, .f32⟩
  | 6 => ⟨S128, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S128x128, .f32⟩
  | 19 => ⟨S100000x128, .f32⟩
  | 20 => ⟨S100000, .i32⟩
  | 21 => ⟨S740000, .i32⟩
  | 22 => ⟨S740000, .i32⟩
  | 23 => ⟨S_, .f32⟩
  | 24 => ⟨S100000, .f32⟩
  | 25 => ⟨S740000, .f32⟩
  | 26 => ⟨S_, .f32⟩
  | 27 => ⟨S100000, .f32⟩
  | 28 => ⟨S740000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S740000, .i32⟩
  | 40 => ⟨S740000, .i1⟩
  | 41 => ⟨S_, .i32⟩
  | 42 => ⟨S740000, .i32⟩
  | 43 => ⟨S740000, .i32⟩
  | 44 => ⟨S740000, .i32⟩
  | 45 => ⟨S740000x1, .i32⟩
  | 46 => ⟨S740000, .f32⟩
  | 47 => ⟨S740000, .f32⟩
  | 48 => ⟨S_, .i32⟩
  | 49 => ⟨S740000, .i32⟩
  | 50 => ⟨S740000, .i1⟩
  | 51 => ⟨S_, .i32⟩
  | 52 => ⟨S740000, .i32⟩
  | 53 => ⟨S740000, .i32⟩
  | 54 => ⟨S740000, .i32⟩
  | 55 => ⟨S740000x1, .i32⟩
  | 56 => ⟨S740000, .f32⟩
  | 57 => ⟨S740000, .f32⟩
  | 58 => ⟨S_, .i32⟩
  | 59 => ⟨S740000, .i32⟩
  | 60 => ⟨S740000, .i1⟩
  | 61 => ⟨S_, .i32⟩
  | 62 => ⟨S740000, .i32⟩
  | 63 => ⟨S740000, .i32⟩
  | 64 => ⟨S740000, .i32⟩
  | 65 => ⟨S740000x1, .i32⟩
  | 66 => ⟨S740000x128, .f32⟩
  | 67 => ⟨S740000x1, .f32⟩
  | 68 => ⟨S740000x128, .f32⟩
  | 69 => ⟨S740000x128, .f32⟩
  | 70 => ⟨S_, .f32⟩
  | 71 => ⟨S100000x128, .f32⟩
  | 72 => ⟨S740000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S128, .f32⟩
  | 79 => ⟨S_, .f32⟩
  | 80 => ⟨S128, .f32⟩
  | 81 => ⟨S128, .f32⟩
  | 82 => ⟨S_, .i32⟩
  | 83 => ⟨S_, .f32⟩
  | 84 => ⟨S128, .f32⟩
  | 85 => ⟨S1x128, .f32⟩
  | 86 => ⟨S_, .f32⟩
  | 87 => ⟨S1x128, .f32⟩
  | 88 => ⟨S1x128, .f32⟩
  | 89 => ⟨S100000x128, .f32⟩
  | 90 => ⟨S100000x128, .f32⟩
  | 91 => ⟨S100000x128, .f32⟩
  | 92 => ⟨S_, .f32⟩
  | 93 => ⟨S_, .f32⟩
  | 94 => ⟨S_, .f32⟩
  | 95 => ⟨S_, .f32⟩
  | 96 => ⟨S128, .f32⟩
  | 97 => ⟨S128, .f32⟩
  | 98 => ⟨S128, .f32⟩
  | 99 => ⟨S_, .f32⟩
  | 100 => ⟨S_, .i1⟩
  | 101 => ⟨S_, .f32⟩
  | 102 => ⟨S_, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S128, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S128x128, .f32⟩
  | 125 => ⟨S100000x128, .f32⟩
  | 126 => ⟨S100000, .i32⟩
  | 127 => ⟨S740000, .i32⟩
  | _ => ⟨S100000x128, .f32⟩

abbrev hbmTy0_2 (i : Nat) : BufTy := match i % 128 with
  | 0 => ⟨S740000, .i32⟩
  | 1 => ⟨S_, .f32⟩
  | 2 => ⟨S100000, .f32⟩
  | 3 => ⟨S740000, .f32⟩
  | 4 => ⟨S_, .f32⟩
  | 5 => ⟨S100000, .f32⟩
  | 6 => ⟨S740000x1, .i32⟩
  | 7 => ⟨S100000, .f32⟩
  | 8 => ⟨S_, .f32⟩
  | 9 => ⟨S100000, .f32⟩
  | 10 => ⟨S100000, .i1⟩
  | 11 => ⟨S100000, .f32⟩
  | 12 => ⟨S_, .f32⟩
  | 13 => ⟨S_, .f32⟩
  | 14 => ⟨S100000, .f32⟩
  | 15 => ⟨S100000, .f32⟩
  | 16 => ⟨S_, .i32⟩
  | 17 => ⟨S740000, .i32⟩
  | 18 => ⟨S740000, .i1⟩
  | 19 => ⟨S_, .i32⟩
  | 20 => ⟨S740000, .i32⟩
  | 21 => ⟨S740000, .i32⟩
  | 22 => ⟨S740000, .i32⟩
  | 23 => ⟨S740000x1, .i32⟩
  | 24 => ⟨S740000, .f32⟩
  | 25 => ⟨S740000, .f32⟩
  | 26 => ⟨S_, .i32⟩
  | 27 => ⟨S740000, .i32⟩
  | 28 => ⟨S740000, .i1⟩
  | 29 => ⟨S_, .i32⟩
  | 30 => ⟨S740000, .i32⟩
  | 31 => ⟨S740000, .i32⟩
  | 32 => ⟨S740000, .i32⟩
  | 33 => ⟨S740000x1, .i32⟩
  | 34 => ⟨S740000, .f32⟩
  | 35 => ⟨S740000, .f32⟩
  | 36 => ⟨S_, .i32⟩
  | 37 => ⟨S740000, .i32⟩
  | 38 => ⟨S740000, .i1⟩
  | 39 => ⟨S_, .i32⟩
  | 40 => ⟨S740000, .i32⟩
  | 41 => ⟨S740000, .i32⟩
  | 42 => ⟨S740000, .i32⟩
  | 43 => ⟨S740000x1, .i32⟩
  | 44 => ⟨S740000x128, .f32⟩
  | 45 => ⟨S740000x1, .f32⟩
  | 46 => ⟨S740000x128, .f32⟩
  | 47 => ⟨S740000x128, .f32⟩
  | 48 => ⟨S_, .f32⟩
  | 49 => ⟨S100000x128, .f32⟩
  | 50 => ⟨S740000x1, .i32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S_, .i32⟩
  | 61 => ⟨S_, .f32⟩
  | 62 => ⟨S128, .f32⟩
  | 63 => ⟨S1x128, .f32⟩
  | 64 => ⟨S_, .f32⟩
  | 65 => ⟨S1x128, .f32⟩
  | 66 => ⟨S1x128, .f32⟩
  | 67 => ⟨S100000x128, .f32⟩
  | 68 => ⟨S100000x128, .f32⟩
  | 69 => ⟨S100000x128, .f32⟩
  | 70 => ⟨S_, .f32⟩
  | 71 => ⟨S_, .f32⟩
  | 72 => ⟨S_, .f32⟩
  | 73 => ⟨S_, .f32⟩
  | 74 => ⟨S128, .f32⟩
  | 75 => ⟨S128, .f32⟩
  | 76 => ⟨S128, .f32⟩
  | 77 => ⟨S_, .f32⟩
  | 78 => ⟨S_, .i1⟩
  | 79 => ⟨S_, .f32⟩
  | 80 => ⟨S_, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S_, .f32⟩
  | 90 => ⟨S128, .f32⟩
  | 91 => ⟨S128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S_, .f32⟩
  | 103 => ⟨S512x128, .f32⟩
  | 104 => ⟨S100000x1, .i32⟩
  | 105 => ⟨S512x128, .f32⟩
  | 106 => ⟨S_, .f32⟩
  | 107 => ⟨S100000, .f32⟩
  | 108 => ⟨S_, .f32⟩
  | 109 => ⟨S512, .f32⟩
  | 110 => ⟨S100000x1, .i32⟩
  | 111 => ⟨S512, .f32⟩
  | 112 => ⟨S_, .f32⟩
  | 113 => ⟨S512, .f32⟩
  | 114 => ⟨S512, .f32⟩
  | 115 => ⟨S512x1, .f32⟩
  | 116 => ⟨S512x128, .f32⟩
  | 117 => ⟨S512x128, .f32⟩
  | 118 => ⟨S128x1, .f32⟩
  | 119 => ⟨S512x1, .f32⟩
  | 120 => ⟨S1x1, .f32⟩
  | 121 => ⟨S512x1, .f32⟩
  | 122 => ⟨S512x1, .f32⟩
  | 123 => ⟨S512, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_call0_cst : Ref sig .tc := ⟨.hbm, 31, rfl⟩
abbrev main_call0_v0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_2 : Ref sig .tc := ⟨.hbm, 56, rfl⟩
abbrev main_call1_v0 : Ref sig .tc := ⟨.hbm, 57, rfl⟩
abbrev main_call1_v1 : Ref sig .tc := ⟨.hbm, 58, rfl⟩
abbrev main_v29 : Ref sig .tc := ⟨.hbm, 59, rfl⟩
abbrev main_c : Ref sig .tc := ⟨.hbm, 60, rfl⟩
abbrev main_v30 : Ref sig .tc := ⟨.hbm, 61, rfl⟩
abbrev main_v31 : Ref sig .tc := ⟨.hbm, 62, rfl⟩
abbrev main_c_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_4 : Ref sig .tc := ⟨.hbm, 70, rfl⟩
abbrev main_v38 : Ref sig .tc := ⟨.hbm, 71, rfl⟩
abbrev main_v39 : Ref sig .tc := ⟨.hbm, 72, rfl⟩
abbrev main_c_5 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_6 : Ref sig .tc := ⟨.hbm, 80, rfl⟩
abbrev main_v46 : Ref sig .tc := ⟨.hbm, 81, rfl⟩
abbrev main_v47 : Ref sig .tc := ⟨.hbm, 82, rfl⟩
abbrev main_c_7 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_8 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_9 : Ref sig .tc := ⟨.hbm, 99, rfl⟩
abbrev main_v62 : Ref sig .tc := ⟨.hbm, 100, rfl⟩
abbrev main_cst_10 : Ref sig .tc := ⟨.hbm, 101, rfl⟩
abbrev main_v63 : Ref sig .tc := ⟨.hbm, 102, rfl⟩
abbrev main_v64 : Ref sig .tc := ⟨.hbm, 103, rfl⟩
abbrev main_c_11 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_v4 : Ref sig .tc := ⟨.hbm, 111, rfl⟩
abbrev main_call2_v5 : Ref sig .tc := ⟨.hbm, 112, rfl⟩
abbrev main_call2_v6 : Ref sig .tc := ⟨.hbm, 113, rfl⟩
abbrev main_call2_v7 : Ref sig .tc := ⟨.hbm, 114, rfl⟩
abbrev main_call2_cst_1 : Ref sig .tc := ⟨.hbm, 115, rfl⟩
abbrev main_call2_v8 : Ref sig .tc := ⟨.hbm, 116, rfl⟩
abbrev main_call2_cst_2 : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_cst_3 : Ref sig .tc := ⟨.hbm, 121, rfl⟩
abbrev main_call2_v12 : Ref sig .tc := ⟨.hbm, 122, rfl⟩
abbrev main_call2_cst_4 : Ref sig .tc := ⟨.hbm, 123, rfl⟩
abbrev main_call2_call0_v0 : Ref sig .tc := ⟨.hbm, 124, rfl⟩
abbrev main_call2_call0_v1 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_cst_12 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_call3_cst : Ref sig .tc := ⟨.hbm, 143, rfl⟩
abbrev main_call3_v0 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_cst_13 : Ref sig .tc := ⟨.hbm, 151, rfl⟩
abbrev main_v87 : Ref sig .tc := ⟨.hbm, 152, rfl⟩
abbrev main_v88 : Ref sig .tc := ⟨.hbm, 153, rfl⟩
abbrev main_cst_14 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_cst_15 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_cst_16 : Ref sig .tc := ⟨.hbm, 162, rfl⟩
abbrev main_call4_v0 : Ref sig .tc := ⟨.hbm, 163, rfl⟩
abbrev main_call4_v1 : Ref sig .tc := ⟨.hbm, 164, rfl⟩
abbrev main_v95 : Ref sig .tc := ⟨.hbm, 165, rfl⟩
abbrev main_c_17 : Ref sig .tc := ⟨.hbm, 166, rfl⟩
abbrev main_v96 : Ref sig .tc := ⟨.hbm, 167, rfl⟩
abbrev main_v97 : Ref sig .tc := ⟨.hbm, 168, rfl⟩
abbrev main_c_18 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_c_19 : Ref sig .tc := ⟨.hbm, 176, rfl⟩
abbrev main_v104 : Ref sig .tc := ⟨.hbm, 177, rfl⟩
abbrev main_v105 : Ref sig .tc := ⟨.hbm, 178, rfl⟩
abbrev main_c_20 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_c_21 : Ref sig .tc := ⟨.hbm, 186, rfl⟩
abbrev main_v112 : Ref sig .tc := ⟨.hbm, 187, rfl⟩
abbrev main_v113 : Ref sig .tc := ⟨.hbm, 188, rfl⟩
abbrev main_c_22 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_cst_23 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_cst_24 : Ref sig .tc := ⟨.hbm, 205, rfl⟩
abbrev main_v128 : Ref sig .tc := ⟨.hbm, 206, rfl⟩
abbrev main_cst_25 : Ref sig .tc := ⟨.hbm, 207, rfl⟩
abbrev main_v129 : Ref sig .tc := ⟨.hbm, 208, rfl⟩
abbrev main_v130 : Ref sig .tc := ⟨.hbm, 209, rfl⟩
abbrev main_c_26 : Ref sig .tc := ⟨.hbm, 210, rfl⟩
abbrev main_call5_cst : Ref sig .tc := ⟨.hbm, 211, rfl⟩
abbrev main_call5_v0 : Ref sig .tc := ⟨.hbm, 212, rfl⟩
abbrev main_call5_v1 : Ref sig .tc := ⟨.hbm, 213, rfl⟩
abbrev main_call5_cst_0 : Ref sig .tc := ⟨.hbm, 214, rfl⟩
abbrev main_call5_v2 : Ref sig .tc := ⟨.hbm, 215, rfl⟩
abbrev main_call5_v3 : Ref sig .tc := ⟨.hbm, 216, rfl⟩
abbrev main_call5_v4 : Ref sig .tc := ⟨.hbm, 217, rfl⟩
abbrev main_call5_v5 : Ref sig .tc := ⟨.hbm, 218, rfl⟩
abbrev main_call5_v6 : Ref sig .tc := ⟨.hbm, 219, rfl⟩
abbrev main_call5_v7 : Ref sig .tc := ⟨.hbm, 220, rfl⟩
abbrev main_call5_cst_1 : Ref sig .tc := ⟨.hbm, 221, rfl⟩
abbrev main_call5_v8 : Ref sig .tc := ⟨.hbm, 222, rfl⟩
abbrev main_call5_cst_2 : Ref sig .tc := ⟨.hbm, 223, rfl⟩
abbrev main_call5_v9 : Ref sig .tc := ⟨.hbm, 224, rfl⟩
abbrev main_call5_v10 : Ref sig .tc := ⟨.hbm, 225, rfl⟩
abbrev main_call5_v11 : Ref sig .tc := ⟨.hbm, 226, rfl⟩
abbrev main_call5_cst_3 : Ref sig .tc := ⟨.hbm, 227, rfl⟩
abbrev main_call5_v12 : Ref sig .tc := ⟨.hbm, 228, rfl⟩
abbrev main_call5_cst_4 : Ref sig .tc := ⟨.hbm, 229, rfl⟩
abbrev main_call5_call0_v0 : Ref sig .tc := ⟨.hbm, 230, rfl⟩
abbrev main_call5_call0_v1 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_v136 : Ref sig .tc := ⟨.hbm, 237, rfl⟩
abbrev main_v137 : Ref sig .tc := ⟨.hbm, 238, rfl⟩
abbrev main_cst_27 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_call6_cst : Ref sig .tc := ⟨.hbm, 249, rfl⟩
abbrev main_call6_v0 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_cst_28 : Ref sig .tc := ⟨.hbm, 257, rfl⟩
abbrev main_v153 : Ref sig .tc := ⟨.hbm, 258, rfl⟩
abbrev main_v154 : Ref sig .tc := ⟨.hbm, 259, rfl⟩
abbrev main_cst_29 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_cst_30 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_cst_31 : Ref sig .tc := ⟨.hbm, 268, rfl⟩
abbrev main_call7_v0 : Ref sig .tc := ⟨.hbm, 269, rfl⟩
abbrev main_call7_v1 : Ref sig .tc := ⟨.hbm, 270, rfl⟩
abbrev main_v161 : Ref sig .tc := ⟨.hbm, 271, rfl⟩
abbrev main_c_32 : Ref sig .tc := ⟨.hbm, 272, rfl⟩
abbrev main_v162 : Ref sig .tc := ⟨.hbm, 273, rfl⟩
abbrev main_v163 : Ref sig .tc := ⟨.hbm, 274, rfl⟩
abbrev main_c_33 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_v167 : Ref sig .tc := ⟨.hbm, 279, rfl⟩
abbrev main_v168 : Ref sig .tc := ⟨.hbm, 280, rfl⟩
abbrev main_v169 : Ref sig .tc := ⟨.hbm, 281, rfl⟩
abbrev main_c_34 : Ref sig .tc := ⟨.hbm, 282, rfl⟩
abbrev main_v170 : Ref sig .tc := ⟨.hbm, 283, rfl⟩
abbrev main_v171 : Ref sig .tc := ⟨.hbm, 284, rfl⟩
abbrev main_c_35 : Ref sig .tc := ⟨.hbm, 285, rfl⟩
abbrev main_v172 : Ref sig .tc := ⟨.hbm, 286, rfl⟩
abbrev main_v173 : Ref sig .tc := ⟨.hbm, 287, rfl⟩
abbrev main_v174 : Ref sig .tc := ⟨.hbm, 288, rfl⟩
abbrev main_v175 : Ref sig .tc := ⟨.hbm, 289, rfl⟩
abbrev main_v176 : Ref sig .tc := ⟨.hbm, 290, rfl⟩
abbrev main_v177 : Ref sig .tc := ⟨.hbm, 291, rfl⟩
abbrev main_c_36 : Ref sig .tc := ⟨.hbm, 292, rfl⟩
abbrev main_v178 : Ref sig .tc := ⟨.hbm, 293, rfl⟩
abbrev main_v179 : Ref sig .tc := ⟨.hbm, 294, rfl⟩
abbrev main_c_37 : Ref sig .tc := ⟨.hbm, 295, rfl⟩
abbrev main_v180 : Ref sig .tc := ⟨.hbm, 296, rfl⟩
abbrev main_v181 : Ref sig .tc := ⟨.hbm, 297, rfl⟩
abbrev main_v182 : Ref sig .tc := ⟨.hbm, 298, rfl⟩
abbrev main_v183 : Ref sig .tc := ⟨.hbm, 299, rfl⟩
abbrev main_v184 : Ref sig .tc := ⟨.hbm, 300, rfl⟩
abbrev main_v185 : Ref sig .tc := ⟨.hbm, 301, rfl⟩
abbrev main_v186 : Ref sig .tc := ⟨.hbm, 302, rfl⟩
abbrev main_v187 : Ref sig .tc := ⟨.hbm, 303, rfl⟩
abbrev main_cst_38 : Ref sig .tc := ⟨.hbm, 304, rfl⟩
abbrev main_v188 : Ref sig .tc := ⟨.hbm, 305, rfl⟩
abbrev main_v189 : Ref sig .tc := ⟨.hbm, 306, rfl⟩
abbrev main_v190 : Ref sig .tc := ⟨.hbm, 307, rfl⟩
abbrev main_v191 : Ref sig .tc := ⟨.hbm, 308, rfl⟩
abbrev main_v192 : Ref sig .tc := ⟨.hbm, 309, rfl⟩
abbrev main_v193 : Ref sig .tc := ⟨.hbm, 310, rfl⟩
abbrev main_cst_39 : Ref sig .tc := ⟨.hbm, 311, rfl⟩
abbrev main_v194 : Ref sig .tc := ⟨.hbm, 312, rfl⟩
abbrev main_cst_40 : Ref sig .tc := ⟨.hbm, 313, rfl⟩
abbrev main_v195 : Ref sig .tc := ⟨.hbm, 314, rfl⟩
abbrev main_v196 : Ref sig .tc := ⟨.hbm, 315, rfl⟩
abbrev main_c_41 : Ref sig .tc := ⟨.hbm, 316, rfl⟩
abbrev main_call8_cst : Ref sig .tc := ⟨.hbm, 317, rfl⟩
abbrev main_call8_v0 : Ref sig .tc := ⟨.hbm, 318, rfl⟩
abbrev main_call8_v1 : Ref sig .tc := ⟨.hbm, 319, rfl⟩
abbrev main_call8_cst_0 : Ref sig .tc := ⟨.hbm, 320, rfl⟩
abbrev main_call8_v2 : Ref sig .tc := ⟨.hbm, 321, rfl⟩
abbrev main_call8_v3 : Ref sig .tc := ⟨.hbm, 322, rfl⟩
abbrev main_call8_v4 : Ref sig .tc := ⟨.hbm, 323, rfl⟩
abbrev main_call8_v5 : Ref sig .tc := ⟨.hbm, 324, rfl⟩
abbrev main_call8_v6 : Ref sig .tc := ⟨.hbm, 325, rfl⟩
abbrev main_call8_v7 : Ref sig .tc := ⟨.hbm, 326, rfl⟩
abbrev main_call8_cst_1 : Ref sig .tc := ⟨.hbm, 327, rfl⟩
abbrev main_call8_v8 : Ref sig .tc := ⟨.hbm, 328, rfl⟩
abbrev main_call8_cst_2 : Ref sig .tc := ⟨.hbm, 329, rfl⟩
abbrev main_call8_v9 : Ref sig .tc := ⟨.hbm, 330, rfl⟩
abbrev main_call8_v10 : Ref sig .tc := ⟨.hbm, 331, rfl⟩
abbrev main_call8_v11 : Ref sig .tc := ⟨.hbm, 332, rfl⟩
abbrev main_call8_cst_3 : Ref sig .tc := ⟨.hbm, 333, rfl⟩
abbrev main_call8_v12 : Ref sig .tc := ⟨.hbm, 334, rfl⟩
abbrev main_call8_cst_4 : Ref sig .tc := ⟨.hbm, 335, rfl⟩
abbrev main_call8_call0_v0 : Ref sig .tc := ⟨.hbm, 336, rfl⟩
abbrev main_call8_call0_v1 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_v203 : Ref sig .tc := ⟨.hbm, 344, rfl⟩
abbrev main_cst_42 : Ref sig .tc := ⟨.hbm, 345, rfl⟩
abbrev main_v204 : Ref sig .tc := ⟨.hbm, 346, rfl⟩
abbrev main_v205 : Ref sig .tc := ⟨.hbm, 347, rfl⟩
abbrev main_v206 : Ref sig .tc := ⟨.hbm, 348, rfl⟩
abbrev main_v207 : Ref sig .tc := ⟨.hbm, 349, rfl⟩
abbrev main_v208 : Ref sig .tc := ⟨.hbm, 350, rfl⟩
abbrev main_v209 : Ref sig .tc := ⟨.hbm, 351, rfl⟩
abbrev main_v210 : Ref sig .tc := ⟨.hbm, 352, rfl⟩
abbrev main_v211 : Ref sig .tc := ⟨.hbm, 353, rfl⟩
abbrev main_v212 : Ref sig .tc := ⟨.hbm, 354, rfl⟩
abbrev main_call9_cst : Ref sig .tc := ⟨.hbm, 355, rfl⟩
abbrev main_call9_v0 : Ref sig .tc := ⟨.hbm, 356, rfl⟩
abbrev main_v213 : Ref sig .tc := ⟨.hbm, 357, rfl⟩
abbrev main_cst_43 : Ref sig .tc := ⟨.hbm, 358, rfl⟩
abbrev main_v214 : Ref sig .tc := ⟨.hbm, 359, rfl⟩
abbrev main_v215 : Ref sig .tc := ⟨.hbm, 360, rfl⟩
abbrev main_v216 : Ref sig .tc := ⟨.hbm, 361, rfl⟩
abbrev main_cst_44 : Ref sig .tc := ⟨.hbm, 362, rfl⟩
abbrev main_v217 : Ref sig .tc := ⟨.hbm, 363, rfl⟩
abbrev main_cst_45 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_cst_46 : Ref sig .tc := ⟨.hbm, 368, rfl⟩
abbrev main_v221 : Ref sig .tc := ⟨.hbm, 369, rfl⟩
abbrev main_v222 : Ref sig .tc := ⟨.hbm, 370, rfl⟩
abbrev main_v223 : Ref sig .tc := ⟨.hbm, 371, rfl⟩
abbrev main_v224 : Ref sig .tc := ⟨.hbm, 372, rfl⟩
abbrev main_v225 : Ref sig .tc := ⟨.hbm, 373, rfl⟩
abbrev main_v226 : Ref sig .tc := ⟨.hbm, 374, rfl⟩
abbrev main_v227 : Ref sig .tc := ⟨.hbm, 375, rfl⟩
abbrev main_v228 : Ref sig .tc := ⟨.hbm, 376, rfl⟩
abbrev main_v229 : Ref sig .tc := ⟨.hbm, 377, rfl⟩
abbrev main_v230 : Ref sig .tc := ⟨.hbm, 378, rfl⟩
abbrev main_v231 : Ref sig .tc := ⟨.hbm, 379, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  transposes_S128x16_S16x128_1_0 : S128x16.Transposes [1, 0] S16x128
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  transposes_S1x128_S128x1_1_0 : S1x128.Transposes [1, 0] S128x1
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  shapeCasts_S640000x1_S640000 : S640000x1.ShapeCasts S640000
  transposes_S128x128_S128x128_1_0 : S128x128.Transposes [1, 0] S128x128
  concatenates_S640000_S100000_S740000_d0 : Shape.Concatenates [S640000, S100000] S740000 0
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x1_S512x1_0_1 : S1x1.BroadcastsInDim S512x1 (![0, 1] : Fin 2 → Fin S512x1.rank)
  shapeCasts_S512x1_S512 : S512x1.ShapeCasts S512
  dot_S640000x16_S16x128_S640000x128_1_0_0_1_n_n_wf : DotDims.WF S640000x16 S16x128 S640000x128 [1] [0] [0] [1] [] []
  dot_S640000x128_S128x1_S640000x1_1_0_0_1_n_n_wf : DotDims.WF S640000x128 S128x1 S640000x1 [1] [0] [0] [1] [] []
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x1_S512x1_1_0_0_1_n_n_wf : DotDims.WF S512x128 S128x1 S512x1 [1] [0] [0] [1] [] []

variable [Facts₀]

def dot_S640000x16_S16x128_S640000x128_1_0_0_1_n_n : DotDims S640000x16 S16x128 S640000x128 where
  lhsContracting := [1]
  rhsContracting := [0]
  lhsNonContracting := [0]
  rhsNonContracting := [1]
  lhsBatch := []
  rhsBatch := []
  wf := dot_S640000x16_S16x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.KerRun.lean ====
/- # The idealized kernel's run, with the contents of its result buffer

Every weakly fair execution of the idealized kernel program, from any memory with zero counters, terminates
without a fault. In the final state each core's result buffer holds what the fold of the program's segments
over the launch memory leaves in it (`Gen.W25` at the result buffer: the host operations of each stretch
applied in order, each region's arrays replaced by what its write-backs leave), and each of the 22 argument
buffers holds what it held at launch.

The frame theorem of the imported module establishes more than its statement keeps: EVERY unscoped buffer ends at
the fold's last contents, and of that the frame statement keeps the argument buffers, read back through the fold to
the launch memory. The result buffer is unscoped as well, so the same run gives its final contents too: the fold's
last contents at that buffer, which a later module reads back to one function of the arguments. -/
import proofs.«161461_j70540542869949_1_alg».proof.Proof.Gen.KernelIdeal.Frame
import Idealize.ShloMosaic.PureOps.Ideal

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- the segments' launch theorem is applied by unifying its conclusion with this statement, which needs plain
-- definitions unfolded inside the types of its yet-unknown arguments
set_option backward.isDefEq.respectTransparency.types false in
/-- The run with its result: termination without a fault from any memory with zero counters; the result buffer
    `main_v185` at the last boundary's contents; every argument buffer as launched. -/
theorem run_W (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread nD τ).loc main_v185) = Gen.W25 (F := Ideal) m ρ c (Proc.devRef .tc main_v185)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W25 m ρ c b)
    (hfin := fun c s' => by
      iintro ⟨⟨Hh, -⟩, HSI⟩
      unfold StableHlo.held
      imodintro
      iapply (pointsTo_read_all (Pipeline.ucRefs τ sig) (fun b => (((c : Thread nD τ)).1, b)) (W25 m ρ c) s')
      isplitl [Hh] <;> iassumption)
    (hQ := fun s h c =>
      ⟨h c _ (mem_uc main_v185 (by decide)),
       (h c _ (mem_uc main_arg0 (by decide))).trans (W25_main_arg0 (F := Ideal) m ρ c),
       (h c _ (mem_uc main_arg1 (by decide))).trans (W25_main_arg1 (F := Ideal) m ρ c),
       (h c _ (mem_uc main_arg2 (by decide))).trans (W25_main_arg2 (F := Ideal) m ρ c),
       (h c _ (mem_uc main_arg3 (by decide))).trans (W25_main_arg3 (F := Ideal) m ρ c),
       (h c _ (mem_uc main_arg4 (by decide))).trans (W25_main_arg4 (F := Ideal) m ρ c),
       (h c _ (mem_uc main_arg5 (by decide))).trans (W25_main_arg5 (F := Ideal) m ρ c),
       (h c _ (mem_uc main_arg6 (by decide))).trans (W25_main_arg6 (F := Ideal) m ρ c),
       (h c _ (mem_uc main_arg7 (by decide))).trans (W25_main_arg7 (F := Ideal) m ρ c),
       (h c _ (mem_uc main_arg8 (by decide))).trans (W25_main_arg8 (F := Ideal) m ρ c),
       (h c _ (mem_uc main_arg9 (by decide))).trans (W25_main_arg9 (F := Ideal) m ρ c),
       (h c _ (mem_uc main_arg10 (by decide))).trans (W25_main_arg10 (F := Ideal) m ρ c),
       (h c _ (mem_uc main_arg11 (by decide))).trans (W25_main_arg11 (F := Ideal) m ρ c),
       (h c _ (mem_uc main_arg12 (by decide))).trans (W25_main_arg12 (F := Ideal) m ρ c),
       (h c _ (mem_uc main_arg13 (by decide))).trans (W25_main_arg13 (F := Ideal) m ρ c),
       (h c _ (mem_uc main_arg14 (by decide))).trans (W25_main_arg14 (F := Ideal) m ρ c),
       (h c _ (mem_uc main_arg15 (by decide))).trans (W25_main_arg15 (F := Ideal) m ρ c),
       (h c _ (mem_uc main_arg16 (by decide))).trans (W25_main_arg16 (F := Ideal) m ρ c),
       (h c _ (mem_uc main_arg17 (by decide))).trans (W25_main_arg17 (F := Ideal) m ρ c),
       (h c _ (mem_uc main_arg18 (by decide))).trans (W25_main_arg18 (F := Ideal) m ρ c),
       (h c _ (mem_uc main_arg19 (by decide))).trans (W25_main_arg19 (F := Ideal) m ρ c),
       (h c _ (mem_uc main_arg20 (by decide))).trans (W25_main_arg20 (F := Ideal) m ρ c),
       (h c _ (mem_uc main_arg21 (by decide))).trans (W25_main_arg21 (F := Ideal) m ρ c)⟩)

end Cert.KerRun

end
-- ==== Proof.Spec.lean ====
/-
  The stages of a three-layer graph convolution with batch normalisation and a mean pool, as functions on the
  extended reals, entry by entry.

  An edge weight is a two-layer perceptron of the edge's attributes. A layer multiplies the node features by a weight
  matrix, sends every node's row along the edges scaled by the symmetric normalisation
  `dis(source) · weight · dis(target)` (`dis` the inverse square root of the weighted in-degree where that is positive,
  else zero), sums what arrives at each node, adds a bias, and normalises every column by its mean and variance over
  the nodes before the positive part.

  The edge list is kept abstract: an edge `e` has a row `gs e` it reads from, a row `gd e` whose `dis` it is scaled
  by, and a signed target `tgt e`; it lands on node `p` when `tgt e = p`, and nowhere when the target is out of range.
  One program lists the self-loops as extra edges of weight one; the other adds the self term `h · dis²` and the
  one in the degree separately. One program takes the variance as the mean of the squared deviations, the other as
  the mean of the squares less the squared mean.
-/
import Idealize.ShloMosaic.PureOps.Ideal
import Idealize.ShloMosaic.Lib.ValueIdx

noncomputable section

open scoped BigOperators

namespace Cert.Spec

open Idealize.ShloMosaic Idealize.ShloMosaic.ValueIdx

/-- A matrix and a column of extended reals, a column of index words, over literal extents. -/
abbrev Mat (a b : Nat) : Type := (⟨2, ![a, b]⟩ : Shape).Idx → EReal
abbrev Col (a : Nat) : Type := (⟨1, ![a]⟩ : Shape).Idx → EReal
abbrev ICol (a : Nat) : Type := (⟨1, ![a]⟩ : Shape).Idx → BitVec 32

/-- The normalisation's ε and the number of nodes, as the float words the programs spell them with. -/
def eps : EReal := Ideal.ofBits .f32 0x3727C5AC#32
def nNodes : EReal := Ideal.ofBits .f32 0x47C35000#32

/-- Every entry is a real number. -/
def MatFinite {a b : Nat} (x : Mat a b) : Prop := ∀ i, x i ≠ ⊤ ∧ x i ≠ ⊥
def ColFinite {a : Nat} (x : Col a) : Prop := ∀ i, x i ≠ ⊤ ∧ x i ≠ ⊥

/-! ## The edge weights -/

/-- Edge `e`'s weight: `(max (ea[e,:] · Wm1[j,:] + bm1[j]) 0)_j · Wm2[0,:] + bm2[0]`. -/
def edgeWAt (ea : Mat 640000 16) (Wm1 : Mat 128 16) (bm1 : Col 128) (Wm2 : Mat 1 128) (bm2 : Col 1) (e : Fin 640000) : EReal :=
  (∑ j : Fin 128, max ((∑ k : Fin 16, ea (ix2 e k) * Wm1 (ix2 j k)) + bm1 (ix1 j)) 0 * Wm2 (ix2 (0 : Fin 1) j))
    + bm2 (ix1 (0 : Fin 1))

/-- The edge weights as the column `[640000, 1]` the kernel writes. -/
def edgeW (ea : Mat 640000 16) (Wm1 : Mat 128 16) (bm1 : Col 128) (Wm2 : Mat 1 128) (bm2 : Col 1) : Mat 640000 1 :=
  fun i => edgeWAt ea Wm1 bm1 Wm2 bm2 (i 0)

/-! ## The dense product of a layer -/

/-- `(x · Wᵀ)[p, q] = ∑ k, x[p, k] · W[q, k]`. -/
def linAt (x : Mat 100000 128) (W : Mat 128 128) (p : Fin 100000) (q : Fin 128) : EReal :=
  ∑ k : Fin 128, x (ix2 p k) * W (ix2 q k)

def lin (x : Mat 100000 128) (W : Mat 128 128) : Mat 100000 128 := fun i => linAt x W (i 0) (i 1)

/-! ## The propagation along the edges -/

section Graph
variable {E : Nat}

/-- The weights of the edges that land on node `p`, summed. -/
def degAt (tgt : Fin E → Int) (w : Fin E → EReal) (p : Fin 100000) : EReal :=
  ∑ e ∈ Finset.univ.filter (fun e : Fin E => tgt e = ((p.val : ℕ) : Int)), w e

/-- The inverse square root of a positive degree, zero otherwise. -/
def disOf (deg : EReal) : EReal := if 0 < deg then Ideal.rsqrt deg else 0

/-- What arrives at node `p`, column `q`: over the edges landing on `p`, the source row's entry scaled by
    `dis(source) · weight · dis(target)`. -/
def aggAt (gs gd : Fin E → Fin 100000) (tgt : Fin E → Int) (w : Fin E → EReal) (dis : Fin 100000 → EReal)
    (h : Mat 100000 128) (p : Fin 100000) (q : Fin 128) : EReal :=
  ∑ e ∈ Finset.univ.filter (fun e : Fin E => tgt e = ((p.val : ℕ) : Int)), h (ix2 (gs e) q) * (dis (gs e) * w e * dis (gd e))

/-- The layer before normalisation, self-loops kept apart: the degree counts one more, and the node's own row enters
    scaled by `dis²`. -/
def selfApartAt (gs gd : Fin E → Fin 100000) (tgt : Fin E → Int) (w : Fin E → EReal) (h : Mat 100000 128) (b : Col 128)
    (p : Fin 100000) (q : Fin 128) : EReal :=
  (aggAt gs gd tgt w (fun r => disOf (degAt tgt w r + 1)) h p q
      + h (ix2 p q) * (disOf (degAt tgt w p + 1) * disOf (degAt tgt w p + 1)))
    + b (ix1 q)

/-- The layer before normalisation, self-loops among the edges. -/
def selfListedAt (gs gd : Fin E → Fin 100000) (tgt : Fin E → Int) (w : Fin E → EReal) (h : Mat 100000 128) (b : Col 128)
    (p : Fin 100000) (q : Fin 128) : EReal :=
  aggAt gs gd tgt w (fun r => disOf (degAt tgt w r)) h p q + b (ix1 q)

end Graph

/-- An index word read as a row to gather: a negative word first moved up by the number of rows, then read signed and
    clamped into the rows. -/
def wrapWord (a : BitVec 32) : BitVec 32 := if a.toInt < 0 then a + 100000#32 else a
def rowOf (a : BitVec 32) : Fin 100000 := ⟨min (wrapWord a).toInt.toNat 99999, by omega⟩

/-- The edge list with the self-loops listed after the edges: position `k` past the edges is node `k - 640000`'s loop,
    its index word that node's number and its weight one. -/
def catWord (a : ICol 640000) (k : Fin 740000) : BitVec 32 :=
  if h : k.val < 640000 then a (ix1 ⟨k.val, h⟩) else BitVec.ofNat 32 (k.val - 640000)
def catWeight (w : Col 640000) (k : Fin 740000) : EReal :=
  if h : k.val < 640000 then w (ix1 ⟨k.val, h⟩) else 1

/-! ## Bias, column statistics, normalisation -/

/-- A bias row added to every row. -/
def addBias (x : Mat 100000 128) (b : Col 128) : Mat 100000 128 := fun i => x i + b (ix1 (i 1))

/-- The column sums and the column sums of squares, as rows `[1, 128]`. -/
def colSum (z : Mat 100000 128) : Mat 1 128 := fun i => ∑ p : Fin 100000, z (ix2 p (i 1))
def colSumSq (z : Mat 100000 128) : Mat 1 128 := fun i => ∑ p : Fin 100000, z (ix2 p (i 1)) * z (ix2 p (i 1))

/-- The column mean; the variance as the mean of squares less the squared mean; the variance as the mean of the
    squared deviations. -/
def meanAt (z : Mat 100000 128) (q : Fin 128) : EReal := Ideal.div (∑ p : Fin 100000, z (ix2 p q)) nNodes
def varSqAt (z : Mat 100000 128) (q : Fin 128) : EReal :=
  Ideal.div (∑ p : Fin 100000, z (ix2 p q) * z (ix2 p q)) nNodes - meanAt z q * meanAt z q
def varDevAt (z : Mat 100000 128) (q : Fin 128) : EReal :=
  Ideal.div (∑ p : Fin 100000, (z (ix2 p q) - meanAt z q) * (z (ix2 p q) - meanAt z q)) nNodes

/-- The normalised positive part: `max ((γ · (z − μ)) · rsqrt (σ² + ε) + β) 0`. -/
def bnReluAt (z : Mat 100000 128) (mean var g be : Col 128) (p : Fin 100000) (q : Fin 128) : EReal :=
  max ((g (ix1 q) * (z (ix2 p q) - mean (ix1 q))) * Ideal.rsqrt (var (ix1 q) + eps) + be (ix1 q)) 0

def bnRelu (z : Mat 100000 128) (mean var g be : Col 128) : Mat 100000 128 :=
  fun i => bnReluAt z mean var g be (i 0) (i 1)

end Cert.Spec

end
-- ==== Proof.KerTerm.lean ====
/-
  The host operations of the kernel program between its pipelined regions, as named functions on whole arrays.

  The edge list arrives as a `[2, 640000]` array of index words: row 0 the sources, row 1 the targets. The edge
  weights arrive as a `[640000, 1]` column and are used as a flat vector. One propagation step takes the node
  features `hl` after the dense product: the degree of a node is the sum of the weights of the edges whose target word
  is that node, plus one; `dis` is the inverse square root of the degree where the degree is positive and zero
  elsewhere; an edge's coefficient is `dis[source] · weight · dis[target]`, both gathers reading the index word
  moved up by the number of nodes when negative and then clamped into the rows; the message of an edge is the source's
  row times the coefficient; the messages are summed into the rows named by the target words; and the node's own row
  enters scaled by `dis · dis`. The batch statistics are the column sums divided by the number of nodes, and the
  mean of squares less the squared mean. The tail pools the rows of each graph of the batch by their mean (the count
  floored at one) and applies the read-out row and bias.

  Every definition below applies the program's own operations in the program's order, over the program's own shape
  names and dimension-number records.
-/
import proofs.«161461_j70540542869949_1_alg».proof.KernelIdeal
import proofs.«161461_j70540542869949_1_alg».proof.Proof.Spec

noncomputable section

namespace Cert.KerTerm

open Cert.KernelIdeal Cert.Spec Idealize.ShloMosaic Idealize.ShloMosaic.ValueIdx

variable [Facts₀]
open Facts₀

/-- The source words: row 0 of the edge list, flattened. -/
def srcOf (ei : IVec S2x640000 32) : IVec S640000 32 :=
  shapeCast S640000 (extractStridedSlice S1x640000 ![0, 0] ei slices_S2x640000_S1x640000_0_0) shapeCasts_S1x640000_S640000

/-- The target words: row 1 of the edge list, flattened. -/
def dstOf (ei : IVec S2x640000 32) : IVec S640000 32 :=
  shapeCast S640000 (extractStridedSlice S1x640000 ![1, 0] ei slices_S2x640000_S1x640000_1_0) shapeCasts_S1x640000_S640000

/-- The edge-weight column as a flat vector. -/
def ewFlat (ewc : FVec Ideal S640000x1 .f32) : FVec Ideal S640000 .f32 :=
  shapeCast S640000 ewc shapeCasts_S640000x1_S640000

/-- The weighted in-degree plus one: the weights summed into the nodes named by the target words, then one added. -/
def degOf (dst : IVec S640000 32) (ew : FVec Ideal S640000 .f32) : FVec Ideal S100000 .f32 :=
  addf
    (Host.scatterAdd (F := Ideal) scatter_S100000_S640000x1_S640000_n_0_0_1
      (broadcastInDim S100000 ![] bcast_S_S100000 (constant (F := Ideal) S_ .f32 0x00000000#32))
      (broadcastInDim S640000x1 ![0] bcast_S640000_S640000x1_0 dst)
      ew)
    (broadcastInDim S100000 ![] bcast_S_S100000 (constant (F := Ideal) S_ .f32 0x3F800000#32))

/-- The inverse square root of the degree where it is positive, zero elsewhere. -/
def disVec (deg : FVec Ideal S100000 .f32) : FVec Ideal S100000 .f32 :=
  select
    (cmpf .ogt deg (broadcastInDim S100000 ![] bcast_S_S100000 (constant (F := Ideal) S_ .f32 0x00000000#32)))
    (Host.rsqrt (F := Ideal) deg)
    (broadcastInDim S100000 ![] bcast_S_S100000 (id (constant (F := Ideal) S_ .f32 0x00000000#32)))

/-- An index word made a gather's start index: moved up by the number of nodes when negative, as a column. -/
def wrapCol (a : IVec S640000 32) : IVec S640000x1 32 :=
  broadcastInDim S640000x1 ![0] bcast_S640000_S640000x1_0
    (select
      (cmpi .slt a (broadcastInDim S640000 ![] bcast_S_S640000 (constantI S_ 32 0#32)))
      (addi a (broadcastInDim S640000 ![] bcast_S_S640000 (constantI S_ 32 100000#32)))
      a)

/-- An edge's coefficient `dis[source] · weight · dis[target]`. -/
def normOf (dis : FVec Ideal S100000 .f32) (src dst : IVec S640000 32) (ew : FVec Ideal S640000 .f32) :
    FVec Ideal S640000 .f32 :=
  mulf
    (mulf (Host.gather gather_S100000_S640000x1_S640000_n_0_n_n_0_1_1 dis (wrapCol src)) ew)
    (Host.gather gather_S100000_S640000x1_S640000_n_0_n_n_0_1_1 dis (wrapCol dst))

/-- An edge's message: the source's row times the edge's coefficient. -/
def msgOf (hl : FVec Ideal S100000x128 .f32) (src : IVec S640000 32) (nrm : FVec Ideal S640000 .f32) :
    FVec Ideal S640000x128 .f32 :=
  mulf
    (Host.gather gather_S100000x128_S640000x1_S640000x128_1_0_n_n_0_1_1128 hl (wrapCol src))
    (broadcastInDim S640000x128 ![0, 1] bcast_S640000x1_S640000x128_0_1
      (broadcastInDim S640000x1 ![0] bcast_S640000_S640000x1_0 nrm))

/-- The messages summed into the rows named by the target words. -/
def aggOf (dst : IVec S640000 32) (msg : FVec Ideal S640000x128 .f32) : FVec Ideal S100000x128 .f32 :=
  Host.scatterAdd (F := Ideal) scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    msg

/-- The node's own row scaled by `dis · dis`. -/
def selfOf (hl : FVec Ideal S100000x128 .f32) (dis : FVec Ideal S100000 .f32) : FVec Ideal S100000x128 .f32 :=
  mulf hl
    (broadcastInDim S100000x128 ![0, 1] bcast_S100000x1_S100000x128_0_1
      (broadcastInDim S100000x1 ![0] bcast_S100000_S100000x1_0 (mulf dis dis)))

/-- One propagation step along the edges. -/
def prop (hl : FVec Ideal S100000x128 .f32) (src dst : IVec S640000 32) (ew : FVec Ideal S640000 .f32) :
    FVec Ideal S100000x128 .f32 :=
  addf
    (aggOf dst (msgOf hl src (normOf (disVec (degOf dst ew)) src dst ew)))
    (selfOf hl (disVec (degOf dst ew)))

/-- The column means: the column sums divided by the number of nodes. -/
def meanOf (s : FVec Ideal S1x128 .f32) : FVec Ideal S128 .f32 :=
  Host.divf (F := Ideal) (shapeCast S128 s shapeCasts_S1x128_S128)
    (broadcastInDim S128 ![] bcast_S_S128 (constant (F := Ideal) S_ .f32 0x47C35000#32))

/-- The column variances: the mean of the squares less the squared mean. -/
def varOf (s sq : FVec Ideal S1x128 .f32) : FVec Ideal S128 .f32 :=
  subf
    (Host.divf (F := Ideal) (shapeCast S128 sq shapeCasts_S1x128_S128)
      (broadcastInDim S128 ![] bcast_S_S128 (constant (F := Ideal) S_ .f32 0x47C35000#32)))
    (mulf (meanOf s) (meanOf s))

/-- The pooled means of the graphs of the batch and the read-out. -/
def tail (h : FVec Ideal S100000x128 .f32) (batch : IVec S100000 32) (Wr : FVec Ideal S1x128 .f32)
    (br : FVec Ideal S1 .f32) : FVec Ideal S512 .f32 :=
  shapeCast S512
    (addf
      (Host.dotGeneral (F := Ideal) dot_S512x128_S128x1_S512x1_1_0_0_1_n_n none
        (Host.divf (F := Ideal)
          (Host.scatterAdd (F := Ideal) scatter_S512x128_S100000x1_S100000x128_1_0_0_1
            (broadcastInDim S512x128 ![] bcast_S_S512x128 (constant (F := Ideal) S_ .f32 0x00000000#32))
            (broadcastInDim S100000x1 ![0] bcast_S100000_S100000x1_0 batch)
            h)
          (broadcastInDim S512x128 ![0, 1] bcast_S512x1_S512x128_0_1
            (broadcastInDim S512x1 ![0] bcast_S512_S512x1_0
              (maximumf
                (Host.scatterAdd (F := Ideal) scatter_S512_S100000x1_S100000_n_0_0_1
                  (broadcastInDim S512 ![] bcast_S_S512 (constant (F := Ideal) S_ .f32 0x00000000#32))
                  (broadcastInDim S100000x1 ![0] bcast_S100000_S100000x1_0 batch)
                  (broadcastInDim S100000 ![] bcast_S_S100000 (constant (F := Ideal) S_ .f32 0x3F800000#32)))
                (broadcastInDim S512 ![] bcast_S_S512 (constant (F := Ideal) S_ .f32 0x3F800000#32))))))
        (transpose S128x1 [1, 0] Wr transposes_S1x128_S128x1_1_0))
      (broadcastInDim S512x1 ![0, 1] bcast_S1x1_S512x1_0_1 (broadcastInDim S1x1 ![1] bcast_S1_S1x1_1 br)))
    shapeCasts_S512x1_S512

/-- One layer: the dense product, the propagation, the bias, the batch statistics, the normalised positive part. -/
def layer (h : FVec Ideal S100000x128 .f32) (W : FVec Ideal S128x128 .f32) (b g be : FVec Ideal S128 .f32)
    (src dst : IVec S640000 32) (ew : FVec Ideal S640000 .f32) : FVec Ideal S100000x128 .f32 :=
  Cert.Spec.bnRelu (Cert.Spec.addBias (prop (Cert.Spec.lin h W) src dst ew) b)
    (meanOf (Cert.Spec.colSum (Cert.Spec.addBias (prop (Cert.Spec.lin h W) src dst ew) b)))
    (varOf (Cert.Spec.colSum (Cert.Spec.addBias (prop (Cert.Spec.lin h W) src dst ew) b))
      (Cert.Spec.colSumSq (Cert.Spec.addBias (prop (Cert.Spec.lin h W) src dst ew) b)))
    g be

/-- The whole program: the edge weights, three layers, the tail. -/
def result (a0 : FVec Ideal S100000x128 .f32) (a1 : IVec S2x640000 32) (a2 : FVec Ideal S640000x16 .f32)
    (a3 : IVec S100000 32) (a4 : FVec Ideal S128x16 .f32) (a5 : FVec Ideal S128 .f32) (a6 : FVec Ideal S1x128 .f32)
    (a7 : FVec Ideal S1 .f32) (a8 : FVec Ideal S128x128 .f32) (a9 a10 a11 : FVec Ideal S128 .f32)
    (a12 : FVec Ideal S128x128 .f32) (a13 a14 a15 : FVec Ideal S128 .f32) (a16 : FVec Ideal S128x128 .f32)
    (a17 a18 a19 : FVec Ideal S128 .f32) (a20 : FVec Ideal S1x128 .f32) (a21 : FVec Ideal S1 .f32) :
    FVec Ideal S512 .f32 :=
  tail
    (layer
      (layer
        (layer a0 a8 a9 a10 a11 (srcOf a1) (dstOf a1) (ewFlat (Cert.Spec.edgeW a2 a4 a5 a6 a7)))
        a12 a13 a14 a15 (srcOf a1) (dstOf a1) (ewFlat (Cert.Spec.edgeW a2 a4 a5 a6 a7)))
      a16 a17 a18 a19 (srcOf a1) (dstOf a1) (ewFlat (Cert.Spec.edgeW a2 a4 a5 a6 a7)))
    a3 a20 a21

end Cert.KerTerm

end
-- ==== Proof.KerFoldKeep.lean ====
/- # The buffers a stretch of host operations leaves alone

The program's buffers are numbered in the order the program defines them: the 22 arguments first (0 to 21), then
every value in the order of its definition. A host operation writes exactly one buffer, its result, and a stretch of
host operations defines values the program has not defined before: every buffer a stretch writes is numbered above
every buffer defined before the stretch. So each stretch has a bound (one less than the lowest number it writes) and
leaves every buffer numbered at most that bound as it found it: the arguments, the two index columns and the flat
edge weights through every later stretch, a region's output through the stretch that follows it. -/
import proofs.«161461_j70540542869949_1_alg».proof.Proof.Gen.KernelIdeal.Launch
import Idealize.ShloMosaic.Lib.StableHlo.Run
import Idealize.ShloMosaic.PureOps.Ideal

noncomputable section

namespace Cert.KerRun

open Idealize.ShloMosaic Idealize.ShloMosaic.TcCoe
open Cert.KernelIdeal Cert.KernelIdeal.Gen

/-- Two references whose indices are on either side of a bound are different references. -/
theorem ne_of_idx_le {r y : Ref sig .tc} (n : Nat) (hr : r.idx.val ≤ n) (hy : n < y.idx.val) : r ≠ y :=
  fun e => by subst e; omega

/-- No operation of stretch `hostOps0` writes a buffer whose index is at most 21. -/
theorem keep0 (W : Valuation τ sig (Elt Ideal)) (r : Ref sig .tc) (hr : r.idx.val ≤ 21) :
    StableHlo.after (hostOps0 : List (HloOp τ sig (Elt Ideal))) W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 21 hr (by decide))))

/-- No operation of stretch `hostOps1` writes a buffer whose index is at most 26. -/
theorem keep1 (W : Valuation τ sig (Elt Ideal)) (r : Ref sig .tc) (hr : r.idx.val ≤ 26) :
    StableHlo.after (hostOps1 : List (HloOp τ sig (Elt Ideal))) W (Proc.devRef .tc r) = W (Proc.devRef .tc r) :=
  StableHlo.after_of_forall_not_mem (b := Proc.devRef .tc r) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 26 hr (by decide))))

/-- No operation of stretch `hostOps2` writes a buffer whose index is at most 28. -/
theorem keep2 (W : Valuation τ sig (Elt Ideal)) (r : Ref sig .tc) (hr : r.idx.val ≤ 28) :
    StableHlo.after (hostOps2 : List (HloOp τ sig (Elt Ideal))) W (Proc.devRef .tc r) = W (Proc.devRef .tc r) :=
  StableHlo.after_of_forall_not_mem (b := Proc.devRef .tc r) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 28 hr (by decide))))

/-- No operation of stretch `hostOps2_1` writes a buffer whose index is at most 40. -/
theorem keep2_1 (W : Valuation τ sig (Elt Ideal)) (r : Ref sig .tc) (hr : r.idx.val ≤ 40) :
    StableHlo.after (hostOps2_1 : List (HloOp τ sig (Elt Ideal))) W (Proc.devRef .tc r) = W (Proc.devRef .tc r) :=
  StableHlo.after_of_forall_not_mem (b := Proc.devRef .tc r) _ _ (List.forall_iff_forall_mem.mp (by
    simp only [hostOps2_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 40 hr (by decide))))

/-- No operation of stretch `hostOps2_2` writes a buffer whose index is at most 43. -/
theorem keep2_2 (W : Valuation τ sig (Elt Ideal)) (r : Ref sig .tc) (hr : r.idx.val ≤ 43) :
    StableHlo.after (hostOps2_2 : List (HloOp τ sig (Elt Ideal))) W (Proc.devRef .tc r) = W (Proc.devRef .tc r) :=
  StableHlo.after_of_forall_not_mem (b := Proc.devRef .tc r) _ _ (List.forall_iff_forall_mem.mp (by
    simp only [hostOps2_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 43 hr (by decide))))

/-- No operation of stretch `hostOps3` writes a buffer whose index is at most 87. -/
theorem keep3 (W : Valuation τ sig (Elt Ideal)) (r : Ref sig .tc) (hr : r.idx.val ≤ 87) :
    StableHlo.after (hostOps3 : List (HloOp τ sig (Elt Ideal))) W (Proc.devRef .tc r) = W (Proc.devRef .tc r) :=
  StableHlo.after_of_forall_not_mem (b := Proc.devRef .tc r) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 87 hr (by decide))))

/-- No operation of stretch `hostOps5` writes a buffer whose index is at most 99. -/
theorem keep5 (W : Valuation τ sig (Elt Ideal)) (r : Ref sig .tc) (hr : r.idx.val ≤ 99) :
    StableHlo.after (hostOps5 : List (HloOp τ sig (Elt Ideal))) W (Proc.devRef .tc r) = W (Proc.devRef .tc r) :=
  StableHlo.after_of_forall_not_mem (b := Proc.devRef .tc r) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 99 hr (by decide))))

/-- No operation of stretch `hostOps5_1` writes a buffer whose index is at most 111. -/
theorem keep5_1 (W : Valuation τ sig (Elt Ideal)) (r : Ref sig .tc) (hr : r.idx.val ≤ 111) :
    StableHlo.after (hostOps5_1 : List (HloOp τ sig (Elt Ideal))) W (Proc.devRef .tc r) = W (Proc.devRef .tc r) :=
  StableHlo.after_of_forall_not_mem (b := Proc.devRef .tc r) _ _ (List.forall_iff_forall_mem.mp (by
    simp only [hostOps5_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 111 hr (by decide))))

/-- No operation of stretch `hostOps5_2` writes a buffer whose index is at most 114. -/
theorem keep5_2 (W : Valuation τ sig (Elt Ideal)) (r : Ref sig .tc) (hr : r.idx.val ≤ 114) :
    StableHlo.after (hostOps5_2 : List (HloOp τ sig (Elt Ideal))) W (Proc.devRef .tc r) = W (Proc.devRef .tc r) :=
  StableHlo.after_of_forall_not_mem (b := Proc.devRef .tc r) _ _ (List.forall_iff_forall_mem.mp (by
    simp only [hostOps5_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 114 hr (by decide))))

/-- No operation of stretch `hostOps6` writes a buffer whose index is at most 158. -/
theorem keep6 (W : Valuation τ sig (Elt Ideal)) (r : Ref sig .tc) (hr : r.idx.val ≤ 158) :
    StableHlo.after (hostOps6 : List (HloOp τ sig (Elt Ideal))) W (Proc.devRef .tc r) = W (Proc.devRef .tc r) :=
  StableHlo.after_of_forall_not_mem (b := Proc.devRef .tc r) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 158 hr (by decide))))

/-- No operation of stretch `hostOps8` writes a buffer whose index is at most 170. -/
theorem keep8 (W : Valuation τ sig (Elt Ideal)) (r : Ref sig .tc) (hr : r.idx.val ≤ 170) :
    StableHlo.after (hostOps8 : List (HloOp τ sig (Elt Ideal))) W (Proc.devRef .tc r) = W (Proc.devRef .tc r) :=
  StableHlo.after_of_forall_not_mem (b := Proc.devRef .tc r) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 170 hr (by decide))))

/-- No operation of stretch `hostOps8_1` writes a buffer whose index is at most 182. -/
theorem keep8_1 (W : Valuation τ sig (Elt Ideal)) (r : Ref sig .tc) (hr : r.idx.val ≤ 182) :
    StableHlo.after (hostOps8_1 : List (HloOp τ sig (Elt Ideal))) W (Proc.devRef .tc r) = W (Proc.devRef .tc r) :=
  StableHlo.after_of_forall_not_mem (b := Proc.devRef .tc r) _ _ (List.forall_iff_forall_mem.mp (by
    simp only [hostOps8_1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 182 hr (by decide))))

/-- No operation of stretch `hostOps8_2` writes a buffer whose index is at most 185. -/
theorem keep8_2 (W : Valuation τ sig (Elt Ideal)) (r : Ref sig .tc) (hr : r.idx.val ≤ 185) :
    StableHlo.after (hostOps8_2 : List (HloOp τ sig (Elt Ideal))) W (Proc.devRef .tc r) = W (Proc.devRef .tc r) :=
  StableHlo.after_of_forall_not_mem (b := Proc.devRef .tc r) _ _ (List.forall_iff_forall_mem.mp (by
    simp only [hostOps8_2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 185 hr (by decide))))

/-- No operation of stretch `hostOps9` writes a buffer whose index is at most 229. -/
theorem keep9 (W : Valuation τ sig (Elt Ideal)) (r : Ref sig .tc) (hr : r.idx.val ≤ 229) :
    StableHlo.after (hostOps9 : List (HloOp τ sig (Elt Ideal))) W (Proc.devRef .tc r) = W (Proc.devRef .tc r) :=
  StableHlo.after_of_forall_not_mem (b := Proc.devRef .tc r) _ _ (List.forall_iff_forall_mem.mp (by
    simp only [hostOps9, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 229 hr (by decide))))

/-- No operation of stretch `hostOps10` writes a buffer whose index is at most 240. -/
theorem keep10 (W : Valuation τ sig (Elt Ideal)) (r : Ref sig .tc) (hr : r.idx.val ≤ 240) :
    StableHlo.after (hostOps10 : List (HloOp τ sig (Elt Ideal))) W (Proc.devRef .tc r) = W (Proc.devRef .tc r) :=
  StableHlo.after_of_forall_not_mem (b := Proc.devRef .tc r) _ _ (List.forall_iff_forall_mem.mp (by
    simp only [hostOps10, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_idx_le 240 hr (by decide))))

end Cert.KerRun

end
-- ==== Proof.KerFoldHost.lean ====
/- # What each stretch of host operations computes

Between two pipelined regions the program runs a stretch of host operations, each writing one buffer from the
contents of earlier ones. Read at the buffer a later region or stretch consumes, a stretch is one function of the
buffers it finds:

* the first stretch cuts the `[2, 640000]` edge list into its row of source words and its row of target words, each
  as a flat column;
* the second flattens the `[640000, 1]` column of edge weights;
* a propagation stretch (three of them, one per layer, each run as three consecutive lists: the first two give the
  coefficient vector, the third the propagated features) takes the node features
  after the dense product, the two index columns and the edge weights to the propagated features: the weighted
  in-degree plus one, its inverse square root where positive, the edge coefficients, the messages summed at their
  targets, and the node's own row scaled by the squared coefficient;
* a statistics stretch (three of them) takes a region's column sums and column sums of squares to the column means
  and the column variances;
* the last stretch pools the node features by graph and applies the read-out.

Every statement is about an arbitrary assignment `W` of contents to the buffers: the stretch is a fold of its
operations over `W`, each operation replacing its own result buffer and leaving every other, and reading the fold at
one buffer unwinds it to the operations' functions applied to `W` at the buffers the stretch does not write. -/
import proofs.«161461_j70540542869949_1_alg».proof.Proof.Gen.KernelIdeal.Launch
import proofs.«161461_j70540542869949_1_alg».proof.Proof.KerTerm
import proofs.«161461_j70540542869949_1_alg».proof.Proof.KerFoldKeep
import Idealize.ShloMosaic.Lib.StableHlo.Run
import Idealize.ShloMosaic.PureOps.Ideal

set_option maxHeartbeats 1600000
-- a propagation stretch is a fold of 56 operations: reading it at its last buffer nests as deep
set_option maxRecDepth 16384

noncomputable section

namespace Cert.KerRun

open Idealize.ShloMosaic Idealize.ShloMosaic.TcCoe
open Cert.KernelIdeal Cert.KernelIdeal.Gen

/-- The source words: row 0 of the edge list, flat. -/
theorem host0_v1 (W : Valuation τ sig (Elt Ideal)) :
    (StableHlo.after (hostOps0 : List (HloOp τ sig (Elt Ideal))) W) (Proc.devRef .tc main_v1)
      = Cert.KerTerm.srcOf (W (Proc.devRef .tc main_arg1)) := by
  dsimp only [hostOps0]
  after_results_simp
  rfl

/-- The target words: row 1 of the edge list, flat. -/
theorem host0_v3 (W : Valuation τ sig (Elt Ideal)) :
    (StableHlo.after (hostOps0 : List (HloOp τ sig (Elt Ideal))) W) (Proc.devRef .tc main_v3)
      = Cert.KerTerm.dstOf (W (Proc.devRef .tc main_arg1)) := by
  dsimp only [hostOps0]
  after_results_simp
  rfl

/-- The edge weights as a flat column. -/
theorem host1_v5 (W : Valuation τ sig (Elt Ideal)) :
    (StableHlo.after (hostOps1 : List (HloOp τ sig (Elt Ideal))) W) (Proc.devRef .tc main_v5)
      = Cert.KerTerm.ewFlat (W (Proc.devRef .tc main_v4)) := by
  dsimp only [hostOps1]
  after_results_simp
  rfl

/-- The first list of the propagation stretch before region 2, read at its three results the second list reads:
    whether the weighted in-degree plus one is positive, its inverse square root, and a scalar zero. -/
theorem host2_cmp (W : Valuation τ sig (Elt Ideal)) :
    (StableHlo.after (hostOps2 : List (HloOp τ sig (Elt Ideal))) W) (Proc.devRef .tc main_v13)
      = cmpf .ogt (Cert.KerTerm.degOf (W (Proc.devRef .tc main_v3)) (W (Proc.devRef .tc main_v5)))
          (broadcastInDim S100000 ![] bcast_S_S100000 (constant (F := Ideal) S_ .f32 0x00000000#32)) := by
  dsimp only [hostOps2]
  after_results_simp
  rfl
theorem host2_rs (W : Valuation τ sig (Elt Ideal)) :
    (StableHlo.after (hostOps2 : List (HloOp τ sig (Elt Ideal))) W) (Proc.devRef .tc main_v14)
      = Host.rsqrt (F := Ideal) (Cert.KerTerm.degOf (W (Proc.devRef .tc main_v3)) (W (Proc.devRef .tc main_v5))) := by
  dsimp only [hostOps2]
  after_results_simp
  rfl
theorem host2_zero (W : Valuation τ sig (Elt Ideal)) :
    (StableHlo.after (hostOps2 : List (HloOp τ sig (Elt Ideal))) W) (Proc.devRef .tc main_cst_2) = (constant (F := Ideal) S_ .f32 0x00000000#32) := by
  dsimp only [hostOps2]
  after_results_simp

/-- The second list is a module-local function, a select against a scalar zero made a vector. Its operations carry
    their values at the function's own types, along an equation between a buffer's type and itself; over contents it
    does not know, the list read at its result is the select of what it finds. -/
theorem host2_1_sel (W : Valuation τ sig (Elt Ideal)) :
    (StableHlo.after (hostOps2_1 : List (HloOp τ sig (Elt Ideal))) W) (Proc.devRef .tc main_v15)
      = ((select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal))
          (W (Proc.devRef .tc main_v13)) (W (Proc.devRef .tc main_v14))
          (((broadcastInDim S100000 ![] bcast_S_S100000) : (⟨S_, .f32⟩ : BufTy).Contents (Elt Ideal) → (⟨S100000, .f32⟩ : BufTy).Contents (Elt Ideal)) (W (Proc.devRef .tc main_cst_2)))) := by
  dsimp only [hostOps2_1]
  after_results
  rfl

/-- The first two lists together, read at the coefficient vector: the inverse square root of the weighted in-degree
    plus one where that is positive, zero elsewhere. -/
theorem host2_dis (W : Valuation τ sig (Elt Ideal)) :
    (StableHlo.after (hostOps2_1 : List (HloOp τ sig (Elt Ideal))) (StableHlo.after (hostOps2 : List (HloOp τ sig (Elt Ideal))) W)) (Proc.devRef .tc main_v15)
      = Cert.KerTerm.disVec (Cert.KerTerm.degOf (W (Proc.devRef .tc main_v3)) (W (Proc.devRef .tc main_v5))) := by
  rw [host2_1_sel, host2_cmp, host2_rs, host2_zero]
  rfl

/-- The third list of the propagation stretch before region 2, read at the propagated features: the messages
    (the source's row times the edge's coefficient) summed at their targets, plus the node's own row scaled by the
    squared coefficient — from the dense product, the two index columns, the edge weights and the coefficient vector
    as the list finds them. -/
theorem host2_2_v49 (W : Valuation τ sig (Elt Ideal)) :
    (StableHlo.after (hostOps2_2 : List (HloOp τ sig (Elt Ideal))) W) (Proc.devRef .tc main_v49)
      = addf
          (Cert.KerTerm.aggOf (W (Proc.devRef .tc main_v3))
            (Cert.KerTerm.msgOf (W (Proc.devRef .tc main_v6)) (W (Proc.devRef .tc main_v1))
              (Cert.KerTerm.normOf (W (Proc.devRef .tc main_v15)) (W (Proc.devRef .tc main_v1)) (W (Proc.devRef .tc main_v3))
                (W (Proc.devRef .tc main_v5)))))
          (Cert.KerTerm.selfOf (W (Proc.devRef .tc main_v6)) (W (Proc.devRef .tc main_v15))) := by
  dsimp only [hostOps2_2]
  after_results_simp
  rfl

/-- The propagation stretch before region 2, its three lists run in order, read at the propagated features: one
    propagation step of the dense product along the edges. The third list finds the coefficient vector as the first
    two leave it, and the dense product, the index columns and the edge weights as the stretch found them, since the
    first two lists write none of these. -/
theorem host2_v49 (W : Valuation τ sig (Elt Ideal)) :
    (StableHlo.after (hostOps2_2 : List (HloOp τ sig (Elt Ideal))) (StableHlo.after (hostOps2_1 : List (HloOp τ sig (Elt Ideal))) (StableHlo.after (hostOps2 : List (HloOp τ sig (Elt Ideal))) W))) (Proc.devRef .tc main_v49)
      = Cert.KerTerm.prop (W (Proc.devRef .tc main_v6)) (W (Proc.devRef .tc main_v1)) (W (Proc.devRef .tc main_v3))
          (W (Proc.devRef .tc main_v5)) := by
  rw [host2_2_v49, host2_dis W,
    keep2_1 _ main_v6 (by decide), keep2 W main_v6 (by decide),
    keep2_1 _ main_v1 (by decide), keep2 W main_v1 (by decide),
    keep2_1 _ main_v3 (by decide), keep2 W main_v3 (by decide),
    keep2_1 _ main_v5 (by decide), keep2 W main_v5 (by decide)]
  rfl

/-- The first list of the propagation stretch before region 5, read at its three results the second list reads:
    whether the weighted in-degree plus one is positive, its inverse square root, and a scalar zero. -/
theorem host5_cmp (W : Valuation τ sig (Elt Ideal)) :
    (StableHlo.after (hostOps5 : List (HloOp τ sig (Elt Ideal))) W) (Proc.devRef .tc main_v67)
      = cmpf .ogt (Cert.KerTerm.degOf (W (Proc.devRef .tc main_v3)) (W (Proc.devRef .tc main_v5)))
          (broadcastInDim S100000 ![] bcast_S_S100000 (constant (F := Ideal) S_ .f32 0x00000000#32)) := by
  dsimp only [hostOps5]
  after_results_simp
  rfl
theorem host5_rs (W : Valuation τ sig (Elt Ideal)) :
    (StableHlo.after (hostOps5 : List (HloOp τ sig (Elt Ideal))) W) (Proc.devRef .tc main_v68)
      = Host.rsqrt (F := Ideal) (Cert.KerTerm.degOf (W (Proc.devRef .tc main_v3)) (W (Proc.devRef .tc main_v5))) := by
  dsimp only [hostOps5]
  after_results_simp
  rfl
theorem host5_zero (W : Valuation τ sig (Elt Ideal)) :
    (StableHlo.after (hostOps5 : List (HloOp τ sig (Elt Ideal))) W) (Proc.devRef .tc main_cst_14) = (constant (F := Ideal) S_ .f32 0x00000000#32) := by
  dsimp only [hostOps5]
  after_results_simp

/-- The second list is a module-local function, a select against a scalar zero made a vector. Its operations carry
    their values at the function's own types, along an equation between a buffer's type and itself; over contents it
    does not know, the list read at its result is the select of what it finds. -/
theorem host5_1_sel (W : Valuation τ sig (Elt Ideal)) :
    (StableHlo.after (hostOps5_1 : List (HloOp τ sig (Elt Ideal))) W) (Proc.devRef .tc main_v69)
      = ((select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal))
          (W (Proc.devRef .tc main_v67)) (W (Proc.devRef .tc main_v68))
          (((broadcastInDim S100000 ![] bcast_S_S100000) : (⟨S_, .f32⟩ : BufTy).Contents (Elt Ideal) → (⟨S100000, .f32⟩ : BufTy).Contents (Elt Ideal)) (W (Proc.devRef .tc main_cst_14)))) := by
  dsimp only [hostOps5_1]
  after_results
  rfl

/-- The first two lists together, read at the coefficient vector: the inverse square root of the weighted in-degree
    plus one where that is positive, zero elsewhere. -/
theorem host5_dis (W : Valuation τ sig (Elt Ideal)) :
    (StableHlo.after (hostOps5_1 : List (HloOp τ sig (Elt Ideal))) (StableHlo.after (hostOps5 : List (HloOp τ sig (Elt Ideal))) W)) (Proc.devRef .tc main_v69)
      = Cert.KerTerm.disVec (Cert.KerTerm.degOf (W (Proc.devRef .tc main_v3)) (W (Proc.devRef .tc main_v5))) := by
  rw [host5_1_sel, host5_cmp, host5_rs, host5_zero]
  rfl

/-- The third list of the propagation stretch before region 5, read at the propagated features: the messages
    (the source's row times the edge's coefficient) summed at their targets, plus the node's own row scaled by the
    squared coefficient — from the dense product, the two index columns, the edge weights and the coefficient vector
    as the list finds them. -/
theorem host5_2_v103 (W : Valuation τ sig (Elt Ideal)) :
    (StableHlo.after (hostOps5_2 : List (HloOp τ sig (Elt Ideal))) W) (Proc.devRef .tc main_v103)
      = addf
          (Cert.KerTerm.aggOf (W (Proc.devRef .tc main_v3))
            (Cert.KerTerm.msgOf (W (Proc.devRef .tc main_v60)) (W (Proc.devRef .tc main_v1))
              (Cert.KerTerm.normOf (W (Proc.devRef .tc main_v69)) (W (Proc.devRef .tc main_v1)) (W (Proc.devRef .tc main_v3))
                (W (Proc.devRef .tc main_v5)))))
          (Cert.KerTerm.selfOf (W (Proc.devRef .tc main_v60)) (W (Proc.devRef .tc main_v69))) := by
  dsimp only [hostOps5_2]
  after_results_simp
  rfl

/-- The propagation stretch before region 5, its three lists run in order, read at the propagated features: one
    propagation step of the dense product along the edges. The third list finds the coefficient vector as the first
    two leave it, and the dense product, the index columns and the edge weights as the stretch found them, since the
    first two lists write none of these. -/
theorem host5_v103 (W : Valuation τ sig (Elt Ideal)) :
    (StableHlo.after (hostOps5_2 : List (HloOp τ sig (Elt Ideal))) (StableHlo.after (hostOps5_1 : List (HloOp τ sig (Elt Ideal))) (StableHlo.after (hostOps5 : List (HloOp τ sig (Elt Ideal))) W))) (Proc.devRef .tc main_v103)
      = Cert.KerTerm.prop (W (Proc.devRef .tc main_v60)) (W (Proc.devRef .tc main_v1)) (W (Proc.devRef .tc main_v3))
          (W (Proc.devRef .tc main_v5)) := by
  rw [host5_2_v103, host5_dis W,
    keep5_1 _ main_v60 (by decide), keep5 W main_v60 (by decide),
    keep5_1 _ main_v1 (by decide), keep5 W main_v1 (by decide),
    keep5_1 _ main_v3 (by decide), keep5 W main_v3 (by decide),
    keep5_1 _ main_v5 (by decide), keep5 W main_v5 (by decide)]
  rfl

/-- The first list of the propagation stretch before region 8, read at its three results the second list reads:
    whether the weighted in-degree plus one is positive, its inverse square root, and a scalar zero. -/
theorem host8_cmp (W : Valuation τ sig (Elt Ideal)) :
    (StableHlo.after (hostOps8 : List (HloOp τ sig (Elt Ideal))) W) (Proc.devRef .tc main_v121)
      = cmpf .ogt (Cert.KerTerm.degOf (W (Proc.devRef .tc main_v3)) (W (Proc.devRef .tc main_v5)))
          (broadcastInDim S100000 ![] bcast_S_S100000 (constant (F := Ideal) S_ .f32 0x00000000#32)) := by
  dsimp only [hostOps8]
  after_results_simp
  rfl
theorem host8_rs (W : Valuation τ sig (Elt Ideal)) :
    (StableHlo.after (hostOps8 : List (HloOp τ sig (Elt Ideal))) W) (Proc.devRef .tc main_v122)
      = Host.rsqrt (F := Ideal) (Cert.KerTerm.degOf (W (Proc.devRef .tc main_v3)) (W (Proc.devRef .tc main_v5))) := by
  dsimp only [hostOps8]
  after_results_simp
  rfl
theorem host8_zero (W : Valuation τ sig (Elt Ideal)) :
    (StableHlo.after (hostOps8 : List (HloOp τ sig (Elt Ideal))) W) (Proc.devRef .tc main_cst_27) = (constant (F := Ideal) S_ .f32 0x00000000#32) := by
  dsimp only [hostOps8]
  after_results_simp

/-- The second list is a module-local function, a select against a scalar zero made a vector. Its operations carry
    their values at the function's own types, along an equation between a buffer's type and itself; over contents it
    does not know, the list read at its result is the select of what it finds. -/
theorem host8_1_sel (W : Valuation τ sig (Elt Ideal)) :
    (StableHlo.after (hostOps8_1 : List (HloOp τ sig (Elt Ideal))) W) (Proc.devRef .tc main_v123)
      = ((select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal))
          (W (Proc.devRef .tc main_v121)) (W (Proc.devRef .tc main_v122))
          (((broadcastInDim S100000 ![] bcast_S_S100000) : (⟨S_, .f32⟩ : BufTy).Contents (Elt Ideal) → (⟨S100000, .f32⟩ : BufTy).Contents (Elt Ideal)) (W (Proc.devRef .tc main_cst_27)))) := by
  dsimp only [hostOps8_1]
  after_results
  rfl

/-- The first two lists together, read at the coefficient vector: the inverse square root of the weighted in-degree
    plus one where that is positive, zero elsewhere. -/
theorem host8_dis (W : Valuation τ sig (Elt Ideal)) :
    (StableHlo.after (hostOps8_1 : List (HloOp τ sig (Elt Ideal))) (StableHlo.after (hostOps8 : List (HloOp τ sig (Elt Ideal))) W)) (Proc.devRef .tc main_v123)
      = Cert.KerTerm.disVec (Cert.KerTerm.degOf (W (Proc.devRef .tc main_v3)) (W (Proc.devRef .tc main_v5))) := by
  rw [host8_1_sel, host8_cmp, host8_rs, host8_zero]
  rfl

/-- The third list of the propagation stretch before region 8, read at the propagated features: the messages
    (the source's row times the edge's coefficient) summed at their targets, plus the node's own row scaled by the
    squared coefficient — from the dense product, the two index columns, the edge weights and the coefficient vector
    as the list finds them. -/
theorem host8_2_v157 (W : Valuation τ sig (Elt Ideal)) :
    (StableHlo.after (hostOps8_2 : List (HloOp τ sig (Elt Ideal))) W) (Proc.devRef .tc main_v157)
      = addf
          (Cert.KerTerm.aggOf (W (Proc.devRef .tc main_v3))
            (Cert.KerTerm.msgOf (W (Proc.devRef .tc main_v114)) (W (Proc.devRef .tc main_v1))
              (Cert.KerTerm.normOf (W (Proc.devRef .tc main_v123)) (W (Proc.devRef .tc main_v1)) (W (Proc.devRef .tc main_v3))
                (W (Proc.devRef .tc main_v5)))))
          (Cert.KerTerm.selfOf (W (Proc.devRef .tc main_v114)) (W (Proc.devRef .tc main_v123))) := by
  dsimp only [hostOps8_2]
  after_results_simp
  rfl

/-- The propagation stretch before region 8, its three lists run in order, read at the propagated features: one
    propagation step of the dense product along the edges. The third list finds the coefficient vector as the first
    two leave it, and the dense product, the index columns and the edge weights as the stretch found them, since the
    first two lists write none of these. -/
theorem host8_v157 (W : Valuation τ sig (Elt Ideal)) :
    (StableHlo.after (hostOps8_2 : List (HloOp τ sig (Elt Ideal))) (StableHlo.after (hostOps8_1 : List (HloOp τ sig (Elt Ideal))) (StableHlo.after (hostOps8 : List (HloOp τ sig (Elt Ideal))) W))) (Proc.devRef .tc main_v157)
      = Cert.KerTerm.prop (W (Proc.devRef .tc main_v114)) (W (Proc.devRef .tc main_v1)) (W (Proc.devRef .tc main_v3))
          (W (Proc.devRef .tc main_v5)) := by
  rw [host8_2_v157, host8_dis W,
    keep8_1 _ main_v114 (by decide), keep8 W main_v114 (by decide),
    keep8_1 _ main_v1 (by decide), keep8 W main_v1 (by decide),
    keep8_1 _ main_v3 (by decide), keep8 W main_v3 (by decide),
    keep8_1 _ main_v5 (by decide), keep8 W main_v5 (by decide)]
  rfl

/-- The column means after region 2. -/
theorem host3_v53 (W : Valuation τ sig (Elt Ideal)) :
    (StableHlo.after (hostOps3 : List (HloOp τ sig (Elt Ideal))) W) (Proc.devRef .tc main_v53)
      = Cert.KerTerm.meanOf (W (Proc.devRef .tc main_v50_1)) := by
  dsimp only [hostOps3]
  after_results_simp
  rfl

/-- The column variances after region 2. -/
theorem host3_v58 (W : Valuation τ sig (Elt Ideal)) :
    (StableHlo.after (hostOps3 : List (HloOp τ sig (Elt Ideal))) W) (Proc.devRef .tc main_v58)
      = Cert.KerTerm.varOf (W (Proc.devRef .tc main_v50_1)) (W (Proc.devRef .tc main_v50_2)) := by
  dsimp only [hostOps3]
  after_results_simp
  rfl

/-- The column means after region 5. -/
theorem host6_v107 (W : Valuation τ sig (Elt Ideal)) :
    (StableHlo.after (hostOps6 : List (HloOp τ sig (Elt Ideal))) W) (Proc.devRef .tc main_v107)
      = Cert.KerTerm.meanOf (W (Proc.devRef .tc main_v104_1)) := by
  dsimp only [hostOps6]
  after_results_simp
  rfl

/-- The column variances after region 5. -/
theorem host6_v112 (W : Valuation τ sig (Elt Ideal)) :
    (StableHlo.after (hostOps6 : List (HloOp τ sig (Elt Ideal))) W) (Proc.devRef .tc main_v112)
      = Cert.KerTerm.varOf (W (Proc.devRef .tc main_v104_1)) (W (Proc.devRef .tc main_v104_2)) := by
  dsimp only [hostOps6]
  after_results_simp
  rfl

/-- The column means after region 8. -/
theorem host9_v161 (W : Valuation τ sig (Elt Ideal)) :
    (StableHlo.after (hostOps9 : List (HloOp τ sig (Elt Ideal))) W) (Proc.devRef .tc main_v161)
      = Cert.KerTerm.meanOf (W (Proc.devRef .tc main_v158_1)) := by
  dsimp only [hostOps9]
  after_results_simp
  rfl

/-- The column variances after region 8. -/
theorem host9_v166 (W : Valuation τ sig (Elt Ideal)) :
    (StableHlo.after (hostOps9 : List (HloOp τ sig (Elt Ideal))) W) (Proc.devRef .tc main_v166)
      = Cert.KerTerm.varOf (W (Proc.devRef .tc main_v158_1)) (W (Proc.devRef .tc main_v158_2)) := by
  dsimp only [hostOps9]
  after_results_simp
  rfl

/-- The pooled read-out: the program's result. -/
theorem host10_v185 (W : Valuation τ sig (Elt Ideal)) :
    (StableHlo.after (hostOps10 : List (HloOp τ sig (Elt Ideal))) W) (Proc.devRef .tc main_v185)
      = Cert.KerTerm.tail (W (Proc.devRef .tc main_v167)) (W (Proc.devRef .tc main_arg3)) (W (Proc.devRef .tc main_arg20)) (W (Proc.devRef .tc main_arg21)) := by
  dsimp only [hostOps10]
  after_results_simp
  rfl

end Cert.KerRun

end
-- ==== Proof.KerFoldWalk.lean ====
/- # Buffers that reach a later boundary of the program as they were

The program is a sequence of segments, each a stretch of host operations or a pipelined region, and the contents of
the buffers at the boundary after a segment are the segment applied to the contents at the boundary before it. A
stretch leaves every buffer defined before it; a region leaves every buffer that is none of its windows' arrays. Each
lemma below says that one buffer holds at a later boundary what it held at an earlier one, or at launch, by walking
back over the segments between the two: an argument up to the boundary where a region or a stretch reads it, an index
column or the edge weights from one layer's propagation stretch to the next. The cases are the rows of one table;
every case is the same walk. -/
import proofs.«161461_j70540542869949_1_alg».proof.Proof.Gen.KernelIdeal.Frame
import proofs.«161461_j70540542869949_1_alg».proof.Proof.KerFoldKeep

noncomputable section

namespace Cert.KerRun

open Idealize.ShloMosaic Idealize.ShloMosaic.TcCoe
open Cert.KernelIdeal Cert.KernelIdeal.Gen

variable (m : (ℓ : Loc nD τ sig) → Buf (Elt Ideal) ℓ) (ρ : Dev nD → PrngReg) (c : Dev nD)

theorem W1_arg2 : W1 (F := Ideal) m ρ c (Proc.devRef .tc main_arg2) = m ((c.tc : Thread nD τ).loc main_arg2) :=
  (keep0 (W0 (F := Ideal) m ρ c) main_arg2 (by decide)).trans rfl

theorem W1_arg4 : W1 (F := Ideal) m ρ c (Proc.devRef .tc main_arg4) = m ((c.tc : Thread nD τ).loc main_arg4) :=
  (keep0 (W0 (F := Ideal) m ρ c) main_arg4 (by decide)).trans rfl

theorem W1_arg5 : W1 (F := Ideal) m ρ c (Proc.devRef .tc main_arg5) = m ((c.tc : Thread nD τ).loc main_arg5) :=
  (keep0 (W0 (F := Ideal) m ρ c) main_arg5 (by decide)).trans rfl

theorem W1_arg6 : W1 (F := Ideal) m ρ c (Proc.devRef .tc main_arg6) = m ((c.tc : Thread nD τ).loc main_arg6) :=
  (keep0 (W0 (F := Ideal) m ρ c) main_arg6 (by decide)).trans rfl

theorem W1_arg7 : W1 (F := Ideal) m ρ c (Proc.devRef .tc main_arg7) = m ((c.tc : Thread nD τ).loc main_arg7) :=
  (keep0 (W0 (F := Ideal) m ρ c) main_arg7 (by decide)).trans rfl

theorem W3_arg0 : W3 (F := Ideal) m ρ c (Proc.devRef .tc main_arg0) = m ((c.tc : Thread nD τ).loc main_arg0) :=
  ((keep1 (W2 (F := Ideal) m ρ c) main_arg0 (by decide)).trans ((W2_of_ne (F := Ideal) m ρ c main_arg0 (by decide)).trans (keep0 (W0 (F := Ideal) m ρ c) main_arg0 (by decide)))).trans rfl

theorem W3_arg8 : W3 (F := Ideal) m ρ c (Proc.devRef .tc main_arg8) = m ((c.tc : Thread nD τ).loc main_arg8) :=
  ((keep1 (W2 (F := Ideal) m ρ c) main_arg8 (by decide)).trans ((W2_of_ne (F := Ideal) m ρ c main_arg8 (by decide)).trans (keep0 (W0 (F := Ideal) m ρ c) main_arg8 (by decide)))).trans rfl

theorem W7_arg9 : W7 (F := Ideal) m ρ c (Proc.devRef .tc main_arg9) = m ((c.tc : Thread nD τ).loc main_arg9) :=
  ((keep2_2 (W6 (F := Ideal) m ρ c) main_arg9 (by decide)).trans ((keep2_1 (W5 (F := Ideal) m ρ c) main_arg9 (by decide)).trans ((keep2 (W4 (F := Ideal) m ρ c) main_arg9 (by decide)).trans ((W4_of_ne (F := Ideal) m ρ c main_arg9 (by decide)).trans ((keep1 (W2 (F := Ideal) m ρ c) main_arg9 (by decide)).trans ((W2_of_ne (F := Ideal) m ρ c main_arg9 (by decide)).trans (keep0 (W0 (F := Ideal) m ρ c) main_arg9 (by decide)))))))).trans rfl

theorem W9_arg10 : W9 (F := Ideal) m ρ c (Proc.devRef .tc main_arg10) = m ((c.tc : Thread nD τ).loc main_arg10) :=
  ((keep3 (W8 (F := Ideal) m ρ c) main_arg10 (by decide)).trans ((W8_of_ne (F := Ideal) m ρ c main_arg10 (by decide)).trans ((keep2_2 (W6 (F := Ideal) m ρ c) main_arg10 (by decide)).trans ((keep2_1 (W5 (F := Ideal) m ρ c) main_arg10 (by decide)).trans ((keep2 (W4 (F := Ideal) m ρ c) main_arg10 (by decide)).trans ((W4_of_ne (F := Ideal) m ρ c main_arg10 (by decide)).trans ((keep1 (W2 (F := Ideal) m ρ c) main_arg10 (by decide)).trans ((W2_of_ne (F := Ideal) m ρ c main_arg10 (by decide)).trans (keep0 (W0 (F := Ideal) m ρ c) main_arg10 (by decide)))))))))).trans rfl

theorem W9_arg11 : W9 (F := Ideal) m ρ c (Proc.devRef .tc main_arg11) = m ((c.tc : Thread nD τ).loc main_arg11) :=
  ((keep3 (W8 (F := Ideal) m ρ c) main_arg11 (by decide)).trans ((W8_of_ne (F := Ideal) m ρ c main_arg11 (by decide)).trans ((keep2_2 (W6 (F := Ideal) m ρ c) main_arg11 (by decide)).trans ((keep2_1 (W5 (F := Ideal) m ρ c) main_arg11 (by decide)).trans ((keep2 (W4 (F := Ideal) m ρ c) main_arg11 (by decide)).trans ((W4_of_ne (F := Ideal) m ρ c main_arg11 (by decide)).trans ((keep1 (W2 (F := Ideal) m ρ c) main_arg11 (by decide)).trans ((W2_of_ne (F := Ideal) m ρ c main_arg11 (by decide)).trans (keep0 (W0 (F := Ideal) m ρ c) main_arg11 (by decide)))))))))).trans rfl

theorem W10_arg12 : W10 (F := Ideal) m ρ c (Proc.devRef .tc main_arg12) = m ((c.tc : Thread nD τ).loc main_arg12) :=
  ((W10_of_ne (F := Ideal) m ρ c main_arg12 (by decide)).trans ((keep3 (W8 (F := Ideal) m ρ c) main_arg12 (by decide)).trans ((W8_of_ne (F := Ideal) m ρ c main_arg12 (by decide)).trans ((keep2_2 (W6 (F := Ideal) m ρ c) main_arg12 (by decide)).trans ((keep2_1 (W5 (F := Ideal) m ρ c) main_arg12 (by decide)).trans ((keep2 (W4 (F := Ideal) m ρ c) main_arg12 (by decide)).trans ((W4_of_ne (F := Ideal) m ρ c main_arg12 (by decide)).trans ((keep1 (W2 (F := Ideal) m ρ c) main_arg12 (by decide)).trans ((W2_of_ne (F := Ideal) m ρ c main_arg12 (by decide)).trans (keep0 (W0 (F := Ideal) m ρ c) main_arg12 (by decide))))))))))).trans rfl

theorem W14_arg13 : W14 (F := Ideal) m ρ c (Proc.devRef .tc main_arg13) = m ((c.tc : Thread nD τ).loc main_arg13) :=
  ((keep5_2 (W13 (F := Ideal) m ρ c) main_arg13 (by decide)).trans ((keep5_1 (W12 (F := Ideal) m ρ c) main_arg13 (by decide)).trans ((keep5 (W11 (F := Ideal) m ρ c) main_arg13 (by decide)).trans ((W11_of_ne (F := Ideal) m ρ c main_arg13 (by decide)).trans ((W10_of_ne (F := Ideal) m ρ c main_arg13 (by decide)).trans ((keep3 (W8 (F := Ideal) m ρ c) main_arg13 (by decide)).trans ((W8_of_ne (F := Ideal) m ρ c main_arg13 (by decide)).trans ((keep2_2 (W6 (F := Ideal) m ρ c) main_arg13 (by decide)).trans ((keep2_1 (W5 (F := Ideal) m ρ c) main_arg13 (by decide)).trans ((keep2 (W4 (F := Ideal) m ρ c) main_arg13 (by decide)).trans ((W4_of_ne (F := Ideal) m ρ c main_arg13 (by decide)).trans ((keep1 (W2 (F := Ideal) m ρ c) main_arg13 (by decide)).trans ((W2_of_ne (F := Ideal) m ρ c main_arg13 (by decide)).trans (keep0 (W0 (F := Ideal) m ρ c) main_arg13 (by decide))))))))))))))).trans rfl

theorem W16_arg14 : W16 (F := Ideal) m ρ c (Proc.devRef .tc main_arg14) = m ((c.tc : Thread nD τ).loc main_arg14) :=
  ((keep6 (W15 (F := Ideal) m ρ c) main_arg14 (by decide)).trans ((W15_of_ne (F := Ideal) m ρ c main_arg14 (by decide)).trans ((keep5_2 (W13 (F := Ideal) m ρ c) main_arg14 (by decide)).trans ((keep5_1 (W12 (F := Ideal) m ρ c) main_arg14 (by decide)).trans ((keep5 (W11 (F := Ideal) m ρ c) main_arg14 (by decide)).trans ((W11_of_ne (F := Ideal) m ρ c main_arg14 (by decide)).trans ((W10_of_ne (F := Ideal) m ρ c main_arg14 (by decide)).trans ((keep3 (W8 (F := Ideal) m ρ c) main_arg14 (by decide)).trans ((W8_of_ne (F := Ideal) m ρ c main_arg14 (by decide)).trans ((keep2_2 (W6 (F := Ideal) m ρ c) main_arg14 (by decide)).trans ((keep2_1 (W5 (F := Ideal) m ρ c) main_arg14 (by decide)).trans ((keep2 (W4 (F := Ideal) m ρ c) main_arg14 (by decide)).trans ((W4_of_ne (F := Ideal) m ρ c main_arg14 (by decide)).trans ((keep1 (W2 (F := Ideal) m ρ c) main_arg14 (by decide)).trans ((W2_of_ne (F := Ideal) m ρ c main_arg14 (by decide)).trans (keep0 (W0 (F := Ideal) m ρ c) main_arg14 (by decide))))))))))))))))).trans rfl

theorem W16_arg15 : W16 (F := Ideal) m ρ c (Proc.devRef .tc main_arg15) = m ((c.tc : Thread nD τ).loc main_arg15) :=
  ((keep6 (W15 (F := Ideal) m ρ c) main_arg15 (by decide)).trans ((W15_of_ne (F := Ideal) m ρ c main_arg15 (by decide)).trans ((keep5_2 (W13 (F := Ideal) m ρ c) main_arg15 (by decide)).trans ((keep5_1 (W12 (F := Ideal) m ρ c) main_arg15 (by decide)).trans ((keep5 (W11 (F := Ideal) m ρ c) main_arg15 (by decide)).trans ((W11_of_ne (F := Ideal) m ρ c main_arg15 (by decide)).trans ((W10_of_ne (F := Ideal) m ρ c main_arg15 (by decide)).trans ((keep3 (W8 (F := Ideal) m ρ c) main_arg15 (by decide)).trans ((W8_of_ne (F := Ideal) m ρ c main_arg15 (by decide)).trans ((keep2_2 (W6 (F := Ideal) m ρ c) main_arg15 (by decide)).trans ((keep2_1 (W5 (F := Ideal) m ρ c) main_arg15 (by decide)).trans ((keep2 (W4 (F := Ideal) m ρ c) main_arg15 (by decide)).trans ((W4_of_ne (F := Ideal) m ρ c main_arg15 (by decide)).trans ((keep1 (W2 (F := Ideal) m ρ c) main_arg15 (by decide)).trans ((W2_of_ne (F := Ideal) m ρ c main_arg15 (by decide)).trans (keep0 (W0 (F := Ideal) m ρ c) main_arg15 (by decide))))))))))))))))).trans rfl

theorem W17_arg16 : W17 (F := Ideal) m ρ c (Proc.devRef .tc main_arg16) = m ((c.tc : Thread nD τ).loc main_arg16) :=
  ((W17_of_ne (F := Ideal) m ρ c main_arg16 (by decide)).trans ((keep6 (W15 (F := Ideal) m ρ c) main_arg16 (by decide)).trans ((W15_of_ne (F := Ideal) m ρ c main_arg16 (by decide)).trans ((keep5_2 (W13 (F := Ideal) m ρ c) main_arg16 (by decide)).trans ((keep5_1 (W12 (F := Ideal) m ρ c) main_arg16 (by decide)).trans ((keep5 (W11 (F := Ideal) m ρ c) main_arg16 (by decide)).trans ((W11_of_ne (F := Ideal) m ρ c main_arg16 (by decide)).trans ((W10_of_ne (F := Ideal) m ρ c main_arg16 (by decide)).trans ((keep3 (W8 (F := Ideal) m ρ c) main_arg16 (by decide)).trans ((W8_of_ne (F := Ideal) m ρ c main_arg16 (by decide)).trans ((keep2_2 (W6 (F := Ideal) m ρ c) main_arg16 (by decide)).trans ((keep2_1 (W5 (F := Ideal) m ρ c) main_arg16 (by decide)).trans ((keep2 (W4 (F := Ideal) m ρ c) main_arg16 (by decide)).trans ((W4_of_ne (F := Ideal) m ρ c main_arg16 (by decide)).trans ((keep1 (W2 (F := Ideal) m ρ c) main_arg16 (by decide)).trans ((W2_of_ne (F := Ideal) m ρ c main_arg16 (by decide)).trans (keep0 (W0 (F := Ideal) m ρ c) main_arg16 (by decide)))))))))))))))))).trans rfl

theorem W21_arg17 : W21 (F := Ideal) m ρ c (Proc.devRef .tc main_arg17) = m ((c.tc : Thread nD τ).loc main_arg17) :=
  ((keep8_2 (W20 (F := Ideal) m ρ c) main_arg17 (by decide)).trans ((keep8_1 (W19 (F := Ideal) m ρ c) main_arg17 (by decide)).trans ((keep8 (W18 (F := Ideal) m ρ c) main_arg17 (by decide)).trans ((W18_of_ne (F := Ideal) m ρ c main_arg17 (by decide)).trans ((W17_of_ne (F := Ideal) m ρ c main_arg17 (by decide)).trans ((keep6 (W15 (F := Ideal) m ρ c) main_arg17 (by decide)).trans ((W15_of_ne (F := Ideal) m ρ c main_arg17 (by decide)).trans ((keep5_2 (W13 (F := Ideal) m ρ c) main_arg17 (by decide)).trans ((keep5_1 (W12 (F := Ideal) m ρ c) main_arg17 (by decide)).trans ((keep5 (W11 (F := Ideal) m ρ c) main_arg17 (by decide)).trans ((W11_of_ne (F := Ideal) m ρ c main_arg17 (by decide)).trans ((W10_of_ne (F := Ideal) m ρ c main_arg17 (by decide)).trans ((keep3 (W8 (F := Ideal) m ρ c) main_arg17 (by decide)).trans ((W8_of_ne (F := Ideal) m ρ c main_arg17 (by decide)).trans ((keep2_2 (W6 (F := Ideal) m ρ c) main_arg17 (by decide)).trans ((keep2_1 (W5 (F := Ideal) m ρ c) main_arg17 (by decide)).trans ((keep2 (W4 (F := Ideal) m ρ c) main_arg17 (by decide)).trans ((W4_of_ne (F := Ideal) m ρ c main_arg17 (by decide)).trans ((keep1 (W2 (F := Ideal) m ρ c) main_arg17 (by decide)).trans ((W2_of_ne (F := Ideal) m ρ c main_arg17 (by decide)).trans (keep0 (W0 (F := Ideal) m ρ c) main_arg17 (by decide)))))))))))))))))))))).trans rfl

theorem W23_arg18 : W23 (F := Ideal) m ρ c (Proc.devRef .tc main_arg18) = m ((c.tc : Thread nD τ).loc main_arg18) :=
  ((keep9 (W22 (F := Ideal) m ρ c) main_arg18 (by decide)).trans ((W22_of_ne (F := Ideal) m ρ c main_arg18 (by decide)).trans ((keep8_2 (W20 (F := Ideal) m ρ c) main_arg18 (by decide)).trans ((keep8_1 (W19 (F := Ideal) m ρ c) main_arg18 (by decide)).trans ((keep8 (W18 (F := Ideal) m ρ c) main_arg18 (by decide)).trans ((W18_of_ne (F := Ideal) m ρ c main_arg18 (by decide)).trans ((W17_of_ne (F := Ideal) m ρ c main_arg18 (by decide)).trans ((keep6 (W15 (F := Ideal) m ρ c) main_arg18 (by decide)).trans ((W15_of_ne (F := Ideal) m ρ c main_arg18 (by decide)).trans ((keep5_2 (W13 (F := Ideal) m ρ c) main_arg18 (by decide)).trans ((keep5_1 (W12 (F := Ideal) m ρ c) main_arg18 (by decide)).trans ((keep5 (W11 (F := Ideal) m ρ c) main_arg18 (by decide)).trans ((W11_of_ne (F := Ideal) m ρ c main_arg18 (by decide)).trans ((W10_of_ne (F := Ideal) m ρ c main_arg18 (by decide)).trans ((keep3 (W8 (F := Ideal) m ρ c) main_arg18 (by decide)).trans ((W8_of_ne (F := Ideal) m ρ c main_arg18 (by decide)).trans ((keep2_2 (W6 (F := Ideal) m ρ c) main_arg18 (by decide)).trans ((keep2_1 (W5 (F := Ideal) m ρ c) main_arg18 (by decide)).trans ((keep2 (W4 (F := Ideal) m ρ c) main_arg18 (by decide)).trans ((W4_of_ne (F := Ideal) m ρ c main_arg18 (by decide)).trans ((keep1 (W2 (F := Ideal) m ρ c) main_arg18 (by decide)).trans ((W2_of_ne (F := Ideal) m ρ c main_arg18 (by decide)).trans (keep0 (W0 (F := Ideal) m ρ c) main_arg18 (by decide)))))))))))))))))))))))).trans rfl

theorem W23_arg19 : W23 (F := Ideal) m ρ c (Proc.devRef .tc main_arg19) = m ((c.tc : Thread nD τ).loc main_arg19) :=
  ((keep9 (W22 (F := Ideal) m ρ c) main_arg19 (by decide)).trans ((W22_of_ne (F := Ideal) m ρ c main_arg19 (by decide)).trans ((keep8_2 (W20 (F := Ideal) m ρ c) main_arg19 (by decide)).trans ((keep8_1 (W19 (F := Ideal) m ρ c) main_arg19 (by decide)).trans ((keep8 (W18 (F := Ideal) m ρ c) main_arg19 (by decide)).trans ((W18_of_ne (F := Ideal) m ρ c main_arg19 (by decide)).trans ((W17_of_ne (F := Ideal) m ρ c main_arg19 (by decide)).trans ((keep6 (W15 (F := Ideal) m ρ c) main_arg19 (by decide)).trans ((W15_of_ne (F := Ideal) m ρ c main_arg19 (by decide)).trans ((keep5_2 (W13 (F := Ideal) m ρ c) main_arg19 (by decide)).trans ((keep5_1 (W12 (F := Ideal) m ρ c) main_arg19 (by decide)).trans ((keep5 (W11 (F := Ideal) m ρ c) main_arg19 (by decide)).trans ((W11_of_ne (F := Ideal) m ρ c main_arg19 (by decide)).trans ((W10_of_ne (F := Ideal) m ρ c main_arg19 (by decide)).trans ((keep3 (W8 (F := Ideal) m ρ c) main_arg19 (by decide)).trans ((W8_of_ne (F := Ideal) m ρ c main_arg19 (by decide)).trans ((keep2_2 (W6 (F := Ideal) m ρ c) main_arg19 (by decide)).trans ((keep2_1 (W5 (F := Ideal) m ρ c) main_arg19 (by decide)).trans ((keep2 (W4 (F := Ideal) m ρ c) main_arg19 (by decide)).trans ((W4_of_ne (F := Ideal) m ρ c main_arg19 (by decide)).trans ((keep1 (W2 (F := Ideal) m ρ c) main_arg19 (by decide)).trans ((W2_of_ne (F := Ideal) m ρ c main_arg19 (by decide)).trans (keep0 (W0 (F := Ideal) m ρ c) main_arg19 (by decide)))))))))))))))))))))))).trans rfl

theorem W24_arg3 : W24 (F := Ideal) m ρ c (Proc.devRef .tc main_arg3) = m ((c.tc : Thread nD τ).loc main_arg3) :=
  ((W24_of_ne (F := Ideal) m ρ c main_arg3 (by decide)).trans ((keep9 (W22 (F := Ideal) m ρ c) main_arg3 (by decide)).trans ((W22_of_ne (F := Ideal) m ρ c main_arg3 (by decide)).trans ((keep8_2 (W20 (F := Ideal) m ρ c) main_arg3 (by decide)).trans ((keep8_1 (W19 (F := Ideal) m ρ c) main_arg3 (by decide)).trans ((keep8 (W18 (F := Ideal) m ρ c) main_arg3 (by decide)).trans ((W18_of_ne (F := Ideal) m ρ c main_arg3 (by decide)).trans ((W17_of_ne (F := Ideal) m ρ c main_arg3 (by decide)).trans ((keep6 (W15 (F := Ideal) m ρ c) main_arg3 (by decide)).trans ((W15_of_ne (F := Ideal) m ρ c main_arg3 (by decide)).trans ((keep5_2 (W13 (F := Ideal) m ρ c) main_arg3 (by decide)).trans ((keep5_1 (W12 (F := Ideal) m ρ c) main_arg3 (by decide)).trans ((keep5 (W11 (F := Ideal) m ρ c) main_arg3 (by decide)).trans ((W11_of_ne (F := Ideal) m ρ c main_arg3 (by decide)).trans ((W10_of_ne (F := Ideal) m ρ c main_arg3 (by decide)).trans ((keep3 (W8 (F := Ideal) m ρ c) main_arg3 (by decide)).trans ((W8_of_ne (F := Ideal) m ρ c main_arg3 (by decide)).trans ((keep2_2 (W6 (F := Ideal) m ρ c) main_arg3 (by decide)).trans ((keep2_1 (W5 (F := Ideal) m ρ c) main_arg3 (by decide)).trans ((keep2 (W4 (F := Ideal) m ρ c) main_arg3 (by decide)).trans ((W4_of_ne (F := Ideal) m ρ c main_arg3 (by decide)).trans ((keep1 (W2 (F := Ideal) m ρ c) main_arg3 (by decide)).trans ((W2_of_ne (F := Ideal) m ρ c main_arg3 (by decide)).trans (keep0 (W0 (F := Ideal) m ρ c) main_arg3 (by decide))))))))))))))))))))))))).trans rfl

theorem W24_arg20 : W24 (F := Ideal) m ρ c (Proc.devRef .tc main_arg20) = m ((c.tc : Thread nD τ).loc main_arg20) :=
  ((W24_of_ne (F := Ideal) m ρ c main_arg20 (by decide)).trans ((keep9 (W22 (F := Ideal) m ρ c) main_arg20 (by decide)).trans ((W22_of_ne (F := Ideal) m ρ c main_arg20 (by decide)).trans ((keep8_2 (W20 (F := Ideal) m ρ c) main_arg20 (by decide)).trans ((keep8_1 (W19 (F := Ideal) m ρ c) main_arg20 (by decide)).trans ((keep8 (W18 (F := Ideal) m ρ c) main_arg20 (by decide)).trans ((W18_of_ne (F := Ideal) m ρ c main_arg20 (by decide)).trans ((W17_of_ne (F := Ideal) m ρ c main_arg20 (by decide)).trans ((keep6 (W15 (F := Ideal) m ρ c) main_arg20 (by decide)).trans ((W15_of_ne (F := Ideal) m ρ c main_arg20 (by decide)).trans ((keep5_2 (W13 (F := Ideal) m ρ c) main_arg20 (by decide)).trans ((keep5_1 (W12 (F := Ideal) m ρ c) main_arg20 (by decide)).trans ((keep5 (W11 (F := Ideal) m ρ c) main_arg20 (by decide)).trans ((W11_of_ne (F := Ideal) m ρ c main_arg20 (by decide)).trans ((W10_of_ne (F := Ideal) m ρ c main_arg20 (by decide)).trans ((keep3 (W8 (F := Ideal) m ρ c) main_arg20 (by decide)).trans ((W8_of_ne (F := Ideal) m ρ c main_arg20 (by decide)).trans ((keep2_2 (W6 (F := Ideal) m ρ c) main_arg20 (by decide)).trans ((keep2_1 (W5 (F := Ideal) m ρ c) main_arg20 (by decide)).trans ((keep2 (W4 (F := Ideal) m ρ c) main_arg20 (by decide)).trans ((W4_of_ne (F := Ideal) m ρ c main_arg20 (by decide)).trans ((keep1 (W2 (F := Ideal) m ρ c) main_arg20 (by decide)).trans ((W2_of_ne (F := Ideal) m ρ c main_arg20 (by decide)).trans (keep0 (W0 (F := Ideal) m ρ c) main_arg20 (by decide))))))))))))))))))))))))).trans rfl

theorem W24_arg21 : W24 (F := Ideal) m ρ c (Proc.devRef .tc main_arg21) = m ((c.tc : Thread nD τ).loc main_arg21) :=
  ((W24_of_ne (F := Ideal) m ρ c main_arg21 (by decide)).trans ((keep9 (W22 (F := Ideal) m ρ c) main_arg21 (by decide)).trans ((W22_of_ne (F := Ideal) m ρ c main_arg21 (by decide)).trans ((keep8_2 (W20 (F := Ideal) m ρ c) main_arg21 (by decide)).trans ((keep8_1 (W19 (F := Ideal) m ρ c) main_arg21 (by decide)).trans ((keep8 (W18 (F := Ideal) m ρ c) main_arg21 (by decide)).trans ((W18_of_ne (F := Ideal) m ρ c main_arg21 (by decide)).trans ((W17_of_ne (F := Ideal) m ρ c main_arg21 (by decide)).trans ((keep6 (W15 (F := Ideal) m ρ c) main_arg21 (by decide)).trans ((W15_of_ne (F := Ideal) m ρ c main_arg21 (by decide)).trans ((keep5_2 (W13 (F := Ideal) m ρ c) main_arg21 (by decide)).trans ((keep5_1 (W12 (F := Ideal) m ρ c) main_arg21 (by decide)).trans ((keep5 (W11 (F := Ideal) m ρ c) main_arg21 (by decide)).trans ((W11_of_ne (F := Ideal) m ρ c main_arg21 (by decide)).trans ((W10_of_ne (F := Ideal) m ρ c main_arg21 (by decide)).trans ((keep3 (W8 (F := Ideal) m ρ c) main_arg21 (by decide)).trans ((W8_of_ne (F := Ideal) m ρ c main_arg21 (by decide)).trans ((keep2_2 (W6 (F := Ideal) m ρ c) main_arg21 (by decide)).trans ((keep2_1 (W5 (F := Ideal) m ρ c) main_arg21 (by decide)).trans ((keep2 (W4 (F := Ideal) m ρ c) main_arg21 (by decide)).trans ((W4_of_ne (F := Ideal) m ρ c main_arg21 (by decide)).trans ((keep1 (W2 (F := Ideal) m ρ c) main_arg21 (by decide)).trans ((W2_of_ne (F := Ideal) m ρ c main_arg21 (by decide)).trans (keep0 (W0 (F := Ideal) m ρ c) main_arg21 (by decide))))))))))))))))))))))))).trans rfl

theorem W4_v1_from1 : W4 (F := Ideal) m ρ c (Proc.devRef .tc main_v1) = W1 (F := Ideal) m ρ c (Proc.devRef .tc main_v1) :=
  ((W4_of_ne (F := Ideal) m ρ c main_v1 (by decide)).trans ((keep1 (W2 (F := Ideal) m ρ c) main_v1 (by decide)).trans (W2_of_ne (F := Ideal) m ρ c main_v1 (by decide))))

theorem W4_v3_from1 : W4 (F := Ideal) m ρ c (Proc.devRef .tc main_v3) = W1 (F := Ideal) m ρ c (Proc.devRef .tc main_v3) :=
  ((W4_of_ne (F := Ideal) m ρ c main_v3 (by decide)).trans ((keep1 (W2 (F := Ideal) m ρ c) main_v3 (by decide)).trans (W2_of_ne (F := Ideal) m ρ c main_v3 (by decide))))

theorem W4_v5_from3 : W4 (F := Ideal) m ρ c (Proc.devRef .tc main_v5) = W3 (F := Ideal) m ρ c (Proc.devRef .tc main_v5) :=
  (W4_of_ne (F := Ideal) m ρ c main_v5 (by decide))

theorem W11_v1_from4 : W11 (F := Ideal) m ρ c (Proc.devRef .tc main_v1) = W4 (F := Ideal) m ρ c (Proc.devRef .tc main_v1) :=
  ((W11_of_ne (F := Ideal) m ρ c main_v1 (by decide)).trans ((W10_of_ne (F := Ideal) m ρ c main_v1 (by decide)).trans ((keep3 (W8 (F := Ideal) m ρ c) main_v1 (by decide)).trans ((W8_of_ne (F := Ideal) m ρ c main_v1 (by decide)).trans ((keep2_2 (W6 (F := Ideal) m ρ c) main_v1 (by decide)).trans ((keep2_1 (W5 (F := Ideal) m ρ c) main_v1 (by decide)).trans (keep2 (W4 (F := Ideal) m ρ c) main_v1 (by decide))))))))

theorem W11_v3_from4 : W11 (F := Ideal) m ρ c (Proc.devRef .tc main_v3) = W4 (F := Ideal) m ρ c (Proc.devRef .tc main_v3) :=
  ((W11_of_ne (F := Ideal) m ρ c main_v3 (by decide)).trans ((W10_of_ne (F := Ideal) m ρ c main_v3 (by decide)).trans ((keep3 (W8 (F := Ideal) m ρ c) main_v3 (by decide)).trans ((W8_of_ne (F := Ideal) m ρ c main_v3 (by decide)).trans ((keep2_2 (W6 (F := Ideal) m ρ c) main_v3 (by decide)).trans ((keep2_1 (W5 (F := Ideal) m ρ c) main_v3 (by decide)).trans (keep2 (W4 (F := Ideal) m ρ c) main_v3 (by decide))))))))

theorem W11_v5_from4 : W11 (F := Ideal) m ρ c (Proc.devRef .tc main_v5) = W4 (F := Ideal) m ρ c (Proc.devRef .tc main_v5) :=
  ((W11_of_ne (F := Ideal) m ρ c main_v5 (by decide)).trans ((W10_of_ne (F := Ideal) m ρ c main_v5 (by decide)).trans ((keep3 (W8 (F := Ideal) m ρ c) main_v5 (by decide)).trans ((W8_of_ne (F := Ideal) m ρ c main_v5 (by decide)).trans ((keep2_2 (W6 (F := Ideal) m ρ c) main_v5 (by decide)).trans ((keep2_1 (W5 (F := Ideal) m ρ c) main_v5 (by decide)).trans (keep2 (W4 (F := Ideal) m ρ c) main_v5 (by decide))))))))

theorem W18_v1_from11 : W18 (F := Ideal) m ρ c (Proc.devRef .tc main_v1) = W11 (F := Ideal) m ρ c (Proc.devRef .tc main_v1) :=
  ((W18_of_ne (F := Ideal) m ρ c main_v1 (by decide)).trans ((W17_of_ne (F := Ideal) m ρ c main_v1 (by decide)).trans ((keep6 (W15 (F := Ideal) m ρ c) main_v1 (by decide)).trans ((W15_of_ne (F := Ideal) m ρ c main_v1 (by decide)).trans ((keep5_2 (W13 (F := Ideal) m ρ c) main_v1 (by decide)).trans ((keep5_1 (W12 (F := Ideal) m ρ c) main_v1 (by decide)).trans (keep5 (W11 (F := Ideal) m ρ c) main_v1 (by decide))))))))

theorem W18_v3_from11 : W18 (F := Ideal) m ρ c (Proc.devRef .tc main_v3) = W11 (F := Ideal) m ρ c (Proc.devRef .tc main_v3) :=
  ((W18_of_ne (F := Ideal) m ρ c main_v3 (by decide)).trans ((W17_of_ne (F := Ideal) m ρ c main_v3 (by decide)).trans ((keep6 (W15 (F := Ideal) m ρ c) main_v3 (by decide)).trans ((W15_of_ne (F := Ideal) m ρ c main_v3 (by decide)).trans ((keep5_2 (W13 (F := Ideal) m ρ c) main_v3 (by decide)).trans ((keep5_1 (W12 (F := Ideal) m ρ c) main_v3 (by decide)).trans (keep5 (W11 (F := Ideal) m ρ c) main_v3 (by decide))))))))

theorem W18_v5_from11 : W18 (F := Ideal) m ρ c (Proc.devRef .tc main_v5) = W11 (F := Ideal) m ρ c (Proc.devRef .tc main_v5) :=
  ((W18_of_ne (F := Ideal) m ρ c main_v5 (by decide)).trans ((W17_of_ne (F := Ideal) m ρ c main_v5 (by decide)).trans ((keep6 (W15 (F := Ideal) m ρ c) main_v5 (by decide)).trans ((W15_of_ne (F := Ideal) m ρ c main_v5 (by decide)).trans ((keep5_2 (W13 (F := Ideal) m ρ c) main_v5 (by decide)).trans ((keep5_1 (W12 (F := Ideal) m ρ c) main_v5 (by decide)).trans (keep5 (W11 (F := Ideal) m ρ c) main_v5 (by decide))))))))

end Cert.KerRun

end
-- ==== Proof.KerFold.lean ====
/- # The kernel's result as one function of its arguments

The idealized kernel program is a sequence of segments: stretches of host operations and pipelined regions. The
contents of the buffers at the boundary after a segment are the segment applied to the contents before it: a
stretch rewrites the buffers its operations write, a region replaces its windows' arrays by what its write-backs
leave. The result buffer after the last segment is read back here, boundary by boundary, to the launch memory.

Three kinds of step do it. A stretch read at one of its results is a function of the buffers it finds. A region read
at one of its output arrays is, by that region's final fact (taken here as a hypothesis: what the region leaves in an
output array as a function of what it finds in its input arrays), a function of the buffers it finds. And a buffer no
segment between two boundaries writes is at the later boundary what it was at the earlier one.

The program: the edge list is cut into its two index columns; the first region gives every edge its weight; then
three layers, each a dense product (a region), one propagation step along the edges (a stretch), a bias and the
column sums and sums of squares (a region), the column means and variances (a stretch), and the normalised positive
part (a region); then the pooled read-out (the last stretch). The composition is the function `Cert.KerTerm.result`
of the 22 argument arrays. -/
import proofs.«161461_j70540542869949_1_alg».proof.Proof.Gen.KernelIdeal.Frame
import proofs.«161461_j70540542869949_1_alg».proof.Proof.KerTerm
import proofs.«161461_j70540542869949_1_alg».proof.Proof.KerFoldKeep
import proofs.«161461_j70540542869949_1_alg».proof.Proof.KerFoldHost
import proofs.«161461_j70540542869949_1_alg».proof.Proof.KerFoldWalk

set_option maxRecDepth 16384
-- a buffer's type is looked up in the program's table of 263 buffers each time a statement mentions its contents;
-- the statements below mention many
set_option maxHeartbeats 4000000

noncomputable section

namespace Cert.KerRun

open Idealize.ShloMosaic Idealize.ShloMosaic.TcCoe
open Cert.KernelIdeal Cert.KernelIdeal.Gen

/-- What a region finds: each core's buffer contents at the TensorCore's references. -/
abbrev Entry : Type := (c : Dev nD) → (b : Ref sig .tc) → Buf (Elt Ideal) ((c : Thread nD τ).loc b)

/-- The ten regions' final facts: what each leaves in an output array, as a function of what it finds in its input
    arrays, at any entry contents. -/
structure Finals : Prop where
  h0 : ∀ (V : Entry) (c : Dev nD), (Gen.dat0 (F := Ideal) V c).arrAt 5 cfg0.N = Cert.Spec.edgeW (V c (Pipeline.arrRef spec0 0)) (V c (Pipeline.arrRef spec0 1)) (V c (Pipeline.arrRef spec0 2)) (V c (Pipeline.arrRef spec0 3)) (V c (Pipeline.arrRef spec0 4))
  h1 : ∀ (V : Entry) (c : Dev nD), (Gen.dat1 (F := Ideal) V c).arrAt 2 cfg1.N = Cert.Spec.lin (V c (Pipeline.arrRef spec1 0)) (V c (Pipeline.arrRef spec1 1))
  h2a : ∀ (V : Entry) (c : Dev nD), (Gen.dat2 (F := Ideal) V c).arrAt 2 cfg2.N = Cert.Spec.addBias (V c (Pipeline.arrRef spec2 0)) (V c (Pipeline.arrRef spec2 1))
  h2b : ∀ (V : Entry) (c : Dev nD), (Gen.dat2 (F := Ideal) V c).arrAt 3 cfg2.N = Cert.Spec.colSum (Cert.Spec.addBias (V c (Pipeline.arrRef spec2 0)) (V c (Pipeline.arrRef spec2 1)))
  h2c : ∀ (V : Entry) (c : Dev nD), (Gen.dat2 (F := Ideal) V c).arrAt 4 cfg2.N = Cert.Spec.colSumSq (Cert.Spec.addBias (V c (Pipeline.arrRef spec2 0)) (V c (Pipeline.arrRef spec2 1)))
  h3 : ∀ (V : Entry) (c : Dev nD), (Gen.dat3 (F := Ideal) V c).arrAt 5 cfg3.N = Cert.Spec.bnRelu (V c (Pipeline.arrRef spec3 0)) (V c (Pipeline.arrRef spec3 1)) (V c (Pipeline.arrRef spec3 2)) (V c (Pipeline.arrRef spec3 3)) (V c (Pipeline.arrRef spec3 4))
  h4 : ∀ (V : Entry) (c : Dev nD), (Gen.dat4 (F := Ideal) V c).arrAt 2 cfg4.N = Cert.Spec.lin (V c (Pipeline.arrRef spec4 0)) (V c (Pipeline.arrRef spec4 1))
  h5a : ∀ (V : Entry) (c : Dev nD), (Gen.dat5 (F := Ideal) V c).arrAt 2 cfg5.N = Cert.Spec.addBias (V c (Pipeline.arrRef spec5 0)) (V c (Pipeline.arrRef spec5 1))
  h5b : ∀ (V : Entry) (c : Dev nD), (Gen.dat5 (F := Ideal) V c).arrAt 3 cfg5.N = Cert.Spec.colSum (Cert.Spec.addBias (V c (Pipeline.arrRef spec5 0)) (V c (Pipeline.arrRef spec5 1)))
  h5c : ∀ (V : Entry) (c : Dev nD), (Gen.dat5 (F := Ideal) V c).arrAt 4 cfg5.N = Cert.Spec.colSumSq (Cert.Spec.addBias (V c (Pipeline.arrRef spec5 0)) (V c (Pipeline.arrRef spec5 1)))
  h6 : ∀ (V : Entry) (c : Dev nD), (Gen.dat6 (F := Ideal) V c).arrAt 5 cfg6.N = Cert.Spec.bnRelu (V c (Pipeline.arrRef spec6 0)) (V c (Pipeline.arrRef spec6 1)) (V c (Pipeline.arrRef spec6 2)) (V c (Pipeline.arrRef spec6 3)) (V c (Pipeline.arrRef spec6 4))
  h7 : ∀ (V : Entry) (c : Dev nD), (Gen.dat7 (F := Ideal) V c).arrAt 2 cfg7.N = Cert.Spec.lin (V c (Pipeline.arrRef spec7 0)) (V c (Pipeline.arrRef spec7 1))
  h8a : ∀ (V : Entry) (c : Dev nD), (Gen.dat8 (F := Ideal) V c).arrAt 2 cfg8.N = Cert.Spec.addBias (V c (Pipeline.arrRef spec8 0)) (V c (Pipeline.arrRef spec8 1))
  h8b : ∀ (V : Entry) (c : Dev nD), (Gen.dat8 (F := Ideal) V c).arrAt 3 cfg8.N = Cert.Spec.colSum (Cert.Spec.addBias (V c (Pipeline.arrRef spec8 0)) (V c (Pipeline.arrRef spec8 1)))
  h8c : ∀ (V : Entry) (c : Dev nD), (Gen.dat8 (F := Ideal) V c).arrAt 4 cfg8.N = Cert.Spec.colSumSq (Cert.Spec.addBias (V c (Pipeline.arrRef spec8 0)) (V c (Pipeline.arrRef spec8 1)))
  h9 : ∀ (V : Entry) (c : Dev nD), (Gen.dat9 (F := Ideal) V c).arrAt 5 cfg9.N = Cert.Spec.bnRelu (V c (Pipeline.arrRef spec9 0)) (V c (Pipeline.arrRef spec9 1)) (V c (Pipeline.arrRef spec9 2)) (V c (Pipeline.arrRef spec9 3)) (V c (Pipeline.arrRef spec9 4))

variable (m : (ℓ : Loc nD τ sig) → Buf (Elt Ideal) ℓ) (ρ : Dev nD → PrngReg) (c : Dev nD)

/-! ## The values along the way, as functions of the launch memory -/

/-- An argument array as launched. -/
abbrev arg (b : Ref sig .tc) : Buf (Elt Ideal) ((c.tc : Thread nD τ).loc b) := m ((c.tc : Thread nD τ).loc b)
/-- The source words, the target words, the flat edge weights. -/
abbrev srcV : IVec S640000 32 := Cert.KerTerm.srcOf (arg m c main_arg1)
abbrev dstV : IVec S640000 32 := Cert.KerTerm.dstOf (arg m c main_arg1)
abbrev ewV : FVec Ideal S640000 .f32 :=
  Cert.KerTerm.ewFlat (Cert.Spec.edgeW (arg m c main_arg2) (arg m c main_arg4) (arg m c main_arg5) (arg m c main_arg6) (arg m c main_arg7))
/-- A layer before normalisation: the dense product propagated along the edges, plus the bias. -/
abbrev pre (x : FVec Ideal S100000x128 .f32) (Wt : FVec Ideal S128x128 .f32) (b : FVec Ideal S128 .f32) :
    FVec Ideal S100000x128 .f32 :=
  Cert.Spec.addBias (Cert.KerTerm.prop (Cert.Spec.lin x Wt) (srcV m c) (dstV m c) (ewV m c)) b
/-- The normalised positive part of a layer, from its own column statistics. -/
abbrev lay (z : FVec Ideal S100000x128 .f32) (g be : FVec Ideal S128 .f32) : FVec Ideal S100000x128 .f32 :=
  Cert.Spec.bnRelu z (Cert.KerTerm.meanOf (Cert.Spec.colSum z))
    (Cert.KerTerm.varOf (Cert.Spec.colSum z) (Cert.Spec.colSumSq z)) g be
/-- The three layers' outputs. -/
abbrev l1 : FVec Ideal S100000x128 .f32 := lay (pre m c (arg m c main_arg0) (arg m c main_arg8) (arg m c main_arg9)) (arg m c main_arg10) (arg m c main_arg11)
abbrev l2 : FVec Ideal S100000x128 .f32 := lay (pre m c (l1 m c) (arg m c main_arg12) (arg m c main_arg13)) (arg m c main_arg14) (arg m c main_arg15)
abbrev l3 : FVec Ideal S100000x128 .f32 := lay (pre m c (l2 m c) (arg m c main_arg16) (arg m c main_arg17)) (arg m c main_arg18) (arg m c main_arg19)

/-! ## Before the layers: boundaries W1 to W4 -/

/-- The first stretch cuts the edge list, which it finds as launched. -/
theorem W1_v1 : W1 (F := Ideal) m ρ c (Proc.devRef .tc main_v1) = srcV m c := host0_v1 (W0 (F := Ideal) m ρ c)
theorem W1_v3 : W1 (F := Ideal) m ρ c (Proc.devRef .tc main_v3) = dstV m c := host0_v3 (W0 (F := Ideal) m ρ c)

/-- Region 0 gives every edge its weight: its output array at what its write-backs leave, by the region's final fact
    at the region's entry contents, where its five input arrays are arguments as launched. -/
theorem W2_v4 (H : Finals) : W2 (F := Ideal) m ρ c (Proc.devRef .tc main_v4)
    = Cert.Spec.edgeW (arg m c main_arg2) (arg m c main_arg4) (arg m c main_arg5) (arg m c main_arg6) (arg m c main_arg7) :=
  (W2_arr (F := Ideal) m ρ c 5).trans ((H.h0 (V1 (F := Ideal) m ρ) c).trans (by
    show Cert.Spec.edgeW (W1 (F := Ideal) m ρ c (Proc.devRef .tc main_arg2)) (W1 (F := Ideal) m ρ c (Proc.devRef .tc main_arg4)) (W1 (F := Ideal) m ρ c (Proc.devRef .tc main_arg5))
      (W1 (F := Ideal) m ρ c (Proc.devRef .tc main_arg6)) (W1 (F := Ideal) m ρ c (Proc.devRef .tc main_arg7)) = _
    rw [W1_arg2 m ρ c, W1_arg4 m ρ c, W1_arg5 m ρ c, W1_arg6 m ρ c, W1_arg7 m ρ c]))

/-- The second stretch flattens the edge weights. -/
theorem W3_v5 (H : Finals) : W3 (F := Ideal) m ρ c (Proc.devRef .tc main_v5) = ewV m c :=
  (host1_v5 (W2 (F := Ideal) m ρ c)).trans (by rw [W2_v4 m ρ c H])

/-- Region 1 multiplies the node features by the first weight matrix. -/
theorem W4_v6 (H : Finals) : W4 (F := Ideal) m ρ c (Proc.devRef .tc main_v6) = Cert.Spec.lin (arg m c main_arg0) (arg m c main_arg8) :=
  (W4_arr (F := Ideal) m ρ c 2).trans ((H.h1 (V3 (F := Ideal) m ρ) c).trans (by
    show Cert.Spec.lin (W3 (F := Ideal) m ρ c (Proc.devRef .tc main_arg0)) (W3 (F := Ideal) m ρ c (Proc.devRef .tc main_arg8)) = _
    rw [W3_arg0 m ρ c, W3_arg8 m ρ c]))
/-- The index columns and the edge weights reach the first propagation stretch as they were written. -/
theorem W4_v1 : W4 (F := Ideal) m ρ c (Proc.devRef .tc main_v1) = srcV m c := (W4_v1_from1 m ρ c).trans (W1_v1 m ρ c)
theorem W4_v3 : W4 (F := Ideal) m ρ c (Proc.devRef .tc main_v3) = dstV m c := (W4_v3_from1 m ρ c).trans (W1_v3 m ρ c)
theorem W4_v5 (H : Finals) : W4 (F := Ideal) m ρ c (Proc.devRef .tc main_v5) = ewV m c := (W4_v5_from3 m ρ c).trans (W3_v5 m ρ c H)

/-! ## Layer 1: boundaries W4 to W10 -/

/-- The propagation stretch finds the dense product, the index columns and the edge weights; it leaves the
    propagated features. -/
theorem W7_v49 (H : Finals) : W7 (F := Ideal) m ρ c (Proc.devRef .tc main_v49) = Cert.KerTerm.prop (Cert.Spec.lin (arg m c main_arg0) (arg m c main_arg8)) (srcV m c) (dstV m c) (ewV m c) :=
  (host2_v49 (W4 (F := Ideal) m ρ c)).trans (by rw [W4_v6 m ρ c H, W4_v1 m ρ c, W4_v3 m ρ c, W4_v5 m ρ c H])

/-- Region 2 adds the bias row and takes the column sums and the column sums of squares: its three output arrays
    at what its write-backs leave, read through the region-final facts at the region's entry contents. -/
theorem W8_v50_0 (H : Finals) : W8 (F := Ideal) m ρ c (Proc.devRef .tc main_v50_0) = pre m c (arg m c main_arg0) (arg m c main_arg8) (arg m c main_arg9) :=
  (W8_arr (F := Ideal) m ρ c 2).trans ((H.h2a (V7 (F := Ideal) m ρ) c).trans (by
    show Cert.Spec.addBias (W7 (F := Ideal) m ρ c (Proc.devRef .tc main_v49)) (W7 (F := Ideal) m ρ c (Proc.devRef .tc main_arg9)) = _
    rw [W7_v49 m ρ c H, W7_arg9 m ρ c]))
theorem W8_v50_1 (H : Finals) : W8 (F := Ideal) m ρ c (Proc.devRef .tc main_v50_1) = Cert.Spec.colSum (pre m c (arg m c main_arg0) (arg m c main_arg8) (arg m c main_arg9)) :=
  (W8_arr (F := Ideal) m ρ c 3).trans ((H.h2b (V7 (F := Ideal) m ρ) c).trans (by
    show Cert.Spec.colSum (Cert.Spec.addBias (W7 (F := Ideal) m ρ c (Proc.devRef .tc main_v49)) (W7 (F := Ideal) m ρ c (Proc.devRef .tc main_arg9))) = _
    rw [W7_v49 m ρ c H, W7_arg9 m ρ c]))
theorem W8_v50_2 (H : Finals) : W8 (F := Ideal) m ρ c (Proc.devRef .tc main_v50_2) = Cert.Spec.colSumSq (pre m c (arg m c main_arg0) (arg m c main_arg8) (arg m c main_arg9)) :=
  (W8_arr (F := Ideal) m ρ c 4).trans ((H.h2c (V7 (F := Ideal) m ρ) c).trans (by
    show Cert.Spec.colSumSq (Cert.Spec.addBias (W7 (F := Ideal) m ρ c (Proc.devRef .tc main_v49)) (W7 (F := Ideal) m ρ c (Proc.devRef .tc main_arg9))) = _
    rw [W7_v49 m ρ c H, W7_arg9 m ρ c]))

/-- The statistics stretch leaves the biased features alone and turns the two rows of sums into the column means and
    the column variances. -/
theorem W9_v50_0 (H : Finals) : W9 (F := Ideal) m ρ c (Proc.devRef .tc main_v50_0) = pre m c (arg m c main_arg0) (arg m c main_arg8) (arg m c main_arg9) :=
  (keep3 (W8 (F := Ideal) m ρ c) main_v50_0 (by decide)).trans (W8_v50_0 m ρ c H)
theorem W9_v53 (H : Finals) : W9 (F := Ideal) m ρ c (Proc.devRef .tc main_v53) = Cert.KerTerm.meanOf (Cert.Spec.colSum (pre m c (arg m c main_arg0) (arg m c main_arg8) (arg m c main_arg9))) :=
  (host3_v53 (W8 (F := Ideal) m ρ c)).trans (by rw [W8_v50_1 m ρ c H])
theorem W9_v58 (H : Finals) : W9 (F := Ideal) m ρ c (Proc.devRef .tc main_v58)
    = Cert.KerTerm.varOf (Cert.Spec.colSum (pre m c (arg m c main_arg0) (arg m c main_arg8) (arg m c main_arg9))) (Cert.Spec.colSumSq (pre m c (arg m c main_arg0) (arg m c main_arg8) (arg m c main_arg9))) :=
  (host3_v58 (W8 (F := Ideal) m ρ c)).trans (by rw [W8_v50_1 m ρ c H, W8_v50_2 m ρ c H])

/-- Region 3 normalises every column by its mean and variance and takes the positive part: the layer's output. -/
theorem W10_v59 (H : Finals) : W10 (F := Ideal) m ρ c (Proc.devRef .tc main_v59) = l1 m c :=
  (W10_arr (F := Ideal) m ρ c 5).trans ((H.h3 (V9 (F := Ideal) m ρ) c).trans (by
    show Cert.Spec.bnRelu (W9 (F := Ideal) m ρ c (Proc.devRef .tc main_v50_0)) (W9 (F := Ideal) m ρ c (Proc.devRef .tc main_v53)) (W9 (F := Ideal) m ρ c (Proc.devRef .tc main_v58))
      (W9 (F := Ideal) m ρ c (Proc.devRef .tc main_arg10)) (W9 (F := Ideal) m ρ c (Proc.devRef .tc main_arg11)) = _
    rw [W9_v50_0 m ρ c H, W9_v53 m ρ c H, W9_v58 m ρ c H, W9_arg10 m ρ c, W9_arg11 m ρ c]))

/-- Region 4 multiplies the previous layer's output by the next weight matrix. -/
theorem W11_v60 (H : Finals) : W11 (F := Ideal) m ρ c (Proc.devRef .tc main_v60) = Cert.Spec.lin (l1 m c) (arg m c main_arg12) :=
  (W11_arr (F := Ideal) m ρ c 2).trans ((H.h4 (V10 (F := Ideal) m ρ) c).trans (by
    show Cert.Spec.lin (W10 (F := Ideal) m ρ c (Proc.devRef .tc main_v59)) (W10 (F := Ideal) m ρ c (Proc.devRef .tc main_arg12)) = _
    rw [W10_v59 m ρ c H, W10_arg12 m ρ c]))
/-- The index columns and the edge weights reach this boundary as the previous layer found them. -/
theorem W11_v1 : W11 (F := Ideal) m ρ c (Proc.devRef .tc main_v1) = srcV m c := (W11_v1_from4 m ρ c).trans (W4_v1 m ρ c)
theorem W11_v3 : W11 (F := Ideal) m ρ c (Proc.devRef .tc main_v3) = dstV m c := (W11_v3_from4 m ρ c).trans (W4_v3 m ρ c)
theorem W11_v5 (H : Finals) : W11 (F := Ideal) m ρ c (Proc.devRef .tc main_v5) = ewV m c := (W11_v5_from4 m ρ c).trans (W4_v5 m ρ c H)

/-! ## Layer 2: boundaries W11 to W17 -/

/-- The propagation stretch finds the dense product, the index columns and the edge weights; it leaves the
    propagated features. -/
theorem W14_v103 (H : Finals) : W14 (F := Ideal) m ρ c (Proc.devRef .tc main_v103) = Cert.KerTerm.prop (Cert.Spec.lin (l1 m c) (arg m c main_arg12)) (srcV m c) (dstV m c) (ewV m c) :=
  (host5_v103 (W11 (F := Ideal) m ρ c)).trans (by rw [W11_v60 m ρ c H, W11_v1 m ρ c, W11_v3 m ρ c, W11_v5 m ρ c H])

/-- Region 5 adds the bias row and takes the column sums and the column sums of squares: its three output arrays
    at what its write-backs leave, read through the region-final facts at the region's entry contents. -/
theorem W15_v104_0 (H : Finals) : W15 (F := Ideal) m ρ c (Proc.devRef .tc main_v104_0) = pre m c (l1 m c) (arg m c main_arg12) (arg m c main_arg13) :=
  (W15_arr (F := Ideal) m ρ c 2).trans ((H.h5a (V14 (F := Ideal) m ρ) c).trans (by
    show Cert.Spec.addBias (W14 (F := Ideal) m ρ c (Proc.devRef .tc main_v103)) (W14 (F := Ideal) m ρ c (Proc.devRef .tc main_arg13)) = _
    rw [W14_v103 m ρ c H, W14_arg13 m ρ c]))
theorem W15_v104_1 (H : Finals) : W15 (F := Ideal) m ρ c (Proc.devRef .tc main_v104_1) = Cert.Spec.colSum (pre m c (l1 m c) (arg m c main_arg12) (arg m c main_arg13)) :=
  (W15_arr (F := Ideal) m ρ c 3).trans ((H.h5b (V14 (F := Ideal) m ρ) c).trans (by
    show Cert.Spec.colSum (Cert.Spec.addBias (W14 (F := Ideal) m ρ c (Proc.devRef .tc main_v103)) (W14 (F := Ideal) m ρ c (Proc.devRef .tc main_arg13))) = _
    rw [W14_v103 m ρ c H, W14_arg13 m ρ c]))
theorem W15_v104_2 (H : Finals) : W15 (F := Ideal) m ρ c (Proc.devRef .tc main_v104_2) = Cert.Spec.colSumSq (pre m c (l1 m c) (arg m c main_arg12) (arg m c main_arg13)) :=
  (W15_arr (F := Ideal) m ρ c 4).trans ((H.h5c (V14 (F := Ideal) m ρ) c).trans (by
    show Cert.Spec.colSumSq (Cert.Spec.addBias (W14 (F := Ideal) m ρ c (Proc.devRef .tc main_v103)) (W14 (F := Ideal) m ρ c (Proc.devRef .tc main_arg13))) = _
    rw [W14_v103 m ρ c H, W14_arg13 m ρ c]))

/-- The statistics stretch leaves the biased features alone and turns the two rows of sums into the column means and
    the column variances. -/
theorem W16_v104_0 (H : Finals) : W16 (F := Ideal) m ρ c (Proc.devRef .tc main_v104_0) = pre m c (l1 m c) (arg m c main_arg12) (arg m c main_arg13) :=
  (keep6 (W15 (F := Ideal) m ρ c) main_v104_0 (by decide)).trans (W15_v104_0 m ρ c H)
theorem W16_v107 (H : Finals) : W16 (F := Ideal) m ρ c (Proc.devRef .tc main_v107) = Cert.KerTerm.meanOf (Cert.Spec.colSum (pre m c (l1 m c) (arg m c main_arg12) (arg m c main_arg13))) :=
  (host6_v107 (W15 (F := Ideal) m ρ c)).trans (by rw [W15_v104_1 m ρ c H])
theorem W16_v112 (H : Finals) : W16 (F := Ideal) m ρ c (Proc.devRef .tc main_v112)
    = Cert.KerTerm.varOf (Cert.Spec.colSum (pre m c (l1 m c) (arg m c main_arg12) (arg m c main_arg13))) (Cert.Spec.colSumSq (pre m c (l1 m c) (arg m c main_arg12) (arg m c main_arg13))) :=
  (host6_v112 (W15 (F := Ideal) m ρ c)).trans (by rw [W15_v104_1 m ρ c H, W15_v104_2 m ρ c H])

/-- Region 6 normalises every column by its mean and variance and takes the positive part: the layer's output. -/
theorem W17_v113 (H : Finals) : W17 (F := Ideal) m ρ c (Proc.devRef .tc main_v113) = l2 m c :=
  (W17_arr (F := Ideal) m ρ c 5).trans ((H.h6 (V16 (F := Ideal) m ρ) c).trans (by
    show Cert.Spec.bnRelu (W16 (F := Ideal) m ρ c (Proc.devRef .tc main_v104_0)) (W16 (F := Ideal) m ρ c (Proc.devRef .tc main_v107)) (W16 (F := Ideal) m ρ c (Proc.devRef .tc main_v112))
      (W16 (F := Ideal) m ρ c (Proc.devRef .tc main_arg14)) (W16 (F := Ideal) m ρ c (Proc.devRef .tc main_arg15)) = _
    rw [W16_v104_0 m ρ c H, W16_v107 m ρ c H, W16_v112 m ρ c H, W16_arg14 m ρ c, W16_arg15 m ρ c]))

/-- Region 7 multiplies the previous layer's output by the next weight matrix. -/
theorem W18_v114 (H : Finals) : W18 (F := Ideal) m ρ c (Proc.devRef .tc main_v114) = Cert.Spec.lin (l2 m c) (arg m c main_arg16) :=
  (W18_arr (F := Ideal) m ρ c 2).trans ((H.h7 (V17 (F := Ideal) m ρ) c).trans (by
    show Cert.Spec.lin (W17 (F := Ideal) m ρ c (Proc.devRef .tc main_v113)) (W17 (F := Ideal) m ρ c (Proc.devRef .tc main_arg16)) = _
    rw [W17_v113 m ρ c H, W17_arg16 m ρ c]))
/-- The index columns and the edge weights reach this boundary as the previous layer found them. -/
theorem W18_v1 : W18 (F := Ideal) m ρ c (Proc.devRef .tc main_v1) = srcV m c := (W18_v1_from11 m ρ c).trans (W11_v1 m ρ c)
theorem W18_v3 : W18 (F := Ideal) m ρ c (Proc.devRef .tc main_v3) = dstV m c := (W18_v3_from11 m ρ c).trans (W11_v3 m ρ c)
theorem W18_v5 (H : Finals) : W18 (F := Ideal) m ρ c (Proc.devRef .tc main_v5) = ewV m c := (W18_v5_from11 m ρ c).trans (W11_v5 m ρ c H)

/-! ## Layer 3: boundaries W18 to W24 -/

/-- The propagation stretch finds the dense product, the index columns and the edge weights; it leaves the
    propagated features. -/
theorem W21_v157 (H : Finals) : W21 (F := Ideal) m ρ c (Proc.devRef .tc main_v157) = Cert.KerTerm.prop (Cert.Spec.lin (l2 m c) (arg m c main_arg16)) (srcV m c) (dstV m c) (ewV m c) :=
  (host8_v157 (W18 (F := Ideal) m ρ c)).trans (by rw [W18_v114 m ρ c H, W18_v1 m ρ c, W18_v3 m ρ c, W18_v5 m ρ c H])

/-- Region 8 adds the bias row and takes the column sums and the column sums of squares: its three output arrays
    at what its write-backs leave, read through the region-final facts at the region's entry contents. -/
theorem W22_v158_0 (H : Finals) : W22 (F := Ideal) m ρ c (Proc.devRef .tc main_v158_0) = pre m c (l2 m c) (arg m c main_arg16) (arg m c main_arg17) :=
  (W22_arr (F := Ideal) m ρ c 2).trans ((H.h8a (V21 (F := Ideal) m ρ) c).trans (by
    show Cert.Spec.addBias (W21 (F := Ideal) m ρ c (Proc.devRef .tc main_v157)) (W21 (F := Ideal) m ρ c (Proc.devRef .tc main_arg17)) = _
    rw [W21_v157 m ρ c H, W21_arg17 m ρ c]))
theorem W22_v158_1 (H : Finals) : W22 (F := Ideal) m ρ c (Proc.devRef .tc main_v158_1) = Cert.Spec.colSum (pre m c (l2 m c) (arg m c main_arg16) (arg m c main_arg17)) :=
  (W22_arr (F := Ideal) m ρ c 3).trans ((H.h8b (V21 (F := Ideal) m ρ) c).trans (by
    show Cert.Spec.colSum (Cert.Spec.addBias (W21 (F := Ideal) m ρ c (Proc.devRef .tc main_v157)) (W21 (F := Ideal) m ρ c (Proc.devRef .tc main_arg17))) = _
    rw [W21_v157 m ρ c H, W21_arg17 m ρ c]))
theorem W22_v158_2 (H : Finals) : W22 (F := Ideal) m ρ c (Proc.devRef .tc main_v158_2) = Cert.Spec.colSumSq (pre m c (l2 m c) (arg m c main_arg16) (arg m c main_arg17)) :=
  (W22_arr (F := Ideal) m ρ c 4).trans ((H.h8c (V21 (F := Ideal) m ρ) c).trans (by
    show Cert.Spec.colSumSq (Cert.Spec.addBias (W21 (F := Ideal) m ρ c (Proc.devRef .tc main_v157)) (W21 (F := Ideal) m ρ c (Proc.devRef .tc main_arg17))) = _
    rw [W21_v157 m ρ c H, W21_arg17 m ρ c]))

/-- The statistics stretch leaves the biased features alone and turns the two rows of sums into the column means and
    the column variances. -/
theorem W23_v158_0 (H : Finals) : W23 (F := Ideal) m ρ c (Proc.devRef .tc main_v158_0) = pre m c (l2 m c) (arg m c main_arg16) (arg m c main_arg17) :=
  (keep9 (W22 (F := Ideal) m ρ c) main_v158_0 (by decide)).trans (W22_v158_0 m ρ c H)
theorem W23_v161 (H : Finals) : W23 (F := Ideal) m ρ c (Proc.devRef .tc main_v161) = Cert.KerTerm.meanOf (Cert.Spec.colSum (pre m c (l2 m c) (arg m c main_arg16) (arg m c main_arg17))) :=
  (host9_v161 (W22 (F := Ideal) m ρ c)).trans (by rw [W22_v158_1 m ρ c H])
theorem W23_v166 (H : Finals) : W23 (F := Ideal) m ρ c (Proc.devRef .tc main_v166)
    = Cert.KerTerm.varOf (Cert.Spec.colSum (pre m c (l2 m c) (arg m c main_arg16) (arg m c main_arg17))) (Cert.Spec.colSumSq (pre m c (l2 m c) (arg m c main_arg16) (arg m c main_arg17))) :=
  (host9_v166 (W22 (F := Ideal) m ρ c)).trans (by rw [W22_v158_1 m ρ c H, W22_v158_2 m ρ c H])

/-- Region 9 normalises every column by its mean and variance and takes the positive part: the layer's output. -/
theorem W24_v167 (H : Finals) : W24 (F := Ideal) m ρ c (Proc.devRef .tc main_v167) = l3 m c :=
  (W24_arr (F := Ideal) m ρ c 5).trans ((H.h9 (V23 (F := Ideal) m ρ) c).trans (by
    show Cert.Spec.bnRelu (W23 (F := Ideal) m ρ c (Proc.devRef .tc main_v158_0)) (W23 (F := Ideal) m ρ c (Proc.devRef .tc main_v161)) (W23 (F := Ideal) m ρ c (Proc.devRef .tc main_v166))
      (W23 (F := Ideal) m ρ c (Proc.devRef .tc main_arg18)) (W23 (F := Ideal) m ρ c (Proc.devRef .tc main_arg19)) = _
    rw [W23_v158_0 m ρ c H, W23_v161 m ρ c H, W23_v166 m ρ c H, W23_arg18 m ρ c, W23_arg19 m ρ c]))

/-! ## The read-out: boundary W25 -/

/-- The last stretch pools the third layer's output by graph and applies the read-out row and bias. -/
theorem W25_v185 (H : Finals) : W25 (F := Ideal) m ρ c (Proc.devRef .tc main_v185)
    = Cert.KerTerm.tail (l3 m c) (arg m c main_arg3) (arg m c main_arg20) (arg m c main_arg21) :=
  (host10_v185 (W24 (F := Ideal) m ρ c)).trans (by rw [W24_v167 m ρ c H, W24_arg3 m ρ c, W24_arg20 m ρ c, W24_arg21 m ρ c])

/-- THE RESULT: after the last segment the result buffer holds `Cert.KerTerm.result` of the argument arrays as
    launched, given the ten regions' final facts. -/
theorem W25_result
    (h0 : ∀ (V : Entry) (c : Dev nD), (Gen.dat0 (F := Ideal) V c).arrAt 5 cfg0.N = Cert.Spec.edgeW (V c (Pipeline.arrRef spec0 0)) (V c (Pipeline.arrRef spec0 1)) (V c (Pipeline.arrRef spec0 2)) (V c (Pipeline.arrRef spec0 3)) (V c (Pipeline.arrRef spec0 4)))
    (h1 : ∀ (V : Entry) (c : Dev nD), (Gen.dat1 (F := Ideal) V c).arrAt 2 cfg1.N = Cert.Spec.lin (V c (Pipeline.arrRef spec1 0)) (V c (Pipeline.arrRef spec1 1)))
    (h2a : ∀ (V : Entry) (c : Dev nD), (Gen.dat2 (F := Ideal) V c).arrAt 2 cfg2.N = Cert.Spec.addBias (V c (Pipeline.arrRef spec2 0)) (V c (Pipeline.arrRef spec2 1)))
    (h2b : ∀ (V : Entry) (c : Dev nD), (Gen.dat2 (F := Ideal) V c).arrAt 3 cfg2.N = Cert.Spec.colSum (Cert.Spec.addBias (V c (Pipeline.arrRef spec2 0)) (V c (Pipeline.arrRef spec2 1))))
    (h2c : ∀ (V : Entry) (c : Dev nD), (Gen.dat2 (F := Ideal) V c).arrAt 4 cfg2.N = Cert.Spec.colSumSq (Cert.Spec.addBias (V c (Pipeline.arrRef spec2 0)) (V c (Pipeline.arrRef spec2 1))))
    (h3 : ∀ (V : Entry) (c : Dev nD), (Gen.dat3 (F := Ideal) V c).arrAt 5 cfg3.N = Cert.Spec.bnRelu (V c (Pipeline.arrRef spec3 0)) (V c (Pipeline.arrRef spec3 1)) (V c (Pipeline.arrRef spec3 2)) (V c (Pipeline.arrRef spec3 3)) (V c (Pipeline.arrRef spec3 4)))
    (h4 : ∀ (V : Entry) (c : Dev nD), (Gen.dat4 (F := Ideal) V c).arrAt 2 cfg4.N = Cert.Spec.lin (V c (Pipeline.arrRef spec4 0)) (V c (Pipeline.arrRef spec4 1)))
    (h5a : ∀ (V : Entry) (c : Dev nD), (Gen.dat5 (F := Ideal) V c).arrAt 2 cfg5.N = Cert.Spec.addBias (V c (Pipeline.arrRef spec5 0)) (V c (Pipeline.arrRef spec5 1)))
    (h5b : ∀ (V : Entry) (c : Dev nD), (Gen.dat5 (F := Ideal) V c).arrAt 3 cfg5.N = Cert.Spec.colSum (Cert.Spec.addBias (V c (Pipeline.arrRef spec5 0)) (V c (Pipeline.arrRef spec5 1))))
    (h5c : ∀ (V : Entry) (c : Dev nD), (Gen.dat5 (F := Ideal) V c).arrAt 4 cfg5.N = Cert.Spec.colSumSq (Cert.Spec.addBias (V c (Pipeline.arrRef spec5 0)) (V c (Pipeline.arrRef spec5 1))))
    (h6 : ∀ (V : Entry) (c : Dev nD), (Gen.dat6 (F := Ideal) V c).arrAt 5 cfg6.N = Cert.Spec.bnRelu (V c (Pipeline.arrRef spec6 0)) (V c (Pipeline.arrRef spec6 1)) (V c (Pipeline.arrRef spec6 2)) (V c (Pipeline.arrRef spec6 3)) (V c (Pipeline.arrRef spec6 4)))
    (h7 : ∀ (V : Entry) (c : Dev nD), (Gen.dat7 (F := Ideal) V c).arrAt 2 cfg7.N = Cert.Spec.lin (V c (Pipeline.arrRef spec7 0)) (V c (Pipeline.arrRef spec7 1)))
    (h8a : ∀ (V : Entry) (c : Dev nD), (Gen.dat8 (F := Ideal) V c).arrAt 2 cfg8.N = Cert.Spec.addBias (V c (Pipeline.arrRef spec8 0)) (V c (Pipeline.arrRef spec8 1)))
    (h8b : ∀ (V : Entry) (c : Dev nD), (Gen.dat8 (F := Ideal) V c).arrAt 3 cfg8.N = Cert.Spec.colSum (Cert.Spec.addBias (V c (Pipeline.arrRef spec8 0)) (V c (Pipeline.arrRef spec8 1))))
    (h8c : ∀ (V : Entry) (c : Dev nD), (Gen.dat8 (F := Ideal) V c).arrAt 4 cfg8.N = Cert.Spec.colSumSq (Cert.Spec.addBias (V c (Pipeline.arrRef spec8 0)) (V c (Pipeline.arrRef spec8 1))))
    (h9 : ∀ (V : Entry) (c : Dev nD), (Gen.dat9 (F := Ideal) V c).arrAt 5 cfg9.N = Cert.Spec.bnRelu (V c (Pipeline.arrRef spec9 0)) (V c (Pipeline.arrRef spec9 1)) (V c (Pipeline.arrRef spec9 2)) (V c (Pipeline.arrRef spec9 3)) (V c (Pipeline.arrRef spec9 4))) :
    Gen.W25 (F := Ideal) m ρ c (Proc.devRef .tc main_v185)
    = Cert.KerTerm.result
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21)) :=
  (W25_v185 m ρ c ⟨h0, h1, h2a, h2b, h2c, h3, h4, h5a, h5b, h5c, h6, h7, h8a, h8b, h8c, h9⟩).trans rfl

end Cert.KerRun

end
-- ==== Proof.RefRunOps.lean ====
/-
  The reference program's host operations, listed.

  The reference's entry function is a straight line of host operations (the functions it calls are run in place,
  each over the buffers that one call names). The line is listed here in stretches, cut where the mathematics
  changes subject: the edge list; the edge weights; three times a layer (a linear map, the self loops appended, the
  weighted in-degree and its inverse square root, every edge's normalization, the messages scatter-added at the targets,
  then the columns' mean and variance over the nodes, the normalization and the positive part); and the per-graph mean
  read-out. The whole line is the stretches in order; each printed window of the entry function is the stretches that
  fall in it.
-/
import proofs.«161461_j70540542869949_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4 of 358: the two rows of the edge list, each sliced out and flattened: the source and the target node of every edge. -/
abbrev sIdx : List (HloOp τ sig (Elt F)) :=
  [ StableHlo.unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    StableHlo.reshape main_v0 main_v1 rfl shapeCasts_S1x640000_S640000,
    StableHlo.unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    StableHlo.reshape main_v2 main_v3 rfl shapeCasts_S1x640000_S640000 ]

/-- Operations 5 … 9 of 358: the edge perceptron's hidden layer before its positive part: the edge features times the transposed first weight matrix, plus the first bias. -/
abbrev sEdgeA : List (HloOp τ sig (Elt F)) :=
  [ StableHlo.unary main_arg4 main_v4 ((transpose S16x128 [1, 0] · transposes_S128x16_S16x128_1_0) : (⟨S128x16, .f32⟩ : BufTy).Contents (Elt F) → (⟨S16x128, .f32⟩ : BufTy).Contents (Elt F)),
    StableHlo.binary main_arg2 main_v4 main_v5 ((fun l r => Host.dotGeneral dot_S640000x16_S16x128_S640000x128_1_0_0_1_n_n none l r) : (⟨S640000x16, .f32⟩ : BufTy).Contents (Elt F) → (⟨S16x128, .f32⟩ : BufTy).Contents (Elt F) → (⟨S640000x128, .f32⟩ : BufTy).Contents (Elt F)),
    StableHlo.unary main_arg5 main_v6 (broadcastInDim S1x128 ![1] bcast_S128_S1x128_1 : (⟨S128, .f32⟩ : BufTy).Contents (Elt F) → (⟨S1x128, .f32⟩ : BufTy).Contents (Elt F)),
    StableHlo.unary main_v6 main_v7 (broadcastInDim S640000x128 ![0, 1] bcast_S1x128_S640000x128_0_1 : (⟨S1x128, .f32⟩ : BufTy).Contents (Elt F) → (⟨S640000x128, .f32⟩ : BufTy).Contents (Elt F)),
    StableHlo.binary main_v5 main_v7 main_v8 (addf : (⟨S640000x128, .f32⟩ : BufTy).Contents (Elt F) → (⟨S640000x128, .f32⟩ : BufTy).Contents (Elt F) → (⟨S640000x128, .f32⟩ : BufTy).Contents (Elt F)) ]

/-- Operations 10 … 12 of 358: the positive part of the hidden layer. -/
abbrev sEdgeB : List (HloOp τ sig (Elt F)) :=
  [ StableHlo.TRef.nullary main_call0.cst (constant S_ .f32 0x00000000#32),
    StableHlo.TRef.unary main_call0.cst main_call0.v0 (broadcastInDim S640000x128 ![] bcast_S_S640000x128),
    StableHlo.TRef.binary (.of main_v8 : StableHlo.TRef sig ⟨S640000x128, .f32⟩) main_call0.v0 main_call0.v1 maximumf ]

/-- Operations 13 … 18 of 358: the edge weights: the hidden layer times the transposed second weight row, plus the second bias, flattened to one number an edge. -/
abbrev sEdgeC : List (HloOp τ sig (Elt F)) :=
  [ StableHlo.unary main_arg6 main_v10 ((transpose S128x1 [1, 0] · transposes_S1x128_S128x1_1_0) : (⟨S1x128, .f32⟩ : BufTy).Contents (Elt F) → (⟨S128x1, .f32⟩ : BufTy).Contents (Elt F)),
    StableHlo.binary main_v9 main_v10 main_v11 ((fun l r => Host.dotGeneral dot_S640000x128_S128x1_S640000x1_1_0_0_1_n_n none l r) : (⟨S640000x128, .f32⟩ : BufTy).Contents (Elt F) → (⟨S128x1, .f32⟩ : BufTy).Contents (Elt F) → (⟨S640000x1, .f32⟩ : BufTy).Contents (Elt F)),
    StableHlo.unary main_arg7 main_v12 (broadcastInDim S1x1 ![1] bcast_S1_S1x1_1 : (⟨S1, .f32⟩ : BufTy).Contents (Elt F) → (⟨S1x1, .f32⟩ : BufTy).Contents (Elt F)),
    StableHlo.unary main_v12 main_v13 (broadcastInDim S640000x1 ![0, 1] bcast_S1x1_S640000x1_0_1 : (⟨S1x1, .f32⟩ : BufTy).Contents (Elt F) → (⟨S640000x1, .f32⟩ : BufTy).Contents (Elt F)),
    StableHlo.binary main_v11 main_v13 main_v14 (addf : (⟨S640000x1, .f32⟩ : BufTy).Contents (Elt F) → (⟨S640000x1, .f32⟩ : BufTy).Contents (Elt F) → (⟨S640000x1, .f32⟩ : BufTy).Contents (Elt F)),
    StableHlo.reshape main_v14 main_v15 rfl shapeCasts_S640000x1_S640000 ]

/-- Operations 19 … 20 of 358: layer 1: the node features times the transposed weight matrix. -/
abbrev sLin1 : List (HloOp τ sig (Elt F)) :=
  [ StableHlo.unary main_arg8 main_v16 ((transpose S128x128 [1, 0] · transposes_S128x128_S128x128_1_0) : (⟨S128x128, .f32⟩ : BufTy).Contents (Elt F) → (⟨S128x128, .f32⟩ : BufTy).Contents (Elt F)),
    StableHlo.binary main_arg0 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 21 … 26 of 358: layer 1: the self loops appended: both ends of every edge followed by the node numbers, the weights followed by ones. -/
abbrev sCat1 : List (HloOp τ sig (Elt F)) :=
  [ StableHlo.nullary main_v18 (iotaInDim S100000 32 0),
    StableHlo.binary main_v1 main_v18 main_v19 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.binary main_v3 main_v18 main_v20 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst (constant S_ .f32 0x3F800000#32),
    StableHlo.unary main_cst main_v21 (broadcastInDim S100000 ![] bcast_S_S100000 : (⟨S_, .f32⟩ : BufTy).Contents (Elt F) → (⟨S100000, .f32⟩ : BufTy).Contents (Elt F)),
    StableHlo.binary main_v15 main_v21 main_v22 ((fun a b => concatenate S740000 0 [⟨S640000, a⟩, ⟨S100000, b⟩] concatenates_S640000_S100000_S740000_d0) : (⟨S640000, .f32⟩ : BufTy).Contents (Elt F) → (⟨S100000, .f32⟩ : BufTy).Contents (Elt F) → (⟨S740000, .f32⟩ : BufTy).Contents (Elt F)) ]

/-- Operations 27 … 30 of 358: layer 1: the weighted in-degree of every node: every listed edge's weight scatter-added at its target. -/
abbrev sScat1 : List (HloOp τ sig (Elt F)) :=
  [ StableHlo.nullary main_cst_0 (constant S_ .f32 0x00000000#32),
    StableHlo.unary main_cst_0 main_v23 (broadcastInDim S100000 ![] bcast_S_S100000 : (⟨S_, .f32⟩ : BufTy).Contents (Elt F) → (⟨S100000, .f32⟩ : BufTy).Contents (Elt F)),
    StableHlo.unary main_v20 main_v24 (broadcastInDim S740000x1 ![0] bcast_S740000_S740000x1_0 : (⟨S740000, .i32⟩ : BufTy).Contents (Elt F) → (⟨S740000x1, .i32⟩ : BufTy).Contents (Elt F)),
    StableHlo.ternary main_v23 main_v24 main_v22 main_v25 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 31 … 38 of 358: layer 1: the inverse square root of the degree where the degree is positive, zero elsewhere. -/
abbrev sInv1 : List (HloOp τ sig (Elt F)) :=
  [ StableHlo.nullary main_cst_1 (constant S_ .f32 0x00000000#32),
    StableHlo.unary main_cst_1 main_v26 (broadcastInDim S100000 ![] bcast_S_S100000 : (⟨S_, .f32⟩ : BufTy).Contents (Elt F) → (⟨S100000, .f32⟩ : BufTy).Contents (Elt F)),
    StableHlo.binary main_v25 main_v26 main_v27 (cmpf .ogt : (⟨S100000, .f32⟩ : BufTy).Contents (Elt F) → (⟨S100000, .f32⟩ : BufTy).Contents (Elt F) → (⟨S100000, .i1⟩ : BufTy).Contents (Elt F)),
    StableHlo.unary main_v25 main_v28 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call1.v0 id,
    StableHlo.TRef.unary main_call1.v0 main_call1.v1 (broadcastInDim S100000 ![] bcast_S_S100000),
    StableHlo.TRef.ternary (.of main_v27 : StableHlo.TRef sig ⟨S100000, .i1⟩) (.of main_v28 : StableHlo.TRef sig ⟨S100000, .f32⟩) main_call1.v1 main_call1.v2 select ]

/-- Operations 39 … 58 of 358: layer 1: every listed edge's normalization: the inverse root degree at its source, times its weight, times the inverse root degree at its target. -/
abbrev sNrm1 : List (HloOp τ sig (Elt F)) :=
  [ StableHlo.nullary main_c (constantI S_ 32 0#32),
    StableHlo.unary main_c main_v30 (broadcastInDim S740000 ![] bcast_S_S740000 : (⟨S_, .i32⟩ : BufTy).Contents (Elt F) → (⟨S740000, .i32⟩ : BufTy).Contents (Elt F)),
    StableHlo.binary main_v19 main_v30 main_v31 (cmpi .slt : (⟨S740000, .i32⟩ : BufTy).Contents (Elt F) → (⟨S740000, .i32⟩ : BufTy).Contents (Elt F) → (⟨S740000, .i1⟩ : BufTy).Contents (Elt F)),
    StableHlo.nullary main_c_3 (constantI S_ 32 100000#32),
    StableHlo.unary main_c_3 main_v32 (broadcastInDim S740000 ![] bcast_S_S740000 : (⟨S_, .i32⟩ : BufTy).Contents (Elt F) → (⟨S740000, .i32⟩ : BufTy).Contents (Elt F)),
    StableHlo.binary main_v19 main_v32 main_v33 (addi : (⟨S740000, .i32⟩ : BufTy).Contents (Elt F) → (⟨S740000, .i32⟩ : BufTy).Contents (Elt F) → (⟨S740000, .i32⟩ : BufTy).Contents (Elt F)),
    StableHlo.ternary main_v31 main_v33 main_v19 main_v34 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v34 main_v35 (broadcastInDim S740000x1 ![0] bcast_S740000_S740000x1_0 : (⟨S740000, .i32⟩ : BufTy).Contents (Elt F) → (⟨S740000x1, .i32⟩ : BufTy).Contents (Elt F)),
    StableHlo.binary main_v29 main_v35 main_v36 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v36 main_v22 main_v37 (mulf : (⟨S740000, .f32⟩ : BufTy).Contents (Elt F) → (⟨S740000, .f32⟩ : BufTy).Contents (Elt F) → (⟨S740000, .f32⟩ : BufTy).Contents (Elt F)),
    StableHlo.nullary main_c_4 (constantI S_ 32 0#32),
    StableHlo.unary main_c_4 main_v38 (broadcastInDim S740000 ![] bcast_S_S740000 : (⟨S_, .i32⟩ : BufTy).Contents (Elt F) → (⟨S740000, .i32⟩ : BufTy).Contents (Elt F)),
    StableHlo.binary main_v20 main_v38 main_v39 (cmpi .slt : (⟨S740000, .i32⟩ : BufTy).Contents (Elt F) → (⟨S740000, .i32⟩ : BufTy).Contents (Elt F) → (⟨S740000, .i1⟩ : BufTy).Contents (Elt F)),
    StableHlo.nullary main_c_5 (constantI S_ 32 100000#32),
    StableHlo.unary main_c_5 main_v40 (broadcastInDim S740000 ![] bcast_S_S740000 : (⟨S_, .i32⟩ : BufTy).Contents (Elt F) → (⟨S740000, .i32⟩ : BufTy).Contents (Elt F)),
    StableHlo.binary main_v20 main_v40 main_v41 (addi : (⟨S740000, .i32⟩ : BufTy).Contents (Elt F) → (⟨S740000, .i32⟩ : BufTy).Contents (Elt F) → (⟨S740000, .i32⟩ : BufTy).Contents (Elt F)),
    StableHlo.ternary main_v39 main_v41 main_v20 main_v42 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v42 main_v43 (broadcastInDim S740000x1 ![0] bcast_S740000_S740000x1_0 : (⟨S740000, .i32⟩ : BufTy).Contents (Elt F) → (⟨S740000x1, .i32⟩ : BufTy).Contents (Elt F)),
    StableHlo.binary main_v29 main_v43 main_v44 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v37 main_v44 main_v45 (mulf : (⟨S740000, .f32⟩ : BufTy).Contents (Elt F) → (⟨S740000, .f32⟩ : BufTy).Contents (Elt F) → (⟨S740000, .f32⟩ : BufTy).Contents (Elt F)) ]

/-- Operations 59 … 64 of 358: layer 1: the source index of every listed edge, wrapped when negative (first part). -/
abbrev sMsg1a : List (HloOp τ sig (Elt F)) :=
  [ StableHlo.nullary main_c_6 (constantI S_ 32 0#32),
    StableHlo.unary main_c_6 main_v46 (broadcastInDim S740000 ![] bcast_S_S740000 : (⟨S_, .i32⟩ : BufTy).Contents (Elt F) → (⟨S740000, .i32⟩ : BufTy).Contents (Elt F)),
    StableHlo.binary main_v19 main_v46 main_v47 (cmpi .slt : (⟨S740000, .i32⟩ : BufTy).Contents (Elt F) → (⟨S740000, .i32⟩ : BufTy).Contents (Elt F) → (⟨S740000, .i1⟩ : BufTy).Contents (Elt F)),
    StableHlo.nullary main_c_7 (constantI S_ 32 100000#32),
    StableHlo.unary main_c_7 main_v48 (broadcastInDim S740000 ![] bcast_S_S740000 : (⟨S_, .i32⟩ : BufTy).Contents (Elt F) → (⟨S740000, .i32⟩ : BufTy).Contents (Elt F)),
    StableHlo.binary main_v19 main_v48 main_v49 (addi : (⟨S740000, .i32⟩ : BufTy).Contents (Elt F) → (⟨S740000, .i32⟩ : BufTy).Contents (Elt F) → (⟨S740000, .i32⟩ : BufTy).Contents (Elt F)) ]

/-- Operations 65 … 77 of 358: layer 1: the messages (the transformed features gathered at the source, scaled by the normalization), scatter-added at the target, plus the bias. -/
abbrev sMsg1b : List (HloOp τ sig (Elt F)) :=
  [ StableHlo.ternary main_v47 main_v49 main_v19 main_v50 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v50 main_v51 (broadcastInDim S740000x1 ![0] bcast_S740000_S740000x1_0 : (⟨S740000, .i32⟩ : BufTy).Contents (Elt F) → (⟨S740000x1, .i32⟩ : BufTy).Contents (Elt F)),
    StableHlo.binary main_v17 main_v51 main_v52 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v45 main_v53 (broadcastInDim S740000x1 ![0] bcast_S740000_S740000x1_0 : (⟨S740000, .f32⟩ : BufTy).Contents (Elt F) → (⟨S740000x1, .f32⟩ : BufTy).Contents (Elt F)),
    StableHlo.unary main_v53 main_v54 (broadcastInDim S740000x128 ![0, 1] bcast_S740000x1_S740000x128_0_1 : (⟨S740000x1, .f32⟩ : BufTy).Contents (Elt F) → (⟨S740000x128, .f32⟩ : BufTy).Contents (Elt F)),
    StableHlo.binary main_v52 main_v54 main_v55 (mulf : (⟨S740000x128, .f32⟩ : BufTy).Contents (Elt F) → (⟨S740000x128, .f32⟩ : BufTy).Contents (Elt F) → (⟨S740000x128, .f32⟩ : BufTy).Contents (Elt F)),
    StableHlo.nullary main_cst_8 (constant S_ .f32 0x00000000#32),
    StableHlo.unary main_cst_8 main_v56 (broadcastInDim S100000x128 ![] bcast_S_S100000x128 : (⟨S_, .f32⟩ : BufTy).Contents (Elt F) → (⟨S100000x128, .f32⟩ : BufTy).Contents (Elt F)),
    StableHlo.unary main_v20 main_v57 (broadcastInDim S740000x1 ![0] bcast_S740000_S740000x1_0 : (⟨S740000, .i32⟩ : BufTy).Contents (Elt F) → (⟨S740000x1, .i32⟩ : BufTy).Contents (Elt F)),
    StableHlo.ternary main_v56 main_v57 main_v55 main_v58 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg9 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S100000x128 ![0, 1] bcast_S1x128_S100000x128_0_1 : (⟨S1x128, .f32⟩ : BufTy).Contents (Elt F) → (⟨S100000x128, .f32⟩ : BufTy).Contents (Elt F)),
    StableHlo.binary main_v58 main_v60 main_v61 (addf : (⟨S100000x128, .f32⟩ : BufTy).Contents (Elt F) → (⟨S100000x128, .f32⟩ : BufTy).Contents (Elt F) → (⟨S100000x128, .f32⟩ : BufTy).Contents (Elt F)) ]

/-- Operations 78 … 82 of 358: layer 1: the mean of every column over the nodes. -/
abbrev sMean1 : List (HloOp τ sig (Elt F)) :=
  [ StableHlo.nullary main_cst_9 (constant S_ .f32 0x00000000#32),
    StableHlo.binary main_v61 main_cst_9 main_v62 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v63 (broadcastInDim S128 ![] bcast_S_S128 : (⟨S_, .f32⟩ : BufTy).Contents (Elt F) → (⟨S128, .f32⟩ : BufTy).Contents (Elt F)),
    StableHlo.binary main_v62 main_v63 main_v64 (Host.divf : (⟨S128, .f32⟩ : BufTy).Contents (Elt F) → (⟨S128, .f32⟩ : BufTy).Contents (Elt F) → (⟨S128, .f32⟩ : BufTy).Contents (Elt F)) ]

/-- Operations 83 … 105 of 358: layer 1: the variance of every column over the nodes: the mean of the squared deviations. -/
abbrev sVar1 : List (HloOp τ sig (Elt F)) :=
  [ StableHlo.nullary main_c_11 (constantI S_ 32 0#32),
    StableHlo.TRef.nullary main_call2.cst (constant S_ .f32 0x00000000#32),
    StableHlo.TRef.binary (.of main_v61 : StableHlo.TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v61 : StableHlo.TRef sig ⟨S100000x128, .f32⟩) main_call2.v4 main_call2.v5 subf,
    StableHlo.TRef.binary main_call2.v5 main_call2.v5 main_call2.v6 mulf,
    StableHlo.TRef.unary (.of main_c_11 : StableHlo.TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

/-- Operations 106 … 124 of 358: layer 1: the columns centred, scaled by the weight and the inverse root of variance plus epsilon, shifted by the bias, then the positive part. -/
abbrev sNorm1 : List (HloOp τ sig (Elt F)) :=
  [ StableHlo.unary main_v64 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v61 main_v67 main_v68 (subf : (⟨S100000x128, .f32⟩ : BufTy).Contents (Elt F) → (⟨S100000x128, .f32⟩ : BufTy).Contents (Elt F) → (⟨S100000x128, .f32⟩ : BufTy).Contents (Elt F)),
    StableHlo.unary main_arg10 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S100000x128 ![0, 1] bcast_S1x128_S100000x128_0_1 : (⟨S1x128, .f32⟩ : BufTy).Contents (Elt F) → (⟨S100000x128, .f32⟩ : BufTy).Contents (Elt F)),
    StableHlo.binary main_v70 main_v68 main_v71 (mulf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v72 (broadcastInDim S128 ![] bcast_S_S128 : (⟨S_, .f32⟩ : BufTy).Contents (Elt F) → (⟨S128, .f32⟩ : BufTy).Contents (Elt F)),
    StableHlo.binary main_v65 main_v72 main_v73 (addf : (⟨S128, .f32⟩ : BufTy).Contents (Elt F) → (⟨S128, .f32⟩ : BufTy).Contents (Elt F) → (⟨S128, .f32⟩ : BufTy).Contents (Elt F)),
    StableHlo.unary main_v73 main_v74 (Host.rsqrt : (⟨S128, .f32⟩ : BufTy).Contents (Elt F) → (⟨S128, .f32⟩ : BufTy).Contents (Elt F)),
    StableHlo.unary main_v74 main_v75 (broadcastInDim S1x128 ![1] bcast_S128_S1x128_1 : (⟨S128, .f32⟩ : BufTy).Contents (Elt F) → (⟨S1x128, .f32⟩ : BufTy).Contents (Elt F)),
    StableHlo.unary main_v75 main_v76 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v76 main_v77 (mulf : (⟨S100000x128, .f32⟩ : BufTy).Contents (Elt F) → (⟨S100000x128, .f32⟩ : BufTy).Contents (Elt F) → (⟨S100000x128, .f32⟩ : BufTy).Contents (Elt F)),
    StableHlo.unary main_arg11 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v80 : StableHlo.TRef sig ⟨S100000x128, .f32⟩) main_call3.v0 main_call3.v1 maximumf ]

/-- Operations 125 … 126 of 358: layer 2: the node features times the transposed weight matrix. -/
abbrev sLin2 : List (HloOp τ sig (Elt F)) :=
  [ StableHlo.unary main_arg12 main_v82 ((transpose S128x128 [1, 0] · transposes_S128x128_S128x128_1_0) : (⟨S128x128, .f32⟩ : BufTy).Contents (Elt F) → (⟨S128x128, .f32⟩ : BufTy).Contents (Elt F)),
    StableHlo.binary main_v81 main_v82 main_v83 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 127 … 132 of 358: layer 2: the self loops appended to the edge ends and to the weights. -/
abbrev sCat2 : List (HloOp τ sig (Elt F)) :=
  [ StableHlo.nullary main_v84 (iotaInDim S100000 32 0),
    StableHlo.binary main_v1 main_v84 main_v85 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.binary main_v3 main_v84 main_v86 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst_13 (constant S_ .f32 0x3F800000#32),
    StableHlo.unary main_cst_13 main_v87 (broadcastInDim S100000 ![] bcast_S_S100000 : (⟨S_, .f32⟩ : BufTy).Contents (Elt F) → (⟨S100000, .f32⟩ : BufTy).Contents (Elt F)),
    StableHlo.binary main_v15 main_v87 main_v88 ((fun a b => concatenate S740000 0 [⟨S640000, a⟩, ⟨S100000, b⟩] concatenates_S640000_S100000_S740000_d0) : (⟨S640000, .f32⟩ : BufTy).Contents (Elt F) → (⟨S100000, .f32⟩ : BufTy).Contents (Elt F) → (⟨S740000, .f32⟩ : BufTy).Contents (Elt F)) ]

/-- Operations 133 … 136 of 358: layer 2: the weighted in-degree of every node: every listed edge's weight scatter-added at its target. -/
abbrev sScat2 : List (HloOp τ sig (Elt F)) :=
  [ StableHlo.nullary main_cst_14 (constant S_ .f32 0x00000000#32),
    StableHlo.unary main_cst_14 main_v89 (broadcastInDim S100000 ![] bcast_S_S100000 : (⟨S_, .f32⟩ : BufTy).Contents (Elt F) → (⟨S100000, .f32⟩ : BufTy).Contents (Elt F)),
    StableHlo.unary main_v86 main_v90 (broadcastInDim S740000x1 ![0] bcast_S740000_S740000x1_0 : (⟨S740000, .i32⟩ : BufTy).Contents (Elt F) → (⟨S740000x1, .i32⟩ : BufTy).Contents (Elt F)),
    StableHlo.ternary main_v89 main_v90 main_v88 main_v91 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 137 … 144 of 358: layer 2: the inverse square root of the degree where the degree is positive, zero elsewhere. -/
abbrev sInv2 : List (HloOp τ sig (Elt F)) :=
  [ StableHlo.nullary main_cst_15 (constant S_ .f32 0x00000000#32),
    StableHlo.unary main_cst_15 main_v92 (broadcastInDim S100000 ![] bcast_S_S100000 : (⟨S_, .f32⟩ : BufTy).Contents (Elt F) → (⟨S100000, .f32⟩ : BufTy).Contents (Elt F)),
    StableHlo.binary main_v91 main_v92 main_v93 (cmpf .ogt : (⟨S100000, .f32⟩ : BufTy).Contents (Elt F) → (⟨S100000, .f32⟩ : BufTy).Contents (Elt F) → (⟨S100000, .i1⟩ : BufTy).Contents (Elt F)),
    StableHlo.unary main_v91 main_v94 (Host.rsqrt : (⟨S100000, .f32⟩ : BufTy).Contents (Elt F) → (⟨S100000, .f32⟩ : BufTy).Contents (Elt F)),
    StableHlo.nullary main_cst_16 (constant S_ .f32 0x00000000#32),
    StableHlo.TRef.unary (.of main_cst_16 : StableHlo.TRef sig ⟨S_, .f32⟩) main_call4.v0 id,
    StableHlo.TRef.unary main_call4.v0 main_call4.v1 (broadcastInDim S100000 ![] bcast_S_S100000),
    StableHlo.TRef.ternary (.of main_v93 : StableHlo.TRef sig ⟨S100000, .i1⟩) (.of main_v94 : StableHlo.TRef sig ⟨S100000, .f32⟩) main_call4.v1 main_call4.v2 select ]

/-- Operations 145 … 149 of 358: layer 2: every listed edge's normalization (first part). -/
abbrev sNrm2a : List (HloOp τ sig (Elt F)) :=
  [ StableHlo.nullary main_c_17 (constantI S_ 32 0#32),
    StableHlo.unary main_c_17 main_v96 (broadcastInDim S740000 ![] bcast_S_S740000 : (⟨S_, .i32⟩ : BufTy).Contents (Elt F) → (⟨S740000, .i32⟩ : BufTy).Contents (Elt F)),
    StableHlo.binary main_v85 main_v96 main_v97 (cmpi .slt : (⟨S740000, .i32⟩ : BufTy).Contents (Elt F) → (⟨S740000, .i32⟩ : BufTy).Contents (Elt F) → (⟨S740000, .i1⟩ : BufTy).Contents (Elt F)),
    StableHlo.nullary main_c_18 (constantI S_ 32 100000#32),
    StableHlo.unary main_c_18 main_v98 (broadcastInDim S740000 ![] bcast_S_S740000 : (⟨S_, .i32⟩ : BufTy).Contents (Elt F) → (⟨S740000, .i32⟩ : BufTy).Contents (Elt F)) ]

/-- Operations 150 … 164 of 358: layer 2: every listed edge's normalization (second part). -/
abbrev sNrm2b : List (HloOp τ sig (Elt F)) :=
  [ StableHlo.binary main_v85 main_v98 main_v99 (addi : (⟨S740000, .i32⟩ : BufTy).Contents (Elt F) → (⟨S740000, .i32⟩ : BufTy).Contents (Elt F) → (⟨S740000, .i32⟩ : BufTy).Contents (Elt F)),
    StableHlo.ternary main_v97 main_v99 main_v85 main_v100 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v100 main_v101 (broadcastInDim S740000x1 ![0] bcast_S740000_S740000x1_0 : (⟨S740000, .i32⟩ : BufTy).Contents (Elt F) → (⟨S740000x1, .i32⟩ : BufTy).Contents (Elt F)),
    StableHlo.binary main_v95 main_v101 main_v102 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v102 main_v88 main_v103 (mulf : (⟨S740000, .f32⟩ : BufTy).Contents (Elt F) → (⟨S740000, .f32⟩ : BufTy).Contents (Elt F) → (⟨S740000, .f32⟩ : BufTy).Contents (Elt F)),
    StableHlo.nullary main_c_19 (constantI S_ 32 0#32),
    StableHlo.unary main_c_19 main_v104 (broadcastInDim S740000 ![] bcast_S_S740000 : (⟨S_, .i32⟩ : BufTy).Contents (Elt F) → (⟨S740000, .i32⟩ : BufTy).Contents (Elt F)),
    StableHlo.binary main_v86 main_v104 main_v105 (cmpi .slt : (⟨S740000, .i32⟩ : BufTy).Contents (Elt F) → (⟨S740000, .i32⟩ : BufTy).Contents (Elt F) → (⟨S740000, .i1⟩ : BufTy).Contents (Elt F)),
    StableHlo.nullary main_c_20 (constantI S_ 32 100000#32),
    StableHlo.unary main_c_20 main_v106 (broadcastInDim S740000 ![] bcast_S_S740000 : (⟨S_, .i32⟩ : BufTy).Contents (Elt F) → (⟨S740000, .i32⟩ : BufTy).Contents (Elt F)),
    StableHlo.binary main_v86 main_v106 main_v107 (addi : (⟨S740000, .i32⟩ : BufTy).Contents (Elt F) → (⟨S740000, .i32⟩ : BufTy).Contents (Elt F) → (⟨S740000, .i32⟩ : BufTy).Contents (Elt F)),
    StableHlo.ternary main_v105 main_v107 main_v86 main_v108 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v108 main_v109 (broadcastInDim S740000x1 ![0] bcast_S740000_S740000x1_0 : (⟨S740000, .i32⟩ : BufTy).Contents (Elt F) → (⟨S740000x1, .i32⟩ : BufTy).Contents (Elt F)),
    StableHlo.binary main_v95 main_v109 main_v110 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v103 main_v110 main_v111 (mulf : (⟨S740000, .f32⟩ : BufTy).Contents (Elt F) → (⟨S740000, .f32⟩ : BufTy).Contents (Elt F) → (⟨S740000, .f32⟩ : BufTy).Contents (Elt F)) ]

/-- Operations 165 … 183 of 358: layer 2: the messages, scatter-added at the target, plus the bias. -/
abbrev sMsg2 : List (HloOp τ sig (Elt F)) :=
  [ StableHlo.nullary main_c_21 (constantI S_ 32 0#32),
    StableHlo.unary main_c_21 main_v112 (broadcastInDim S740000 ![] bcast_S_S740000 : (⟨S_, .i32⟩ : BufTy).Contents (Elt F) → (⟨S740000, .i32⟩ : BufTy).Contents (Elt F)),
    StableHlo.binary main_v85 main_v112 main_v113 (cmpi .slt : (⟨S740000, .i32⟩ : BufTy).Contents (Elt F) → (⟨S740000, .i32⟩ : BufTy).Contents (Elt F) → (⟨S740000, .i1⟩ : BufTy).Contents (Elt F)),
    StableHlo.nullary main_c_22 (constantI S_ 32 100000#32),
    StableHlo.unary main_c_22 main_v114 (broadcastInDim S740000 ![] bcast_S_S740000 : (⟨S_, .i32⟩ : BufTy).Contents (Elt F) → (⟨S740000, .i32⟩ : BufTy).Contents (Elt F)),
    StableHlo.binary main_v85 main_v114 main_v115 (addi : (⟨S740000, .i32⟩ : BufTy).Contents (Elt F) → (⟨S740000, .i32⟩ : BufTy).Contents (Elt F) → (⟨S740000, .i32⟩ : BufTy).Contents (Elt F)),
    StableHlo.ternary main_v113 main_v115 main_v85 main_v116 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v116 main_v117 (broadcastInDim S740000x1 ![0] bcast_S740000_S740000x1_0 : (⟨S740000, .i32⟩ : BufTy).Contents (Elt F) → (⟨S740000x1, .i32⟩ : BufTy).Contents (Elt F)),
    StableHlo.binary main_v83 main_v117 main_v118 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v111 main_v119 (broadcastInDim S740000x1 ![0] bcast_S740000_S740000x1_0 : (⟨S740000, .f32⟩ : BufTy).Contents (Elt F) → (⟨S740000x1, .f32⟩ : BufTy).Contents (Elt F)),
    StableHlo.unary main_v119 main_v120 (broadcastInDim S740000x128 ![0, 1] bcast_S740000x1_S740000x128_0_1 : (⟨S740000x1, .f32⟩ : BufTy).Contents (Elt F) → (⟨S740000x128, .f32⟩ : BufTy).Contents (Elt F)),
    StableHlo.binary main_v118 main_v120 main_v121 (mulf : (⟨S740000x128, .f32⟩ : BufTy).Contents (Elt F) → (⟨S740000x128, .f32⟩ : BufTy).Contents (Elt F) → (⟨S740000x128, .f32⟩ : BufTy).Contents (Elt F)),
    StableHlo.nullary main_cst_23 (constant S_ .f32 0x00000000#32),
    StableHlo.unary main_cst_23 main_v122 (broadcastInDim S100000x128 ![] bcast_S_S100000x128 : (⟨S_, .f32⟩ : BufTy).Contents (Elt F) → (⟨S100000x128, .f32⟩ : BufTy).Contents (Elt F)),
    StableHlo.unary main_v86 main_v123 (broadcastInDim S740000x1 ![0] bcast_S740000_S740000x1_0 : (⟨S740000, .i32⟩ : BufTy).Contents (Elt F) → (⟨S740000x1, .i32⟩ : BufTy).Contents (Elt F)),
    StableHlo.ternary main_v122 main_v123 main_v121 main_v124 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg13 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v124 main_v126 main_v127 (addf : (⟨S100000x128, .f32⟩ : BufTy).Contents (Elt F) → (⟨S100000x128, .f32⟩ : BufTy).Contents (Elt F) → (⟨S100000x128, .f32⟩ : BufTy).Contents (Elt F)) ]

/-- Operations 184 … 188 of 358: layer 2: the mean of every column over the nodes. -/
abbrev sMean2 : List (HloOp τ sig (Elt F)) :=
  [ StableHlo.nullary main_cst_24 (constant S_ .f32 0x00000000#32),
    StableHlo.binary main_v127 main_cst_24 main_v128 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v129 (broadcastInDim S128 ![] bcast_S_S128 : (⟨S_, .f32⟩ : BufTy).Contents (Elt F) → (⟨S128, .f32⟩ : BufTy).Contents (Elt F)),
    StableHlo.binary main_v128 main_v129 main_v130 (Host.divf : (⟨S128, .f32⟩ : BufTy).Contents (Elt F) → (⟨S128, .f32⟩ : BufTy).Contents (Elt F) → (⟨S128, .f32⟩ : BufTy).Contents (Elt F)) ]

/-- Operations 189 … 211 of 358: layer 2: the variance of every column over the nodes. -/
abbrev sVar2 : List (HloOp τ sig (Elt F)) :=
  [ StableHlo.nullary main_c_26 (constantI S_ 32 0#32),
    StableHlo.TRef.nullary main_call5.cst (constant S_ .f32 0x00000000#32),
    StableHlo.TRef.binary (.of main_v127 : StableHlo.TRef sig ⟨S100000x128, .f32⟩) main_call5.cst main_call5.v0 (fun x v => Host.reduceAdd x v reducesTo_S100000x128_S128_d0 h_S_),
    StableHlo.TRef.unary main_call5.v0 main_call5.v1 (broadcastInDim S1x128 ![1] bcast_S128_S1x128_1),
    StableHlo.TRef.nullary main_call5.cst_0 (constant S_ .f32 0x47C35000#32),
    StableHlo.TRef.unary main_call5.cst_0 main_call5.v2 (broadcastInDim S1x128 ![] bcast_S_S1x128),
    StableHlo.TRef.binary main_call5.v1 main_call5.v2 main_call5.v3 Host.divf,
    StableHlo.TRef.unary main_call5.v3 main_call5.v4 (broadcastInDim S100000x128 ![0, 1] bcast_S1x128_S100000x128_0_1),
    StableHlo.TRef.binary (.of main_v127 : StableHlo.TRef sig ⟨S100000x128, .f32⟩) main_call5.v4 main_call5.v5 subf,
    StableHlo.TRef.binary main_call5.v5 main_call5.v5 main_call5.v6 mulf,
    StableHlo.TRef.unary (.of main_c_26 : StableHlo.TRef sig ⟨S_, .i32⟩) main_call5.v7 (sitofp .f32),
    StableHlo.TRef.nullary main_call5.cst_1 (constant S_ .f32 0x47C35000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S100000x128_S128_d0 h_S_),
    StableHlo.TRef.unary main_call5.v8 main_call5.v10 (broadcastInDim S128 ![] bcast_S_S128),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S128 ![] bcast_S_S128),
    StableHlo.TRef.ternary main_call5.v12 main_call5.v11 main_call5.call0.v1 main_call5.call0.v2 (fun p a b => select (broadcastInDim S128 ![] bcast_S_S128 p) a b) ]

/-- Operations 212 … 230 of 358: layer 2: the normalization applied, then the positive part. -/
abbrev sNorm2 : List (HloOp τ sig (Elt F)) :=
  [ StableHlo.unary main_v130 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v133 main_v134 (subf : (⟨S100000x128, .f32⟩ : BufTy).Contents (Elt F) → (⟨S100000x128, .f32⟩ : BufTy).Contents (Elt F) → (⟨S100000x128, .f32⟩ : BufTy).Contents (Elt F)),
    StableHlo.unary main_arg14 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v136 main_v134 main_v137 (mulf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v138 (broadcastInDim S128 ![] bcast_S_S128 : (⟨S_, .f32⟩ : BufTy).Contents (Elt F) → (⟨S128, .f32⟩ : BufTy).Contents (Elt F)),
    StableHlo.binary main_v131 main_v138 main_v139 (addf : (⟨S128, .f32⟩ : BufTy).Contents (Elt F) → (⟨S128, .f32⟩ : BufTy).Contents (Elt F) → (⟨S128, .f32⟩ : BufTy).Contents (Elt F)),
    StableHlo.unary main_v139 main_v140 (Host.rsqrt : (⟨S128, .f32⟩ : BufTy).Contents (Elt F) → (⟨S128, .f32⟩ : BufTy).Contents (Elt F)),
    StableHlo.unary main_v140 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v142 main_v143 (mulf : (⟨S100000x128, .f32⟩ : BufTy).Contents (Elt F) → (⟨S100000x128, .f32⟩ : BufTy).Contents (Elt F) → (⟨S100000x128, .f32⟩ : BufTy).Contents (Elt F)),
    StableHlo.unary main_arg15 main_v144 (broadcastInDim S1x128 ![1] bcast_S128_S1x128_1 : (⟨S128, .f32⟩ : BufTy).Contents (Elt F) → (⟨S1x128, .f32⟩ : BufTy).Contents (Elt F)),
    StableHlo.unary main_v144 main_v145 (broadcastInDim S100000x128 ![0, 1] bcast_S1x128_S100000x128_0_1 : (⟨S1x128, .f32⟩ : BufTy).Contents (Elt F) → (⟨S100000x128, .f32⟩ : BufTy).Contents (Elt F)),
    StableHlo.binary main_v143 main_v145 main_v146 (addf : (⟨S100000x128, .f32⟩ : BufTy).Contents (Elt F) → (⟨S100000x128, .f32⟩ : BufTy).Contents (Elt F) → (⟨S100000x128, .f32⟩ : BufTy).Contents (Elt F)),
    StableHlo.TRef.nullary main_call6.cst (constant S_ .f32 0x00000000#32),
    StableHlo.TRef.unary main_call6.cst main_call6.v0 (broadcastInDim S100000x128 ![] bcast_S_S100000x128),
    StableHlo.TRef.binary (.of main_v146 : StableHlo.TRef sig ⟨S100000x128, .f32⟩) main_call6.v0 main_call6.v1 maximumf ]

/-- Operations 231 … 232 of 358: layer 3: the node features times the transposed weight matrix. -/
abbrev sLin3 : List (HloOp τ sig (Elt F)) :=
  [ StableHlo.unary main_arg16 main_v148 ((transpose S128x128 [1, 0] · transposes_S128x128_S128x128_1_0) : (⟨S128x128, .f32⟩ : BufTy).Contents (Elt F) → (⟨S128x128, .f32⟩ : BufTy).Contents (Elt F)),
    StableHlo.binary main_v147 main_v148 main_v149 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 233 … 238 of 358: layer 3: the self loops appended to the edge ends and to the weights. -/
abbrev sCat3 : List (HloOp τ sig (Elt F)) :=
  [ StableHlo.nullary main_v150 (iotaInDim S100000 32 0),
    StableHlo.binary main_v1 main_v150 main_v151 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.binary main_v3 main_v150 main_v152 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    StableHlo.nullary main_cst_28 (constant S_ .f32 0x3F800000#32),
    StableHlo.unary main_cst_28 main_v153 (broadcastInDim S100000 ![] bcast_S_S100000 : (⟨S_, .f32⟩ : BufTy).Contents (Elt F) → (⟨S100000, .f32⟩ : BufTy).Contents (Elt F)),
    StableHlo.binary main_v15 main_v153 main_v154 ((fun a b => concatenate S740000 0 [⟨S640000, a⟩, ⟨S100000, b⟩] concatenates_S640000_S100000_S740000_d0) : (⟨S640000, .f32⟩ : BufTy).Contents (Elt F) → (⟨S100000, .f32⟩ : BufTy).Contents (Elt F) → (⟨S740000, .f32⟩ : BufTy).Contents (Elt F)) ]

/-- Operations 239 … 242 of 358: layer 3: the weighted in-degree of every node: every listed edge's weight scatter-added at its target. -/
abbrev sScat3 : List (HloOp τ sig (Elt F)) :=
  [ StableHlo.nullary main_cst_29 (constant S_ .f32 0x00000000#32),
    StableHlo.unary main_cst_29 main_v155 (broadcastInDim S100000 ![] bcast_S_S100000 : (⟨S_, .f32⟩ : BufTy).Contents (Elt F) → (⟨S100000, .f32⟩ : BufTy).Contents (Elt F)),
    StableHlo.unary main_v152 main_v156 (broadcastInDim S740000x1 ![0] bcast_S740000_S740000x1_0 : (⟨S740000, .i32⟩ : BufTy).Contents (Elt F) → (⟨S740000x1, .i32⟩ : BufTy).Contents (Elt F)),
    StableHlo.ternary main_v155 main_v156 main_v154 main_v157 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 243 … 250 of 358: layer 3: the inverse square root of the degree where the degree is positive, zero elsewhere. -/
abbrev sInv3 : List (HloOp τ sig (Elt F)) :=
  [ StableHlo.nullary main_cst_30 (constant S_ .f32 0x00000000#32),
    StableHlo.unary main_cst_30 main_v158 (broadcastInDim S100000 ![] bcast_S_S100000 : (⟨S_, .f32⟩ : BufTy).Contents (Elt F) → (⟨S100000, .f32⟩ : BufTy).Contents (Elt F)),
    StableHlo.binary main_v157 main_v158 main_v159 (cmpf .ogt : (⟨S100000, .f32⟩ : BufTy).Contents (Elt F) → (⟨S100000, .f32⟩ : BufTy).Contents (Elt F) → (⟨S100000, .i1⟩ : BufTy).Contents (Elt F)),
    StableHlo.unary main_v157 main_v160 (Host.rsqrt : (⟨S100000, .f32⟩ : BufTy).Contents (Elt F) → (⟨S100000, .f32⟩ : BufTy).Contents (Elt F)),
    StableHlo.nullary main_cst_31 (constant S_ .f32 0x00000000#32),
    StableHlo.TRef.unary (.of main_cst_31 : StableHlo.TRef sig ⟨S_, .f32⟩) main_call7.v0 id,
    StableHlo.TRef.unary main_call7.v0 main_call7.v1 (broadcastInDim S100000 ![] bcast_S_S100000),
    StableHlo.TRef.ternary (.of main_v159 : StableHlo.TRef sig ⟨S100000, .i1⟩) (.of main_v160 : StableHlo.TRef sig ⟨S100000, .f32⟩) main_call7.v1 main_call7.v2 select ]

/-- Operations 251 … 270 of 358: layer 3: every listed edge's normalization. -/
abbrev sNrm3 : List (HloOp τ sig (Elt F)) :=
  [ StableHlo.nullary main_c_32 (constantI S_ 32 0#32),
    StableHlo.unary main_c_32 main_v162 (broadcastInDim S740000 ![] bcast_S_S740000 : (⟨S_, .i32⟩ : BufTy).Contents (Elt F) → (⟨S740000, .i32⟩ : BufTy).Contents (Elt F)),
    StableHlo.binary main_v151 main_v162 main_v163 (cmpi .slt : (⟨S740000, .i32⟩ : BufTy).Contents (Elt F) → (⟨S740000, .i32⟩ : BufTy).Contents (Elt F) → (⟨S740000, .i1⟩ : BufTy).Contents (Elt F)),
    StableHlo.nullary main_c_33 (constantI S_ 32 100000#32),
    StableHlo.unary main_c_33 main_v164 (broadcastInDim S740000 ![] bcast_S_S740000 : (⟨S_, .i32⟩ : BufTy).Contents (Elt F) → (⟨S740000, .i32⟩ : BufTy).Contents (Elt F)),
    StableHlo.binary main_v151 main_v164 main_v165 (addi : (⟨S740000, .i32⟩ : BufTy).Contents (Elt F) → (⟨S740000, .i32⟩ : BufTy).Contents (Elt F) → (⟨S740000, .i32⟩ : BufTy).Contents (Elt F)),
    StableHlo.ternary main_v163 main_v165 main_v151 main_v166 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v166 main_v167 (broadcastInDim S740000x1 ![0] bcast_S740000_S740000x1_0 : (⟨S740000, .i32⟩ : BufTy).Contents (Elt F) → (⟨S740000x1, .i32⟩ : BufTy).Contents (Elt F)),
    StableHlo.binary main_v161 main_v167 main_v168 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v168 main_v154 main_v169 (mulf : (⟨S740000, .f32⟩ : BufTy).Contents (Elt F) → (⟨S740000, .f32⟩ : BufTy).Contents (Elt F) → (⟨S740000, .f32⟩ : BufTy).Contents (Elt F)),
    StableHlo.nullary main_c_34 (constantI S_ 32 0#32),
    StableHlo.unary main_c_34 main_v170 (broadcastInDim S740000 ![] bcast_S_S740000 : (⟨S_, .i32⟩ : BufTy).Contents (Elt F) → (⟨S740000, .i32⟩ : BufTy).Contents (Elt F)),
    StableHlo.binary main_v152 main_v170 main_v171 (cmpi .slt : (⟨S740000, .i32⟩ : BufTy).Contents (Elt F) → (⟨S740000, .i32⟩ : BufTy).Contents (Elt F) → (⟨S740000, .i1⟩ : BufTy).Contents (Elt F)),
    StableHlo.nullary main_c_35 (constantI S_ 32 100000#32),
    StableHlo.unary main_c_35 main_v172 (broadcastInDim S740000 ![] bcast_S_S740000 : (⟨S_, .i32⟩ : BufTy).Contents (Elt F) → (⟨S740000, .i32⟩ : BufTy).Contents (Elt F)),
    StableHlo.binary main_v152 main_v172 main_v173 (addi : (⟨S740000, .i32⟩ : BufTy).Contents (Elt F) → (⟨S740000, .i32⟩ : BufTy).Contents (Elt F) → (⟨S740000, .i32⟩ : BufTy).Contents (Elt F)),
    StableHlo.ternary main_v171 main_v173 main_v152 main_v174 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v174 main_v175 (broadcastInDim S740000x1 ![0] bcast_S740000_S740000x1_0 : (⟨S740000, .i32⟩ : BufTy).Contents (Elt F) → (⟨S740000x1, .i32⟩ : BufTy).Contents (Elt F)),
    StableHlo.binary main_v161 main_v175 main_v176 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    StableHlo.binary main_v169 main_v176 main_v177 (mulf : (⟨S740000, .f32⟩ : BufTy).Contents (Elt F) → (⟨S740000, .f32⟩ : BufTy).Contents (Elt F) → (⟨S740000, .f32⟩ : BufTy).Contents (Elt F)) ]

/-- Operations 271 … 289 of 358: layer 3: the messages, scatter-added at the target, plus the bias. -/
abbrev sMsg3 : List (HloOp τ sig (Elt F)) :=
  [ StableHlo.nullary main_c_36 (constantI S_ 32 0#32),
    StableHlo.unary main_c_36 main_v178 (broadcastInDim S740000 ![] bcast_S_S740000 : (⟨S_, .i32⟩ : BufTy).Contents (Elt F) → (⟨S740000, .i32⟩ : BufTy).Contents (Elt F)),
    StableHlo.binary main_v151 main_v178 main_v179 (cmpi .slt : (⟨S740000, .i32⟩ : BufTy).Contents (Elt F) → (⟨S740000, .i32⟩ : BufTy).Contents (Elt F) → (⟨S740000, .i1⟩ : BufTy).Contents (Elt F)),
    StableHlo.nullary main_c_37 (constantI S_ 32 100000#32),
    StableHlo.unary main_c_37 main_v180 (broadcastInDim S740000 ![] bcast_S_S740000 : (⟨S_, .i32⟩ : BufTy).Contents (Elt F) → (⟨S740000, .i32⟩ : BufTy).Contents (Elt F)),
    StableHlo.binary main_v151 main_v180 main_v181 (addi : (⟨S740000, .i32⟩ : BufTy).Contents (Elt F) → (⟨S740000, .i32⟩ : BufTy).Contents (Elt F) → (⟨S740000, .i32⟩ : BufTy).Contents (Elt F)),
    StableHlo.ternary main_v179 main_v181 main_v151 main_v182 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    StableHlo.unary main_v182 main_v183 (broadcastInDim S740000x1 ![0] bcast_S740000_S740000x1_0 : (⟨S740000, .i32⟩ : BufTy).Contents (Elt F) → (⟨S740000x1, .i32⟩ : BufTy).Contents (Elt F)),
    StableHlo.binary main_v149 main_v183 main_v184 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    StableHlo.unary main_v177 main_v185 (broadcastInDim S740000x1 ![0] bcast_S740000_S740000x1_0 : (⟨S740000, .f32⟩ : BufTy).Contents (Elt F) → (⟨S740000x1, .f32⟩ : BufTy).Contents (Elt F)),
    StableHlo.unary main_v185 main_v186 (broadcastInDim S740000x128 ![0, 1] bcast_S740000x1_S740000x128_0_1 : (⟨S740000x1, .f32⟩ : BufTy).Contents (Elt F) → (⟨S740000x128, .f32⟩ : BufTy).Contents (Elt F)),
    StableHlo.binary main_v184 main_v186 main_v187 (mulf : (⟨S740000x128, .f32⟩ : BufTy).Contents (Elt F) → (⟨S740000x128, .f32⟩ : BufTy).Contents (Elt F) → (⟨S740000x128, .f32⟩ : BufTy).Contents (Elt F)),
    StableHlo.nullary main_cst_38 (constant S_ .f32 0x00000000#32),
    StableHlo.unary main_cst_38 main_v188 (broadcastInDim S100000x128 ![] bcast_S_S100000x128 : (⟨S_, .f32⟩ : BufTy).Contents (Elt F) → (⟨S100000x128, .f32⟩ : BufTy).Contents (Elt F)),
    StableHlo.unary main_v152 main_v189 (broadcastInDim S740000x1 ![0] bcast_S740000_S740000x1_0 : (⟨S740000, .i32⟩ : BufTy).Contents (Elt F) → (⟨S740000x1, .i32⟩ : BufTy).Contents (Elt F)),
    StableHlo.ternary main_v188 main_v189 main_v187 main_v190 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)),
    StableHlo.unary main_arg17 main_v191 (broadcastInDim S1x128 ![1] bcast_S128_S1x128_1 : (⟨S128, .f32⟩ : BufTy).Contents (Elt F) → (⟨S1x128, .f32⟩ : BufTy).Contents (Elt F)),
    StableHlo.unary main_v191 main_v192 (broadcastInDim S100000x128 ![0, 1] bcast_S1x128_S100000x128_0_1 : (⟨S1x128, .f32⟩ : BufTy).Contents (Elt F) → (⟨S100000x128, .f32⟩ : BufTy).Contents (Elt F)),
    StableHlo.binary main_v190 main_v192 main_v193 (addf : (⟨S100000x128, .f32⟩ : BufTy).Contents (Elt F) → (⟨S100000x128, .f32⟩ : BufTy).Contents (Elt F) → (⟨S100000x128, .f32⟩ : BufTy).Contents (Elt F)) ]

/-- Operations 290 … 294 of 358: layer 3: the mean of every column over the nodes. -/
abbrev sMean3 : List (HloOp τ sig (Elt F)) :=
  [ StableHlo.nullary main_cst_39 (constant S_ .f32 0x00000000#32),
    StableHlo.binary main_v193 main_cst_39 main_v194 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_40 (constant S_ .f32 0x47C35000#32),
    StableHlo.unary main_cst_40 main_v195 (broadcastInDim S128 ![] bcast_S_S128 : (⟨S_, .f32⟩ : BufTy).Contents (Elt F) → (⟨S128, .f32⟩ : BufTy).Contents (Elt F)),
    StableHlo.binary main_v194 main_v195 main_v196 (Host.divf : (⟨S128, .f32⟩ : BufTy).Contents (Elt F) → (⟨S128, .f32⟩ : BufTy).Contents (Elt F) → (⟨S128, .f32⟩ : BufTy).Contents (Elt F)) ]

/-- Operations 295 … 317 of 358: layer 3: the variance of every column over the nodes. -/
abbrev sVar3 : List (HloOp τ sig (Elt F)) :=
  [ StableHlo.nullary main_c_41 (constantI S_ 32 0#32),
    StableHlo.TRef.nullary main_call8.cst (constant S_ .f32 0x00000000#32),
    StableHlo.TRef.binary (.of main_v193 : StableHlo.TRef sig ⟨S100000x128, .f32⟩) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v193 : StableHlo.TRef sig ⟨S100000x128, .f32⟩) main_call8.v4 main_call8.v5 subf,
    StableHlo.TRef.binary main_call8.v5 main_call8.v5 main_call8.v6 mulf,
    StableHlo.TRef.unary (.of main_c_41 : StableHlo.TRef sig ⟨S_, .i32⟩) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b) ]

/-- Operations 318 … 336 of 358: layer 3: the normalization applied, then the positive part. -/
abbrev sNorm3 : List (HloOp τ sig (Elt F)) :=
  [ StableHlo.unary main_v196 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S100000x128 ![0, 1] bcast_S1x128_S100000x128_0_1 : (⟨S1x128, .f32⟩ : BufTy).Contents (Elt F) → (⟨S100000x128, .f32⟩ : BufTy).Contents (Elt F)),
    StableHlo.binary main_v193 main_v199 main_v200 (subf : (⟨S100000x128, .f32⟩ : BufTy).Contents (Elt F) → (⟨S100000x128, .f32⟩ : BufTy).Contents (Elt F) → (⟨S100000x128, .f32⟩ : BufTy).Contents (Elt F)),
    StableHlo.unary main_arg18 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S100000x128 ![0, 1] bcast_S1x128_S100000x128_0_1 : (⟨S1x128, .f32⟩ : BufTy).Contents (Elt F) → (⟨S100000x128, .f32⟩ : BufTy).Contents (Elt F)),
    StableHlo.binary main_v202 main_v200 main_v203 (mulf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x3727C5AC#32),
    StableHlo.unary main_cst_42 main_v204 (broadcastInDim S128 ![] bcast_S_S128 : (⟨S_, .f32⟩ : BufTy).Contents (Elt F) → (⟨S128, .f32⟩ : BufTy).Contents (Elt F)),
    StableHlo.binary main_v197 main_v204 main_v205 (addf : (⟨S128, .f32⟩ : BufTy).Contents (Elt F) → (⟨S128, .f32⟩ : BufTy).Contents (Elt F) → (⟨S128, .f32⟩ : BufTy).Contents (Elt F)),
    StableHlo.unary main_v205 main_v206 (Host.rsqrt : (⟨S128, .f32⟩ : BufTy).Contents (Elt F) → (⟨S128, .f32⟩ : BufTy).Contents (Elt F)),
    StableHlo.unary main_v206 main_v207 (broadcastInDim S1x128 ![1] bcast_S128_S1x128_1 : (⟨S128, .f32⟩ : BufTy).Contents (Elt F) → (⟨S1x128, .f32⟩ : BufTy).Contents (Elt F)),
    StableHlo.unary main_v207 main_v208 (broadcastInDim S100000x128 ![0, 1] bcast_S1x128_S100000x128_0_1 : (⟨S1x128, .f32⟩ : BufTy).Contents (Elt F) → (⟨S100000x128, .f32⟩ : BufTy).Contents (Elt F)),
    StableHlo.binary main_v203 main_v208 main_v209 (mulf : (⟨S100000x128, .f32⟩ : BufTy).Contents (Elt F) → (⟨S100000x128, .f32⟩ : BufTy).Contents (Elt F) → (⟨S100000x128, .f32⟩ : BufTy).Contents (Elt F)),
    StableHlo.unary main_arg19 main_v210 (broadcastInDim S1x128 ![1] bcast_S128_S1x128_1 : (⟨S128, .f32⟩ : BufTy).Contents (Elt F) → (⟨S1x128, .f32⟩ : BufTy).Contents (Elt F)),
    StableHlo.unary main_v210 main_v211 (broadcastInDim S100000x128 ![0, 1] bcast_S1x128_S100000x128_0_1 : (⟨S1x128, .f32⟩ : BufTy).Contents (Elt F) → (⟨S100000x128, .f32⟩ : BufTy).Contents (Elt F)),
    StableHlo.binary main_v209 main_v211 main_v212 (addf : (⟨S100000x128, .f32⟩ : BufTy).Contents (Elt F) → (⟨S100000x128, .f32⟩ : BufTy).Contents (Elt F) → (⟨S100000x128, .f32⟩ : BufTy).Contents (Elt F)),
    StableHlo.TRef.nullary main_call9.cst (constant S_ .f32 0x00000000#32),
    StableHlo.TRef.unary main_call9.cst main_call9.v0 (broadcastInDim S100000x128 ![] bcast_S_S100000x128),
    StableHlo.TRef.binary (.of main_v212 : StableHlo.TRef sig ⟨S100000x128, .f32⟩) main_call9.v0 main_call9.v1 maximumf ]

/-- Operations 337 … 358 of 358: the read-out: the node rows scatter-added per graph, divided by the graph's node count (at least one), a linear map to one number a graph, flattened. -/
abbrev sTail : List (HloOp τ sig (Elt F)) :=
  [ StableHlo.nullary main_cst_43 (constant S_ .f32 0x00000000#32),
    StableHlo.unary main_cst_43 main_v214 (broadcastInDim S512x128 ![] bcast_S_S512x128 : (⟨S_, .f32⟩ : BufTy).Contents (Elt F) → (⟨S512x128, .f32⟩ : BufTy).Contents (Elt F)),
    StableHlo.unary main_arg3 main_v215 (broadcastInDim S100000x1 ![0] bcast_S100000_S100000x1_0 : (⟨S100000, .i32⟩ : BufTy).Contents (Elt F) → (⟨S100000x1, .i32⟩ : BufTy).Contents (Elt F)),
    StableHlo.ternary main_v214 main_v215 main_v213 main_v216 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_44 (constant S_ .f32 0x3F800000#32),
    StableHlo.unary main_cst_44 main_v217 (broadcastInDim S100000 ![] bcast_S_S100000 : (⟨S_, .f32⟩ : BufTy).Contents (Elt F) → (⟨S100000, .f32⟩ : BufTy).Contents (Elt F)),
    StableHlo.nullary main_cst_45 (constant S_ .f32 0x00000000#32),
    StableHlo.unary main_cst_45 main_v218 (broadcastInDim S512 ![] bcast_S_S512 : (⟨S_, .f32⟩ : BufTy).Contents (Elt F) → (⟨S512, .f32⟩ : BufTy).Contents (Elt F)),
    StableHlo.unary main_arg3 main_v219 (broadcastInDim S100000x1 ![0] bcast_S100000_S100000x1_0 : (⟨S100000, .i32⟩ : BufTy).Contents (Elt F) → (⟨S100000x1, .i32⟩ : BufTy).Contents (Elt F)),
    StableHlo.ternary main_v218 main_v219 main_v217 main_v220 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_46 (constant S_ .f32 0x3F800000#32),
    StableHlo.unary main_cst_46 main_v221 (broadcastInDim S512 ![] bcast_S_S512 : (⟨S_, .f32⟩ : BufTy).Contents (Elt F) → (⟨S512, .f32⟩ : BufTy).Contents (Elt F)),
    StableHlo.binary main_v220 main_v221 main_v222 (maximumf : (⟨S512, .f32⟩ : BufTy).Contents (Elt F) → (⟨S512, .f32⟩ : BufTy).Contents (Elt F) → (⟨S512, .f32⟩ : BufTy).Contents (Elt F)),
    StableHlo.unary main_v222 main_v223 (broadcastInDim S512x1 ![0] bcast_S512_S512x1_0 : (⟨S512, .f32⟩ : BufTy).Contents (Elt F) → (⟨S512x1, .f32⟩ : BufTy).Contents (Elt F)),
    StableHlo.unary main_v223 main_v224 (broadcastInDim S512x128 ![0, 1] bcast_S512x1_S512x128_0_1 : (⟨S512x1, .f32⟩ : BufTy).Contents (Elt F) → (⟨S512x128, .f32⟩ : BufTy).Contents (Elt F)),
    StableHlo.binary main_v216 main_v224 main_v225 (Host.divf : (⟨S512x128, .f32⟩ : BufTy).Contents (Elt F) → (⟨S512x128, .f32⟩ : BufTy).Contents (Elt F) → (⟨S512x128, .f32⟩ : BufTy).Contents (Elt F)),
    StableHlo.unary main_arg20 main_v226 ((transpose S128x1 [1, 0] · transposes_S1x128_S128x1_1_0) : (⟨S1x128, .f32⟩ : BufTy).Contents (Elt F) → (⟨S128x1, .f32⟩ : BufTy).Contents (Elt F)),
    StableHlo.binary main_v225 main_v226 main_v227 ((fun l r => Host.dotGeneral dot_S512x128_S128x1_S512x1_1_0_0_1_n_n none l r) : (⟨S512x128, .f32⟩ : BufTy).Contents (Elt F) → (⟨S128x1, .f32⟩ : BufTy).Contents (Elt F) → (⟨S512x1, .f32⟩ : BufTy).Contents (Elt F)),
    StableHlo.unary main_arg21 main_v228 (broadcastInDim S1x1 ![1] bcast_S1_S1x1_1 : (⟨S1, .f32⟩ : BufTy).Contents (Elt F) → (⟨S1x1, .f32⟩ : BufTy).Contents (Elt F)),
    StableHlo.unary main_v228 main_v229 (broadcastInDim S512x1 ![0, 1] bcast_S1x1_S512x1_0_1 : (⟨S1x1, .f32⟩ : BufTy).Contents (Elt F) → (⟨S512x1, .f32⟩ : BufTy).Contents (Elt F)),
    StableHlo.binary main_v227 main_v229 main_v230 (addf : (⟨S512x1, .f32⟩ : BufTy).Contents (Elt F) → (⟨S512x1, .f32⟩ : BufTy).Contents (Elt F) → (⟨S512x1, .f32⟩ : BufTy).Contents (Elt F)),
    StableHlo.reshape main_v230 main_v231 rfl shapeCasts_S512x1_S512 ]

/-- The operations of the entry function's window 0. -/
abbrev ops0 : List (HloOp τ sig (Elt F)) :=
  sIdx ++ (sEdgeA ++ (sEdgeB ++ (sEdgeC ++ (sLin1 ++ (sCat1 ++ (sScat1 ++ (sInv1 ++ (sNrm1 ++ sMsg1a))))))))

/-- The operations of the entry function's window 1. -/
abbrev ops1 : List (HloOp τ sig (Elt F)) :=
  sMsg1b ++ (sMean1 ++ (sVar1 ++ (sNorm1 ++ (sLin2 ++ (sCat2 ++ (sScat2 ++ (sInv2 ++ sNrm2a)))))))

/-- The operations of the entry function's window 2. -/
abbrev ops2 : List (HloOp τ sig (Elt F)) :=
  sNrm2b ++ (sMsg2 ++ (sMean2 ++ (sVar2 ++ (sNorm2 ++ sLin3))))

/-- The operations of the entry function's window 3. -/
abbrev ops3 : List (HloOp τ sig (Elt F)) :=
  sCat3 ++ (sScat3 ++ (sInv3 ++ (sNrm3 ++ (sMsg3 ++ sMean3))))

/-- The operations of the entry function's window 4. -/
abbrev ops4 : List (HloOp τ sig (Elt F)) :=
  sVar3 ++ (sNorm3 ++ sTail)

/-- The entry function's operations, in order. -/
abbrev ops : List (HloOp τ sig (Elt F)) :=
  ops0 ++ (ops1 ++ (ops2 ++ (ops3 ++ ops4)))

end Cert.RefRun

end
-- ==== Proof.RefRunEq0.lean ====
/-
  Window 0 of the reference's entry function is the straight line of its operations: the called functions' bodies
  stand in place of the calls, over the buffers each call names, and sequencing is associative.
-/
import proofs.«161461_j70540542869949_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 0 runs its operations in order and nothing else. -/
theorem main_part0_eq (c : Dev nD) : main_part0 (F := F) c = seq ops0 := rfl

end Cert.RefRun

end
-- ==== Proof.RefRunEq1.lean ====
/-
  Window 1 of the reference's entry function is the straight line of its operations: the called functions' bodies
  stand in place of the calls, over the buffers each call names, and sequencing is associative.
-/
import proofs.«161461_j70540542869949_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 1 runs its operations in order and nothing else. -/
theorem main_part1_eq (c : Dev nD) : main_part1 (F := F) c = seq ops1 := rfl

end Cert.RefRun

end
-- ==== Proof.RefRunEq2.lean ====
/-
  Window 2 of the reference's entry function is the straight line of its operations: the called functions' bodies
  stand in place of the calls, over the buffers each call names, and sequencing is associative.
-/
import proofs.«161461_j70540542869949_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 2 runs its operations in order and nothing else. -/
theorem main_part2_eq (c : Dev nD) : main_part2 (F := F) c = seq ops2 := rfl

end Cert.RefRun

end
-- ==== Proof.RefRunEq3.lean ====
/-
  Window 3 of the reference's entry function is the straight line of its operations: the called functions' bodies
  stand in place of the calls, over the buffers each call names, and sequencing is associative.
-/
import proofs.«161461_j70540542869949_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 3 runs its operations in order and nothing else. -/
theorem main_part3_eq (c : Dev nD) : main_part3 (F := F) c = seq ops3 := rfl

end Cert.RefRun

end
-- ==== Proof.RefRunEq4.lean ====
/-
  Window 4 of the reference's entry function is the straight line of its operations: the called functions' bodies
  stand in place of the calls, over the buffers each call names, and sequencing is associative.
-/
import proofs.«161461_j70540542869949_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 4 runs its operations in order and nothing else. -/
theorem main_part4_eq (c : Dev nD) : main_part4 (F := F) c = seq ops4 := rfl

end Cert.RefRun

end
-- ==== Proof.RefRunLib.lean ====
/-
  Small facts about lists of host operations run in order.

  The contents the buffers hold after a list of host operations, run in order from given contents, is a fold: so a
  list that is one stretch followed by another is run by running the second from what the first leaves; a buffer
  that both stretches leave alone is left alone by the two in a row; a property of every operation of both is one of
  every operation of the concatenation; and an operation that writes one buffer writes inside any list that holds it.
-/
import proofs.«161461_j70540542869949_1_alg».proof.Proof.RefRunOps

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists is one of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Running one stretch after another is running the second from what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- A buffer two stretches both leave alone is left alone by the two in a row. -/
theorem keep_append {l₁ l₂ : List (HloOp τ sig (Elt F))} {r : Ref sig .tc}
    (k₁ : ∀ V : Valuation τ sig (Elt F), after l₁ V (Proc.devRef .tc r) = V (Proc.devRef .tc r))
    (k₂ : ∀ V : Valuation τ sig (Elt F), after l₂ V (Proc.devRef .tc r) = V (Proc.devRef .tc r))
    (V : Valuation τ sig (Elt F)) : after (l₁ ++ l₂) V (Proc.devRef .tc r) = V (Proc.devRef .tc r) := by
  rw [after_app]; exact (k₂ _).trans (k₁ V)

/-- An operation whose one written buffer is in a list writes inside the list. -/
theorem writes_sub {op : HloOp τ sig (Elt F)} {W : List (Ref sig .tc)} (y : Ref sig .tc)
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

end Cert.RefRun

end
-- ==== Proof.RefRunFactsA.lean ====
/-
  Bookkeeping for the reference's operations, stretch by stretch: every operation touches TensorCore buffers only,
  every operation determines what it writes, and each writes exactly one buffer, its result; so a stretch leaves
  every buffer outside the list of its results as it found it.
-/
import proofs.«161461_j70540542869949_1_alg».proof.Proof.RefRunLib

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, one an operation. -/
abbrev sIdx_W : List (Ref sig .tc) := [main_v0, main_v1, main_v2, main_v3]

set_option maxRecDepth 8192 in
theorem sIdx_sub : (sIdx : List (HloOp τ sig (Elt F))).Forall fun op => op.bufs ⊆ tcRefs τ sig :=
  ⟨unary_bufs_sub .., reshape_bufs_sub .., unary_bufs_sub .., reshape_bufs_sub ..⟩

set_option maxRecDepth 8192 in
theorem sIdx_fresh : (sIdx : List (HloOp τ sig (Elt F))).Forall fun op => op.fresh = ∅ :=
  ⟨rfl, rfl, rfl, rfl⟩

set_option maxRecDepth 8192 in
theorem sIdx_writes : (sIdx : List (HloOp τ sig (Elt F))).Forall fun op =>
    op.writes ⊆ (sIdx_W.map (Proc.devRef (τ := τ) .tc)).toFinset :=
  ⟨writes_sub main_v0 rfl (by decide), writes_sub main_v1 rfl (by decide), writes_sub main_v2 rfl (by decide), writes_sub main_v3 rfl (by decide)⟩

/-- A buffer the stretch does not write keeps its contents through it. -/
theorem sIdx_keep (V : Valuation τ sig (Elt F)) (r : Ref sig .tc) (h : r ∉ sIdx_W) :
    after sIdx V (Proc.devRef .tc r) = V (Proc.devRef .tc r) :=
  after_of_writes_sub sIdx V sIdx_writes h

/-- The buffers the stretch writes, one an operation. -/
abbrev sEdgeA_W : List (Ref sig .tc) := [main_v4, main_v5, main_v6, main_v7, main_v8]

set_option maxRecDepth 8192 in
theorem sEdgeA_sub : (sEdgeA : List (HloOp τ sig (Elt F))).Forall fun op => op.bufs ⊆ tcRefs τ sig :=
  ⟨unary_bufs_sub .., binary_bufs_sub .., unary_bufs_sub .., unary_bufs_sub .., binary_bufs_sub ..⟩

set_option maxRecDepth 8192 in
theorem sEdgeA_fresh : (sEdgeA : List (HloOp τ sig (Elt F))).Forall fun op => op.fresh = ∅ :=
  ⟨rfl, rfl, rfl, rfl, rfl⟩

set_option maxRecDepth 8192 in
theorem sEdgeA_writes : (sEdgeA : List (HloOp τ sig (Elt F))).Forall fun op =>
    op.writes ⊆ (sEdgeA_W.map (Proc.devRef (τ := τ) .tc)).toFinset :=
  ⟨writes_sub main_v4 rfl (by decide), writes_sub main_v5 rfl (by decide), writes_sub main_v6 rfl (by decide), writes_sub main_v7 rfl (by decide), writes_sub main_v8 rfl (by decide)⟩

/-- A buffer the stretch does not write keeps its contents through it. -/
theorem sEdgeA_keep (V : Valuation τ sig (Elt F)) (r : Ref sig .tc) (h : r ∉ sEdgeA_W) :
    after sEdgeA V (Proc.devRef .tc r) = V (Proc.devRef .tc r) :=
  after_of_writes_sub sEdgeA V sEdgeA_writes h

/-- The buffers the stretch writes, one an operation. -/
abbrev sEdgeB_W : List (Ref sig .tc) := [main_call0_cst, main_call0_v0, main_v9]

set_option maxRecDepth 8192 in
theorem sEdgeB_sub : (sEdgeB : List (HloOp τ sig (Elt F))).Forall fun op => op.bufs ⊆ tcRefs τ sig :=
  ⟨nullary_bufs_sub .., unary_bufs_sub .., binary_bufs_sub ..⟩

set_option maxRecDepth 8192 in
theorem sEdgeB_fresh : (sEdgeB : List (HloOp τ sig (Elt F))).Forall fun op => op.fresh = ∅ :=
  ⟨rfl, rfl, rfl⟩

set_option maxRecDepth 8192 in
theorem sEdgeB_writes : (sEdgeB : List (HloOp τ sig (Elt F))).Forall fun op =>
    op.writes ⊆ (sEdgeB_W.map (Proc.devRef (τ := τ) .tc)).toFinset :=
  ⟨writes_sub main_call0_cst rfl (by decide), writes_sub main_call0_v0 rfl (by decide), writes_sub main_v9 rfl (by decide)⟩

/-- A buffer the stretch does not write keeps its contents through it. -/
theorem sEdgeB_keep (V : Valuation τ sig (Elt F)) (r : Ref sig .tc) (h : r ∉ sEdgeB_W) :
    after sEdgeB V (Proc.devRef .tc r) = V (Proc.devRef .tc r) :=
  after_of_writes_sub sEdgeB V sEdgeB_writes h

/-- The buffers the stretch writes, one an operation. -/
abbrev sEdgeC_W : List (Ref sig .tc) := [main_v10, main_v11, main_v12, main_v13, main_v14, main_v15]

set_option maxRecDepth 8192 in
theorem sEdgeC_sub : (sEdgeC : List (HloOp τ sig (Elt F))).Forall fun op => op.bufs ⊆ tcRefs τ sig :=
  ⟨unary_bufs_sub .., binary_bufs_sub .., unary_bufs_sub .., unary_bufs_sub .., binary_bufs_sub .., reshape_bufs_sub ..⟩

set_option maxRecDepth 8192 in
theorem sEdgeC_fresh : (sEdgeC : List (HloOp τ sig (Elt F))).Forall fun op => op.fresh = ∅ :=
  ⟨rfl, rfl, rfl, rfl, rfl, rfl⟩

set_option maxRecDepth 8192 in
theorem sEdgeC_writes : (sEdgeC : List (HloOp τ sig (Elt F))).Forall fun op =>
    op.writes ⊆ (sEdgeC_W.map (Proc.devRef (τ := τ) .tc)).toFinset :=
  ⟨writes_sub main_v10 rfl (by decide), writes_sub main_v11 rfl (by decide), writes_sub main_v12 rfl (by decide), writes_sub main_v13 rfl (by decide), writes_sub main_v14 rfl (by decide), writes_sub main_v15 rfl (by decide)⟩

/-- A buffer the stretch does not write keeps its contents through it. -/
theorem sEdgeC_keep (V : Valuation τ sig (Elt F)) (r : Ref sig .tc) (h : r ∉ sEdgeC_W) :
    after sEdgeC V (Proc.devRef .tc r) = V (Proc.devRef .tc r) :=
  after_of_writes_sub sEdgeC V sEdgeC_writes h

/-- The buffers the stretch writes, one an operation. -/
abbrev sLin1_W : List (Ref sig .tc) := [main_v16, main_v17]

set_option maxRecDepth 8192 in
theorem sLin1_sub : (sLin1 : List (HloOp τ sig (Elt F))).Forall fun op => op.bufs ⊆ tcRefs τ sig :=
  ⟨unary_bufs_sub .., binary_bufs_sub ..⟩

set_option maxRecDepth 8192 in
theorem sLin1_fresh : (sLin1 : List (HloOp τ sig (Elt F))).Forall fun op => op.fresh = ∅ :=
  ⟨rfl, rfl⟩

set_option maxRecDepth 8192 in
theorem sLin1_writes : (sLin1 : List (HloOp τ sig (Elt F))).Forall fun op =>
    op.writes ⊆ (sLin1_W.map (Proc.devRef (τ := τ) .tc)).toFinset :=
  ⟨writes_sub main_v16 rfl (by decide), writes_sub main_v17 rfl (by decide)⟩

/-- A buffer the stretch does not write keeps its contents through it. -/
theorem sLin1_keep (V : Valuation τ sig (Elt F)) (r : Ref sig .tc) (h : r ∉ sLin1_W) :
    after sLin1 V (Proc.devRef .tc r) = V (Proc.devRef .tc r) :=
  after_of_writes_sub sLin1 V sLin1_writes h

/-- The buffers the stretch writes, one an operation. -/
abbrev sCat1_W : List (Ref sig .tc) := [main_v18, main_v19, main_v20, main_cst, main_v21, main_v22]

set_option maxRecDepth 8192 in
theorem sCat1_sub : (sCat1 : List (HloOp τ sig (Elt F))).Forall fun op => op.bufs ⊆ tcRefs τ sig :=
  ⟨nullary_bufs_sub .., binary_bufs_sub .., binary_bufs_sub .., nullary_bufs_sub .., unary_bufs_sub .., binary_bufs_sub ..⟩

set_option maxRecDepth 8192 in
theorem sCat1_fresh : (sCat1 : List (HloOp τ sig (Elt F))).Forall fun op => op.fresh = ∅ :=
  ⟨rfl, rfl, rfl, rfl, rfl, rfl⟩

set_option maxRecDepth 8192 in
theorem sCat1_writes : (sCat1 : List (HloOp τ sig (Elt F))).Forall fun op =>
    op.writes ⊆ (sCat1_W.map (Proc.devRef (τ := τ) .tc)).toFinset :=
  ⟨writes_sub main_v18 rfl (by decide), writes_sub main_v19 rfl (by decide), writes_sub main_v20 rfl (by decide), writes_sub main_cst rfl (by decide), writes_sub main_v21 rfl (by decide), writes_sub main_v22 rfl (by decide)⟩

/-- A buffer the stretch does not write keeps its contents through it. -/
theorem sCat1_keep (V : Valuation τ sig (Elt F)) (r : Ref sig .tc) (h : r ∉ sCat1_W) :
    after sCat1 V (Proc.devRef .tc r) = V (Proc.devRef .tc r) :=
  after_of_writes_sub sCat1 V sCat1_writes h

/-- The buffers the stretch writes, one an operation. -/
abbrev sScat1_W : List (Ref sig .tc) := [main_cst_0, main_v23, main_v24, main_v25]

set_option maxRecDepth 8192 in
theorem sScat1_sub : (sScat1 : List (HloOp τ sig (Elt F))).Forall fun op => op.bufs ⊆ tcRefs τ sig :=
  ⟨nullary_bufs_sub .., unary_bufs_sub .., unary_bufs_sub .., ternary_bufs_sub ..⟩

set_option maxRecDepth 8192 in
theorem sScat1_fresh : (sScat1 : List (HloOp τ sig (Elt F))).Forall fun op => op.fresh = ∅ :=
  ⟨rfl, rfl, rfl, rfl⟩

set_option maxRecDepth 8192 in
theorem sScat1_writes : (sScat1 : List (HloOp τ sig (Elt F))).Forall fun op =>
    op.writes ⊆ (sScat1_W.map (Proc.devRef (τ := τ) .tc)).toFinset :=
  ⟨writes_sub main_cst_0 rfl (by decide), writes_sub main_v23 rfl (by decide), writes_sub main_v24 rfl (by decide), writes_sub main_v25 rfl (by decide)⟩

/-- A buffer the stretch does not write keeps its contents through it. -/
theorem sScat1_keep (V : Valuation τ sig (Elt F)) (r : Ref sig .tc) (h : r ∉ sScat1_W) :
    after sScat1 V (Proc.devRef .tc r) = V (Proc.devRef .tc r) :=
  after_of_writes_sub sScat1 V sScat1_writes h

/-- The buffers the stretch writes, one an operation. -/
abbrev sInv1_W : List (Ref sig .tc) := [main_cst_1, main_v26, main_v27, main_v28, main_cst_2, main_call1_v0, main_call1_v1, main_v29]

set_option maxRecDepth 8192 in
theorem sInv1_sub : (sInv1 : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., ternary_bufs_sub ..⟩

set_option maxRecDepth 8192 in
theorem sInv1_fresh : (sInv1 : List (HloOp τ sig (Elt F))).Forall fun op => op.fresh = ∅ :=
  ⟨rfl, rfl, rfl, rfl, rfl, rfl, rfl, rfl⟩

set_option maxRecDepth 8192 in
theorem sInv1_writes : (sInv1 : List (HloOp τ sig (Elt F))).Forall fun op =>
    op.writes ⊆ (sInv1_W.map (Proc.devRef (τ := τ) .tc)).toFinset :=
  ⟨writes_sub main_cst_1 rfl (by decide), writes_sub main_v26 rfl (by decide), writes_sub main_v27 rfl (by decide), writes_sub main_v28 rfl (by decide), writes_sub main_cst_2 rfl (by decide), writes_sub main_call1_v0 rfl (by decide), writes_sub main_call1_v1 rfl (by decide), writes_sub main_v29 rfl (by decide)⟩

/-- A buffer the stretch does not write keeps its contents through it. -/
theorem sInv1_keep (V : Valuation τ sig (Elt F)) (r : Ref sig .tc) (h : r ∉ sInv1_W) :
    after sInv1 V (Proc.devRef .tc r) = V (Proc.devRef .tc r) :=
  after_of_writes_sub sInv1 V sInv1_writes h

/-- The buffers the stretch writes, one an operation. -/
abbrev sNrm1_W : List (Ref sig .tc) := [main_c, main_v30, main_v31, main_c_3, main_v32, main_v33, main_v34, main_v35, main_v36, main_v37, main_c_4, main_v38, main_v39, main_c_5, main_v40, main_v41, main_v42, main_v43, main_v44, main_v45]

set_option maxRecDepth 8192 in
theorem sNrm1_sub : (sNrm1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem sNrm1_fresh : (sNrm1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem sNrm1_writes : (sNrm1 : List (HloOp τ sig (Elt F))).Forall fun op =>
    op.writes ⊆ (sNrm1_W.map (Proc.devRef (τ := τ) .tc)).toFinset :=
  ⟨writes_sub main_c rfl (by decide), writes_sub main_v30 rfl (by decide), writes_sub main_v31 rfl (by decide), writes_sub main_c_3 rfl (by decide), writes_sub main_v32 rfl (by decide), writes_sub main_v33 rfl (by decide), writes_sub main_v34 rfl (by decide), writes_sub main_v35 rfl (by decide), writes_sub main_v36 rfl (by decide), writes_sub main_v37 rfl (by decide), writes_sub main_c_4 rfl (by decide), writes_sub main_v38 rfl (by decide), writes_sub main_v39 rfl (by decide), writes_sub main_c_5 rfl (by decide), writes_sub main_v40 rfl (by decide), writes_sub main_v41 rfl (by decide), writes_sub main_v42 rfl (by decide), writes_sub main_v43 rfl (by decide), writes_sub main_v44 rfl (by decide), writes_sub main_v45 rfl (by decide)⟩

/-- A buffer the stretch does not write keeps its contents through it. -/
theorem sNrm1_keep (V : Valuation τ sig (Elt F)) (r : Ref sig .tc) (h : r ∉ sNrm1_W) :
    after sNrm1 V (Proc.devRef .tc r) = V (Proc.devRef .tc r) :=
  after_of_writes_sub sNrm1 V sNrm1_writes h

end Cert.RefRun

end
-- ==== Proof.RefRunFactsB.lean ====
/-
  Bookkeeping for the reference's operations, stretch by stretch: every operation touches TensorCore buffers only,
  every operation determines what it writes, and each writes exactly one buffer, its result; so a stretch leaves
  every buffer outside the list of its results as it found it.
-/
import proofs.«161461_j70540542869949_1_alg».proof.Proof.RefRunLib

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, one an operation. -/
abbrev sMsg1a_W : List (Ref sig .tc) := [main_c_6, main_v46, main_v47, main_c_7, main_v48, main_v49]

set_option maxRecDepth 8192 in
theorem sMsg1a_sub : (sMsg1a : List (HloOp τ sig (Elt F))).Forall fun op => op.bufs ⊆ tcRefs τ sig :=
  ⟨nullary_bufs_sub .., unary_bufs_sub .., binary_bufs_sub .., nullary_bufs_sub .., unary_bufs_sub .., binary_bufs_sub ..⟩

set_option maxRecDepth 8192 in
theorem sMsg1a_fresh : (sMsg1a : List (HloOp τ sig (Elt F))).Forall fun op => op.fresh = ∅ :=
  ⟨rfl, rfl, rfl, rfl, rfl, rfl⟩

set_option maxRecDepth 8192 in
theorem sMsg1a_writes : (sMsg1a : List (HloOp τ sig (Elt F))).Forall fun op =>
    op.writes ⊆ (sMsg1a_W.map (Proc.devRef (τ := τ) .tc)).toFinset :=
  ⟨writes_sub main_c_6 rfl (by decide), writes_sub main_v46 rfl (by decide), writes_sub main_v47 rfl (by decide), writes_sub main_c_7 rfl (by decide), writes_sub main_v48 rfl (by decide), writes_sub main_v49 rfl (by decide)⟩

/-- A buffer the stretch does not write keeps its contents through it. -/
theorem sMsg1a_keep (V : Valuation τ sig (Elt F)) (r : Ref sig .tc) (h : r ∉ sMsg1a_W) :
    after sMsg1a V (Proc.devRef .tc r) = V (Proc.devRef .tc r) :=
  after_of_writes_sub sMsg1a V sMsg1a_writes h

/-- The buffers the stretch writes, one an operation. -/
abbrev sMsg1b_W : List (Ref sig .tc) := [main_v50, main_v51, main_v52, main_v53, main_v54, main_v55, main_cst_8, main_v56, main_v57, main_v58, main_v59, main_v60, main_v61]

set_option maxRecDepth 8192 in
theorem sMsg1b_sub : (sMsg1b : List (HloOp τ sig (Elt F))).Forall fun op => op.bufs ⊆ tcRefs τ sig :=
  ⟨ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
theorem sMsg1b_fresh : (sMsg1b : List (HloOp τ sig (Elt F))).Forall fun op => op.fresh = ∅ :=
  ⟨rfl, rfl, rfl, rfl, rfl, rfl, rfl, rfl, rfl, rfl, rfl, rfl, rfl⟩

set_option maxRecDepth 8192 in
theorem sMsg1b_writes : (sMsg1b : List (HloOp τ sig (Elt F))).Forall fun op =>
    op.writes ⊆ (sMsg1b_W.map (Proc.devRef (τ := τ) .tc)).toFinset :=
  ⟨writes_sub main_v50 rfl (by decide), writes_sub main_v51 rfl (by decide), writes_sub main_v52 rfl (by decide), writes_sub main_v53 rfl (by decide), writes_sub main_v54 rfl (by decide), writes_sub main_v55 rfl (by decide), writes_sub main_cst_8 rfl (by decide), writes_sub main_v56 rfl (by decide), writes_sub main_v57 rfl (by decide), writes_sub main_v58 rfl (by decide), writes_sub main_v59 rfl (by decide), writes_sub main_v60 rfl (by decide), writes_sub main_v61 rfl (by decide)⟩

/-- A buffer the stretch does not write keeps its contents through it. -/
theorem sMsg1b_keep (V : Valuation τ sig (Elt F)) (r : Ref sig .tc) (h : r ∉ sMsg1b_W) :
    after sMsg1b V (Proc.devRef .tc r) = V (Proc.devRef .tc r) :=
  after_of_writes_sub sMsg1b V sMsg1b_writes h

/-- The buffers the stretch writes, one an operation. -/
abbrev sMean1_W : List (Ref sig .tc) := [main_cst_9, main_v62, main_cst_10, main_v63, main_v64]

set_option maxRecDepth 8192 in
theorem sMean1_sub : (sMean1 : List (HloOp τ sig (Elt F))).Forall fun op => op.bufs ⊆ tcRefs τ sig :=
  ⟨nullary_bufs_sub .., binary_bufs_sub .., nullary_bufs_sub .., unary_bufs_sub .., binary_bufs_sub ..⟩

set_option maxRecDepth 8192 in
theorem sMean1_fresh : (sMean1 : List (HloOp τ sig (Elt F))).Forall fun op => op.fresh = ∅ :=
  ⟨rfl, rfl, rfl, rfl, rfl⟩

set_option maxRecDepth 8192 in
theorem sMean1_writes : (sMean1 : List (HloOp τ sig (Elt F))).Forall fun op =>
    op.writes ⊆ (sMean1_W.map (Proc.devRef (τ := τ) .tc)).toFinset :=
  ⟨writes_sub main_cst_9 rfl (by decide), writes_sub main_v62 rfl (by decide), writes_sub main_cst_10 rfl (by decide), writes_sub main_v63 rfl (by decide), writes_sub main_v64 rfl (by decide)⟩

/-- A buffer the stretch does not write keeps its contents through it. -/
theorem sMean1_keep (V : Valuation τ sig (Elt F)) (r : Ref sig .tc) (h : r ∉ sMean1_W) :
    after sMean1 V (Proc.devRef .tc r) = V (Proc.devRef .tc r) :=
  after_of_writes_sub sMean1 V sMean1_writes h

/-- The buffers the stretch writes, one an operation. -/
abbrev sVar1_W : List (Ref sig .tc) := [main_c_11, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v65]

set_option maxRecDepth 8192 in
theorem sVar1_sub : (sVar1 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem sVar1_fresh : (sVar1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem sVar1_writes : (sVar1 : List (HloOp τ sig (Elt F))).Forall fun op =>
    op.writes ⊆ (sVar1_W.map (Proc.devRef (τ := τ) .tc)).toFinset :=
  ⟨writes_sub main_c_11 rfl (by decide), writes_sub main_call2_cst rfl (by decide), writes_sub main_call2_v0 rfl (by decide), writes_sub main_call2_v1 rfl (by decide), writes_sub main_call2_cst_0 rfl (by decide), writes_sub main_call2_v2 rfl (by decide), writes_sub main_call2_v3 rfl (by decide), writes_sub main_call2_v4 rfl (by decide), writes_sub main_call2_v5 rfl (by decide), writes_sub main_call2_v6 rfl (by decide), writes_sub main_call2_v7 rfl (by decide), writes_sub main_call2_cst_1 rfl (by decide), writes_sub main_call2_v8 rfl (by decide), writes_sub main_call2_cst_2 rfl (by decide), writes_sub main_call2_v9 rfl (by decide), writes_sub main_call2_v10 rfl (by decide), writes_sub main_call2_v11 rfl (by decide), writes_sub main_call2_cst_3 rfl (by decide), writes_sub main_call2_v12 rfl (by decide), writes_sub main_call2_cst_4 rfl (by decide), writes_sub main_call2_call0_v0 rfl (by decide), writes_sub main_call2_call0_v1 rfl (by decide), writes_sub main_v65 rfl (by decide)⟩

/-- A buffer the stretch does not write keeps its contents through it. -/
theorem sVar1_keep (V : Valuation τ sig (Elt F)) (r : Ref sig .tc) (h : r ∉ sVar1_W) :
    after sVar1 V (Proc.devRef .tc r) = V (Proc.devRef .tc r) :=
  after_of_writes_sub sVar1 V sVar1_writes h

/-- The buffers the stretch writes, one an operation. -/
abbrev sNorm1_W : List (Ref sig .tc) := [main_v66, main_v67, main_v68, main_v69, main_v70, main_v71, main_cst_12, main_v72, main_v73, main_v74, main_v75, main_v76, main_v77, main_v78, main_v79, main_v80, main_call3_cst, main_call3_v0, main_v81]

set_option maxRecDepth 8192 in
theorem sNorm1_sub : (sNorm1 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem sNorm1_fresh : (sNorm1 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem sNorm1_writes : (sNorm1 : List (HloOp τ sig (Elt F))).Forall fun op =>
    op.writes ⊆ (sNorm1_W.map (Proc.devRef (τ := τ) .tc)).toFinset :=
  ⟨writes_sub main_v66 rfl (by decide), writes_sub main_v67 rfl (by decide), writes_sub main_v68 rfl (by decide), writes_sub main_v69 rfl (by decide), writes_sub main_v70 rfl (by decide), writes_sub main_v71 rfl (by decide), writes_sub main_cst_12 rfl (by decide), writes_sub main_v72 rfl (by decide), writes_sub main_v73 rfl (by decide), writes_sub main_v74 rfl (by decide), writes_sub main_v75 rfl (by decide), writes_sub main_v76 rfl (by decide), writes_sub main_v77 rfl (by decide), writes_sub main_v78 rfl (by decide), writes_sub main_v79 rfl (by decide), writes_sub main_v80 rfl (by decide), writes_sub main_call3_cst rfl (by decide), writes_sub main_call3_v0 rfl (by decide), writes_sub main_v81 rfl (by decide)⟩

/-- A buffer the stretch does not write keeps its contents through it. -/
theorem sNorm1_keep (V : Valuation τ sig (Elt F)) (r : Ref sig .tc) (h : r ∉ sNorm1_W) :
    after sNorm1 V (Proc.devRef .tc r) = V (Proc.devRef .tc r) :=
  after_of_writes_sub sNorm1 V sNorm1_writes h

/-- The buffers the stretch writes, one an operation. -/
abbrev sLin2_W : List (Ref sig .tc) := [main_v82, main_v83]

set_option maxRecDepth 8192 in
theorem sLin2_sub : (sLin2 : List (HloOp τ sig (Elt F))).Forall fun op => op.bufs ⊆ tcRefs τ sig :=
  ⟨unary_bufs_sub .., binary_bufs_sub ..⟩

set_option maxRecDepth 8192 in
theorem sLin2_fresh : (sLin2 : List (HloOp τ sig (Elt F))).Forall fun op => op.fresh = ∅ :=
  ⟨rfl, rfl⟩

set_option maxRecDepth 8192 in
theorem sLin2_writes : (sLin2 : List (HloOp τ sig (Elt F))).Forall fun op =>
    op.writes ⊆ (sLin2_W.map (Proc.devRef (τ := τ) .tc)).toFinset :=
  ⟨writes_sub main_v82 rfl (by decide), writes_sub main_v83 rfl (by decide)⟩

/-- A buffer the stretch does not write keeps its contents through it. -/
theorem sLin2_keep (V : Valuation τ sig (Elt F)) (r : Ref sig .tc) (h : r ∉ sLin2_W) :
    after sLin2 V (Proc.devRef .tc r) = V (Proc.devRef .tc r) :=
  after_of_writes_sub sLin2 V sLin2_writes h

/-- The buffers the stretch writes, one an operation. -/
abbrev sCat2_W : List (Ref sig .tc) := [main_v84, main_v85, main_v86, main_cst_13, main_v87, main_v88]

set_option maxRecDepth 8192 in
theorem sCat2_sub : (sCat2 : List (HloOp τ sig (Elt F))).Forall fun op => op.bufs ⊆ tcRefs τ sig :=
  ⟨nullary_bufs_sub .., binary_bufs_sub .., binary_bufs_sub .., nullary_bufs_sub .., unary_bufs_sub .., binary_bufs_sub ..⟩

set_option maxRecDepth 8192 in
theorem sCat2_fresh : (sCat2 : List (HloOp τ sig (Elt F))).Forall fun op => op.fresh = ∅ :=
  ⟨rfl, rfl, rfl, rfl, rfl, rfl⟩

set_option maxRecDepth 8192 in
theorem sCat2_writes : (sCat2 : List (HloOp τ sig (Elt F))).Forall fun op =>
    op.writes ⊆ (sCat2_W.map (Proc.devRef (τ := τ) .tc)).toFinset :=
  ⟨writes_sub main_v84 rfl (by decide), writes_sub main_v85 rfl (by decide), writes_sub main_v86 rfl (by decide), writes_sub main_cst_13 rfl (by decide), writes_sub main_v87 rfl (by decide), writes_sub main_v88 rfl (by decide)⟩

/-- A buffer the stretch does not write keeps its contents through it. -/
theorem sCat2_keep (V : Valuation τ sig (Elt F)) (r : Ref sig .tc) (h : r ∉ sCat2_W) :
    after sCat2 V (Proc.devRef .tc r) = V (Proc.devRef .tc r) :=
  after_of_writes_sub sCat2 V sCat2_writes h

/-- The buffers the stretch writes, one an operation. -/
abbrev sScat2_W : List (Ref sig .tc) := [main_cst_14, main_v89, main_v90, main_v91]

set_option maxRecDepth 8192 in
theorem sScat2_sub : (sScat2 : List (HloOp τ sig (Elt F))).Forall fun op => op.bufs ⊆ tcRefs τ sig :=
  ⟨nullary_bufs_sub .., unary_bufs_sub .., unary_bufs_sub .., ternary_bufs_sub ..⟩

set_option maxRecDepth 8192 in
theorem sScat2_fresh : (sScat2 : List (HloOp τ sig (Elt F))).Forall fun op => op.fresh = ∅ :=
  ⟨rfl, rfl, rfl, rfl⟩

set_option maxRecDepth 8192 in
theorem sScat2_writes : (sScat2 : List (HloOp τ sig (Elt F))).Forall fun op =>
    op.writes ⊆ (sScat2_W.map (Proc.devRef (τ := τ) .tc)).toFinset :=
  ⟨writes_sub main_cst_14 rfl (by decide), writes_sub main_v89 rfl (by decide), writes_sub main_v90 rfl (by decide), writes_sub main_v91 rfl (by decide)⟩

/-- A buffer the stretch does not write keeps its contents through it. -/
theorem sScat2_keep (V : Valuation τ sig (Elt F)) (r : Ref sig .tc) (h : r ∉ sScat2_W) :
    after sScat2 V (Proc.devRef .tc r) = V (Proc.devRef .tc r) :=
  after_of_writes_sub sScat2 V sScat2_writes h

/-- The buffers the stretch writes, one an operation. -/
abbrev sInv2_W : List (Ref sig .tc) := [main_cst_15, main_v92, main_v93, main_v94, main_cst_16, main_call4_v0, main_call4_v1, main_v95]

set_option maxRecDepth 8192 in
theorem sInv2_sub : (sInv2 : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., ternary_bufs_sub ..⟩

set_option maxRecDepth 8192 in
theorem sInv2_fresh : (sInv2 : List (HloOp τ sig (Elt F))).Forall fun op => op.fresh = ∅ :=
  ⟨rfl, rfl, rfl, rfl, rfl, rfl, rfl, rfl⟩

set_option maxRecDepth 8192 in
theorem sInv2_writes : (sInv2 : List (HloOp τ sig (Elt F))).Forall fun op =>
    op.writes ⊆ (sInv2_W.map (Proc.devRef (τ := τ) .tc)).toFinset :=
  ⟨writes_sub main_cst_15 rfl (by decide), writes_sub main_v92 rfl (by decide), writes_sub main_v93 rfl (by decide), writes_sub main_v94 rfl (by decide), writes_sub main_cst_16 rfl (by decide), writes_sub main_call4_v0 rfl (by decide), writes_sub main_call4_v1 rfl (by decide), writes_sub main_v95 rfl (by decide)⟩

/-- A buffer the stretch does not write keeps its contents through it. -/
theorem sInv2_keep (V : Valuation τ sig (Elt F)) (r : Ref sig .tc) (h : r ∉ sInv2_W) :
    after sInv2 V (Proc.devRef .tc r) = V (Proc.devRef .tc r) :=
  after_of_writes_sub sInv2 V sInv2_writes h

end Cert.RefRun

end
-- ==== Proof.RefRunFactsC.lean ====
/-
  Bookkeeping for the reference's operations, stretch by stretch: every operation touches TensorCore buffers only,
  every operation determines what it writes, and each writes exactly one buffer, its result; so a stretch leaves
  every buffer outside the list of its results as it found it.
-/
import proofs.«161461_j70540542869949_1_alg».proof.Proof.RefRunLib

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, one an operation. -/
abbrev sNrm2a_W : List (Ref sig .tc) := [main_c_17, main_v96, main_v97, main_c_18, main_v98]

set_option maxRecDepth 8192 in
theorem sNrm2a_sub : (sNrm2a : List (HloOp τ sig (Elt F))).Forall fun op => op.bufs ⊆ tcRefs τ sig :=
  ⟨nullary_bufs_sub .., unary_bufs_sub .., binary_bufs_sub .., nullary_bufs_sub .., unary_bufs_sub ..⟩

set_option maxRecDepth 8192 in
theorem sNrm2a_fresh : (sNrm2a : List (HloOp τ sig (Elt F))).Forall fun op => op.fresh = ∅ :=
  ⟨rfl, rfl, rfl, rfl, rfl⟩

set_option maxRecDepth 8192 in
theorem sNrm2a_writes : (sNrm2a : List (HloOp τ sig (Elt F))).Forall fun op =>
    op.writes ⊆ (sNrm2a_W.map (Proc.devRef (τ := τ) .tc)).toFinset :=
  ⟨writes_sub main_c_17 rfl (by decide), writes_sub main_v96 rfl (by decide), writes_sub main_v97 rfl (by decide), writes_sub main_c_18 rfl (by decide), writes_sub main_v98 rfl (by decide)⟩

/-- A buffer the stretch does not write keeps its contents through it. -/
theorem sNrm2a_keep (V : Valuation τ sig (Elt F)) (r : Ref sig .tc) (h : r ∉ sNrm2a_W) :
    after sNrm2a V (Proc.devRef .tc r) = V (Proc.devRef .tc r) :=
  after_of_writes_sub sNrm2a V sNrm2a_writes h

/-- The buffers the stretch writes, one an operation. -/
abbrev sNrm2b_W : List (Ref sig .tc) := [main_v99, main_v100, main_v101, main_v102, main_v103, main_c_19, main_v104, main_v105, main_c_20, main_v106, main_v107, main_v108, main_v109, main_v110, main_v111]

set_option maxRecDepth 8192 in
theorem sNrm2b_sub : (sNrm2b : List (HloOp τ sig (Elt F))).Forall fun op => op.bufs ⊆ tcRefs τ sig :=
  ⟨binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem sNrm2b_fresh : (sNrm2b : List (HloOp τ sig (Elt F))).Forall fun op => op.fresh = ∅ :=
  ⟨rfl, rfl, rfl, rfl, rfl, rfl, rfl, rfl, rfl, rfl, rfl, rfl, rfl, rfl, rfl⟩

set_option maxRecDepth 8192 in
theorem sNrm2b_writes : (sNrm2b : List (HloOp τ sig (Elt F))).Forall fun op =>
    op.writes ⊆ (sNrm2b_W.map (Proc.devRef (τ := τ) .tc)).toFinset :=
  ⟨writes_sub main_v99 rfl (by decide), writes_sub main_v100 rfl (by decide), writes_sub main_v101 rfl (by decide), writes_sub main_v102 rfl (by decide), writes_sub main_v103 rfl (by decide), writes_sub main_c_19 rfl (by decide), writes_sub main_v104 rfl (by decide), writes_sub main_v105 rfl (by decide), writes_sub main_c_20 rfl (by decide), writes_sub main_v106 rfl (by decide), writes_sub main_v107 rfl (by decide), writes_sub main_v108 rfl (by decide), writes_sub main_v109 rfl (by decide), writes_sub main_v110 rfl (by decide), writes_sub main_v111 rfl (by decide)⟩

/-- A buffer the stretch does not write keeps its contents through it. -/
theorem sNrm2b_keep (V : Valuation τ sig (Elt F)) (r : Ref sig .tc) (h : r ∉ sNrm2b_W) :
    after sNrm2b V (Proc.devRef .tc r) = V (Proc.devRef .tc r) :=
  after_of_writes_sub sNrm2b V sNrm2b_writes h

/-- The buffers the stretch writes, one an operation. -/
abbrev sMsg2_W : List (Ref sig .tc) := [main_c_21, main_v112, main_v113, main_c_22, main_v114, main_v115, main_v116, main_v117, main_v118, main_v119, main_v120, main_v121, main_cst_23, main_v122, main_v123, main_v124, main_v125, main_v126, main_v127]

set_option maxRecDepth 8192 in
theorem sMsg2_sub : (sMsg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
theorem sMsg2_fresh : (sMsg2 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem sMsg2_writes : (sMsg2 : List (HloOp τ sig (Elt F))).Forall fun op =>
    op.writes ⊆ (sMsg2_W.map (Proc.devRef (τ := τ) .tc)).toFinset :=
  ⟨writes_sub main_c_21 rfl (by decide), writes_sub main_v112 rfl (by decide), writes_sub main_v113 rfl (by decide), writes_sub main_c_22 rfl (by decide), writes_sub main_v114 rfl (by decide), writes_sub main_v115 rfl (by decide), writes_sub main_v116 rfl (by decide), writes_sub main_v117 rfl (by decide), writes_sub main_v118 rfl (by decide), writes_sub main_v119 rfl (by decide), writes_sub main_v120 rfl (by decide), writes_sub main_v121 rfl (by decide), writes_sub main_cst_23 rfl (by decide), writes_sub main_v122 rfl (by decide), writes_sub main_v123 rfl (by decide), writes_sub main_v124 rfl (by decide), writes_sub main_v125 rfl (by decide), writes_sub main_v126 rfl (by decide), writes_sub main_v127 rfl (by decide)⟩

/-- A buffer the stretch does not write keeps its contents through it. -/
theorem sMsg2_keep (V : Valuation τ sig (Elt F)) (r : Ref sig .tc) (h : r ∉ sMsg2_W) :
    after sMsg2 V (Proc.devRef .tc r) = V (Proc.devRef .tc r) :=
  after_of_writes_sub sMsg2 V sMsg2_writes h

/-- The buffers the stretch writes, one an operation. -/
abbrev sMean2_W : List (Ref sig .tc) := [main_cst_24, main_v128, main_cst_25, main_v129, main_v130]

set_option maxRecDepth 8192 in
theorem sMean2_sub : (sMean2 : List (HloOp τ sig (Elt F))).Forall fun op => op.bufs ⊆ tcRefs τ sig :=
  ⟨nullary_bufs_sub .., binary_bufs_sub .., nullary_bufs_sub .., unary_bufs_sub .., binary_bufs_sub ..⟩

set_option maxRecDepth 8192 in
theorem sMean2_fresh : (sMean2 : List (HloOp τ sig (Elt F))).Forall fun op => op.fresh = ∅ :=
  ⟨rfl, rfl, rfl, rfl, rfl⟩

set_option maxRecDepth 8192 in
theorem sMean2_writes : (sMean2 : List (HloOp τ sig (Elt F))).Forall fun op =>
    op.writes ⊆ (sMean2_W.map (Proc.devRef (τ := τ) .tc)).toFinset :=
  ⟨writes_sub main_cst_24 rfl (by decide), writes_sub main_v128 rfl (by decide), writes_sub main_cst_25 rfl (by decide), writes_sub main_v129 rfl (by decide), writes_sub main_v130 rfl (by decide)⟩

/-- A buffer the stretch does not write keeps its contents through it. -/
theorem sMean2_keep (V : Valuation τ sig (Elt F)) (r : Ref sig .tc) (h : r ∉ sMean2_W) :
    after sMean2 V (Proc.devRef .tc r) = V (Proc.devRef .tc r) :=
  after_of_writes_sub sMean2 V sMean2_writes h

/-- The buffers the stretch writes, one an operation. -/
abbrev sVar2_W : List (Ref sig .tc) := [main_c_26, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v131]

set_option maxRecDepth 8192 in
theorem sVar2_sub : (sVar2 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem sVar2_fresh : (sVar2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem sVar2_writes : (sVar2 : List (HloOp τ sig (Elt F))).Forall fun op =>
    op.writes ⊆ (sVar2_W.map (Proc.devRef (τ := τ) .tc)).toFinset :=
  ⟨writes_sub main_c_26 rfl (by decide), writes_sub main_call5_cst rfl (by decide), writes_sub main_call5_v0 rfl (by decide), writes_sub main_call5_v1 rfl (by decide), writes_sub main_call5_cst_0 rfl (by decide), writes_sub main_call5_v2 rfl (by decide), writes_sub main_call5_v3 rfl (by decide), writes_sub main_call5_v4 rfl (by decide), writes_sub main_call5_v5 rfl (by decide), writes_sub main_call5_v6 rfl (by decide), writes_sub main_call5_v7 rfl (by decide), writes_sub main_call5_cst_1 rfl (by decide), writes_sub main_call5_v8 rfl (by decide), writes_sub main_call5_cst_2 rfl (by decide), writes_sub main_call5_v9 rfl (by decide), writes_sub main_call5_v10 rfl (by decide), writes_sub main_call5_v11 rfl (by decide), writes_sub main_call5_cst_3 rfl (by decide), writes_sub main_call5_v12 rfl (by decide), writes_sub main_call5_cst_4 rfl (by decide), writes_sub main_call5_call0_v0 rfl (by decide), writes_sub main_call5_call0_v1 rfl (by decide), writes_sub main_v131 rfl (by decide)⟩

/-- A buffer the stretch does not write keeps its contents through it. -/
theorem sVar2_keep (V : Valuation τ sig (Elt F)) (r : Ref sig .tc) (h : r ∉ sVar2_W) :
    after sVar2 V (Proc.devRef .tc r) = V (Proc.devRef .tc r) :=
  after_of_writes_sub sVar2 V sVar2_writes h

/-- The buffers the stretch writes, one an operation. -/
abbrev sNorm2_W : List (Ref sig .tc) := [main_v132, main_v133, main_v134, main_v135, main_v136, main_v137, main_cst_27, main_v138, main_v139, main_v140, main_v141, main_v142, main_v143, main_v144, main_v145, main_v146, main_call6_cst, main_call6_v0, main_v147]

set_option maxRecDepth 8192 in
theorem sNorm2_sub : (sNorm2 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem sNorm2_fresh : (sNorm2 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem sNorm2_writes : (sNorm2 : List (HloOp τ sig (Elt F))).Forall fun op =>
    op.writes ⊆ (sNorm2_W.map (Proc.devRef (τ := τ) .tc)).toFinset :=
  ⟨writes_sub main_v132 rfl (by decide), writes_sub main_v133 rfl (by decide), writes_sub main_v134 rfl (by decide), writes_sub main_v135 rfl (by decide), writes_sub main_v136 rfl (by decide), writes_sub main_v137 rfl (by decide), writes_sub main_cst_27 rfl (by decide), writes_sub main_v138 rfl (by decide), writes_sub main_v139 rfl (by decide), writes_sub main_v140 rfl (by decide), writes_sub main_v141 rfl (by decide), writes_sub main_v142 rfl (by decide), writes_sub main_v143 rfl (by decide), writes_sub main_v144 rfl (by decide), writes_sub main_v145 rfl (by decide), writes_sub main_v146 rfl (by decide), writes_sub main_call6_cst rfl (by decide), writes_sub main_call6_v0 rfl (by decide), writes_sub main_v147 rfl (by decide)⟩

/-- A buffer the stretch does not write keeps its contents through it. -/
theorem sNorm2_keep (V : Valuation τ sig (Elt F)) (r : Ref sig .tc) (h : r ∉ sNorm2_W) :
    after sNorm2 V (Proc.devRef .tc r) = V (Proc.devRef .tc r) :=
  after_of_writes_sub sNorm2 V sNorm2_writes h

/-- The buffers the stretch writes, one an operation. -/
abbrev sLin3_W : List (Ref sig .tc) := [main_v148, main_v149]

set_option maxRecDepth 8192 in
theorem sLin3_sub : (sLin3 : List (HloOp τ sig (Elt F))).Forall fun op => op.bufs ⊆ tcRefs τ sig :=
  ⟨unary_bufs_sub .., binary_bufs_sub ..⟩

set_option maxRecDepth 8192 in
theorem sLin3_fresh : (sLin3 : List (HloOp τ sig (Elt F))).Forall fun op => op.fresh = ∅ :=
  ⟨rfl, rfl⟩

set_option maxRecDepth 8192 in
theorem sLin3_writes : (sLin3 : List (HloOp τ sig (Elt F))).Forall fun op =>
    op.writes ⊆ (sLin3_W.map (Proc.devRef (τ := τ) .tc)).toFinset :=
  ⟨writes_sub main_v148 rfl (by decide), writes_sub main_v149 rfl (by decide)⟩

/-- A buffer the stretch does not write keeps its contents through it. -/
theorem sLin3_keep (V : Valuation τ sig (Elt F)) (r : Ref sig .tc) (h : r ∉ sLin3_W) :
    after sLin3 V (Proc.devRef .tc r) = V (Proc.devRef .tc r) :=
  after_of_writes_sub sLin3 V sLin3_writes h

/-- The buffers the stretch writes, one an operation. -/
abbrev sCat3_W : List (Ref sig .tc) := [main_v150, main_v151, main_v152, main_cst_28, main_v153, main_v154]

set_option maxRecDepth 8192 in
theorem sCat3_sub : (sCat3 : List (HloOp τ sig (Elt F))).Forall fun op => op.bufs ⊆ tcRefs τ sig :=
  ⟨nullary_bufs_sub .., binary_bufs_sub .., binary_bufs_sub .., nullary_bufs_sub .., unary_bufs_sub .., binary_bufs_sub ..⟩

set_option maxRecDepth 8192 in
theorem sCat3_fresh : (sCat3 : List (HloOp τ sig (Elt F))).Forall fun op => op.fresh = ∅ :=
  ⟨rfl, rfl, rfl, rfl, rfl, rfl⟩

set_option maxRecDepth 8192 in
theorem sCat3_writes : (sCat3 : List (HloOp τ sig (Elt F))).Forall fun op =>
    op.writes ⊆ (sCat3_W.map (Proc.devRef (τ := τ) .tc)).toFinset :=
  ⟨writes_sub main_v150 rfl (by decide), writes_sub main_v151 rfl (by decide), writes_sub main_v152 rfl (by decide), writes_sub main_cst_28 rfl (by decide), writes_sub main_v153 rfl (by decide), writes_sub main_v154 rfl (by decide)⟩

/-- A buffer the stretch does not write keeps its contents through it. -/
theorem sCat3_keep (V : Valuation τ sig (Elt F)) (r : Ref sig .tc) (h : r ∉ sCat3_W) :
    after sCat3 V (Proc.devRef .tc r) = V (Proc.devRef .tc r) :=
  after_of_writes_sub sCat3 V sCat3_writes h

end Cert.RefRun

end
-- ==== Proof.RefRunFactsD.lean ====
/-
  Bookkeeping for the reference's operations, stretch by stretch: every operation touches TensorCore buffers only,
  every operation determines what it writes, and each writes exactly one buffer, its result; so a stretch leaves
  every buffer outside the list of its results as it found it.
-/
import proofs.«161461_j70540542869949_1_alg».proof.Proof.RefRunLib

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The buffers the stretch writes, one an operation. -/
abbrev sScat3_W : List (Ref sig .tc) := [main_cst_29, main_v155, main_v156, main_v157]

set_option maxRecDepth 8192 in
theorem sScat3_sub : (sScat3 : List (HloOp τ sig (Elt F))).Forall fun op => op.bufs ⊆ tcRefs τ sig :=
  ⟨nullary_bufs_sub .., unary_bufs_sub .., unary_bufs_sub .., ternary_bufs_sub ..⟩

set_option maxRecDepth 8192 in
theorem sScat3_fresh : (sScat3 : List (HloOp τ sig (Elt F))).Forall fun op => op.fresh = ∅ :=
  ⟨rfl, rfl, rfl, rfl⟩

set_option maxRecDepth 8192 in
theorem sScat3_writes : (sScat3 : List (HloOp τ sig (Elt F))).Forall fun op =>
    op.writes ⊆ (sScat3_W.map (Proc.devRef (τ := τ) .tc)).toFinset :=
  ⟨writes_sub main_cst_29 rfl (by decide), writes_sub main_v155 rfl (by decide), writes_sub main_v156 rfl (by decide), writes_sub main_v157 rfl (by decide)⟩

/-- A buffer the stretch does not write keeps its contents through it. -/
theorem sScat3_keep (V : Valuation τ sig (Elt F)) (r : Ref sig .tc) (h : r ∉ sScat3_W) :
    after sScat3 V (Proc.devRef .tc r) = V (Proc.devRef .tc r) :=
  after_of_writes_sub sScat3 V sScat3_writes h

/-- The buffers the stretch writes, one an operation. -/
abbrev sInv3_W : List (Ref sig .tc) := [main_cst_30, main_v158, main_v159, main_v160, main_cst_31, main_call7_v0, main_call7_v1, main_v161]

set_option maxRecDepth 8192 in
theorem sInv3_sub : (sInv3 : List (HloOp τ sig (Elt F))).Forall fun op => op.bufs ⊆ tcRefs τ sig :=
  ⟨nullary_bufs_sub .., unary_bufs_sub .., binary_bufs_sub .., unary_bufs_sub .., nullary_bufs_sub .., unary_bufs_sub .., unary_bufs_sub .., ternary_bufs_sub ..⟩

set_option maxRecDepth 8192 in
theorem sInv3_fresh : (sInv3 : List (HloOp τ sig (Elt F))).Forall fun op => op.fresh = ∅ :=
  ⟨rfl, rfl, rfl, rfl, rfl, rfl, rfl, rfl⟩

set_option maxRecDepth 8192 in
theorem sInv3_writes : (sInv3 : List (HloOp τ sig (Elt F))).Forall fun op =>
    op.writes ⊆ (sInv3_W.map (Proc.devRef (τ := τ) .tc)).toFinset :=
  ⟨writes_sub main_cst_30 rfl (by decide), writes_sub main_v158 rfl (by decide), writes_sub main_v159 rfl (by decide), writes_sub main_v160 rfl (by decide), writes_sub main_cst_31 rfl (by decide), writes_sub main_call7_v0 rfl (by decide), writes_sub main_call7_v1 rfl (by decide), writes_sub main_v161 rfl (by decide)⟩

/-- A buffer the stretch does not write keeps its contents through it. -/
theorem sInv3_keep (V : Valuation τ sig (Elt F)) (r : Ref sig .tc) (h : r ∉ sInv3_W) :
    after sInv3 V (Proc.devRef .tc r) = V (Proc.devRef .tc r) :=
  after_of_writes_sub sInv3 V sInv3_writes h

/-- The buffers the stretch writes, one an operation. -/
abbrev sNrm3_W : List (Ref sig .tc) := [main_c_32, main_v162, main_v163, main_c_33, main_v164, main_v165, main_v166, main_v167, main_v168, main_v169, main_c_34, main_v170, main_v171, main_c_35, main_v172, main_v173, main_v174, main_v175, main_v176, main_v177]

set_option maxRecDepth 8192 in
theorem sNrm3_sub : (sNrm3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

set_option maxRecDepth 8192 in
theorem sNrm3_fresh : (sNrm3 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
theorem sNrm3_writes : (sNrm3 : List (HloOp τ sig (Elt F))).Forall fun op =>
    op.writes ⊆ (sNrm3_W.map (Proc.devRef (τ := τ) .tc)).toFinset :=
  ⟨writes_sub main_c_32 rfl (by decide), writes_sub main_v162 rfl (by decide), writes_sub main_v163 rfl (by decide), writes_sub main_c_33 rfl (by decide), writes_sub main_v164 rfl (by decide), writes_sub main_v165 rfl (by decide), writes_sub main_v166 rfl (by decide), writes_sub main_v167 rfl (by decide), writes_sub main_v168 rfl (by decide), writes_sub main_v169 rfl (by decide), writes_sub main_c_34 rfl (by decide), writes_sub main_v170 rfl (by decide), writes_sub main_v171 rfl (by decide), writes_sub main_c_35 rfl (by decide), writes_sub main_v172 rfl (by decide), writes_sub main_v173 rfl (by decide), writes_sub main_v174 rfl (by decide), writes_sub main_v175 rfl (by decide), writes_sub main_v176 rfl (by decide), writes_sub main_v177 rfl (by decide)⟩

/-- A buffer the stretch does not write keeps its contents through it. -/
theorem sNrm3_keep (V : Valuation τ sig (Elt F)) (r : Ref sig .tc) (h : r ∉ sNrm3_W) :
    after sNrm3 V (Proc.devRef .tc r) = V (Proc.devRef .tc r) :=
  after_of_writes_sub sNrm3 V sNrm3_writes h

/-- The buffers the stretch writes, one an operation. -/
abbrev sMsg3_W : List (Ref sig .tc) := [main_c_36, main_v178, main_v179, main_c_37, main_v180, main_v181, main_v182, main_v183, main_v184, main_v185, main_v186, main_v187, main_cst_38, main_v188, main_v189, main_v190, main_v191, main_v192, main_v193]

set_option maxRecDepth 8192 in
theorem sMsg3_sub : (sMsg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
theorem sMsg3_fresh : (sMsg3 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem sMsg3_writes : (sMsg3 : List (HloOp τ sig (Elt F))).Forall fun op =>
    op.writes ⊆ (sMsg3_W.map (Proc.devRef (τ := τ) .tc)).toFinset :=
  ⟨writes_sub main_c_36 rfl (by decide), writes_sub main_v178 rfl (by decide), writes_sub main_v179 rfl (by decide), writes_sub main_c_37 rfl (by decide), writes_sub main_v180 rfl (by decide), writes_sub main_v181 rfl (by decide), writes_sub main_v182 rfl (by decide), writes_sub main_v183 rfl (by decide), writes_sub main_v184 rfl (by decide), writes_sub main_v185 rfl (by decide), writes_sub main_v186 rfl (by decide), writes_sub main_v187 rfl (by decide), writes_sub main_cst_38 rfl (by decide), writes_sub main_v188 rfl (by decide), writes_sub main_v189 rfl (by decide), writes_sub main_v190 rfl (by decide), writes_sub main_v191 rfl (by decide), writes_sub main_v192 rfl (by decide), writes_sub main_v193 rfl (by decide)⟩

/-- A buffer the stretch does not write keeps its contents through it. -/
theorem sMsg3_keep (V : Valuation τ sig (Elt F)) (r : Ref sig .tc) (h : r ∉ sMsg3_W) :
    after sMsg3 V (Proc.devRef .tc r) = V (Proc.devRef .tc r) :=
  after_of_writes_sub sMsg3 V sMsg3_writes h

/-- The buffers the stretch writes, one an operation. -/
abbrev sMean3_W : List (Ref sig .tc) := [main_cst_39, main_v194, main_cst_40, main_v195, main_v196]

set_option maxRecDepth 8192 in
theorem sMean3_sub : (sMean3 : List (HloOp τ sig (Elt F))).Forall fun op => op.bufs ⊆ tcRefs τ sig :=
  ⟨nullary_bufs_sub .., binary_bufs_sub .., nullary_bufs_sub .., unary_bufs_sub .., binary_bufs_sub ..⟩

set_option maxRecDepth 8192 in
theorem sMean3_fresh : (sMean3 : List (HloOp τ sig (Elt F))).Forall fun op => op.fresh = ∅ :=
  ⟨rfl, rfl, rfl, rfl, rfl⟩

set_option maxRecDepth 8192 in
theorem sMean3_writes : (sMean3 : List (HloOp τ sig (Elt F))).Forall fun op =>
    op.writes ⊆ (sMean3_W.map (Proc.devRef (τ := τ) .tc)).toFinset :=
  ⟨writes_sub main_cst_39 rfl (by decide), writes_sub main_v194 rfl (by decide), writes_sub main_cst_40 rfl (by decide), writes_sub main_v195 rfl (by decide), writes_sub main_v196 rfl (by decide)⟩

/-- A buffer the stretch does not write keeps its contents through it. -/
theorem sMean3_keep (V : Valuation τ sig (Elt F)) (r : Ref sig .tc) (h : r ∉ sMean3_W) :
    after sMean3 V (Proc.devRef .tc r) = V (Proc.devRef .tc r) :=
  after_of_writes_sub sMean3 V sMean3_writes h

/-- The buffers the stretch writes, one an operation. -/
abbrev sVar3_W : List (Ref sig .tc) := [main_c_41, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v197]

set_option maxRecDepth 8192 in
theorem sVar3_sub : (sVar3 : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

set_option maxRecDepth 8192 in
theorem sVar3_fresh : (sVar3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

set_option maxRecDepth 8192 in
theorem sVar3_writes : (sVar3 : List (HloOp τ sig (Elt F))).Forall fun op =>
    op.writes ⊆ (sVar3_W.map (Proc.devRef (τ := τ) .tc)).toFinset :=
  ⟨writes_sub main_c_41 rfl (by decide), writes_sub main_call8_cst rfl (by decide), writes_sub main_call8_v0 rfl (by decide), writes_sub main_call8_v1 rfl (by decide), writes_sub main_call8_cst_0 rfl (by decide), writes_sub main_call8_v2 rfl (by decide), writes_sub main_call8_v3 rfl (by decide), writes_sub main_call8_v4 rfl (by decide), writes_sub main_call8_v5 rfl (by decide), writes_sub main_call8_v6 rfl (by decide), writes_sub main_call8_v7 rfl (by decide), writes_sub main_call8_cst_1 rfl (by decide), writes_sub main_call8_v8 rfl (by decide), writes_sub main_call8_cst_2 rfl (by decide), writes_sub main_call8_v9 rfl (by decide), writes_sub main_call8_v10 rfl (by decide), writes_sub main_call8_v11 rfl (by decide), writes_sub main_call8_cst_3 rfl (by decide), writes_sub main_call8_v12 rfl (by decide), writes_sub main_call8_cst_4 rfl (by decide), writes_sub main_call8_call0_v0 rfl (by decide), writes_sub main_call8_call0_v1 rfl (by decide), writes_sub main_v197 rfl (by decide)⟩

/-- A buffer the stretch does not write keeps its contents through it. -/
theorem sVar3_keep (V : Valuation τ sig (Elt F)) (r : Ref sig .tc) (h : r ∉ sVar3_W) :
    after sVar3 V (Proc.devRef .tc r) = V (Proc.devRef .tc r) :=
  after_of_writes_sub sVar3 V sVar3_writes h

/-- The buffers the stretch writes, one an operation. -/
abbrev sNorm3_W : List (Ref sig .tc) := [main_v198, main_v199, main_v200, main_v201, main_v202, main_v203, main_cst_42, main_v204, main_v205, main_v206, main_v207, main_v208, main_v209, main_v210, main_v211, main_v212, main_call9_cst, main_call9_v0, main_v213]

set_option maxRecDepth 8192 in
theorem sNorm3_sub : (sNorm3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem sNorm3_fresh : (sNorm3 : List (HloOp τ sig (Elt F))).Forall fun op => op.fresh = ∅ :=
  ⟨rfl, rfl, rfl, rfl, rfl, rfl, rfl, rfl, rfl, rfl, rfl, rfl, rfl, rfl, rfl, rfl, rfl, rfl, rfl⟩

set_option maxRecDepth 8192 in
theorem sNorm3_writes : (sNorm3 : List (HloOp τ sig (Elt F))).Forall fun op =>
    op.writes ⊆ (sNorm3_W.map (Proc.devRef (τ := τ) .tc)).toFinset :=
  ⟨writes_sub main_v198 rfl (by decide), writes_sub main_v199 rfl (by decide), writes_sub main_v200 rfl (by decide), writes_sub main_v201 rfl (by decide), writes_sub main_v202 rfl (by decide), writes_sub main_v203 rfl (by decide), writes_sub main_cst_42 rfl (by decide), writes_sub main_v204 rfl (by decide), writes_sub main_v205 rfl (by decide), writes_sub main_v206 rfl (by decide), writes_sub main_v207 rfl (by decide), writes_sub main_v208 rfl (by decide), writes_sub main_v209 rfl (by decide), writes_sub main_v210 rfl (by decide), writes_sub main_v211 rfl (by decide), writes_sub main_v212 rfl (by decide), writes_sub main_call9_cst rfl (by decide), writes_sub main_call9_v0 rfl (by decide), writes_sub main_v213 rfl (by decide)⟩

/-- A buffer the stretch does not write keeps its contents through it. -/
theorem sNorm3_keep (V : Valuation τ sig (Elt F)) (r : Ref sig .tc) (h : r ∉ sNorm3_W) :
    after sNorm3 V (Proc.devRef .tc r) = V (Proc.devRef .tc r) :=
  after_of_writes_sub sNorm3 V sNorm3_writes h

/-- The buffers the stretch writes, one an operation. -/
abbrev sTail_W : List (Ref sig .tc) := [main_cst_43, main_v214, main_v215, main_v216, main_cst_44, main_v217, main_cst_45, main_v218, main_v219, main_v220, main_cst_46, main_v221, main_v222, main_v223, main_v224, main_v225, main_v226, main_v227, main_v228, main_v229, main_v230, main_v231]

set_option maxRecDepth 8192 in
theorem sTail_sub : (sTail : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., reshape_bufs_sub ..⟩

set_option maxRecDepth 8192 in
theorem sTail_fresh : (sTail : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

set_option maxRecDepth 8192 in
theorem sTail_writes : (sTail : List (HloOp τ sig (Elt F))).Forall fun op =>
    op.writes ⊆ (sTail_W.map (Proc.devRef (τ := τ) .tc)).toFinset :=
  ⟨writes_sub main_cst_43 rfl (by decide), writes_sub main_v214 rfl (by decide), writes_sub main_v215 rfl (by decide), writes_sub main_v216 rfl (by decide), writes_sub main_cst_44 rfl (by decide), writes_sub main_v217 rfl (by decide), writes_sub main_cst_45 rfl (by decide), writes_sub main_v218 rfl (by decide), writes_sub main_v219 rfl (by decide), writes_sub main_v220 rfl (by decide), writes_sub main_cst_46 rfl (by decide), writes_sub main_v221 rfl (by decide), writes_sub main_v222 rfl (by decide), writes_sub main_v223 rfl (by decide), writes_sub main_v224 rfl (by decide), writes_sub main_v225 rfl (by decide), writes_sub main_v226 rfl (by decide), writes_sub main_v227 rfl (by decide), writes_sub main_v228 rfl (by decide), writes_sub main_v229 rfl (by decide), writes_sub main_v230 rfl (by decide), writes_sub main_v231 rfl (by decide)⟩

/-- A buffer the stretch does not write keeps its contents through it. -/
theorem sTail_keep (V : Valuation τ sig (Elt F)) (r : Ref sig .tc) (h : r ∉ sTail_W) :
    after sTail V (Proc.devRef .tc r) = V (Proc.devRef .tc r) :=
  after_of_writes_sub sTail V sTail_writes h

end Cert.RefRun

end
-- ==== Proof.RefRunFactsAll.lean ====
/-
  The stretches' bookkeeping put together along the line: the whole line touches TensorCore buffers only and every
  operation of it determines what it writes; a buffer that is the result of no operation of any stretch holds after the
  whole line what it held before it.
-/
import proofs.«161461_j70540542869949_1_alg».proof.Proof.RefRunFactsA
import proofs.«161461_j70540542869949_1_alg».proof.Proof.RefRunFactsB
import proofs.«161461_j70540542869949_1_alg».proof.Proof.RefRunFactsC
import proofs.«161461_j70540542869949_1_alg».proof.Proof.RefRunFactsD

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem ops0_sub : (ops0 : List (HloOp τ sig (Elt F))).Forall fun op => op.bufs ⊆ tcRefs τ sig :=
  forall_append (sIdx_sub) (forall_append (sEdgeA_sub) (forall_append (sEdgeB_sub) (forall_append (sEdgeC_sub) (forall_append (sLin1_sub) (forall_append (sCat1_sub) (forall_append (sScat1_sub) (forall_append (sInv1_sub) (forall_append (sNrm1_sub) (sMsg1a_sub)))))))))
theorem ops1_sub : (ops1 : List (HloOp τ sig (Elt F))).Forall fun op => op.bufs ⊆ tcRefs τ sig :=
  forall_append (sMsg1b_sub) (forall_append (sMean1_sub) (forall_append (sVar1_sub) (forall_append (sNorm1_sub) (forall_append (sLin2_sub) (forall_append (sCat2_sub) (forall_append (sScat2_sub) (forall_append (sInv2_sub) (sNrm2a_sub))))))))
theorem ops2_sub : (ops2 : List (HloOp τ sig (Elt F))).Forall fun op => op.bufs ⊆ tcRefs τ sig :=
  forall_append (sNrm2b_sub) (forall_append (sMsg2_sub) (forall_append (sMean2_sub) (forall_append (sVar2_sub) (forall_append (sNorm2_sub) (sLin3_sub)))))
theorem ops3_sub : (ops3 : List (HloOp τ sig (Elt F))).Forall fun op => op.bufs ⊆ tcRefs τ sig :=
  forall_append (sCat3_sub) (forall_append (sScat3_sub) (forall_append (sInv3_sub) (forall_append (sNrm3_sub) (forall_append (sMsg3_sub) (sMean3_sub)))))
theorem ops4_sub : (ops4 : List (HloOp τ sig (Elt F))).Forall fun op => op.bufs ⊆ tcRefs τ sig :=
  forall_append (sVar3_sub) (forall_append (sNorm3_sub) (sTail_sub))
theorem ops_sub : (ops : List (HloOp τ sig (Elt F))).Forall fun op => op.bufs ⊆ tcRefs τ sig :=
  forall_append (ops0_sub) (forall_append (ops1_sub) (forall_append (ops2_sub) (forall_append (ops3_sub) (ops4_sub))))

theorem ops0_fresh : (ops0 : List (HloOp τ sig (Elt F))).Forall fun op => op.fresh = ∅ :=
  forall_append (sIdx_fresh) (forall_append (sEdgeA_fresh) (forall_append (sEdgeB_fresh) (forall_append (sEdgeC_fresh) (forall_append (sLin1_fresh) (forall_append (sCat1_fresh) (forall_append (sScat1_fresh) (forall_append (sInv1_fresh) (forall_append (sNrm1_fresh) (sMsg1a_fresh)))))))))
theorem ops1_fresh : (ops1 : List (HloOp τ sig (Elt F))).Forall fun op => op.fresh = ∅ :=
  forall_append (sMsg1b_fresh) (forall_append (sMean1_fresh) (forall_append (sVar1_fresh) (forall_append (sNorm1_fresh) (forall_append (sLin2_fresh) (forall_append (sCat2_fresh) (forall_append (sScat2_fresh) (forall_append (sInv2_fresh) (sNrm2a_fresh))))))))
theorem ops2_fresh : (ops2 : List (HloOp τ sig (Elt F))).Forall fun op => op.fresh = ∅ :=
  forall_append (sNrm2b_fresh) (forall_append (sMsg2_fresh) (forall_append (sMean2_fresh) (forall_append (sVar2_fresh) (forall_append (sNorm2_fresh) (sLin3_fresh)))))
theorem ops3_fresh : (ops3 : List (HloOp τ sig (Elt F))).Forall fun op => op.fresh = ∅ :=
  forall_append (sCat3_fresh) (forall_append (sScat3_fresh) (forall_append (sInv3_fresh) (forall_append (sNrm3_fresh) (forall_append (sMsg3_fresh) (sMean3_fresh)))))
theorem ops4_fresh : (ops4 : List (HloOp τ sig (Elt F))).Forall fun op => op.fresh = ∅ :=
  forall_append (sVar3_fresh) (forall_append (sNorm3_fresh) (sTail_fresh))
theorem ops_fresh : (ops : List (HloOp τ sig (Elt F))).Forall fun op => op.fresh = ∅ :=
  forall_append (ops0_fresh) (forall_append (ops1_fresh) (forall_append (ops2_fresh) (forall_append (ops3_fresh) (ops4_fresh))))

/-- A buffer that is the result of no operation of any stretch. -/
abbrev Kept (r : Ref sig .tc) : Prop :=
  r ∉ sIdx_W ∧ r ∉ sEdgeA_W ∧ r ∉ sEdgeB_W ∧ r ∉ sEdgeC_W ∧ r ∉ sLin1_W ∧ r ∉ sCat1_W ∧ r ∉ sScat1_W ∧ r ∉ sInv1_W ∧ r ∉ sNrm1_W ∧ r ∉ sMsg1a_W ∧ r ∉ sMsg1b_W ∧ r ∉ sMean1_W ∧ r ∉ sVar1_W ∧ r ∉ sNorm1_W ∧ r ∉ sLin2_W ∧ r ∉ sCat2_W ∧ r ∉ sScat2_W ∧ r ∉ sInv2_W ∧ r ∉ sNrm2a_W ∧ r ∉ sNrm2b_W ∧ r ∉ sMsg2_W ∧ r ∉ sMean2_W ∧ r ∉ sVar2_W ∧ r ∉ sNorm2_W ∧ r ∉ sLin3_W ∧ r ∉ sCat3_W ∧ r ∉ sScat3_W ∧ r ∉ sInv3_W ∧ r ∉ sNrm3_W ∧ r ∉ sMsg3_W ∧ r ∉ sMean3_W ∧ r ∉ sVar3_W ∧ r ∉ sNorm3_W ∧ r ∉ sTail_W

theorem Kept.sIdx {r : Ref sig .tc} (h : Kept r) : r ∉ sIdx_W := h.1
theorem Kept.sEdgeA {r : Ref sig .tc} (h : Kept r) : r ∉ sEdgeA_W := h.2.1
theorem Kept.sEdgeB {r : Ref sig .tc} (h : Kept r) : r ∉ sEdgeB_W := h.2.2.1
theorem Kept.sEdgeC {r : Ref sig .tc} (h : Kept r) : r ∉ sEdgeC_W := h.2.2.2.1
theorem Kept.sLin1 {r : Ref sig .tc} (h : Kept r) : r ∉ sLin1_W := h.2.2.2.2.1
theorem Kept.sCat1 {r : Ref sig .tc} (h : Kept r) : r ∉ sCat1_W := h.2.2.2.2.2.1
theorem Kept.sScat1 {r : Ref sig .tc} (h : Kept r) : r ∉ sScat1_W := h.2.2.2.2.2.2.1
theorem Kept.sInv1 {r : Ref sig .tc} (h : Kept r) : r ∉ sInv1_W := h.2.2.2.2.2.2.2.1
theorem Kept.sNrm1 {r : Ref sig .tc} (h : Kept r) : r ∉ sNrm1_W := h.2.2.2.2.2.2.2.2.1
theorem Kept.sMsg1a {r : Ref sig .tc} (h : Kept r) : r ∉ sMsg1a_W := h.2.2.2.2.2.2.2.2.2.1
theorem Kept.sMsg1b {r : Ref sig .tc} (h : Kept r) : r ∉ sMsg1b_W := h.2.2.2.2.2.2.2.2.2.2.1
theorem Kept.sMean1 {r : Ref sig .tc} (h : Kept r) : r ∉ sMean1_W := h.2.2.2.2.2.2.2.2.2.2.2.1
theorem Kept.sVar1 {r : Ref sig .tc} (h : Kept r) : r ∉ sVar1_W := h.2.2.2.2.2.2.2.2.2.2.2.2.1
theorem Kept.sNorm1 {r : Ref sig .tc} (h : Kept r) : r ∉ sNorm1_W := h.2.2.2.2.2.2.2.2.2.2.2.2.2.1
theorem Kept.sLin2 {r : Ref sig .tc} (h : Kept r) : r ∉ sLin2_W := h.2.2.2.2.2.2.2.2.2.2.2.2.2.2.1
theorem Kept.sCat2 {r : Ref sig .tc} (h : Kept r) : r ∉ sCat2_W := h.2.2.2.2.2.2.2.2.2.2.2.2.2.2.2.1
theorem Kept.sScat2 {r : Ref sig .tc} (h : Kept r) : r ∉ sScat2_W := h.2.2.2.2.2.2.2.2.2.2.2.2.2.2.2.2.1
theorem Kept.sInv2 {r : Ref sig .tc} (h : Kept r) : r ∉ sInv2_W := h.2.2.2.2.2.2.2.2.2.2.2.2.2.2.2.2.2.1
theorem Kept.sNrm2a {r : Ref sig .tc} (h : Kept r) : r ∉ sNrm2a_W := h.2.2.2.2.2.2.2.2.2.2.2.2.2.2.2.2.2.2.1
theorem Kept.sNrm2b {r : Ref sig .tc} (h : Kept r) : r ∉ sNrm2b_W := h.2.2.2.2.2.2.2.2.2.2.2.2.2.2.2.2.2.2.2.1
theorem Kept.sMsg2 {r : Ref sig .tc} (h : Kept r) : r ∉ sMsg2_W := h.2.2.2.2.2.2.2.2.2.2.2.2.2.2.2.2.2.2.2.2.1
theorem Kept.sMean2 {r : Ref sig .tc} (h : Kept r) : r ∉ sMean2_W := h.2.2.2.2.2.2.2.2.2.2.2.2.2.2.2.2.2.2.2.2.2.1
theorem Kept.sVar2 {r : Ref sig .tc} (h : Kept r) : r ∉ sVar2_W := h.2.2.2.2.2.2.2.2.2.2.2.2.2.2.2.2.2.2.2.2.2.2.1
theorem Kept.sNorm2 {r : Ref sig .tc} (h : Kept r) : r ∉ sNorm2_W := h.2.2.2.2.2.2.2.2.2.2.2.2.2.2.2.2.2.2.2.2.2.2.2.1
theorem Kept.sLin3 {r : Ref sig .tc} (h : Kept r) : r ∉ sLin3_W := h.2.2.2.2.2.2.2.2.2.2.2.2.2.2.2.2.2.2.2.2.2.2.2.2.1
theorem Kept.sCat3 {r : Ref sig .tc} (h : Kept r) : r ∉ sCat3_W := h.2.2.2.2.2.2.2.2.2.2.2.2.2.2.2.2.2.2.2.2.2.2.2.2.2.1
theorem Kept.sScat3 {r : Ref sig .tc} (h : Kept r) : r ∉ sScat3_W := h.2.2.2.2.2.2.2.2.2.2.2.2.2.2.2.2.2.2.2.2.2.2.2.2.2.2.1
theorem Kept.sInv3 {r : Ref sig .tc} (h : Kept r) : r ∉ sInv3_W := h.2.2.2.2.2.2.2.2.2.2.2.2.2.2.2.2.2.2.2.2.2.2.2.2.2.2.2.1
theorem Kept.sNrm3 {r : Ref sig .tc} (h : Kept r) : r ∉ sNrm3_W := h.2.2.2.2.2.2.2.2.2.2.2.2.2.2.2.2.2.2.2.2.2.2.2.2.2.2.2.2.1
theorem Kept.sMsg3 {r : Ref sig .tc} (h : Kept r) : r ∉ sMsg3_W := h.2.2.2.2.2.2.2.2.2.2.2.2.2.2.2.2.2.2.2.2.2.2.2.2.2.2.2.2.2.1
theorem Kept.sMean3 {r : Ref sig .tc} (h : Kept r) : r ∉ sMean3_W := h.2.2.2.2.2.2.2.2.2.2.2.2.2.2.2.2.2.2.2.2.2.2.2.2.2.2.2.2.2.2.1
theorem Kept.sVar3 {r : Ref sig .tc} (h : Kept r) : r ∉ sVar3_W := h.2.2.2.2.2.2.2.2.2.2.2.2.2.2.2.2.2.2.2.2.2.2.2.2.2.2.2.2.2.2.2.1
theorem Kept.sNorm3 {r : Ref sig .tc} (h : Kept r) : r ∉ sNorm3_W := h.2.2.2.2.2.2.2.2.2.2.2.2.2.2.2.2.2.2.2.2.2.2.2.2.2.2.2.2.2.2.2.2.1
theorem Kept.sTail {r : Ref sig .tc} (h : Kept r) : r ∉ sTail_W := h.2.2.2.2.2.2.2.2.2.2.2.2.2.2.2.2.2.2.2.2.2.2.2.2.2.2.2.2.2.2.2.2.2

/-- Such a buffer holds after the whole line what it held before it. -/
theorem ops_keep (V : Valuation τ sig (Elt F)) (r : Ref sig .tc) (h : Kept r) :
    after ops V (Proc.devRef .tc r) = V (Proc.devRef .tc r) :=
  keep_append (keep_append (fun V => sIdx_keep V r h.sIdx) (keep_append (fun V => sEdgeA_keep V r h.sEdgeA) (keep_append (fun V => sEdgeB_keep V r h.sEdgeB) (keep_append (fun V => sEdgeC_keep V r h.sEdgeC) (keep_append (fun V => sLin1_keep V r h.sLin1) (keep_append (fun V => sCat1_keep V r h.sCat1) (keep_append (fun V => sScat1_keep V r h.sScat1) (keep_append (fun V => sInv1_keep V r h.sInv1) (keep_append (fun V => sNrm1_keep V r h.sNrm1) (fun V => sMsg1a_keep V r h.sMsg1a)))))))))) (keep_append (keep_append (fun V => sMsg1b_keep V r h.sMsg1b) (keep_append (fun V => sMean1_keep V r h.sMean1) (keep_append (fun V => sVar1_keep V r h.sVar1) (keep_append (fun V => sNorm1_keep V r h.sNorm1) (keep_append (fun V => sLin2_keep V r h.sLin2) (keep_append (fun V => sCat2_keep V r h.sCat2) (keep_append (fun V => sScat2_keep V r h.sScat2) (keep_append (fun V => sInv2_keep V r h.sInv2) (fun V => sNrm2a_keep V r h.sNrm2a))))))))) (keep_append (keep_append (fun V => sNrm2b_keep V r h.sNrm2b) (keep_append (fun V => sMsg2_keep V r h.sMsg2) (keep_append (fun V => sMean2_keep V r h.sMean2) (keep_append (fun V => sVar2_keep V r h.sVar2) (keep_append (fun V => sNorm2_keep V r h.sNorm2) (fun V => sLin3_keep V r h.sLin3)))))) (keep_append (keep_append (fun V => sCat3_keep V r h.sCat3) (keep_append (fun V => sScat3_keep V r h.sScat3) (keep_append (fun V => sInv3_keep V r h.sInv3) (keep_append (fun V => sNrm3_keep V r h.sNrm3) (keep_append (fun V => sMsg3_keep V r h.sMsg3) (fun V => sMean3_keep V r h.sMean3)))))) (keep_append (fun V => sVar3_keep V r h.sVar3) (keep_append (fun V => sNorm3_keep V r h.sNorm3) (fun V => sTail_keep V r h.sTail)))))) V

/-- The whole line from given contents is the stretches run one after the other. -/
theorem after_ops (V : Valuation τ sig (Elt F)) :
    after ops V = after sTail (after sNorm3 (after sVar3 (after sMean3 (after sMsg3 (after sNrm3 (after sInv3 (after sScat3 (after sCat3 (after sLin3 (after sNorm2 (after sVar2 (after sMean2 (after sMsg2 (after sNrm2b (after sNrm2a (after sInv2 (after sScat2 (after sCat2 (after sLin2 (after sNorm1 (after sVar1 (after sMean1 (after sMsg1b (after sMsg1a (after sNrm1 (after sInv1 (after sScat1 (after sCat1 (after sLin1 (after sEdgeC (after sEdgeB (after sEdgeA (after sIdx (V)))))))))))))))))))))))))))))))))) := by
  simp only [ops, ops0, ops1, ops2, ops3, ops4, after_app]

theorem kept_arg0 : Kept main_arg0 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg1 : Kept main_arg1 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg2 : Kept main_arg2 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg3 : Kept main_arg3 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg4 : Kept main_arg4 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg5 : Kept main_arg5 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg6 : Kept main_arg6 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg7 : Kept main_arg7 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg8 : Kept main_arg8 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg9 : Kept main_arg9 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg10 : Kept main_arg10 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg11 : Kept main_arg11 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg12 : Kept main_arg12 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg13 : Kept main_arg13 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg14 : Kept main_arg14 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg15 : Kept main_arg15 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg16 : Kept main_arg16 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg17 : Kept main_arg17 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg18 : Kept main_arg18 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg19 : Kept main_arg19 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg20 : Kept main_arg20 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩
theorem kept_arg21 : Kept main_arg21 := ⟨by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide, by decide⟩

end Cert.RefRun

end
-- ==== Proof.RefRun.lean ====
/-
  The reference program's run.

  The entry function is its windows in order, each window the straight line of its operations; so the whole
  function is the straight line of all of them, and every weakly fair execution of it terminates with every
  buffer at the fold of the operations' results over the launch contents. No operation writes an argument
  buffer (each writes one buffer, its own result), so the arguments end as they began.
-/
import proofs.«161461_j70540542869949_1_alg».proof.Proof.RefRunEq0
import proofs.«161461_j70540542869949_1_alg».proof.Proof.RefRunEq1
import proofs.«161461_j70540542869949_1_alg».proof.Proof.RefRunEq2
import proofs.«161461_j70540542869949_1_alg».proof.Proof.RefRunEq3
import proofs.«161461_j70540542869949_1_alg».proof.Proof.RefRunEq4
import proofs.«161461_j70540542869949_1_alg».proof.Proof.RefRunFactsAll
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The type of a TensorCore's host program of the reference. -/
abbrev HostProg (F : FTy → Type) [FloatOps F] : Type 1 :=
  Prog (TpuEff nD τ sig (Elt F) (Pipeline.Sig Λ₀ (Fin 0) fun p => (pcfgs (F := F) p).Adm) .tc) PUnit

/-! ## The entry function is the line of its operations -/

/-- The whole line is the windows' lines in order. -/
theorem seq_ops : (seq ops : HostProg F)
    = (seq ops0 >>= fun _ => seq ops1 >>= fun _ => seq ops2 >>= fun _ => seq ops3 >>= fun _ => seq ops4) :=
  (seq_append ops0 _).trans (congrArg (fun k : HostProg F => seq ops0 >>= fun _ => k)
    ((seq_append ops1 _).trans (congrArg (fun k : HostProg F => seq ops1 >>= fun _ => k)
      ((seq_append ops2 _).trans (congrArg (fun k : HostProg F => seq ops2 >>= fun _ => k) (seq_append ops3 ops4))))))

/-- The entry function runs its operations in order and nothing else. -/
theorem main_eq (c : Dev nD) : main (F := F) c = seq ops := by
  rw [seq_ops, ← main_part0_eq c, ← main_part1_eq c, ← main_part2_eq c, ← main_part3_eq c, ← main_part4_eq c]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    entry function terminates with every TensorCore buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

/-- At the exact extended reals: every weakly fair execution of the reference terminates with the result buffer at the
    operations' fold over the launch contents, and with every argument buffer unchanged. -/
theorem run_raw (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v231) = after (ops (F := Ideal)) (launchContents m c) (Proc.devRef .tc Cert.ReferenceIdeal.main_v231)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)) :=
  (θ_run (Cert.ReferenceIdeal.defs (F := Ideal)) _ _).mono (fun _ h c => ⟨h c main_v231,
      (h c main_arg0).trans (ops_keep _ main_arg0 kept_arg0),
      (h c main_arg1).trans (ops_keep _ main_arg1 kept_arg1),
      (h c main_arg2).trans (ops_keep _ main_arg2 kept_arg2),
      (h c main_arg3).trans (ops_keep _ main_arg3 kept_arg3),
      (h c main_arg4).trans (ops_keep _ main_arg4 kept_arg4),
      (h c main_arg5).trans (ops_keep _ main_arg5 kept_arg5),
      (h c main_arg6).trans (ops_keep _ main_arg6 kept_arg6),
      (h c main_arg7).trans (ops_keep _ main_arg7 kept_arg7),
      (h c main_arg8).trans (ops_keep _ main_arg8 kept_arg8),
      (h c main_arg9).trans (ops_keep _ main_arg9 kept_arg9),
      (h c main_arg10).trans (ops_keep _ main_arg10 kept_arg10),
      (h c main_arg11).trans (ops_keep _ main_arg11 kept_arg11),
      (h c main_arg12).trans (ops_keep _ main_arg12 kept_arg12),
      (h c main_arg13).trans (ops_keep _ main_arg13 kept_arg13),
      (h c main_arg14).trans (ops_keep _ main_arg14 kept_arg14),
      (h c main_arg15).trans (ops_keep _ main_arg15 kept_arg15),
      (h c main_arg16).trans (ops_keep _ main_arg16 kept_arg16),
      (h c main_arg17).trans (ops_keep _ main_arg17 kept_arg17),
      (h c main_arg18).trans (ops_keep _ main_arg18 kept_arg18),
      (h c main_arg19).trans (ops_keep _ main_arg19 kept_arg19),
      (h c main_arg20).trans (ops_keep _ main_arg20 kept_arg20),
      (h c main_arg21).trans (ops_keep _ main_arg21 kept_arg21)⟩)
    (run_all (F := Ideal) m ρ)

end Cert.RefRun

end
-- ==== Proof.RefTerm.lean ====
/-
  The reference program's host operations, as functions of whole arrays.

  The reference computes, in order: the two rows of the edge list; the edge weights (a two-layer perceptron of the
  edge attributes); three times a graph-convolution layer — the node features times a weight matrix, the edge list
  and the weights extended by one self-loop of weight one per node, the weighted in-degree by an accumulating scatter,
  its inverse square root where it is positive and zero elsewhere, every edge's normalisation
  dis(source) · weight · dis(target), the source rows gathered, scaled and accumulated at the targets, a bias added —
  followed by a normalisation of every column by its mean and variance over the nodes and the positive part; and at
  the end a mean over the nodes of every graph and a linear read-out. Each stretch is written here as one function:
  the printed operations of the stretch applied in the printed order, every outlined function written out where
  it is called.
-/
import proofs.«161461_j70540542869949_1_alg».proof.ReferenceIdeal
import proofs.«161461_j70540542869949_1_alg».proof.Proof.Spec

noncomputable section

namespace Cert.RefTerm

open Cert.ReferenceIdeal Cert.ReferenceIdeal.Facts₀ Cert.ReferenceIdeal.Facts Cert.Spec
open Idealize.ShloMosaic Idealize.ShloMosaic.ValueIdx

variable [Facts]

/-! ## The edge list -/

/-- Row 0 of the edge list, as a flat column: every edge's source node. -/
def srcOf (ei : IVec S2x640000 32) : IVec S640000 32 :=
  shapeCast S640000 (extractStridedSlice S1x640000 ![0, 0] ei slices_S2x640000_S1x640000_0_0) shapeCasts_S1x640000_S640000

/-- Row 1 of the edge list, as a flat column: every edge's target node. -/
def dstOf (ei : IVec S2x640000 32) : IVec S640000 32 :=
  shapeCast S640000 (extractStridedSlice S1x640000 ![1, 0] ei slices_S2x640000_S1x640000_1_0) shapeCasts_S1x640000_S640000

/-! ## The edge weights -/

/-- The hidden layer of the edge perceptron: the positive part of `ea · Wm1ᵀ + bm1`. -/
def edgeHidden (ea : FVec Ideal S640000x16 .f32) (Wm1 : FVec Ideal S128x16 .f32) (bm1 : FVec Ideal S128 .f32) :
    FVec Ideal S640000x128 .f32 :=
  maximumf
    (addf
      (Host.dotGeneral (F := Ideal) dot_S640000x16_S16x128_S640000x128_1_0_0_1_n_n none ea
        (transpose S16x128 [1, 0] Wm1 transposes_S128x16_S16x128_1_0))
      (broadcastInDim S640000x128 ![0, 1] bcast_S1x128_S640000x128_0_1 (broadcastInDim S1x128 ![1] bcast_S128_S1x128_1 bm1)))
    (broadcastInDim S640000x128 ![] bcast_S_S640000x128 (constant (F := Ideal) S_ .f32 0x00000000#32))

/-- The edge weights: the hidden layer times `Wm2ᵀ` plus `bm2`, flattened to one number an edge. -/
def edgeW (ea : FVec Ideal S640000x16 .f32) (Wm1 : FVec Ideal S128x16 .f32) (bm1 : FVec Ideal S128 .f32)
    (Wm2 : FVec Ideal S1x128 .f32) (bm2 : FVec Ideal S1 .f32) : FVec Ideal S640000 .f32 :=
  shapeCast S640000
    (addf
      (Host.dotGeneral (F := Ideal) dot_S640000x128_S128x1_S640000x1_1_0_0_1_n_n none (edgeHidden ea Wm1 bm1)
        (transpose S128x1 [1, 0] Wm2 transposes_S1x128_S128x1_1_0))
      (broadcastInDim S640000x1 ![0, 1] bcast_S1x1_S640000x1_0_1 (broadcastInDim S1x1 ![1] bcast_S1_S1x1_1 bm2)))
    shapeCasts_S640000x1_S640000

/-! ## One graph-convolution layer before normalisation -/

/-- The node features times the transposed weight matrix. -/
def linOf (h : FVec Ideal S100000x128 .f32) (W : FVec Ideal S128x128 .f32) : FVec Ideal S100000x128 .f32 :=
  Host.dotGeneral (F := Ideal) dot_S100000x128_S128x128_S100000x128_1_0_0_1_n_n none h
    (transpose S128x128 [1, 0] W transposes_S128x128_S128x128_1_0)

/-- A column of edge ends followed by the node numbers: the self-loops listed after the edges. -/
def catIdx (a : IVec S640000 32) : IVec S740000 32 :=
  concatenate S740000 0 [⟨S640000, a⟩, ⟨S100000, iotaInDim S100000 32 0⟩] concatenates_S640000_S100000_S740000_d0

/-- The edge weights followed by a one for every self-loop. -/
def catW (ew : FVec Ideal S640000 .f32) : FVec Ideal S740000 .f32 :=
  concatenate S740000 0
    [⟨S640000, ew⟩, ⟨S100000, broadcastInDim S100000 ![] bcast_S_S100000 (constant (F := Ideal) S_ .f32 0x3F800000#32)⟩]
    concatenates_S640000_S100000_S740000_d0

/-- A column of indices as the `[E, 1]` array a gather or a scatter takes. -/
def asColumn (a : IVec S740000 32) : IVec S740000x1 32 :=
  broadcastInDim S740000x1 ![0] bcast_S740000_S740000x1_0 a

/-- The weighted in-degree: every listed edge's weight accumulated at its target. -/
def degree (dst : IVec S640000 32) (ew : FVec Ideal S640000 .f32) : FVec Ideal S100000 .f32 :=
  Host.scatterAdd (F := Ideal) scatter_S100000_S740000x1_S740000_n_0_0_1
    (broadcastInDim S100000 ![] bcast_S_S100000 (constant (F := Ideal) S_ .f32 0x00000000#32))
    (asColumn (catIdx dst)) (catW ew)

/-- The inverse square root of the degree where the degree is positive, zero elsewhere. -/
def invSqrtDeg (dst : IVec S640000 32) (ew : FVec Ideal S640000 .f32) : FVec Ideal S100000 .f32 :=
  select
    (cmpf .ogt (degree dst ew) (broadcastInDim S100000 ![] bcast_S_S100000 (constant (F := Ideal) S_ .f32 0x00000000#32)))
    (Host.rsqrt (F := Ideal) (degree dst ew))
    (broadcastInDim S100000 ![] bcast_S_S100000 (id (constant (F := Ideal) S_ .f32 0x00000000#32)))

/-- An index word moved up by the number of nodes when it is negative. -/
def wrapIdx (a : IVec S740000 32) : IVec S740000 32 :=
  select (cmpi .slt a (broadcastInDim S740000 ![] bcast_S_S740000 (constantI S_ 32 0#32)))
    (addi a (broadcastInDim S740000 ![] bcast_S_S740000 (constantI S_ 32 100000#32))) a

/-- A per-node number read at every listed edge's end. -/
def atEnds (x : FVec Ideal S100000 .f32) (a : IVec S740000 32) : FVec Ideal S740000 .f32 :=
  Host.gather gather_S100000_S740000x1_S740000_n_0_n_n_0_1_1 x (asColumn (wrapIdx a))

/-- Every listed edge's normalisation `dis(source) · weight · dis(target)`. -/
def normOf (src dst : IVec S640000 32) (ew : FVec Ideal S640000 .f32) : FVec Ideal S740000 .f32 :=
  mulf (mulf (atEnds (invSqrtDeg dst ew) (catIdx src)) (catW ew)) (atEnds (invSqrtDeg dst ew) (catIdx dst))

/-- A row of 128 numbers added to, or multiplied into, every row: the row spread over the nodes. -/
def overNodes (v : FVec Ideal S128 .f32) : FVec Ideal S100000x128 .f32 :=
  broadcastInDim S100000x128 ![0, 1] bcast_S1x128_S100000x128_0_1 (broadcastInDim S1x128 ![1] bcast_S128_S1x128_1 v)

/-- What every listed edge sends: its source's row of `h · Wᵀ` scaled by the edge's normalisation. -/
def msgOf (h : FVec Ideal S100000x128 .f32) (src dst : IVec S640000 32) (ew : FVec Ideal S640000 .f32)
    (W : FVec Ideal S128x128 .f32) : FVec Ideal S740000x128 .f32 :=
  mulf
    (Host.gather gather_S100000x128_S740000x1_S740000x128_1_0_n_n_0_1_1128 (linOf h W) (asColumn (wrapIdx (catIdx src))))
    (broadcastInDim S740000x128 ![0, 1] bcast_S740000x1_S740000x128_0_1
      (broadcastInDim S740000x1 ![0] bcast_S740000_S740000x1_0 (normOf src dst ew)))

/-- The layer before normalisation: the messages accumulated at their targets, plus the bias. -/
def conv (h : FVec Ideal S100000x128 .f32) (src dst : IVec S640000 32) (ew : FVec Ideal S640000 .f32)
    (W : FVec Ideal S128x128 .f32) (b : FVec Ideal S128 .f32) : FVec Ideal S100000x128 .f32 :=
  addf
    (Host.scatterAdd (F := Ideal) scatter_S100000x128_S740000x1_S740000x128_1_0_0_1
      (broadcastInDim S100000x128 ![] bcast_S_S100000x128 (constant (F := Ideal) S_ .f32 0x00000000#32))
      (asColumn (catIdx dst)) (msgOf h src dst ew W))
    (overNodes b)

/-! ## Column statistics and normalisation -/

/-- The column sums over the nodes. -/
def colSumOf (z : FVec Ideal S100000x128 .f32) : FVec Ideal S128 .f32 :=
  Host.reduceAdd (F := Ideal) z (constant (F := Ideal) S_ .f32 0x00000000#32) reducesTo_S100000x128_S128_d0 h_S_

/-- The column means. -/
def meanOf (z : FVec Ideal S100000x128 .f32) : FVec Ideal S128 .f32 :=
  Host.divf (F := Ideal) (colSumOf z) (broadcastInDim S128 ![] bcast_S_S128 (constant (F := Ideal) S_ .f32 0x47C35000#32))

/-- Every entry less its column's mean, the mean kept as a row. -/
def centred (z : FVec Ideal S100000x128 .f32) : FVec Ideal S100000x128 .f32 :=
  subf z
    (broadcastInDim S100000x128 ![0, 1] bcast_S1x128_S100000x128_0_1
      (Host.divf (F := Ideal) (broadcastInDim S1x128 ![1] bcast_S128_S1x128_1 (colSumOf z))
        (broadcastInDim S1x128 ![] bcast_S_S1x128 (constant (F := Ideal) S_ .f32 0x47C35000#32))))

/-- The variance's divisor: the number of nodes less the correction, here the integer zero. -/
def divisor : FVec Ideal S_ .f32 :=
  subf (constant (F := Ideal) S_ .f32 0x47C35000#32) (sitofp .f32 (constantI S_ 32 0#32))

/-- The column variances: the mean of the squared deviations, guarded by the divisor being positive. -/
def varOf (z : FVec Ideal S100000x128 .f32) : FVec Ideal S128 .f32 :=
  select
    (broadcastInDim S128 ![] bcast_S_S128 (cmpf .ogt divisor (constant (F := Ideal) S_ .f32 0x00000000#32)))
    (Host.divf (F := Ideal) (colSumOf (mulf (centred z) (centred z))) (broadcastInDim S128 ![] bcast_S_S128 divisor))
    (broadcastInDim S128 ![] bcast_S_S128 (id (constant (F := Ideal) S_ .f32 0x7FC00000#32)))

/-- The normalised positive part: `max ((γ · (z − μ)) · rsqrt (σ² + ε) + β) 0`. -/
def bnRelu (z : FVec Ideal S100000x128 .f32) (mean var g be : FVec Ideal S128 .f32) : FVec Ideal S100000x128 .f32 :=
  maximumf
    (addf
      (mulf (mulf (overNodes g) (subf z (overNodes mean)))
        (overNodes
          (Host.rsqrt (F := Ideal)
            (addf var (broadcastInDim S128 ![] bcast_S_S128 (constant (F := Ideal) S_ .f32 0x3727C5AC#32))))))
      (overNodes be))
    (broadcastInDim S100000x128 ![] bcast_S_S100000x128 (constant (F := Ideal) S_ .f32 0x00000000#32))

/-- One whole layer. -/
def layer (h : FVec Ideal S100000x128 .f32) (W : FVec Ideal S128x128 .f32) (b g be : FVec Ideal S128 .f32)
    (src dst : IVec S640000 32) (ew : FVec Ideal S640000 .f32) : FVec Ideal S100000x128 .f32 :=
  bnRelu (conv h src dst ew W b) (meanOf (conv h src dst ew W b)) (varOf (conv h src dst ew W b)) g be

/-! ## The read-out -/

/-- The mean of the node rows of every graph, times the read-out weights, plus the read-out bias. -/
def tail (h : FVec Ideal S100000x128 .f32) (batch : IVec S100000 32) (Wr : FVec Ideal S1x128 .f32)
    (br : FVec Ideal S1 .f32) : FVec Ideal S512 .f32 :=
  shapeCast S512
    (addf
      (Host.dotGeneral (F := Ideal) dot_S512x128_S128x1_S512x1_1_0_0_1_n_n none
        (Host.divf (F := Ideal)
          (Host.scatterAdd (F := Ideal) scatter_S512x128_S100000x1_S100000x128_1_0_0_1
            (broadcastInDim S512x128 ![] bcast_S_S512x128 (constant (F := Ideal) S_ .f32 0x00000000#32))
            (broadcastInDim S100000x1 ![0] bcast_S100000_S100000x1_0 batch) h)
          (broadcastInDim S512x128 ![0, 1] bcast_S512x1_S512x128_0_1
            (broadcastInDim S512x1 ![0] bcast_S512_S512x1_0
              (maximumf
                (Host.scatterAdd (F := Ideal) scatter_S512_S100000x1_S100000_n_0_0_1
                  (broadcastInDim S512 ![] bcast_S_S512 (constant (F := Ideal) S_ .f32 0x00000000#32))
                  (broadcastInDim S100000x1 ![0] bcast_S100000_S100000x1_0 batch)
                  (broadcastInDim S100000 ![] bcast_S_S100000 (constant (F := Ideal) S_ .f32 0x3F800000#32)))
                (broadcastInDim S512 ![] bcast_S_S512 (constant (F := Ideal) S_ .f32 0x3F800000#32))))))
        (transpose S128x1 [1, 0] Wr transposes_S1x128_S128x1_1_0))
      (broadcastInDim S512x1 ![0, 1] bcast_S1x1_S512x1_0_1 (broadcastInDim S1x1 ![1] bcast_S1_S1x1_1 br)))
    shapeCasts_S512x1_S512

/-! ## The whole program -/

/-- The reference's result as a function of its twenty-two arguments. -/
def result (a0 : FVec Ideal S100000x128 .f32) (a1 : IVec S2x640000 32) (a2 : FVec Ideal S640000x16 .f32)
    (a3 : IVec S100000 32) (a4 : FVec Ideal S128x16 .f32) (a5 : FVec Ideal S128 .f32) (a6 : FVec Ideal S1x128 .f32)
    (a7 : FVec Ideal S1 .f32) (a8 : FVec Ideal S128x128 .f32) (a9 a10 a11 : FVec Ideal S128 .f32)
    (a12 : FVec Ideal S128x128 .f32) (a13 a14 a15 : FVec Ideal S128 .f32) (a16 : FVec Ideal S128x128 .f32)
    (a17 a18 a19 : FVec Ideal S128 .f32) (a20 : FVec Ideal S1x128 .f32) (a21 : FVec Ideal S1 .f32) :
    FVec Ideal S512 .f32 :=
  tail
    (layer
      (layer (layer a0 a8 a9 a10 a11 (srcOf a1) (dstOf a1) (edgeW a2 a4 a5 a6 a7)) a12 a13 a14 a15 (srcOf a1) (dstOf a1)
        (edgeW a2 a4 a5 a6 a7))
      a16 a17 a18 a19 (srcOf a1) (dstOf a1) (edgeW a2 a4 a5 a6 a7))
    a3 a20 a21

end Cert.RefTerm

end
-- ==== Proof.RefRunTerms.lean ====
/-
  Pieces of the reference's stated term, as functions of whole arrays.

  The reference's term is stated stretch by stretch of the mathematics (the edge weights, a layer's propagation, …).
  The program's stretches of operations are cut a little finer, wherever a called function begins; the functions here
  name what such a finer stretch computes from the arrays it reads, and the equations at the end say that the finer
  pieces, put together, are the stated ones — by unfolding the definitions on both sides, nothing else.
-/
import proofs.«161461_j70540542869949_1_alg».proof.Proof.Gen.ReferenceIdeal
import proofs.«161461_j70540542869949_1_alg».proof.Proof.RefTerm
import Idealize.ShloMosaic.PureOps.Ideal

noncomputable section

namespace Cert.RefRun

open Cert.ReferenceIdeal Cert.ReferenceIdeal.Gen Idealize.ShloMosaic

/-- The edge perceptron's hidden layer before its positive part: `ea · Wm1ᵀ + bm1`. -/
def hiddenPre (ea : FVec Ideal S640000x16 .f32) (Wm1 : FVec Ideal S128x16 .f32) (bm1 : FVec Ideal S128 .f32) :
    FVec Ideal S640000x128 .f32 :=
  addf
    (Host.dotGeneral (F := Ideal) dot_S640000x16_S16x128_S640000x128_1_0_0_1_n_n none ea
      (transpose S16x128 [1, 0] Wm1 transposes_S128x16_S16x128_1_0))
    (broadcastInDim S640000x128 ![0, 1] bcast_S1x128_S640000x128_0_1 (broadcastInDim S1x128 ![1] bcast_S128_S1x128_1 bm1))

/-- The positive part of an array over the edges. -/
def posPartE (x : FVec Ideal S640000x128 .f32) : FVec Ideal S640000x128 .f32 :=
  maximumf x (broadcastInDim S640000x128 ![] bcast_S_S640000x128 (constant (F := Ideal) S_ .f32 0x00000000#32))

/-- The second linear map of the edge perceptron, flattened to one number an edge. -/
def edgeOut (hid : FVec Ideal S640000x128 .f32) (Wm2 : FVec Ideal S1x128 .f32) (bm2 : FVec Ideal S1 .f32) :
    FVec Ideal S640000 .f32 :=
  shapeCast S640000
    (addf
      (Host.dotGeneral (F := Ideal) dot_S640000x128_S128x1_S640000x1_1_0_0_1_n_n none hid
        (transpose S128x1 [1, 0] Wm2 transposes_S1x128_S128x1_1_0))
      (broadcastInDim S640000x1 ![0, 1] bcast_S1x1_S640000x1_0_1 (broadcastInDim S1x1 ![1] bcast_S1_S1x1_1 bm2)))
    shapeCasts_S640000x1_S640000

/-- The weighted in-degree from the listed targets and the listed weights (self loops already appended). -/
def degOf (cd : IVec S740000 32) (cw : FVec Ideal S740000 .f32) : FVec Ideal S100000 .f32 :=
  Host.scatterAdd (F := Ideal) scatter_S100000_S740000x1_S740000_n_0_0_1
    (broadcastInDim S100000 ![] bcast_S_S100000 (constant (F := Ideal) S_ .f32 0x00000000#32))
    (Cert.RefTerm.asColumn cd) cw

/-- The inverse square root of a degree where it is positive, zero elsewhere. -/
def invOf (deg : FVec Ideal S100000 .f32) : FVec Ideal S100000 .f32 :=
  select
    (cmpf .ogt deg (broadcastInDim S100000 ![] bcast_S_S100000 (constant (F := Ideal) S_ .f32 0x00000000#32)))
    (Host.rsqrt (F := Ideal) deg)
    (broadcastInDim S100000 ![] bcast_S_S100000 (id (constant (F := Ideal) S_ .f32 0x00000000#32)))

/-- Every listed edge's normalization from the inverse root degree, the listed ends and the listed weights. -/
def normFrom (isd : FVec Ideal S100000 .f32) (cs cd : IVec S740000 32) (cw : FVec Ideal S740000 .f32) :
    FVec Ideal S740000 .f32 :=
  mulf (mulf (Cert.RefTerm.atEnds isd cs) cw) (Cert.RefTerm.atEnds isd cd)

/-- The propagated features from the transformed features, the listed ends, the normalization and the bias. -/
def convFrom (lin : FVec Ideal S100000x128 .f32) (cs cd : IVec S740000 32) (nrm : FVec Ideal S740000 .f32)
    (b : FVec Ideal S128 .f32) : FVec Ideal S100000x128 .f32 :=
  addf
    (Host.scatterAdd (F := Ideal) scatter_S100000x128_S740000x1_S740000x128_1_0_0_1
      (broadcastInDim S100000x128 ![] bcast_S_S100000x128 (constant (F := Ideal) S_ .f32 0x00000000#32))
      (Cert.RefTerm.asColumn cd)
      (mulf
        (Host.gather gather_S100000x128_S740000x1_S740000x128_1_0_n_n_0_1_1128 lin
          (Cert.RefTerm.asColumn (Cert.RefTerm.wrapIdx cs)))
        (broadcastInDim S740000x128 ![0, 1] bcast_S740000x1_S740000x128_0_1
          (broadcastInDim S740000x1 ![0] bcast_S740000_S740000x1_0 nrm))))
    (Cert.RefTerm.overNodes b)

/-- The three pieces of the edge perceptron are the stated edge weights. -/
theorem edgeOut_eq (ea : FVec Ideal S640000x16 .f32) (Wm1 : FVec Ideal S128x16 .f32) (bm1 : FVec Ideal S128 .f32)
    (Wm2 : FVec Ideal S1x128 .f32) (bm2 : FVec Ideal S1 .f32) :
    edgeOut (posPartE (hiddenPre ea Wm1 bm1)) Wm2 bm2 = Cert.RefTerm.edgeW ea Wm1 bm1 Wm2 bm2 := rfl

/-- The degree, its inverse root and the normalization, over the self-looped lists, are the stated normalization. -/
theorem normFrom_eq (src dst : IVec S640000 32) (ew : FVec Ideal S640000 .f32) :
    normFrom (invOf (degOf (Cert.RefTerm.catIdx dst) (Cert.RefTerm.catW ew))) (Cert.RefTerm.catIdx src)
      (Cert.RefTerm.catIdx dst) (Cert.RefTerm.catW ew) = Cert.RefTerm.normOf src dst ew := rfl

/-- The propagation over the stated normalization is the stated layer before normalization. -/
theorem convFrom_eq (h : FVec Ideal S100000x128 .f32) (src dst : IVec S640000 32) (ew : FVec Ideal S640000 .f32)
    (W : FVec Ideal S128x128 .f32) (b : FVec Ideal S128 .f32) :
    convFrom (Cert.RefTerm.linOf h W) (Cert.RefTerm.catIdx src) (Cert.RefTerm.catIdx dst)
      (Cert.RefTerm.normOf src dst ew) b = Cert.RefTerm.conv h src dst ew W b := rfl

end Cert.RefRun

end
-- ==== Proof.RefRunValS.lean ====
/-
  What the reference's first and last stretches compute, as functions of the contents they start from.

  Each stretch of host operations, run from any contents of the buffers, leaves in its result buffer one pure term
  of what the buffers it reads held: the edge list's two rows; the edge weights (the perceptron's hidden layer, its
  positive part, the second linear map); and at the end the per-graph mean read-out. A stretch leaves every buffer
  that is not one of its results as it found it.
-/
import proofs.«161461_j70540542869949_1_alg».proof.Proof.RefRunFactsAll
import proofs.«161461_j70540542869949_1_alg».proof.Proof.RefRunTerms
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

/-! ## The edge list -/

/-- The buffers after the edge-list stretch. -/
def runIdx (W : Valuation τ sig (Elt Ideal)) : Valuation τ sig (Elt Ideal) := after (sIdx (F := Ideal)) W

theorem runIdx_src (W : Valuation τ sig (Elt Ideal)) : runIdx W (Proc.devRef .tc main_v1) = Cert.RefTerm.srcOf (W (Proc.devRef .tc main_arg1)) := by
  simp only [runIdx, sIdx]
  after_results_simp
  rfl

theorem runIdx_dst (W : Valuation τ sig (Elt Ideal)) : runIdx W (Proc.devRef .tc main_v3) = Cert.RefTerm.dstOf (W (Proc.devRef .tc main_arg1)) := by
  simp only [runIdx, sIdx]
  after_results_simp
  rfl

theorem runIdx_keep (W : Valuation τ sig (Elt Ideal)) (r : Ref sig .tc) (h : r ∉ sIdx_W) :
    runIdx W (Proc.devRef .tc r) = W (Proc.devRef .tc r) := sIdx_keep W r h

/-! ## The edge weights -/

/-- The hidden layer before its positive part. -/
theorem edgeA_val (W : Valuation τ sig (Elt Ideal)) : after (sEdgeA (F := Ideal)) W (Proc.devRef .tc main_v8)
    = hiddenPre (W (Proc.devRef .tc main_arg2)) (W (Proc.devRef .tc main_arg4)) (W (Proc.devRef .tc main_arg5)) := by
  simp only [sEdgeA]
  after_results_simp
  rfl

/-- Its positive part. -/
theorem edgeB_val (W : Valuation τ sig (Elt Ideal)) : after (sEdgeB (F := Ideal)) W (Proc.devRef .tc main_v9)
    = posPartE (W (Proc.devRef .tc main_v8)) := by
  simp only [sEdgeB]
  after_results_simp
  rfl

/-- The second linear map, flattened. -/
theorem edgeC_val (W : Valuation τ sig (Elt Ideal)) : after (sEdgeC (F := Ideal)) W (Proc.devRef .tc main_v15)
    = edgeOut (W (Proc.devRef .tc main_v9)) (W (Proc.devRef .tc main_arg6)) (W (Proc.devRef .tc main_arg7)) := by
  simp only [sEdgeC]
  after_results_simp
  rfl

/-- The buffers after the three edge-weight stretches. -/
def runEdge (W : Valuation τ sig (Elt Ideal)) : Valuation τ sig (Elt Ideal) := after (sEdgeC (F := Ideal)) (after (sEdgeB (F := Ideal)) (after (sEdgeA (F := Ideal)) W))

theorem runEdge_keep (W : Valuation τ sig (Elt Ideal)) (r : Ref sig .tc) (h : r ∉ sEdgeA_W ∧ r ∉ sEdgeB_W ∧ r ∉ sEdgeC_W) :
    runEdge W (Proc.devRef .tc r) = W (Proc.devRef .tc r) :=
  (sEdgeC_keep _ r h.2.2).trans ((sEdgeB_keep _ r h.2.1).trans (sEdgeA_keep W r h.1))

/-- The three stretches together compute the edge weights. -/
theorem runEdge_val (W : Valuation τ sig (Elt Ideal)) : runEdge W (Proc.devRef .tc main_v15)
    = Cert.RefTerm.edgeW (W (Proc.devRef .tc main_arg2)) (W (Proc.devRef .tc main_arg4)) (W (Proc.devRef .tc main_arg5)) (W (Proc.devRef .tc main_arg6)) (W (Proc.devRef .tc main_arg7)) := by
  unfold runEdge
  rw [edgeC_val, edgeB_val, sEdgeB_keep _ main_arg6 (by decide), sEdgeB_keep _ main_arg7 (by decide),
    sEdgeA_keep _ main_arg6 (by decide), sEdgeA_keep _ main_arg7 (by decide), edgeA_val]
  exact edgeOut_eq _ _ _ _ _

/-! ## The read-out -/

/-- The buffers after the read-out stretch. -/
def runTail (W : Valuation τ sig (Elt Ideal)) : Valuation τ sig (Elt Ideal) := after (sTail (F := Ideal)) W

theorem runTail_val (W : Valuation τ sig (Elt Ideal)) : runTail W (Proc.devRef .tc main_v231)
    = Cert.RefTerm.tail (W (Proc.devRef .tc main_v213)) (W (Proc.devRef .tc main_arg3)) (W (Proc.devRef .tc main_arg20)) (W (Proc.devRef .tc main_arg21)) := by
  simp only [runTail, sTail]
  after_results_simp
  rfl

end Cert.RefRun

end
-- ==== Proof.RefRunValL1.lean ====
/-
  What layer 1 of the reference computes, as a function of the contents it starts from.

  Run from any contents of the buffers, each stretch of the layer leaves in its result buffer one pure term of what
  the buffers it reads held: the linear map; the self loops appended to the edge ends and to the weights; the
  weighted in-degree; its inverse square root where positive; every listed edge's normalization; the messages
  scatter-added at the targets plus the bias; the columns' mean and variance over the nodes; the normalization and
  the positive part. Read back one stretch at a time — a buffer no later stretch writes is what it was — the ten
  stretches together compute one whole layer of the reference's stated term.
-/
import proofs.«161461_j70540542869949_1_alg».proof.Proof.RefRunFactsAll
import proofs.«161461_j70540542869949_1_alg».proof.Proof.RefRunTerms
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

/-! ## The stretches, one at a time -/

set_option maxRecDepth 16384 in
set_option maxHeartbeats 1000000 in
/-- The linear map. -/
theorem lin1_val (W : Valuation τ sig (Elt Ideal)) : after (sLin1 (F := Ideal)) W (Proc.devRef .tc main_v17)
    = Cert.RefTerm.linOf (W (Proc.devRef .tc main_arg0)) (W (Proc.devRef .tc main_arg8)) := by
  simp only [sLin1]
  after_results_simp
  rfl

set_option maxRecDepth 16384 in
set_option maxHeartbeats 1000000 in
/-- The source ends followed by the node numbers. -/
theorem cat1_src (W : Valuation τ sig (Elt Ideal)) : after (sCat1 (F := Ideal)) W (Proc.devRef .tc main_v19)
    = Cert.RefTerm.catIdx (W (Proc.devRef .tc main_v1)) := by
  simp only [sCat1]
  after_results_simp
  rfl

set_option maxRecDepth 16384 in
set_option maxHeartbeats 1000000 in
/-- The target ends followed by the node numbers. -/
theorem cat1_dst (W : Valuation τ sig (Elt Ideal)) : after (sCat1 (F := Ideal)) W (Proc.devRef .tc main_v20)
    = Cert.RefTerm.catIdx (W (Proc.devRef .tc main_v3)) := by
  simp only [sCat1]
  after_results_simp
  rfl

set_option maxRecDepth 16384 in
set_option maxHeartbeats 1000000 in
/-- The weights followed by ones. -/
theorem cat1_w (W : Valuation τ sig (Elt Ideal)) : after (sCat1 (F := Ideal)) W (Proc.devRef .tc main_v22)
    = Cert.RefTerm.catW (W (Proc.devRef .tc main_v15)) := by
  simp only [sCat1]
  after_results_simp
  rfl

set_option maxRecDepth 16384 in
set_option maxHeartbeats 1000000 in
/-- The weighted in-degree. -/
theorem scat1_val (W : Valuation τ sig (Elt Ideal)) : after (sScat1 (F := Ideal)) W (Proc.devRef .tc main_v25)
    = degOf (W (Proc.devRef .tc main_v20)) (W (Proc.devRef .tc main_v22)) := by
  simp only [sScat1]
  after_results_simp
  rfl

set_option maxRecDepth 16384 in
set_option maxHeartbeats 1000000 in
/-- Its inverse square root where it is positive, zero elsewhere. -/
theorem inv1_val (W : Valuation τ sig (Elt Ideal)) : after (sInv1 (F := Ideal)) W (Proc.devRef .tc main_v29)
    = invOf (W (Proc.devRef .tc main_v25)) := by
  simp only [sInv1]
  after_results_simp
  rfl

set_option maxRecDepth 16384 in
set_option maxHeartbeats 1000000 in
/-- Every listed edge's normalization. -/
theorem nrm1_val (W : Valuation τ sig (Elt Ideal)) : after (sNrm1 (F := Ideal)) W (Proc.devRef .tc main_v45)
    = normFrom (W (Proc.devRef .tc main_v29)) (W (Proc.devRef .tc main_v19)) (W (Proc.devRef .tc main_v20)) (W (Proc.devRef .tc main_v22)) := by
  simp only [sNrm1]
  after_results_simp
  rfl

set_option maxRecDepth 16384 in
set_option maxHeartbeats 1000000 in
/-- The messages scatter-added at the targets, plus the bias. -/
theorem msg1_val (W : Valuation τ sig (Elt Ideal)) : after (sMsg1b (F := Ideal)) (after (sMsg1a (F := Ideal)) W) (Proc.devRef .tc main_v61)
    = convFrom (W (Proc.devRef .tc main_v17)) (W (Proc.devRef .tc main_v19)) (W (Proc.devRef .tc main_v20)) (W (Proc.devRef .tc main_v45)) (W (Proc.devRef .tc main_arg9)) := by
  simp only [sMsg1a, sMsg1b]
  after_results_simp
  rfl

set_option maxRecDepth 16384 in
set_option maxHeartbeats 1000000 in
/-- The columns' means. -/
theorem mean1_val (W : Valuation τ sig (Elt Ideal)) : after (sMean1 (F := Ideal)) W (Proc.devRef .tc main_v64)
    = Cert.RefTerm.meanOf (W (Proc.devRef .tc main_v61)) := by
  simp only [sMean1]
  after_results_simp
  rfl

set_option maxRecDepth 16384 in
set_option maxHeartbeats 1000000 in
/-- The columns' variances. -/
theorem var1_val (W : Valuation τ sig (Elt Ideal)) : after (sVar1 (F := Ideal)) W (Proc.devRef .tc main_v65)
    = Cert.RefTerm.varOf (W (Proc.devRef .tc main_v61)) := by
  simp only [sVar1]
  after_results_simp
  rfl

set_option maxRecDepth 16384 in
set_option maxHeartbeats 1000000 in
/-- The normalization and the positive part. -/
theorem norm1_val (W : Valuation τ sig (Elt Ideal)) : after (sNorm1 (F := Ideal)) W (Proc.devRef .tc main_v81)
    = Cert.RefTerm.bnRelu (W (Proc.devRef .tc main_v61)) (W (Proc.devRef .tc main_v64)) (W (Proc.devRef .tc main_v65)) (W (Proc.devRef .tc main_arg10)) (W (Proc.devRef .tc main_arg11)) := by
  simp only [sNorm1]
  after_results_simp
  rfl

/-! ## The layer -/

/-- The buffers after the layer's ten stretches. -/
def layerRun1 (W : Valuation τ sig (Elt Ideal)) : Valuation τ sig (Elt Ideal) :=
  after (sNorm1 (F := Ideal)) (after (sVar1 (F := Ideal)) (after (sMean1 (F := Ideal)) (after (sMsg1b (F := Ideal)) (after (sMsg1a (F := Ideal)) (after (sNrm1 (F := Ideal)) (after (sInv1 (F := Ideal)) (after (sScat1 (F := Ideal)) (after (sCat1 (F := Ideal)) (after (sLin1 (F := Ideal)) W)))))))))

/-- A buffer that is the result of no operation of the layer keeps its contents through it. -/
theorem layerRun1_keep (W : Valuation τ sig (Elt Ideal)) (r : Ref sig .tc)
    (h : r ∉ sLin1_W ∧ r ∉ sCat1_W ∧ r ∉ sScat1_W ∧ r ∉ sInv1_W ∧ r ∉ sNrm1_W ∧ r ∉ sMsg1a_W ∧ r ∉ sMsg1b_W ∧ r ∉ sMean1_W ∧ r ∉ sVar1_W ∧ r ∉ sNorm1_W) :
    layerRun1 W (Proc.devRef .tc r) = W (Proc.devRef .tc r) := by
  obtain ⟨h0, h1, h2, h3, h4, h5, h6, h7, h8, h9⟩ := h
  unfold layerRun1
  rw [sNorm1_keep _ r h9, sVar1_keep _ r h8, sMean1_keep _ r h7, sMsg1b_keep _ r h6, sMsg1a_keep _ r h5, sNrm1_keep _ r h4, sInv1_keep _ r h3, sScat1_keep _ r h2, sCat1_keep _ r h1, sLin1_keep _ r h0]

set_option maxRecDepth 16384 in
set_option maxHeartbeats 4000000 in
/-- The ten stretches together compute one whole layer: read back from the last stretch to the first, every buffer
    is either the stretch's own result (its value lemma) or untouched by it. -/
theorem layerRun1_val (W : Valuation τ sig (Elt Ideal)) : layerRun1 W (Proc.devRef .tc main_v81)
    = Cert.RefTerm.layer (W (Proc.devRef .tc main_arg0)) (W (Proc.devRef .tc main_arg8)) (W (Proc.devRef .tc main_arg9)) (W (Proc.devRef .tc main_arg10)) (W (Proc.devRef .tc main_arg11)) (W (Proc.devRef .tc main_v1)) (W (Proc.devRef .tc main_v3)) (W (Proc.devRef .tc main_v15)) := by
  unfold layerRun1
  -- the normalization reads the propagated features, their mean and variance, and two arguments
  rw [norm1_val, var1_val, sVar1_keep _ main_v61 (by decide), sVar1_keep _ main_v64 (by decide), sVar1_keep _ main_arg10 (by decide), sVar1_keep _ main_arg11 (by decide)]
  rw [mean1_val, sMean1_keep _ main_v61 (by decide), sMean1_keep _ main_arg10 (by decide), sMean1_keep _ main_arg11 (by decide)]
  -- the propagated features read the target ends, the transformed features, the source ends, the normalization, the bias
  rw [msg1_val, sMsg1b_keep _ main_arg10 (by decide), sMsg1b_keep _ main_arg11 (by decide), sMsg1a_keep _ main_arg10 (by decide), sMsg1a_keep _ main_arg11 (by decide)]
  rw [nrm1_val, sNrm1_keep _ main_v20 (by decide), sNrm1_keep _ main_v17 (by decide), sNrm1_keep _ main_v19 (by decide), sNrm1_keep _ main_arg9 (by decide), sNrm1_keep _ main_arg10 (by decide), sNrm1_keep _ main_arg11 (by decide)]
  -- the normalization reads the inverse root degree, both ends, the weights
  rw [inv1_val, sInv1_keep _ main_v19 (by decide), sInv1_keep _ main_v22 (by decide), sInv1_keep _ main_v20 (by decide), sInv1_keep _ main_v17 (by decide), sInv1_keep _ main_arg9 (by decide), sInv1_keep _ main_arg10 (by decide), sInv1_keep _ main_arg11 (by decide)]
  rw [scat1_val, sScat1_keep _ main_v19 (by decide), sScat1_keep _ main_v22 (by decide), sScat1_keep _ main_v20 (by decide), sScat1_keep _ main_v17 (by decide), sScat1_keep _ main_arg9 (by decide), sScat1_keep _ main_arg10 (by decide), sScat1_keep _ main_arg11 (by decide)]
  rw [cat1_src, cat1_dst, cat1_w, sCat1_keep _ main_v17 (by decide), sCat1_keep _ main_arg9 (by decide), sCat1_keep _ main_arg10 (by decide), sCat1_keep _ main_arg11 (by decide)]
  rw [lin1_val, sLin1_keep _ main_v1 (by decide), sLin1_keep _ main_v3 (by decide), sLin1_keep _ main_v15 (by decide), sLin1_keep _ main_arg9 (by decide), sLin1_keep _ main_arg10 (by decide), sLin1_keep _ main_arg11 (by decide)]
  rw [normFrom_eq, convFrom_eq]
  rfl

end Cert.RefRun

end
-- ==== Proof.RefRunValL2.lean ====
/-
  What layer 2 of the reference computes, as a function of the contents it starts from.

  Run from any contents of the buffers, each stretch of the layer leaves in its result buffer one pure term of what
  the buffers it reads held: the linear map; the self loops appended to the edge ends and to the weights; the
  weighted in-degree; its inverse square root where positive; every listed edge's normalization; the messages
  scatter-added at the targets plus the bias; the columns' mean and variance over the nodes; the normalization and
  the positive part. Read back one stretch at a time — a buffer no later stretch writes is what it was — the ten
  stretches together compute one whole layer of the reference's stated term.
-/
import proofs.«161461_j70540542869949_1_alg».proof.Proof.RefRunFactsAll
import proofs.«161461_j70540542869949_1_alg».proof.Proof.RefRunTerms
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

/-! ## The stretches, one at a time -/

set_option maxRecDepth 16384 in
set_option maxHeartbeats 1000000 in
/-- The linear map. -/
theorem lin2_val (W : Valuation τ sig (Elt Ideal)) : after (sLin2 (F := Ideal)) W (Proc.devRef .tc main_v83)
    = Cert.RefTerm.linOf (W (Proc.devRef .tc main_v81)) (W (Proc.devRef .tc main_arg12)) := by
  simp only [sLin2]
  after_results_simp
  rfl

set_option maxRecDepth 16384 in
set_option maxHeartbeats 1000000 in
/-- The source ends followed by the node numbers. -/
theorem cat2_src (W : Valuation τ sig (Elt Ideal)) : after (sCat2 (F := Ideal)) W (Proc.devRef .tc main_v85)
    = Cert.RefTerm.catIdx (W (Proc.devRef .tc main_v1)) := by
  simp only [sCat2]
  after_results_simp
  rfl

set_option maxRecDepth 16384 in
set_option maxHeartbeats 1000000 in
/-- The target ends followed by the node numbers. -/
theorem cat2_dst (W : Valuation τ sig (Elt Ideal)) : after (sCat2 (F := Ideal)) W (Proc.devRef .tc main_v86)
    = Cert.RefTerm.catIdx (W (Proc.devRef .tc main_v3)) := by
  simp only [sCat2]
  after_results_simp
  rfl

set_option maxRecDepth 16384 in
set_option maxHeartbeats 1000000 in
/-- The weights followed by ones. -/
theorem cat2_w (W : Valuation τ sig (Elt Ideal)) : after (sCat2 (F := Ideal)) W (Proc.devRef .tc main_v88)
    = Cert.RefTerm.catW (W (Proc.devRef .tc main_v15)) := by
  simp only [sCat2]
  after_results_simp
  rfl

set_option maxRecDepth 16384 in
set_option maxHeartbeats 1000000 in
/-- The weighted in-degree. -/
theorem scat2_val (W : Valuation τ sig (Elt Ideal)) : after (sScat2 (F := Ideal)) W (Proc.devRef .tc main_v91)
    = degOf (W (Proc.devRef .tc main_v86)) (W (Proc.devRef .tc main_v88)) := by
  simp only [sScat2]
  after_results_simp
  rfl

set_option maxRecDepth 16384 in
set_option maxHeartbeats 1000000 in
/-- Its inverse square root where it is positive, zero elsewhere. -/
theorem inv2_val (W : Valuation τ sig (Elt Ideal)) : after (sInv2 (F := Ideal)) W (Proc.devRef .tc main_v95)
    = invOf (W (Proc.devRef .tc main_v91)) := by
  simp only [sInv2]
  after_results_simp
  rfl

set_option maxRecDepth 16384 in
set_option maxHeartbeats 1000000 in
/-- Every listed edge's normalization. -/
theorem nrm2_val (W : Valuation τ sig (Elt Ideal)) : after (sNrm2b (F := Ideal)) (after (sNrm2a (F := Ideal)) W) (Proc.devRef .tc main_v111)
    = normFrom (W (Proc.devRef .tc main_v95)) (W (Proc.devRef .tc main_v85)) (W (Proc.devRef .tc main_v86)) (W (Proc.devRef .tc main_v88)) := by
  simp only [sNrm2a, sNrm2b]
  after_results_simp
  rfl

set_option maxRecDepth 16384 in
set_option maxHeartbeats 1000000 in
/-- The messages scatter-added at the targets, plus the bias. -/
theorem msg2_val (W : Valuation τ sig (Elt Ideal)) : after (sMsg2 (F := Ideal)) W (Proc.devRef .tc main_v127)
    = convFrom (W (Proc.devRef .tc main_v83)) (W (Proc.devRef .tc main_v85)) (W (Proc.devRef .tc main_v86)) (W (Proc.devRef .tc main_v111)) (W (Proc.devRef .tc main_arg13)) := by
  simp only [sMsg2]
  after_results_simp
  rfl

set_option maxRecDepth 16384 in
set_option maxHeartbeats 1000000 in
/-- The columns' means. -/
theorem mean2_val (W : Valuation τ sig (Elt Ideal)) : after (sMean2 (F := Ideal)) W (Proc.devRef .tc main_v130)
    = Cert.RefTerm.meanOf (W (Proc.devRef .tc main_v127)) := by
  simp only [sMean2]
  after_results_simp
  rfl

set_option maxRecDepth 16384 in
set_option maxHeartbeats 1000000 in
/-- The columns' variances. -/
theorem var2_val (W : Valuation τ sig (Elt Ideal)) : after (sVar2 (F := Ideal)) W (Proc.devRef .tc main_v131)
    = Cert.RefTerm.varOf (W (Proc.devRef .tc main_v127)) := by
  simp only [sVar2]
  after_results_simp
  rfl

set_option maxRecDepth 16384 in
set_option maxHeartbeats 1000000 in
/-- The normalization and the positive part. -/
theorem norm2_val (W : Valuation τ sig (Elt Ideal)) : after (sNorm2 (F := Ideal)) W (Proc.devRef .tc main_v147)
    = Cert.RefTerm.bnRelu (W (Proc.devRef .tc main_v127)) (W (Proc.devRef .tc main_v130)) (W (Proc.devRef .tc main_v131)) (W (Proc.devRef .tc main_arg14)) (W (Proc.devRef .tc main_arg15)) := by
  simp only [sNorm2]
  after_results_simp
  rfl

/-! ## The layer -/

/-- The buffers after the layer's ten stretches. -/
def layerRun2 (W : Valuation τ sig (Elt Ideal)) : Valuation τ sig (Elt Ideal) :=
  after (sNorm2 (F := Ideal)) (after (sVar2 (F := Ideal)) (after (sMean2 (F := Ideal)) (after (sMsg2 (F := Ideal)) (after (sNrm2b (F := Ideal)) (after (sNrm2a (F := Ideal)) (after (sInv2 (F := Ideal)) (after (sScat2 (F := Ideal)) (after (sCat2 (F := Ideal)) (after (sLin2 (F := Ideal)) W)))))))))

/-- A buffer that is the result of no operation of the layer keeps its contents through it. -/
theorem layerRun2_keep (W : Valuation τ sig (Elt Ideal)) (r : Ref sig .tc)
    (h : r ∉ sLin2_W ∧ r ∉ sCat2_W ∧ r ∉ sScat2_W ∧ r ∉ sInv2_W ∧ r ∉ sNrm2a_W ∧ r ∉ sNrm2b_W ∧ r ∉ sMsg2_W ∧ r ∉ sMean2_W ∧ r ∉ sVar2_W ∧ r ∉ sNorm2_W) :
    layerRun2 W (Proc.devRef .tc r) = W (Proc.devRef .tc r) := by
  obtain ⟨h0, h1, h2, h3, h4, h5, h6, h7, h8, h9⟩ := h
  unfold layerRun2
  rw [sNorm2_keep _ r h9, sVar2_keep _ r h8, sMean2_keep _ r h7, sMsg2_keep _ r h6, sNrm2b_keep _ r h5, sNrm2a_keep _ r h4, sInv2_keep _ r h3, sScat2_keep _ r h2, sCat2_keep _ r h1, sLin2_keep _ r h0]

set_option maxRecDepth 16384 in
set_option maxHeartbeats 4000000 in
/-- The ten stretches together compute one whole layer: read back from the last stretch to the first, every buffer
    is either the stretch's own result (its value lemma) or untouched by it. -/
theorem layerRun2_val (W : Valuation τ sig (Elt Ideal)) : layerRun2 W (Proc.devRef .tc main_v147)
    = Cert.RefTerm.layer (W (Proc.devRef .tc main_v81)) (W (Proc.devRef .tc main_arg12)) (W (Proc.devRef .tc main_arg13)) (W (Proc.devRef .tc main_arg14)) (W (Proc.devRef .tc main_arg15)) (W (Proc.devRef .tc main_v1)) (W (Proc.devRef .tc main_v3)) (W (Proc.devRef .tc main_v15)) := by
  unfold layerRun2
  -- the normalization reads the propagated features, their mean and variance, and two arguments
  rw [norm2_val, var2_val, sVar2_keep _ main_v127 (by decide), sVar2_keep _ main_v130 (by decide), sVar2_keep _ main_arg14 (by decide), sVar2_keep _ main_arg15 (by decide)]
  rw [mean2_val, sMean2_keep _ main_v127 (by decide), sMean2_keep _ main_arg14 (by decide), sMean2_keep _ main_arg15 (by decide)]
  -- the propagated features read the target ends, the transformed features, the source ends, the normalization, the bias
  rw [msg2_val, sMsg2_keep _ main_arg14 (by decide), sMsg2_keep _ main_arg15 (by decide)]
  rw [nrm2_val, sNrm2b_keep _ main_v86 (by decide), sNrm2b_keep _ main_v83 (by decide), sNrm2b_keep _ main_v85 (by decide), sNrm2b_keep _ main_arg13 (by decide), sNrm2b_keep _ main_arg14 (by decide), sNrm2b_keep _ main_arg15 (by decide), sNrm2a_keep _ main_v86 (by decide), sNrm2a_keep _ main_v83 (by decide), sNrm2a_keep _ main_v85 (by decide), sNrm2a_keep _ main_arg13 (by decide), sNrm2a_keep _ main_arg14 (by decide), sNrm2a_keep _ main_arg15 (by decide)]
  -- the normalization reads the inverse root degree, both ends, the weights
  rw [inv2_val, sInv2_keep _ main_v85 (by decide), sInv2_keep _ main_v88 (by decide), sInv2_keep _ main_v86 (by decide), sInv2_keep _ main_v83 (by decide), sInv2_keep _ main_arg13 (by decide), sInv2_keep _ main_arg14 (by decide), sInv2_keep _ main_arg15 (by decide)]
  rw [scat2_val, sScat2_keep _ main_v85 (by decide), sScat2_keep _ main_v88 (by decide), sScat2_keep _ main_v86 (by decide), sScat2_keep _ main_v83 (by decide), sScat2_keep _ main_arg13 (by decide), sScat2_keep _ main_arg14 (by decide), sScat2_keep _ main_arg15 (by decide)]
  rw [cat2_src, cat2_dst, cat2_w, sCat2_keep _ main_v83 (by decide), sCat2_keep _ main_arg13 (by decide), sCat2_keep _ main_arg14 (by decide), sCat2_keep _ main_arg15 (by decide)]
  rw [lin2_val, sLin2_keep _ main_v1 (by decide), sLin2_keep _ main_v3 (by decide), sLin2_keep _ main_v15 (by decide), sLin2_keep _ main_arg13 (by decide), sLin2_keep _ main_arg14 (by decide), sLin2_keep _ main_arg15 (by decide)]
  rw [normFrom_eq, convFrom_eq]
  rfl

end Cert.RefRun

end
-- ==== Proof.RefRunValL3.lean ====
/-
  What layer 3 of the reference computes, as a function of the contents it starts from.

  Run from any contents of the buffers, each stretch of the layer leaves in its result buffer one pure term of what
  the buffers it reads held: the linear map; the self loops appended to the edge ends and to the weights; the
  weighted in-degree; its inverse square root where positive; every listed edge's normalization; the messages
  scatter-added at the targets plus the bias; the columns' mean and variance over the nodes; the normalization and
  the positive part. Read back one stretch at a time — a buffer no later stretch writes is what it was — the ten
  stretches together compute one whole layer of the reference's stated term.
-/
import proofs.«161461_j70540542869949_1_alg».proof.Proof.RefRunFactsAll
import proofs.«161461_j70540542869949_1_alg».proof.Proof.RefRunTerms
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

/-! ## The stretches, one at a time -/

set_option maxRecDepth 16384 in
set_option maxHeartbeats 1000000 in
/-- The linear map. -/
theorem lin3_val (W : Valuation τ sig (Elt Ideal)) : after (sLin3 (F := Ideal)) W (Proc.devRef .tc main_v149)
    = Cert.RefTerm.linOf (W (Proc.devRef .tc main_v147)) (W (Proc.devRef .tc main_arg16)) := by
  simp only [sLin3]
  after_results_simp
  rfl

set_option maxRecDepth 16384 in
set_option maxHeartbeats 1000000 in
/-- The source ends followed by the node numbers. -/
theorem cat3_src (W : Valuation τ sig (Elt Ideal)) : after (sCat3 (F := Ideal)) W (Proc.devRef .tc main_v151)
    = Cert.RefTerm.catIdx (W (Proc.devRef .tc main_v1)) := by
  simp only [sCat3]
  after_results_simp
  rfl

set_option maxRecDepth 16384 in
set_option maxHeartbeats 1000000 in
/-- The target ends followed by the node numbers. -/
theorem cat3_dst (W : Valuation τ sig (Elt Ideal)) : after (sCat3 (F := Ideal)) W (Proc.devRef .tc main_v152)
    = Cert.RefTerm.catIdx (W (Proc.devRef .tc main_v3)) := by
  simp only [sCat3]
  after_results_simp
  rfl

set_option maxRecDepth 16384 in
set_option maxHeartbeats 1000000 in
/-- The weights followed by ones. -/
theorem cat3_w (W : Valuation τ sig (Elt Ideal)) : after (sCat3 (F := Ideal)) W (Proc.devRef .tc main_v154)
    = Cert.RefTerm.catW (W (Proc.devRef .tc main_v15)) := by
  simp only [sCat3]
  after_results_simp
  rfl

set_option maxRecDepth 16384 in
set_option maxHeartbeats 1000000 in
/-- The weighted in-degree. -/
theorem scat3_val (W : Valuation τ sig (Elt Ideal)) : after (sScat3 (F := Ideal)) W (Proc.devRef .tc main_v157)
    = degOf (W (Proc.devRef .tc main_v152)) (W (Proc.devRef .tc main_v154)) := by
  simp only [sScat3]
  after_results_simp
  rfl

set_option maxRecDepth 16384 in
set_option maxHeartbeats 1000000 in
/-- Its inverse square root where it is positive, zero elsewhere. -/
theorem inv3_val (W : Valuation τ sig (Elt Ideal)) : after (sInv3 (F := Ideal)) W (Proc.devRef .tc main_v161)
    = invOf (W (Proc.devRef .tc main_v157)) := by
  simp only [sInv3]
  after_results_simp
  rfl

set_option maxRecDepth 16384 in
set_option maxHeartbeats 1000000 in
/-- Every listed edge's normalization. -/
theorem nrm3_val (W : Valuation τ sig (Elt Ideal)) : after (sNrm3 (F := Ideal)) W (Proc.devRef .tc main_v177)
    = normFrom (W (Proc.devRef .tc main_v161)) (W (Proc.devRef .tc main_v151)) (W (Proc.devRef .tc main_v152)) (W (Proc.devRef .tc main_v154)) := by
  simp only [sNrm3]
  after_results_simp
  rfl

set_option maxRecDepth 16384 in
set_option maxHeartbeats 1000000 in
/-- The messages scatter-added at the targets, plus the bias. -/
theorem msg3_val (W : Valuation τ sig (Elt Ideal)) : after (sMsg3 (F := Ideal)) W (Proc.devRef .tc main_v193)
    = convFrom (W (Proc.devRef .tc main_v149)) (W (Proc.devRef .tc main_v151)) (W (Proc.devRef .tc main_v152)) (W (Proc.devRef .tc main_v177)) (W (Proc.devRef .tc main_arg17)) := by
  simp only [sMsg3]
  after_results_simp
  rfl

set_option maxRecDepth 16384 in
set_option maxHeartbeats 1000000 in
/-- The columns' means. -/
theorem mean3_val (W : Valuation τ sig (Elt Ideal)) : after (sMean3 (F := Ideal)) W (Proc.devRef .tc main_v196)
    = Cert.RefTerm.meanOf (W (Proc.devRef .tc main_v193)) := by
  simp only [sMean3]
  after_results_simp
  rfl

set_option maxRecDepth 16384 in
set_option maxHeartbeats 1000000 in
/-- The columns' variances. -/
theorem var3_val (W : Valuation τ sig (Elt Ideal)) : after (sVar3 (F := Ideal)) W (Proc.devRef .tc main_v197)
    = Cert.RefTerm.varOf (W (Proc.devRef .tc main_v193)) := by
  simp only [sVar3]
  after_results_simp
  rfl

set_option maxRecDepth 16384 in
set_option maxHeartbeats 1000000 in
/-- The normalization and the positive part. -/
theorem norm3_val (W : Valuation τ sig (Elt Ideal)) : after (sNorm3 (F := Ideal)) W (Proc.devRef .tc main_v213)
    = Cert.RefTerm.bnRelu (W (Proc.devRef .tc main_v193)) (W (Proc.devRef .tc main_v196)) (W (Proc.devRef .tc main_v197)) (W (Proc.devRef .tc main_arg18)) (W (Proc.devRef .tc main_arg19)) := by
  simp only [sNorm3]
  after_results_simp
  rfl

/-! ## The layer -/

/-- The buffers after the layer's ten stretches. -/
def layerRun3 (W : Valuation τ sig (Elt Ideal)) : Valuation τ sig (Elt Ideal) :=
  after (sNorm3 (F := Ideal)) (after (sVar3 (F := Ideal)) (after (sMean3 (F := Ideal)) (after (sMsg3 (F := Ideal)) (after (sNrm3 (F := Ideal)) (after (sInv3 (F := Ideal)) (after (sScat3 (F := Ideal)) (after (sCat3 (F := Ideal)) (after (sLin3 (F := Ideal)) W))))))))

/-- A buffer that is the result of no operation of the layer keeps its contents through it. -/
theorem layerRun3_keep (W : Valuation τ sig (Elt Ideal)) (r : Ref sig .tc)
    (h : r ∉ sLin3_W ∧ r ∉ sCat3_W ∧ r ∉ sScat3_W ∧ r ∉ sInv3_W ∧ r ∉ sNrm3_W ∧ r ∉ sMsg3_W ∧ r ∉ sMean3_W ∧ r ∉ sVar3_W ∧ r ∉ sNorm3_W) :
    layerRun3 W (Proc.devRef .tc r) = W (Proc.devRef .tc r) := by
  obtain ⟨h0, h1, h2, h3, h4, h5, h6, h7, h8⟩ := h
  unfold layerRun3
  rw [sNorm3_keep _ r h8, sVar3_keep _ r h7, sMean3_keep _ r h6, sMsg3_keep _ r h5, sNrm3_keep _ r h4, sInv3_keep _ r h3, sScat3_keep _ r h2, sCat3_keep _ r h1, sLin3_keep _ r h0]

set_option maxRecDepth 16384 in
set_option maxHeartbeats 4000000 in
/-- The ten stretches together compute one whole layer: read back from the last stretch to the first, every buffer
    is either the stretch's own result (its value lemma) or untouched by it. -/
theorem layerRun3_val (W : Valuation τ sig (Elt Ideal)) : layerRun3 W (Proc.devRef .tc main_v213)
    = Cert.RefTerm.layer (W (Proc.devRef .tc main_v147)) (W (Proc.devRef .tc main_arg16)) (W (Proc.devRef .tc main_arg17)) (W (Proc.devRef .tc main_arg18)) (W (Proc.devRef .tc main_arg19)) (W (Proc.devRef .tc main_v1)) (W (Proc.devRef .tc main_v3)) (W (Proc.devRef .tc main_v15)) := by
  unfold layerRun3
  -- the normalization reads the propagated features, their mean and variance, and two arguments
  rw [norm3_val, var3_val, sVar3_keep _ main_v193 (by decide), sVar3_keep _ main_v196 (by decide), sVar3_keep _ main_arg18 (by decide), sVar3_keep _ main_arg19 (by decide)]
  rw [mean3_val, sMean3_keep _ main_v193 (by decide), sMean3_keep _ main_arg18 (by decide), sMean3_keep _ main_arg19 (by decide)]
  -- the propagated features read the target ends, the transformed features, the source ends, the normalization, the bias
  rw [msg3_val, sMsg3_keep _ main_arg18 (by decide), sMsg3_keep _ main_arg19 (by decide)]
  rw [nrm3_val, sNrm3_keep _ main_v152 (by decide), sNrm3_keep _ main_v149 (by decide), sNrm3_keep _ main_v151 (by decide), sNrm3_keep _ main_arg17 (by decide), sNrm3_keep _ main_arg18 (by decide), sNrm3_keep _ main_arg19 (by decide)]
  -- the normalization reads the inverse root degree, both ends, the weights
  rw [inv3_val, sInv3_keep _ main_v151 (by decide), sInv3_keep _ main_v154 (by decide), sInv3_keep _ main_v152 (by decide), sInv3_keep _ main_v149 (by decide), sInv3_keep _ main_arg17 (by decide), sInv3_keep _ main_arg18 (by decide), sInv3_keep _ main_arg19 (by decide)]
  rw [scat3_val, sScat3_keep _ main_v151 (by decide), sScat3_keep _ main_v154 (by decide), sScat3_keep _ main_v152 (by decide), sScat3_keep _ main_v149 (by decide), sScat3_keep _ main_arg17 (by decide), sScat3_keep _ main_arg18 (by decide), sScat3_keep _ main_arg19 (by decide)]
  rw [cat3_src, cat3_dst, cat3_w, sCat3_keep _ main_v149 (by decide), sCat3_keep _ main_arg17 (by decide), sCat3_keep _ main_arg18 (by decide), sCat3_keep _ main_arg19 (by decide)]
  rw [lin3_val, sLin3_keep _ main_v1 (by decide), sLin3_keep _ main_v3 (by decide), sLin3_keep _ main_v15 (by decide), sLin3_keep _ main_arg17 (by decide), sLin3_keep _ main_arg18 (by decide), sLin3_keep _ main_arg19 (by decide)]
  rw [normFrom_eq, convFrom_eq]
  rfl

end Cert.RefRun

end
-- ==== Proof.RefRunResult.lean ====
/-
  The reference program's result, and its run.

  The reference's line of host operations, cut into its stages — the edge list, the edge weights, three
  graph-convolution layers each followed by its normalisation, and the read-out — leaves in every stage's result
  buffer that stage's function of what the buffers it reads held, and leaves every buffer no stage writes as it was.
  Chaining the stages: the argument buffers are written by no stage, the edge list and the edge weights are written
  once and read by all three layers, each layer reads the one before it; so the result buffer ends at the
  reference's function of the twenty-two arguments as the launch found them, on every weakly fair execution.
-/
import proofs.«161461_j70540542869949_1_alg».proof.Proof.RefRunValS
import proofs.«161461_j70540542869949_1_alg».proof.Proof.RefRunValL1
import proofs.«161461_j70540542869949_1_alg».proof.Proof.RefRunValL2
import proofs.«161461_j70540542869949_1_alg».proof.Proof.RefRunValL3
import proofs.«161461_j70540542869949_1_alg».proof.Proof.RefRun
import proofs.«161461_j70540542869949_1_alg».proof.Proof.RefTerm
import Idealize.ShloMosaic.PureOps.Ideal

noncomputable section

namespace Cert.RefRun

open Cert.ReferenceIdeal Cert.ReferenceIdeal.Gen Idealize.ShloMosaic Idealize.ShloMosaic.TcCoe Idealize.SL.Sem Idealize.ShloMosaic.StableHlo

/-! ## The whole line is the stages in order -/

/-- The whole line run from given contents is the six stages run one after the other. -/
theorem ops_eq_stages (V0 : Valuation τ sig (Elt Ideal)) :
    after (ops (F := Ideal)) V0 = runTail (layerRun3 (layerRun2 (layerRun1 (runEdge (runIdx V0))))) :=
  after_ops V0

/-! ## What no stage writes -/

section Keep
variable (V0 : Valuation τ sig (Elt Ideal)) {r : Ref sig .tc} (h : Kept r)
include h

theorem keep1 : (runIdx V0) (Proc.devRef .tc r) = V0 (Proc.devRef .tc r) := runIdx_keep V0 r h.sIdx

theorem keep2 : (runEdge (runIdx V0)) (Proc.devRef .tc r) = V0 (Proc.devRef .tc r) :=
  (runEdge_keep _ r ⟨h.sEdgeA, h.sEdgeB, h.sEdgeC⟩).trans (keep1 V0 h)

theorem keep3 : (layerRun1 (runEdge (runIdx V0))) (Proc.devRef .tc r) = V0 (Proc.devRef .tc r) :=
  (layerRun1_keep _ r ⟨h.sLin1, h.sCat1, h.sScat1, h.sInv1, h.sNrm1, h.sMsg1a, h.sMsg1b, h.sMean1, h.sVar1, h.sNorm1⟩).trans (keep2 V0 h)

theorem keep4 : (layerRun2 (layerRun1 (runEdge (runIdx V0)))) (Proc.devRef .tc r) = V0 (Proc.devRef .tc r) :=
  (layerRun2_keep _ r ⟨h.sLin2, h.sCat2, h.sScat2, h.sInv2, h.sNrm2a, h.sNrm2b, h.sMsg2, h.sMean2, h.sVar2, h.sNorm2⟩).trans (keep3 V0 h)

theorem keep5 : (layerRun3 (layerRun2 (layerRun1 (runEdge (runIdx V0))))) (Proc.devRef .tc r) = V0 (Proc.devRef .tc r) :=
  (layerRun3_keep _ r ⟨h.sLin3, h.sCat3, h.sScat3, h.sInv3, h.sNrm3, h.sMsg3, h.sMean3, h.sVar3, h.sNorm3⟩).trans (keep4 V0 h)

end Keep

/-! ## The edge list and the edge weights at the start of each layer -/

section Edges
variable (V0 : Valuation τ sig (Elt Ideal))

theorem src2 : (runEdge (runIdx V0)) (Proc.devRef .tc main_v1) = Cert.RefTerm.srcOf (V0 (Proc.devRef .tc main_arg1)) :=
  (runEdge_keep _ main_v1 ⟨by decide, by decide, by decide⟩).trans (runIdx_src V0)
theorem dst2 : (runEdge (runIdx V0)) (Proc.devRef .tc main_v3) = Cert.RefTerm.dstOf (V0 (Proc.devRef .tc main_arg1)) :=
  (runEdge_keep _ main_v3 ⟨by decide, by decide, by decide⟩).trans (runIdx_dst V0)
theorem ew2 : (runEdge (runIdx V0)) (Proc.devRef .tc main_v15) = Cert.RefTerm.edgeW (V0 (Proc.devRef .tc main_arg2)) (V0 (Proc.devRef .tc main_arg4)) (V0 (Proc.devRef .tc main_arg5)) (V0 (Proc.devRef .tc main_arg6)) (V0 (Proc.devRef .tc main_arg7)) := by
  rw [runEdge_val, keep1 V0 kept_arg2, keep1 V0 kept_arg4, keep1 V0 kept_arg5, keep1 V0 kept_arg6, keep1 V0 kept_arg7]

theorem src3 : (layerRun1 (runEdge (runIdx V0))) (Proc.devRef .tc main_v1) = Cert.RefTerm.srcOf (V0 (Proc.devRef .tc main_arg1)) :=
  (layerRun1_keep _ main_v1 ⟨by decide, by decide, by decide, by decide, by decide, by decide, by decide, by decide, by decide, by decide⟩).trans (src2 V0)
theorem dst3 : (layerRun1 (runEdge (runIdx V0))) (Proc.devRef .tc main_v3) = Cert.RefTerm.dstOf (V0 (Proc.devRef .tc main_arg1)) :=
  (layerRun1_keep _ main_v3 ⟨by decide, by decide, by decide, by decide, by decide, by decide, by decide, by decide, by decide, by decide⟩).trans (dst2 V0)
theorem ew3 : (layerRun1 (runEdge (runIdx V0))) (Proc.devRef .tc main_v15) = Cert.RefTerm.edgeW (V0 (Proc.devRef .tc main_arg2)) (V0 (Proc.devRef .tc main_arg4)) (V0 (Proc.devRef .tc main_arg5)) (V0 (Proc.devRef .tc main_arg6)) (V0 (Proc.devRef .tc main_arg7)) :=
  (layerRun1_keep _ main_v15 ⟨by decide, by decide, by decide, by decide, by decide, by decide, by decide, by decide, by decide, by decide⟩).trans (ew2 V0)

theorem src4 : (layerRun2 (layerRun1 (runEdge (runIdx V0)))) (Proc.devRef .tc main_v1) = Cert.RefTerm.srcOf (V0 (Proc.devRef .tc main_arg1)) :=
  (layerRun2_keep _ main_v1 ⟨by decide, by decide, by decide, by decide, by decide, by decide, by decide, by decide, by decide, by decide⟩).trans (src3 V0)
theorem dst4 : (layerRun2 (layerRun1 (runEdge (runIdx V0)))) (Proc.devRef .tc main_v3) = Cert.RefTerm.dstOf (V0 (Proc.devRef .tc main_arg1)) :=
  (layerRun2_keep _ main_v3 ⟨by decide, by decide, by decide, by decide, by decide, by decide, by decide, by decide, by decide, by decide⟩).trans (dst3 V0)
theorem ew4 : (layerRun2 (layerRun1 (runEdge (runIdx V0)))) (Proc.devRef .tc main_v15) = Cert.RefTerm.edgeW (V0 (Proc.devRef .tc main_arg2)) (V0 (Proc.devRef .tc main_arg4)) (V0 (Proc.devRef .tc main_arg5)) (V0 (Proc.devRef .tc main_arg6)) (V0 (Proc.devRef .tc main_arg7)) :=
  (layerRun2_keep _ main_v15 ⟨by decide, by decide, by decide, by decide, by decide, by decide, by decide, by decide, by decide, by decide⟩).trans (ew3 V0)

/-! ## The three layers -/

theorem layer1_eq : (layerRun1 (runEdge (runIdx V0))) (Proc.devRef .tc main_v81) = Cert.RefTerm.layer (V0 (Proc.devRef .tc main_arg0)) (V0 (Proc.devRef .tc main_arg8)) (V0 (Proc.devRef .tc main_arg9)) (V0 (Proc.devRef .tc main_arg10)) (V0 (Proc.devRef .tc main_arg11)) (Cert.RefTerm.srcOf (V0 (Proc.devRef .tc main_arg1))) (Cert.RefTerm.dstOf (V0 (Proc.devRef .tc main_arg1))) (Cert.RefTerm.edgeW (V0 (Proc.devRef .tc main_arg2)) (V0 (Proc.devRef .tc main_arg4)) (V0 (Proc.devRef .tc main_arg5)) (V0 (Proc.devRef .tc main_arg6)) (V0 (Proc.devRef .tc main_arg7))) := by
  rw [layerRun1_val, keep2 V0 kept_arg0, keep2 V0 kept_arg8, keep2 V0 kept_arg9, keep2 V0 kept_arg10, keep2 V0 kept_arg11,
    src2, dst2, ew2]

theorem layer2_eq : (layerRun2 (layerRun1 (runEdge (runIdx V0)))) (Proc.devRef .tc main_v147) = Cert.RefTerm.layer (Cert.RefTerm.layer (V0 (Proc.devRef .tc main_arg0)) (V0 (Proc.devRef .tc main_arg8)) (V0 (Proc.devRef .tc main_arg9)) (V0 (Proc.devRef .tc main_arg10)) (V0 (Proc.devRef .tc main_arg11)) (Cert.RefTerm.srcOf (V0 (Proc.devRef .tc main_arg1))) (Cert.RefTerm.dstOf (V0 (Proc.devRef .tc main_arg1))) (Cert.RefTerm.edgeW (V0 (Proc.devRef .tc main_arg2)) (V0 (Proc.devRef .tc main_arg4)) (V0 (Proc.devRef .tc main_arg5)) (V0 (Proc.devRef .tc main_arg6)) (V0 (Proc.devRef .tc main_arg7)))) (V0 (Proc.devRef .tc main_arg12)) (V0 (Proc.devRef .tc main_arg13)) (V0 (Proc.devRef .tc main_arg14)) (V0 (Proc.devRef .tc main_arg15)) (Cert.RefTerm.srcOf (V0 (Proc.devRef .tc main_arg1))) (Cert.RefTerm.dstOf (V0 (Proc.devRef .tc main_arg1))) (Cert.RefTerm.edgeW (V0 (Proc.devRef .tc main_arg2)) (V0 (Proc.devRef .tc main_arg4)) (V0 (Proc.devRef .tc main_arg5)) (V0 (Proc.devRef .tc main_arg6)) (V0 (Proc.devRef .tc main_arg7))) := by
  rw [layerRun2_val, layer1_eq, keep3 V0 kept_arg12, keep3 V0 kept_arg13, keep3 V0 kept_arg14, keep3 V0 kept_arg15,
    src3, dst3, ew3]

theorem layer3_eq : (layerRun3 (layerRun2 (layerRun1 (runEdge (runIdx V0))))) (Proc.devRef .tc main_v213) = Cert.RefTerm.layer (Cert.RefTerm.layer (Cert.RefTerm.layer (V0 (Proc.devRef .tc main_arg0)) (V0 (Proc.devRef .tc main_arg8)) (V0 (Proc.devRef .tc main_arg9)) (V0 (Proc.devRef .tc main_arg10)) (V0 (Proc.devRef .tc main_arg11)) (Cert.RefTerm.srcOf (V0 (Proc.devRef .tc main_arg1))) (Cert.RefTerm.dstOf (V0 (Proc.devRef .tc main_arg1))) (Cert.RefTerm.edgeW (V0 (Proc.devRef .tc main_arg2)) (V0 (Proc.devRef .tc main_arg4)) (V0 (Proc.devRef .tc main_arg5)) (V0 (Proc.devRef .tc main_arg6)) (V0 (Proc.devRef .tc main_arg7)))) (V0 (Proc.devRef .tc main_arg12)) (V0 (Proc.devRef .tc main_arg13)) (V0 (Proc.devRef .tc main_arg14)) (V0 (Proc.devRef .tc main_arg15)) (Cert.RefTerm.srcOf (V0 (Proc.devRef .tc main_arg1))) (Cert.RefTerm.dstOf (V0 (Proc.devRef .tc main_arg1))) (Cert.RefTerm.edgeW (V0 (Proc.devRef .tc main_arg2)) (V0 (Proc.devRef .tc main_arg4)) (V0 (Proc.devRef .tc main_arg5)) (V0 (Proc.devRef .tc main_arg6)) (V0 (Proc.devRef .tc main_arg7)))) (V0 (Proc.devRef .tc main_arg16)) (V0 (Proc.devRef .tc main_arg17)) (V0 (Proc.devRef .tc main_arg18)) (V0 (Proc.devRef .tc main_arg19)) (Cert.RefTerm.srcOf (V0 (Proc.devRef .tc main_arg1))) (Cert.RefTerm.dstOf (V0 (Proc.devRef .tc main_arg1))) (Cert.RefTerm.edgeW (V0 (Proc.devRef .tc main_arg2)) (V0 (Proc.devRef .tc main_arg4)) (V0 (Proc.devRef .tc main_arg5)) (V0 (Proc.devRef .tc main_arg6)) (V0 (Proc.devRef .tc main_arg7))) := by
  rw [layerRun3_val, layer2_eq, keep4 V0 kept_arg16, keep4 V0 kept_arg17, keep4 V0 kept_arg18, keep4 V0 kept_arg19,
    src4, dst4, ew4]

end Edges

/-! ## The result -/

/-- The whole line leaves in the result buffer the reference's function of the twenty-two arguments. -/
theorem result_eq (V0 : Valuation τ sig (Elt Ideal)) :
    after (ops (F := Ideal)) V0 (Proc.devRef .tc main_v231) = Cert.RefTerm.result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) := by
  rw [ops_eq_stages, runTail_val, layer3_eq, keep5 V0 kept_arg3, keep5 V0 kept_arg20, keep5 V0 kept_arg21]
  rfl

/-! ## The run -/

/-- At the exact extended reals: every weakly fair execution of the reference terminates with the result buffer at the
    reference's function of what the argument buffers held at the launch, and with every argument buffer unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v231)
          = Cert.RefTerm.result
            (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
            (m ((c.tc : Thread Cert.ReferenceIdeal.nD Cert.ReferenceIdeal.τ).loc Cert.ReferenceIdeal.main_arg10))
            (m ((c.tc : Thread Cert.ReferenceIdeal.nD Cert.ReferenceIdeal.τ).loc Cert.ReferenceIdeal.main_arg11))
            (m ((c.tc : Thread Cert.ReferenceIdeal.nD Cert.ReferenceIdeal.τ).loc Cert.ReferenceIdeal.main_arg12))
            (m ((c.tc : Thread Cert.ReferenceIdeal.nD Cert.ReferenceIdeal.τ).loc Cert.ReferenceIdeal.main_arg13))
            (m ((c.tc : Thread Cert.ReferenceIdeal.nD Cert.ReferenceIdeal.τ).loc Cert.ReferenceIdeal.main_arg14))
            (m ((c.tc : Thread Cert.ReferenceIdeal.nD Cert.ReferenceIdeal.τ).loc Cert.ReferenceIdeal.main_arg15))
            (m ((c.tc : Thread Cert.ReferenceIdeal.nD Cert.ReferenceIdeal.τ).loc Cert.ReferenceIdeal.main_arg16))
            (m ((c.tc : Thread Cert.ReferenceIdeal.nD Cert.ReferenceIdeal.τ).loc Cert.ReferenceIdeal.main_arg17))
            (m ((c.tc : Thread Cert.ReferenceIdeal.nD Cert.ReferenceIdeal.τ).loc Cert.ReferenceIdeal.main_arg18))
            (m ((c.tc : Thread Cert.ReferenceIdeal.nD Cert.ReferenceIdeal.τ).loc Cert.ReferenceIdeal.main_arg19))
            (m ((c.tc : Thread Cert.ReferenceIdeal.nD Cert.ReferenceIdeal.τ).loc Cert.ReferenceIdeal.main_arg20))
            (m ((c.tc : Thread Cert.ReferenceIdeal.nD Cert.ReferenceIdeal.τ).loc Cert.ReferenceIdeal.main_arg21))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)) :=
  (θ_run (Cert.ReferenceIdeal.defs (F := Ideal)) _ _).mono
    (fun _ h c => ⟨((h c).1).trans (result_eq (launchContents m c)), (h c).2⟩)
    (run_raw m ρ)

end Cert.RefRun

end
-- ==== Proof.BridgeReal.lean ====
/-
  Real entries among the extended reals: the closure facts a finiteness argument needs.

  An extended real is a real number exactly when it is neither infinity. Real numbers are closed under the sum, the
  difference, the product, the maximum, finite sums, the quotient by the node count and the inverse square root of a
  positive number; the coercion commutes with finite sums. The two float words the programs spell, the node count
  and the normalisation's ε, denote the real 100000 and a positive real.
-/
import proofs.«161461_j70540542869949_1_alg».proof.Proof.Spec

noncomputable section

open scoped BigOperators

namespace Cert.Bridge

open Idealize.ShloMosaic

/-- The extended real is a real number. -/
def IsReal (x : EReal) : Prop := ∃ r : ℝ, x = (r : EReal)

theorem isReal_iff (x : EReal) : IsReal x ↔ x ≠ ⊤ ∧ x ≠ ⊥ := by
  constructor
  · rintro ⟨r, rfl⟩; exact ⟨EReal.coe_ne_top r, EReal.coe_ne_bot r⟩
  · rintro ⟨h1, h2⟩
    induction x using EReal.rec with
    | bot => exact absurd rfl h2
    | top => exact absurd rfl h1
    | coe r => exact ⟨r, rfl⟩

theorem isReal_coe (r : ℝ) : IsReal (r : EReal) := ⟨r, rfl⟩
theorem isReal_zero : IsReal 0 := ⟨0, rfl⟩
theorem isReal_one : IsReal 1 := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- The coercion commutes with a finite sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The node count's float word denotes the real 100000. -/
theorem nNodes_eq : Cert.Spec.nNodes = ((100000 : ℝ) : EReal) := by
  unfold Cert.Spec.nNodes
  simp [Ideal.ofBits, Ideal.ieee, -EReal.coe_mul]; norm_num

/-- The normalisation's ε denotes a positive real. -/
theorem eps_pos : ∃ e : ℝ, 0 < e ∧ Cert.Spec.eps = (e : EReal) := by
  unfold Cert.Spec.eps
  refine ⟨_, ?_, by simp [Ideal.ofBits, Ideal.ieee, -EReal.coe_mul]; rfl⟩
  positivity

/-- The quotient by the node count is the product with its reciprocal. -/
theorem div_nNodes (x : EReal) : Ideal.div x Cert.Spec.nNodes = x * ((1 / 100000 : ℝ) : EReal) := by
  rw [nNodes_eq]; exact Ideal.div_coe (by norm_num) x

theorem IsReal.div_nNodes {x : EReal} (hx : IsReal x) : IsReal (Ideal.div x Cert.Spec.nNodes) := by
  rw [Cert.Bridge.div_nNodes]; exact hx.mul (isReal_coe _)

/-- The inverse square root of a positive real is a positive real. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_pos {r : ℝ} (h : 0 < r) : IsReal (Ideal.rsqrt (r : EReal)) := ⟨_, rsqrt_pos h⟩

end Cert.Bridge

end
-- ==== Proof.BridgeGraph.lean ====
/-
  Self-loops listed among the edges against self-loops kept apart.

  List the self-loops after the 640000 edges: position `640000 + i` is node `i`'s loop, its index word the number `i`
  and its weight one. A sum over the 740000 positions is the sum over the edges plus the sum over the loops. A node
  number below 100000 read as a signed word is itself, is not moved by the wrap-around of negative words and is not
  clamped, so loop `i` reads row `i`, is scaled by `dis i` twice and lands on node `i` only. Hence the weighted
  in-degree with the loops listed is the degree over the edges plus one, and what arrives at node `p` with the loops
  listed is what arrives over the edges plus `h p · (dis p · 1 · dis p)`. Only the commutative-monoid laws of the
  extended reals are used: no entry need be finite.
-/
import proofs.«161461_j70540542869949_1_alg».proof.Proof.Spec

noncomputable section

open scoped BigOperators

namespace Cert.Bridge

open Cert.Spec Idealize.ShloMosaic Idealize.ShloMosaic.ValueIdx

/-- Edge `e`'s and loop `i`'s positions in the list. -/
abbrev edgePos (e : Fin 640000) : Fin 740000 := ⟨e.val, by omega⟩
abbrev loopPos (i : Fin 100000) : Fin 740000 := ⟨640000 + i.val, by omega⟩

/-- A sum over the list is the sum over the edges plus the sum over the loops. -/
theorem sum_split {M : Type*} [AddCommMonoid M] (f : Fin 740000 → M) :
    ∑ k : Fin 740000, f k = (∑ e : Fin 640000, f (edgePos e)) + ∑ i : Fin 100000, f (loopPos i) := by
  calc ∑ k : Fin 740000, f k
      = ∑ k : Fin (640000 + 100000), f (Fin.cast (by norm_num) k) :=
        (Fintype.sum_equiv (finCongr (by norm_num : 640000 + 100000 = 740000)) _ _ (fun _ => rfl)).symm
    _ = _ := by rw [Fin.sum_univ_add]; rfl

/-- The same for the positions that satisfy a condition. -/
theorem filter_sum_split {M : Type*} [AddCommMonoid M] (P : Fin 740000 → Prop) [DecidablePred P] (g : Fin 740000 → M) :
    ∑ k ∈ Finset.univ.filter P, g k
      = (∑ e ∈ Finset.univ.filter (fun e : Fin 640000 => P (edgePos e)), g (edgePos e))
        + ∑ i ∈ Finset.univ.filter (fun i : Fin 100000 => P (loopPos i)), g (loopPos i) := by
  simp only [Finset.sum_filter]
  exact sum_split _

theorem catWord_edge (a : ICol 640000) (e : Fin 640000) : catWord a (edgePos e) = a (ix1 e) := by
  unfold catWord
  rw [dif_pos (show (edgePos e).val < 640000 from e.isLt)]

theorem catWord_loop (a : ICol 640000) (i : Fin 100000) : catWord a (loopPos i) = BitVec.ofNat 32 i.val := by
  unfold catWord
  rw [dif_neg (show ¬ (loopPos i).val < 640000 from by simp only [loopPos]; omega)]
  have h : (loopPos i).val - 640000 = i.val := by
    show 640000 + i.val - 640000 = i.val
    omega
  rw [h]

theorem catWeight_edge (w : Col 640000) (e : Fin 640000) : catWeight w (edgePos e) = w (ix1 e) := by
  unfold catWeight
  rw [dif_pos (show (edgePos e).val < 640000 from e.isLt)]

theorem catWeight_loop (w : Col 640000) (i : Fin 100000) : catWeight w (loopPos i) = 1 := by
  unfold catWeight
  rw [dif_neg (show ¬ (loopPos i).val < 640000 from by simp only [loopPos]; omega)]

/-- A node number read as a signed word is itself. -/
theorem toInt_node (i : Fin 100000) : (BitVec.ofNat 32 i.val).toInt = ((i.val : ℕ) : Int) := by
  have hi := i.isLt
  rw [BitVec.toInt_eq_toNat_cond, BitVec.toNat_ofNat]
  have h2 : (2 : ℕ) ^ 32 = 4294967296 := by norm_num
  rw [h2, Nat.mod_eq_of_lt (by omega)]
  rw [if_pos (by omega)]

/-- A node number is its own row: not negative, so not wrapped; below the row count, so not clamped. -/
theorem rowOf_node (i : Fin 100000) : rowOf (BitVec.ofNat 32 i.val) = i := by
  have hi := i.isLt
  have hw : wrapWord (BitVec.ofNat 32 i.val) = BitVec.ofNat 32 i.val := by
    unfold wrapWord
    rw [if_neg]
    rw [toInt_node]
    omega
  unfold rowOf
  refine Fin.ext ?_
  simp only
  rw [hw, toInt_node]
  omega

/-- Loop `i` lands on node `p` exactly when `i = p`. -/
theorem loops_on (p : Fin 100000) :
    Finset.univ.filter (fun i : Fin 100000 => (BitVec.ofNat 32 i.val).toInt = ((p.val : ℕ) : Int)) = {p} := by
  ext i
  simp only [Finset.mem_filter, Finset.mem_univ, true_and, Finset.mem_singleton, toInt_node]
  constructor
  · intro h; exact Fin.ext (by exact_mod_cast h)
  · rintro rfl; rfl

section
variable (src dst : ICol 640000) (ew : Col 640000)

/-- The degree with the loops listed is the degree over the edges plus one. -/
theorem deg_listed (r : Fin 100000) :
    degAt (E := 740000) (fun k => (catWord dst k).toInt) (catWeight ew) r
      = degAt (E := 640000) (fun e => (dst (ix1 e)).toInt) (fun e => ew (ix1 e)) r + 1 := by
  unfold degAt
  rw [filter_sum_split]
  simp only [catWord_edge, catWord_loop, catWeight_edge, catWeight_loop]
  rw [loops_on, Finset.sum_singleton]

/-- What arrives with the loops listed is what arrives over the edges plus the node's own row scaled by `dis · 1 · dis`. -/
theorem agg_listed (dis : Fin 100000 → EReal) (h : Mat 100000 128) (p : Fin 100000) (q : Fin 128) :
    aggAt (E := 740000) (fun k => rowOf (catWord src k)) (fun k => rowOf (catWord dst k)) (fun k => (catWord dst k).toInt)
        (catWeight ew) dis h p q
      = aggAt (E := 640000) (fun e => rowOf (src (ix1 e))) (fun e => rowOf (dst (ix1 e))) (fun e => (dst (ix1 e)).toInt)
          (fun e => ew (ix1 e)) dis h p q
        + h (ix2 p q) * (dis p * dis p) := by
  unfold aggAt
  rw [filter_sum_split]
  simp only [catWord_edge, catWord_loop, catWeight_edge, catWeight_loop]
  rw [loops_on, Finset.sum_singleton, rowOf_node, mul_one]

/-- The layer before normalisation is the same whether the self-loops are listed or kept apart. -/
theorem selfApart_eq_selfListed (h : Mat 100000 128) (b : Col 128) (p : Fin 100000) (q : Fin 128) :
    selfApartAt (E := 640000) (fun e => rowOf (src (ix1 e))) (fun e => rowOf (dst (ix1 e))) (fun e => (dst (ix1 e)).toInt)
        (fun e => ew (ix1 e)) h b p q
      = selfListedAt (E := 740000) (fun k => rowOf (catWord src k)) (fun k => rowOf (catWord dst k))
          (fun k => (catWord dst k).toInt) (catWeight ew) h b p q := by
  unfold selfApartAt selfListedAt
  have hd : (fun r => disOf (degAt (E := 740000) (fun k => (catWord dst k).toInt) (catWeight ew) r))
      = fun r => disOf (degAt (E := 640000) (fun e => (dst (ix1 e)).toInt) (fun e => ew (ix1 e)) r + 1) :=
    funext fun r => by rw [deg_listed]
  rw [hd, agg_listed]

end

end Cert.Bridge

end
-- ==== Proof.BridgeLayer.lean ====
/-
  One layer, in its two spellings, on real entries.

  With real features, weights, biases, scales and edge weights every intermediate entry of a layer is a real number:
  the dense product and what arrives along the edges are finite sums of products, the inverse square root is taken
  of a positive degree or replaced by zero, the column mean is a finite sum over the node count. On real columns the
  mean of the squares less the squared mean IS the mean of the squared deviations (expand the square; the sum of the
  deviations' linear term is the node count times the squared mean), a nonnegative real, so the variance plus the
  positive ε has a real inverse square root and the normalised positive part is real again. Together with the
  rearrangement of the self-loops (the degree counts one more; the node's own row enters scaled by the square of its
  `dis`), the layer with self-loops kept apart and the variance from the squares equals the layer with self-loops
  listed and the variance from the deviations, and its entries are real: the next layer starts from real features.
-/
import proofs.«161461_j70540542869949_1_alg».proof.Proof.Spec
import proofs.«161461_j70540542869949_1_alg».proof.Proof.BridgeReal
import proofs.«161461_j70540542869949_1_alg».proof.Proof.BridgeGraph

noncomputable section

open scoped BigOperators

namespace Cert.Bridge

open Cert.Spec Idealize.ShloMosaic Idealize.ShloMosaic.ValueIdx

theorem matFinite_iff {a b : Nat} (x : Mat a b) : MatFinite x ↔ ∀ i, IsReal (x i) :=
  forall_congr' fun i => (isReal_iff (x i)).symm

theorem colFinite_iff {a : Nat} (x : Col a) : ColFinite x ↔ ∀ i, IsReal (x i) :=
  forall_congr' fun i => (isReal_iff (x i)).symm

/-! ## Real entries through the stages -/

theorem isReal_linAt (x : Mat 100000 128) (W : Mat 128 128) (hx : MatFinite x) (hW : MatFinite W) (p : Fin 100000)
    (q : Fin 128) : IsReal (linAt x W p q) := by
  unfold linAt
  exact isReal_sum _ _ fun k _ => ((matFinite_iff x).1 hx _).mul ((matFinite_iff W).1 hW _)

theorem isReal_edgeWAt (ea : Mat 640000 16) (Wm1 : Mat 128 16) (bm1 : Col 128) (Wm2 : Mat 1 128) (bm2 : Col 1)
    (hea : MatFinite ea) (hWm1 : MatFinite Wm1) (hbm1 : ColFinite bm1) (hWm2 : MatFinite Wm2) (hbm2 : ColFinite bm2)
    (e : Fin 640000) : IsReal (edgeWAt ea Wm1 bm1 Wm2 bm2 e) := by
  unfold edgeWAt
  refine (isReal_sum _ _ fun j _ => ?_).add ((colFinite_iff bm2).1 hbm2 _)
  refine IsReal.mul (IsReal.max ?_ isReal_zero) ((matFinite_iff Wm2).1 hWm2 _)
  exact (isReal_sum _ _ fun k _ => ((matFinite_iff ea).1 hea _).mul ((matFinite_iff Wm1).1 hWm1 _)).add
    ((colFinite_iff bm1).1 hbm1 _)

theorem isReal_disOf {d : EReal} (hd : IsReal d) : IsReal (disOf d) := by
  obtain ⟨r, rfl⟩ := hd
  unfold disOf
  split_ifs with h
  · exact isReal_rsqrt_pos (by exact_mod_cast h)
  · exact isReal_zero

theorem isReal_degAt {E : Nat} (tgt : Fin E → Int) (w : Fin E → EReal) (hw : ∀ e, IsReal (w e)) (r : Fin 100000) :
    IsReal (degAt tgt w r) := by
  unfold degAt
  exact isReal_sum _ _ fun e _ => hw e

theorem isReal_aggAt {E : Nat} (gs gd : Fin E → Fin 100000) (tgt : Fin E → Int) (w : Fin E → EReal)
    (dis : Fin 100000 → EReal) (h : Mat 100000 128) (hw : ∀ e, IsReal (w e)) (hdis : ∀ r, IsReal (dis r))
    (hh : MatFinite h) (p : Fin 100000) (q : Fin 128) : IsReal (aggAt gs gd tgt w dis h p q) := by
  unfold aggAt
  exact isReal_sum _ _ fun e _ => ((matFinite_iff h).1 hh _).mul (((hdis _).mul (hw e)).mul (hdis _))

theorem isReal_selfListedAt {E : Nat} (gs gd : Fin E → Fin 100000) (tgt : Fin E → Int) (w : Fin E → EReal)
    (h : Mat 100000 128) (b : Col 128) (hw : ∀ e, IsReal (w e)) (hh : MatFinite h) (hb : ColFinite b)
    (p : Fin 100000) (q : Fin 128) : IsReal (selfListedAt gs gd tgt w h b p q) := by
  unfold selfListedAt
  exact (isReal_aggAt gs gd tgt w _ h hw (fun r => isReal_disOf (isReal_degAt tgt w hw r)) hh p q).add
    ((colFinite_iff b).1 hb _)

theorem isReal_catWeight (ew : Col 640000) (hew : ColFinite ew) (k : Fin 740000) : IsReal (catWeight ew k) := by
  unfold catWeight
  split_ifs
  · exact (colFinite_iff ew).1 hew _
  · exact isReal_one

/-! ## The two forms of the variance -/

/-- Over the reals: the mean of the squares less the squared mean is the mean of the squared deviations. -/
theorem var_real (r : Fin 100000 → ℝ) :
    (∑ p, r p * r p) * (1 / 100000) - ((∑ p, r p) * (1 / 100000)) * ((∑ p, r p) * (1 / 100000))
      = (∑ p, (r p - (∑ p, r p) * (1 / 100000)) * (r p - (∑ p, r p) * (1 / 100000))) * (1 / 100000) := by
  have key : ∀ (S μ : ℝ), S = ∑ p, r p →
      ∑ p, (r p - μ) * (r p - μ) = (∑ p, r p * r p) - 2 * μ * S + 100000 * (μ * μ) := by
    intro S μ hS
    have h1 : ∀ p, (r p - μ) * (r p - μ) = r p * r p - 2 * μ * r p + μ * μ := fun p => by ring
    simp_rw [h1]
    rw [Finset.sum_add_distrib, Finset.sum_sub_distrib, ← Finset.mul_sum, ← hS, Finset.sum_const, Finset.card_univ,
      Fintype.card_fin, nsmul_eq_mul]
    norm_num
  rw [key _ _ rfl]
  ring

/-- On a real column the two variances agree, the mean is real and the variance is a nonnegative real. -/
theorem var_forms (z : Mat 100000 128) (q : Fin 128) (hz : ∀ p : Fin 100000, IsReal (z (ix2 p q))) :
    varSqAt z q = varDevAt z q ∧ IsReal (meanAt z q) ∧ ∃ v : ℝ, 0 ≤ v ∧ varDevAt z q = (v : EReal) := by
  choose r hr using hz
  have hmean : meanAt z q = (((∑ p, r p) * (1 / 100000) : ℝ) : EReal) := by
    unfold meanAt
    rw [div_nNodes]
    simp_rw [hr]
    rw [← coe_sum, ← EReal.coe_mul]
  have hdev : varDevAt z q
      = (((∑ p, (r p - (∑ p, r p) * (1 / 100000)) * (r p - (∑ p, r p) * (1 / 100000))) * (1 / 100000) : ℝ) : EReal) := by
    unfold varDevAt
    rw [div_nNodes, hmean]
    simp_rw [hr, ← EReal.coe_sub, ← EReal.coe_mul]
    rw [← coe_sum, ← EReal.coe_mul]
  have hsq : varSqAt z q
      = (((∑ p, r p * r p) * (1 / 100000) - ((∑ p, r p) * (1 / 100000)) * ((∑ p, r p) * (1 / 100000)) : ℝ) : EReal) := by
    unfold varSqAt
    rw [div_nNodes, hmean]
    simp_rw [hr, ← EReal.coe_mul]
    rw [← coe_sum, ← EReal.coe_mul, ← EReal.coe_sub]
  refine ⟨by rw [hsq, hdev, var_real], ⟨_, hmean⟩, _, ?_, hdev⟩
  exact mul_nonneg (Finset.sum_nonneg fun p _ => mul_self_nonneg _) (by norm_num)

/-- The normalised positive part of real entries with a nonnegative real variance is real. -/
theorem isReal_bnReluAt (z : Mat 100000 128) (mean var g be : Col 128) (p : Fin 100000) (q : Fin 128)
    (hz : IsReal (z (ix2 p q))) (hm : IsReal (mean (ix1 q))) (hv : ∃ v : ℝ, 0 ≤ v ∧ var (ix1 q) = (v : EReal))
    (hg : IsReal (g (ix1 q))) (hbe : IsReal (be (ix1 q))) : IsReal (bnReluAt z mean var g be p q) := by
  obtain ⟨v, hv0, hv⟩ := hv
  obtain ⟨e, he0, he⟩ := eps_pos
  unfold bnReluAt
  refine IsReal.max (IsReal.add (IsReal.mul (hg.mul (hz.sub hm)) ?_) hbe) isReal_zero
  rw [hv, he, ← EReal.coe_add]
  exact isReal_rsqrt_pos (by positivity)

/-! ## The layer, self-loops apart and listed -/

section Layer
variable (src dst : ICol 640000) (ew : Col 640000)

/-- The layer before normalisation, self-loops kept apart, as an array. -/
def preApart (h : Mat 100000 128) (W : Mat 128 128) (b : Col 128) : Mat 100000 128 := fun i =>
  selfApartAt (E := 640000) (fun e => rowOf (src (ix1 e))) (fun e => rowOf (dst (ix1 e))) (fun e => (dst (ix1 e)).toInt)
    (fun e => ew (ix1 e)) (lin h W) b (i 0) (i 1)

/-- The layer before normalisation, self-loops listed, as an array. -/
def preListed (h : Mat 100000 128) (W : Mat 128 128) (b : Col 128) : Mat 100000 128 := fun i =>
  selfListedAt (E := 740000) (fun k => rowOf (catWord src k)) (fun k => rowOf (catWord dst k))
    (fun k => (catWord dst k).toInt) (catWeight ew) (lin h W) b (i 0) (i 1)

theorem pre_eq (h : Mat 100000 128) (W : Mat 128 128) (b : Col 128) : preApart src dst ew h W b = preListed src dst ew h W b :=
  funext fun i => selfApart_eq_selfListed src dst ew (lin h W) b (i 0) (i 1)

/-- The whole layer: variance from the squares over the form with self-loops apart … -/
def layerApart (h : Mat 100000 128) (W : Mat 128 128) (b g be : Col 128) : Mat 100000 128 :=
  bnRelu (preApart src dst ew h W b) (fun j => meanAt (preApart src dst ew h W b) (j 0))
    (fun j => varSqAt (preApart src dst ew h W b) (j 0)) g be

/-- … and variance from the deviations over the form with self-loops listed. -/
def layerListed (h : Mat 100000 128) (W : Mat 128 128) (b g be : Col 128) : Mat 100000 128 :=
  bnRelu (preListed src dst ew h W b) (fun j => meanAt (preListed src dst ew h W b) (j 0))
    (fun j => varDevAt (preListed src dst ew h W b) (j 0)) g be

theorem lin_finite (h : Mat 100000 128) (W : Mat 128 128) (hh : MatFinite h) (hW : MatFinite W) : MatFinite (lin h W) :=
  (matFinite_iff _).2 fun i => isReal_linAt h W hh hW (i 0) (i 1)

theorem preListed_real (h : Mat 100000 128) (W : Mat 128 128) (b : Col 128) (hew : ColFinite ew) (hh : MatFinite h)
    (hW : MatFinite W) (hb : ColFinite b) (i : (⟨2, ![100000, 128]⟩ : Shape).Idx) : IsReal (preListed src dst ew h W b i) :=
  isReal_selfListedAt _ _ _ _ _ _ (isReal_catWeight ew hew) (lin_finite h W hh hW) hb (i 0) (i 1)

/-- On real inputs the two spellings of the layer agree. -/
theorem layer_eq (h : Mat 100000 128) (W : Mat 128 128) (b g be : Col 128) (hew : ColFinite ew) (hh : MatFinite h)
    (hW : MatFinite W) (hb : ColFinite b) : layerApart src dst ew h W b g be = layerListed src dst ew h W b g be := by
  unfold layerApart layerListed
  rw [pre_eq]
  have hv : (fun j : (⟨1, ![128]⟩ : Shape).Idx => varSqAt (preListed src dst ew h W b) (j 0))
      = fun j => varDevAt (preListed src dst ew h W b) (j 0) :=
    funext fun j => (var_forms _ (j 0) fun p => preListed_real src dst ew h W b hew hh hW hb (ix2 p (j 0))).1
  rw [hv]

/-- On real inputs the layer's entries are real. -/
theorem layerListed_finite (h : Mat 100000 128) (W : Mat 128 128) (b g be : Col 128) (hew : ColFinite ew) (hh : MatFinite h)
    (hW : MatFinite W) (hb : ColFinite b) (hg : ColFinite g) (hbe : ColFinite be) :
    MatFinite (layerListed src dst ew h W b g be) := by
  refine (matFinite_iff _).2 fun i => ?_
  have hcol := var_forms (preListed src dst ew h W b) (i 1)
    fun p => preListed_real src dst ew h W b hew hh hW hb (ix2 p (i 1))
  unfold layerListed bnRelu
  refine isReal_bnReluAt _ _ _ _ _ (i 0) (i 1) ?_ hcol.2.1 hcol.2.2 ((colFinite_iff g).1 hg _) ((colFinite_iff be).1 hbe _)
  exact preListed_real src dst ew h W b hew hh hW hb (ix2 (i 0) (i 1))

end Layer

end Cert.Bridge

end
-- ==== Proof.ResultEq.lean ====
/-
  The two programs' results are one function of the arguments, on real inputs.

  Read at an index, the kernel program's layer is the layer with the self-loops kept apart and the variance taken from
  the squares; the reference's layer is the layer with the self-loops listed and the variance taken from the
  deviations; on real features, weights and edge weights these agree and are real again, so the three layers agree one
  after the other. The edge weights of the two programs are the same perceptron of the edge attributes, the edge list
  is the same two rows of index words, and both programs end with the same pooling and read-out of the last layer.
  The readings of the programs' operations at an index are taken here as hypotheses, in the form they are proved in.
-/
import proofs.«161461_j70540542869949_1_alg».proof.Proof.Spec
import proofs.«161461_j70540542869949_1_alg».proof.Proof.BridgeLayer
import proofs.«161461_j70540542869949_1_alg».proof.Proof.KerTerm
import proofs.«161461_j70540542869949_1_alg».proof.Proof.RefTerm

noncomputable section

namespace Cert.ResultEq

open Cert.Spec Cert.Bridge Idealize.ShloMosaic Idealize.ShloMosaic.ValueIdx

variable [Cert.KernelIdeal.Facts₀] [Cert.ReferenceIdeal.Facts]

/-- The kernel program's host operations and the reference's operations, read at an index. -/
structure Readings : Prop where
  kSrc : ∀ (ei : (⟨2, ![2, 640000]⟩ : Shape).Idx → BitVec 32) (e : Fin 640000),
    Cert.KerTerm.srcOf ei (ix1 e) = ei (ix2 (0 : Fin 2) e)
  kDst : ∀ (ei : (⟨2, ![2, 640000]⟩ : Shape).Idx → BitVec 32) (e : Fin 640000),
    Cert.KerTerm.dstOf ei (ix1 e) = ei (ix2 (1 : Fin 2) e)
  kEw : ∀ (c : Mat 640000 1) (e : Fin 640000), Cert.KerTerm.ewFlat c (ix1 e) = c (ix2 e (0 : Fin 1))
  kProp : ∀ (hl : Mat 100000 128) (src dst : ICol 640000) (ew : Col 640000) (b : Col 128) (p : Fin 100000) (q : Fin 128),
    addBias (Cert.KerTerm.prop hl src dst ew) b (ix2 p q)
      = selfApartAt (E := 640000) (fun e => rowOf (src (ix1 e))) (fun e => rowOf (dst (ix1 e)))
          (fun e => (dst (ix1 e)).toInt) (fun e => ew (ix1 e)) hl b p q
  kMean : ∀ (z : Mat 100000 128) (q : Fin 128), Cert.KerTerm.meanOf (colSum z) (ix1 q) = meanAt z q
  kVar : ∀ (z : Mat 100000 128) (q : Fin 128), Cert.KerTerm.varOf (colSum z) (colSumSq z) (ix1 q) = varSqAt z q
  rSrc : ∀ (ei : (⟨2, ![2, 640000]⟩ : Shape).Idx → BitVec 32) (e : Fin 640000),
    Cert.RefTerm.srcOf ei (ix1 e) = ei (ix2 (0 : Fin 2) e)
  rDst : ∀ (ei : (⟨2, ![2, 640000]⟩ : Shape).Idx → BitVec 32) (e : Fin 640000),
    Cert.RefTerm.dstOf ei (ix1 e) = ei (ix2 (1 : Fin 2) e)
  rEw : ∀ (ea : Mat 640000 16) (Wm1 : Mat 128 16) (bm1 : Col 128) (Wm2 : Mat 1 128) (bm2 : Col 1) (e : Fin 640000),
    Cert.RefTerm.edgeW ea Wm1 bm1 Wm2 bm2 (ix1 e) = edgeWAt ea Wm1 bm1 Wm2 bm2 e
  rConv : ∀ (h : Mat 100000 128) (src dst : ICol 640000) (ew : Col 640000) (W : Mat 128 128) (b : Col 128)
      (p : Fin 100000) (q : Fin 128),
    Cert.RefTerm.conv h src dst ew W b (ix2 p q)
      = selfListedAt (E := 740000) (fun k => rowOf (catWord src k)) (fun k => rowOf (catWord dst k))
          (fun k => (catWord dst k).toInt) (catWeight ew) (lin h W) b p q
  rMean : ∀ (z : Mat 100000 128) (q : Fin 128), Cert.RefTerm.meanOf z (ix1 q) = meanAt z q
  rVar : ∀ (z : Mat 100000 128) (q : Fin 128), Cert.RefTerm.varOf z (ix1 q) = varDevAt z q
  rBn : ∀ (z : Mat 100000 128) (mean var g be : Col 128), Cert.RefTerm.bnRelu z mean var g be = bnRelu z mean var g be
  tails : ∀ (h : Mat 100000 128) (batch : ICol 100000) (Wr : Mat 1 128) (br : Col 1),
    Cert.KerTerm.tail h batch Wr br = Cert.RefTerm.tail h batch Wr br

variable (R : Readings)
include R

/-- The kernel program's layer is the layer with the self-loops apart and the variance from the squares. -/
theorem kerLayer_eq (h : Mat 100000 128) (W : Mat 128 128) (b g be : Col 128) (src dst : ICol 640000) (ew : Col 640000) :
    Cert.KerTerm.layer h W b g be src dst ew = layerApart src dst ew h W b g be := by
  have hz : addBias (Cert.KerTerm.prop (lin h W) src dst ew) b = preApart src dst ew h W b :=
    funext fun i => by
      obtain ⟨p, q, rfl⟩ : ∃ (p : Fin 100000) (q : Fin 128), i = ix2 p q := ⟨i 0, i 1, eq_ix2 i⟩
      exact R.kProp (lin h W) src dst ew b p q
  unfold Cert.KerTerm.layer layerApart
  rw [hz]
  have hm : Cert.KerTerm.meanOf (colSum (preApart src dst ew h W b)) = fun j => meanAt (preApart src dst ew h W b) (j 0) :=
    funext fun j => by
      obtain ⟨q, rfl⟩ : ∃ q : Fin 128, j = ix1 q := ⟨j 0, eq_ix1 j⟩
      exact R.kMean (preApart src dst ew h W b) q
  have hv : Cert.KerTerm.varOf (colSum (preApart src dst ew h W b)) (colSumSq (preApart src dst ew h W b))
      = fun j => varSqAt (preApart src dst ew h W b) (j 0) :=
    funext fun j => by
      obtain ⟨q, rfl⟩ : ∃ q : Fin 128, j = ix1 q := ⟨j 0, eq_ix1 j⟩
      exact R.kVar (preApart src dst ew h W b) q
  rw [hm, hv]

/-- The reference's layer is the layer with the self-loops listed and the variance from the deviations. -/
theorem refLayer_eq (h : Mat 100000 128) (W : Mat 128 128) (b g be : Col 128) (src dst : ICol 640000) (ew : Col 640000) :
    Cert.RefTerm.layer h W b g be src dst ew = layerListed src dst ew h W b g be := by
  have hz : Cert.RefTerm.conv h src dst ew W b = preListed src dst ew h W b :=
    funext fun i => by
      obtain ⟨p, q, rfl⟩ : ∃ (p : Fin 100000) (q : Fin 128), i = ix2 p q := ⟨i 0, i 1, eq_ix2 i⟩
      exact R.rConv h src dst ew W b p q
  unfold Cert.RefTerm.layer layerListed
  rw [hz, R.rBn]
  have hm : Cert.RefTerm.meanOf (preListed src dst ew h W b) = fun j => meanAt (preListed src dst ew h W b) (j 0) :=
    funext fun j => by
      obtain ⟨q, rfl⟩ : ∃ q : Fin 128, j = ix1 q := ⟨j 0, eq_ix1 j⟩
      exact R.rMean (preListed src dst ew h W b) q
  have hv : Cert.RefTerm.varOf (preListed src dst ew h W b) = fun j => varDevAt (preListed src dst ew h W b) (j 0) :=
    funext fun j => by
      obtain ⟨q, rfl⟩ : ∃ q : Fin 128, j = ix1 q := ⟨j 0, eq_ix1 j⟩
      exact R.rVar (preListed src dst ew h W b) q
  rw [hm, hv]

/-- On real inputs the two programs' layers agree and are real. -/
theorem layers_agree (h : Mat 100000 128) (W : Mat 128 128) (b g be : Col 128) (src dst : ICol 640000) (ew : Col 640000)
    (hew : ColFinite ew) (hh : MatFinite h) (hW : MatFinite W) (hb : ColFinite b) (hg : ColFinite g) (hbe : ColFinite be) :
    Cert.KerTerm.layer h W b g be src dst ew = Cert.RefTerm.layer h W b g be src dst ew
      ∧ MatFinite (Cert.RefTerm.layer h W b g be src dst ew) := by
  rw [kerLayer_eq R, refLayer_eq R, layer_eq src dst ew h W b g be hew hh hW hb]
  exact ⟨rfl, layerListed_finite src dst ew h W b g be hew hh hW hb hg hbe⟩

/-- On real float arguments the two programs' results are equal. -/
theorem result_eq (a0 : Mat 100000 128) (a1 : (⟨2, ![2, 640000]⟩ : Shape).Idx → BitVec 32) (a2 : Mat 640000 16)
    (a3 : ICol 100000) (a4 : Mat 128 16) (a5 : Col 128) (a6 : Mat 1 128) (a7 : Col 1) (a8 : Mat 128 128)
    (a9 a10 a11 : Col 128) (a12 : Mat 128 128) (a13 a14 a15 : Col 128) (a16 : Mat 128 128) (a17 a18 a19 : Col 128)
    (a20 : Mat 1 128) (a21 : Col 1)
    (f0 : MatFinite a0) (f2 : MatFinite a2) (f4 : MatFinite a4) (f5 : ColFinite a5) (f6 : MatFinite a6) (f7 : ColFinite a7)
    (f8 : MatFinite a8) (f9 : ColFinite a9) (f10 : ColFinite a10) (f11 : ColFinite a11) (f12 : MatFinite a12)
    (f13 : ColFinite a13) (f14 : ColFinite a14) (f15 : ColFinite a15) (f16 : MatFinite a16) (f17 : ColFinite a17)
    (f18 : ColFinite a18) (f19 : ColFinite a19) :
    Cert.KerTerm.result a0 a1 a2 a3 a4 a5 a6 a7 a8 a9 a10 a11 a12 a13 a14 a15 a16 a17 a18 a19 a20 a21
      = Cert.RefTerm.result a0 a1 a2 a3 a4 a5 a6 a7 a8 a9 a10 a11 a12 a13 a14 a15 a16 a17 a18 a19 a20 a21 := by
  have hsrc : Cert.KerTerm.srcOf a1 = Cert.RefTerm.srcOf a1 :=
    funext fun j => by
      obtain ⟨e, rfl⟩ : ∃ e : Fin 640000, j = ix1 e := ⟨j 0, eq_ix1 j⟩
      rw [R.kSrc, R.rSrc]
  have hdst : Cert.KerTerm.dstOf a1 = Cert.RefTerm.dstOf a1 :=
    funext fun j => by
      obtain ⟨e, rfl⟩ : ∃ e : Fin 640000, j = ix1 e := ⟨j 0, eq_ix1 j⟩
      rw [R.kDst, R.rDst]
  have hew : Cert.KerTerm.ewFlat (edgeW a2 a4 a5 a6 a7) = Cert.RefTerm.edgeW a2 a4 a5 a6 a7 :=
    funext fun j => by
      obtain ⟨e, rfl⟩ : ∃ e : Fin 640000, j = ix1 e := ⟨j 0, eq_ix1 j⟩
      rw [R.kEw, R.rEw]
      rfl
  have few : ColFinite (Cert.RefTerm.edgeW a2 a4 a5 a6 a7) :=
    (colFinite_iff _).2 fun j => by
      obtain ⟨e, rfl⟩ : ∃ e : Fin 640000, j = ix1 e := ⟨j 0, eq_ix1 j⟩
      rw [R.rEw]
      exact isReal_edgeWAt a2 a4 a5 a6 a7 f2 f4 f5 f6 f7 e
  unfold Cert.KerTerm.result Cert.RefTerm.result
  rw [hsrc, hdst, hew]
  obtain ⟨e1, g1⟩ := layers_agree R a0 a8 a9 a10 a11 (Cert.RefTerm.srcOf a1) (Cert.RefTerm.dstOf a1)
    (Cert.RefTerm.edgeW a2 a4 a5 a6 a7) few f0 f8 f9 f10 f11
  rw [e1]
  obtain ⟨e2, g2⟩ := layers_agree R _ a12 a13 a14 a15 (Cert.RefTerm.srcOf a1) (Cert.RefTerm.dstOf a1)
    (Cert.RefTerm.edgeW a2 a4 a5 a6 a7) few g1 f12 f13 f14 f15
  rw [e2]
  obtain ⟨e3, -⟩ := layers_agree R _ a16 a17 a18 a19 (Cert.RefTerm.srcOf a1) (Cert.RefTerm.dstOf a1)
    (Cert.RefTerm.edgeW a2 a4 a5 a6 a7) few g2 f16 f17 f18 f19
  rw [e3]
  exact R.tails _ a3 a20 a21

end Cert.ResultEq

end
-- ==== Proof.PreFinite.lean ====
/-
  From the stated precondition to "every float argument holds real numbers".

  The precondition says, of each float argument `x`, that the conjunction over all its entries of `|x| < +∞` is true,
  and joins these by `and`. A conjunction of bits that is one has every bit one; an extended real `v` with
  `max v (-v) < ⊤` is neither `⊤` nor `⊥`.
-/
import proofs.«161461_j70540542869949_1_alg».proof.Defs
import proofs.«161461_j70540542869949_1_alg».proof.Proof.Spec
import Idealize.ShloMosaic.Lib.ReduceAll
import Idealize.ShloMosaic.Lib.ValueIdx

noncomputable section

namespace Cert.PreFinite

open Idealize.ShloMosaic Idealize.SL.Sem Cert.Pre_finite_inputs Cert.Spec

instance : Subsingleton (Cert.Pre_finite_inputs.S_).Idx := ⟨fun a b => funext fun d => d.elim0⟩

/-- An extended real whose absolute value compares below `+∞` is a real number. -/
theorem real_of_abs_lt (v : EReal)
    (e : FloatOps.cmpf (F := Ideal) (φ := .f32) .olt (FloatOps.hostAbsf v) (Ideal.ofBits .f32 0x7F800000#32) = 1#1) :
    v ≠ ⊤ ∧ v ≠ ⊥ := by
  have htop : Ideal.ofBits .f32 0x7F800000#32 = ⊤ := by simp [Ideal.ofBits, Ideal.ieee]
  rw [htop] at e
  change Ideal.cmp .olt (max v (-v)) ⊤ = 1#1 at e
  unfold Ideal.cmp at e
  have hlt : max v (-v) < ⊤ := by
    by_contra hn
    simp [hn] at e
  rw [max_lt_iff] at hlt
  refine ⟨ne_of_lt hlt.1, ?_⟩
  intro hb
  rw [hb] at hlt
  simp at hlt

/-- The all-entries conjunction of `|x| < +∞` being one makes every entry of `x` a real number. -/
theorem finite_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) (i : s.Idx) : x i ≠ ⊤ ∧ x i ≠ ⊥ :=
  real_of_abs_lt (x i) (Host.reduce_andi_all _ _ hr hu ValueIdx.ix0 e i)

/-- The conjunction of two one-bit scalars, read at the one index. -/
theorem andi_at (a b : IVec S_ 1) (j : S_.Idx) : andi a b j = IntOp.andi (a j) (b j) := rfl

/-- Under the stated precondition every float argument of the program holds real numbers only. -/
theorem of_pre [hP : Cert.Pre_finite_inputs.Facts]
    (m : (l : Loc Cert.KernelIdeal.nD Cert.KernelIdeal.τ Cert.KernelIdeal.sig) → Buf (Elt Ideal) l)
    (h : Cert.Pre_KernelIdeal m) (c : Dev Cert.KernelIdeal.nD) :
    Cert.Spec.MatFinite (m ((c.tc : Thread Cert.KernelIdeal.nD Cert.KernelIdeal.τ).loc Cert.KernelIdeal.main_arg0))
    ∧ Cert.Spec.MatFinite (m ((c.tc : Thread Cert.KernelIdeal.nD Cert.KernelIdeal.τ).loc Cert.KernelIdeal.main_arg2))
    ∧ Cert.Spec.MatFinite (m ((c.tc : Thread Cert.KernelIdeal.nD Cert.KernelIdeal.τ).loc Cert.KernelIdeal.main_arg4))
    ∧ Cert.Spec.ColFinite (m ((c.tc : Thread Cert.KernelIdeal.nD Cert.KernelIdeal.τ).loc Cert.KernelIdeal.main_arg5))
    ∧ Cert.Spec.MatFinite (m ((c.tc : Thread Cert.KernelIdeal.nD Cert.KernelIdeal.τ).loc Cert.KernelIdeal.main_arg6))
    ∧ Cert.Spec.ColFinite (m ((c.tc : Thread Cert.KernelIdeal.nD Cert.KernelIdeal.τ).loc Cert.KernelIdeal.main_arg7))
    ∧ Cert.Spec.MatFinite (m ((c.tc : Thread Cert.KernelIdeal.nD Cert.KernelIdeal.τ).loc Cert.KernelIdeal.main_arg8))
    ∧ Cert.Spec.ColFinite (m ((c.tc : Thread Cert.KernelIdeal.nD Cert.KernelIdeal.τ).loc Cert.KernelIdeal.main_arg9))
    ∧ Cert.Spec.ColFinite (m ((c.tc : Thread Cert.KernelIdeal.nD Cert.KernelIdeal.τ).loc Cert.KernelIdeal.main_arg10))
    ∧ Cert.Spec.ColFinite (m ((c.tc : Thread Cert.KernelIdeal.nD Cert.KernelIdeal.τ).loc Cert.KernelIdeal.main_arg11))
    ∧ Cert.Spec.MatFinite (m ((c.tc : Thread Cert.KernelIdeal.nD Cert.KernelIdeal.τ).loc Cert.KernelIdeal.main_arg12))
    ∧ Cert.Spec.ColFinite (m ((c.tc : Thread Cert.KernelIdeal.nD Cert.KernelIdeal.τ).loc Cert.KernelIdeal.main_arg13))
    ∧ Cert.Spec.ColFinite (m ((c.tc : Thread Cert.KernelIdeal.nD Cert.KernelIdeal.τ).loc Cert.KernelIdeal.main_arg14))
    ∧ Cert.Spec.ColFinite (m ((c.tc : Thread Cert.KernelIdeal.nD Cert.KernelIdeal.τ).loc Cert.KernelIdeal.main_arg15))
    ∧ Cert.Spec.MatFinite (m ((c.tc : Thread Cert.KernelIdeal.nD Cert.KernelIdeal.τ).loc Cert.KernelIdeal.main_arg16))
    ∧ Cert.Spec.ColFinite (m ((c.tc : Thread Cert.KernelIdeal.nD Cert.KernelIdeal.τ).loc Cert.KernelIdeal.main_arg17))
    ∧ Cert.Spec.ColFinite (m ((c.tc : Thread Cert.KernelIdeal.nD Cert.KernelIdeal.τ).loc Cert.KernelIdeal.main_arg18))
    ∧ Cert.Spec.ColFinite (m ((c.tc : Thread Cert.KernelIdeal.nD Cert.KernelIdeal.τ).loc Cert.KernelIdeal.main_arg19))
    ∧ Cert.Spec.MatFinite (m ((c.tc : Thread Cert.KernelIdeal.nD Cert.KernelIdeal.τ).loc Cert.KernelIdeal.main_arg20))
    ∧ Cert.Spec.ColFinite (m ((c.tc : Thread Cert.KernelIdeal.nD Cert.KernelIdeal.τ).loc Cert.KernelIdeal.main_arg21)) := by
  have e := congrFun (h c) ValueIdx.ix0
  dsimp only [fn, fn_part1, fn_part2, fn_part3, fn_part4, fn_part5] at e
  simp only [andi_at, IntOp.andi_eq_one, and_assoc] at e
  obtain ⟨e0, e2, e4, e5, e6, e7, e8, e9, e10, e11, e12, e13, e14, e15, e16, e17, e18, e19, e20, e21⟩ := e
  exact ⟨finite_of_all _ _ _ _ e0, finite_of_all _ _ _ _ e2, finite_of_all _ _ _ _ e4, finite_of_all _ _ _ _ e5, finite_of_all _ _ _ _ e6, finite_of_all _ _ _ _ e7, finite_of_all _ _ _ _ e8, finite_of_all _ _ _ _ e9, finite_of_all _ _ _ _ e10, finite_of_all _ _ _ _ e11, finite_of_all _ _ _ _ e12, finite_of_all _ _ _ _ e13, finite_of_all _ _ _ _ e14, finite_of_all _ _ _ _ e15, finite_of_all _ _ _ _ e16, finite_of_all _ _ _ _ e17, finite_of_all _ _ _ _ e18, finite_of_all _ _ _ _ e19, finite_of_all _ _ _ _ e20, finite_of_all _ _ _ _ e21⟩

end Cert.PreFinite

end
-- ==== Proof.LibKeepdims.lean ====
/-
  Layout operations on a column, read at an index. A kernel that forms an outer difference or an outer product of two
  vectors writes `x[:, None]` and `y[None, :]`: a length-`a` vector viewed as an `a × 1` column or a `1 × a` row and
  then spread over an `a × b` array. The row forms are in the library; these are the column forms, and the two casts
  that drop the leading unit axes of a pipelined block. Each lemma names the one operand entry an entry of the result
  reads, by coordinates.
-/
import Idealize.ShloMosaic.Lib.ValueIdx
import Idealize.ShloMosaic.Lib.ValueLayout
import Idealize.ShloMosaic.Lib.Pipeline.Value

namespace Idealize.ShloMosaic.Keepdims

open Idealize.ShloMosaic Idealize.ShloMosaic.ValueIdx

variable {α : Type}

/-- An `[a, 1]` column cast to the vector `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to the `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column spread over `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` block cast to `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A `[1, 1, a]` block cast to `[a]` reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Idealize.ShloMosaic.Keepdims
-- ==== Proof.KerReadSmall.lean ====
/-
  The small host stretches of the kernel program read at an index: the two rows of the edge list, the flattened
  edge-weight column, and the batch statistics.

  Row `r` of the `[2, 640000]` edge list, flattened, reads at `e` the list's entry `(r, e)`; the `[640000, 1]`
  weight column, flattened, reads at `e` its entry `(e, 0)`. The mean of column `q` is the column's sum divided by
  the number of nodes, and the variance is the column's sum of squares divided by the number of nodes less the squared
  mean: the statistics row `[1, 128]` is read at `(0, q)`, and the divisor is the same float word in both.
-/
import proofs.«161461_j70540542869949_1_alg».proof.Proof.KerTerm
import proofs.«161461_j70540542869949_1_alg».proof.Proof.LibKeepdims
import Idealize.ShloMosaic.Lib.ValueLayout
import Idealize.ShloMosaic.Lib.Pipeline.Value

noncomputable section

namespace Cert.KerTerm

open Cert.KernelIdeal Cert.Spec Idealize.ShloMosaic Idealize.ShloMosaic.ValueIdx

variable [Facts₀]
open Facts₀

/-- The source words are row 0 of the edge list. -/
theorem srcOf_apply (ei : IVec S2x640000 32) (e : Fin 640000) : srcOf ei (ix1 e) = ei (ix2 (0 : Fin 2) e) := by
  unfold srcOf
  refine (shapeCast_1a_a_apply _ _ e).trans ?_
  exact slice2_axis0_apply 0 ei _ (0 : Fin 1) e (0 : Fin 2) rfl

/-- The target words are row 1 of the edge list. -/
theorem dstOf_apply (ei : IVec S2x640000 32) (e : Fin 640000) : dstOf ei (ix1 e) = ei (ix2 (1 : Fin 2) e) := by
  unfold dstOf
  refine (shapeCast_1a_a_apply _ _ e).trans ?_
  exact slice2_axis0_apply 1 ei _ (0 : Fin 1) e (1 : Fin 2) rfl

/-- The flat edge weights are the weight column's entries. -/
theorem ewFlat_apply (c : FVec Ideal S640000x1 .f32) (e : Fin 640000) : ewFlat c (ix1 e) = c (ix2 e (0 : Fin 1)) := by
  unfold ewFlat
  exact Keepdims.shapeCast_a1_a_apply c _ e

/-- The mean of a column is its sum divided by the number of nodes. -/
theorem meanOf_apply (z : Cert.Spec.Mat 100000 128) (q : Fin 128) :
    meanOf (Cert.Spec.colSum z) (ix1 q) = Cert.Spec.meanAt z q := by
  unfold meanOf
  show Ideal.div (shapeCast S128 (Cert.Spec.colSum z) shapeCasts_S1x128_S128 (ix1 q)) _ = _
  rw [shapeCast_1a_a_apply (Cert.Spec.colSum z) shapeCasts_S1x128_S128 q]
  rfl

/-- The variance of a column is its sum of squares divided by the number of nodes, less the squared mean. -/
theorem varOf_apply (z : Cert.Spec.Mat 100000 128) (q : Fin 128) :
    varOf (Cert.Spec.colSum z) (Cert.Spec.colSumSq z) (ix1 q) = Cert.Spec.varSqAt z q := by
  unfold varOf
  show Ideal.div (shapeCast S128 (Cert.Spec.colSumSq z) shapeCasts_S1x128_S128 (ix1 q)) _
      - meanOf (Cert.Spec.colSum z) (ix1 q) * meanOf (Cert.Spec.colSum z) (ix1 q) = _
  rw [shapeCast_1a_a_apply (Cert.Spec.colSumSq z) shapeCasts_S1x128_S128 q, meanOf_apply]
  rfl

end Cert.KerTerm

end
-- ==== Proof.LibRowIndexing.lean ====
/-
  Row gathers and accumulating row scatters of the host, read at an index.

  `x[idx]` of a flat array or of a matrix by rows lowers to a gather whose start indices are a column `[E, 1]`:
  result row `e` is the operand's row `idx[e, 0]`, the index read as a signed integer and clamped into the operand's
  rows. `segment_sum` and `.at[idx].add` lower to a scatter with an additive body over the same column of indices:
  at the extended reals, operand row `i` ends as itself plus the sum of the update rows `e` whose index, read signed
  and NOT clamped, is exactly `i`; an update whose index is negative or past the last row lands nowhere.
  Stated for dimension numbers given as literal records over the extents, so that a program's own record is one
  of them by `rfl`.
-/
import Idealize.ShloMosaic.Lib.ValueIdx

noncomputable section

open scoped BigOperators

namespace Idealize.ShloMosaic.RowIndexing

open Idealize.ShloMosaic Idealize.ShloMosaic.ValueIdx

/-! ## A flat array gathered at a column of indices -/

section GatherFlat
variable {α : Type}

/-- The dimension numbers of `x[idx]` for `x : [N]`, `idx : [E, 1]`, result `[E]`. -/
abbrev gatherFlat (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` is the operand at `idx[e, 0]`, read signed and clamped into `[0, N - 1]`. -/
theorem gatherFlat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (gatherFlat N E wf) x idx y
      = x (ix1 ⟨min (idx (ix2 (y 0) (0 : Fin 1))).toInt.toNat (N - 1), by omega⟩) := by
  unfold Host.gather
  congr 1
  funext a
  obtain rfl : a = 0 := Subsingleton.elim _ _
  refine Fin.ext ?_
  show (gatherFlat N E wf).start y idx 0 + (gatherFlat N E wf).batchCoord y 0 + (gatherFlat N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherFlat N E wf).startIndexMap from List.mem_singleton.mpr rfl)]
  have hsi : (gatherFlat N E wf).siIdx y ⟨List.idxOf (0 : Fin 1) (gatherFlat N E wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-- The same at an index given by its coordinate. -/
theorem gatherFlat_apply_ix {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherFlat N E wf) x idx (ix1 e)
      = x (ix1 ⟨min (idx (ix2 e (0 : Fin 1))).toInt.toNat (N - 1), by omega⟩) :=
  gatherFlat_apply hN wf x idx (ix1 e)

end GatherFlat

/-! ## A flat array accumulated at a column of indices -/

section ScatterFlat

/-- The dimension numbers of `x.at[idx].add(u)` for `x : [N]`, `idx : [E, 1]`, `u : [E]`. -/
abbrev scatterFlat (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update `e`'s window starts at its index `idx[e, 0]`, read signed. -/
theorem scatterFlat_start (j : (⟨1, ![E]⟩ : Shape).Idx) (idx : IVec ⟨2, ![E, 1]⟩ w) (a : Fin 1) :
    (scatterFlat N E wf).start j idx a = (idx (ix2 (j 0) (0 : Fin 1))).toInt := by
  obtain rfl : a = 0 := Subsingleton.elim _ _
  unfold ScatterDims.start
  rw [dif_pos (show (0 : Fin 1) ∈ (scatterFlat N E wf).scatterDimsToOperandDims from List.mem_singleton.mpr rfl)]
  have hsi : (scatterFlat N E wf).siIdx j ⟨List.idxOf (0 : Fin 1) (scatterFlat N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: the window has no coordinate on it. -/
theorem scatterFlat_window (j : (⟨1, ![E]⟩ : Shape).Idx) (a : Fin 1) : (scatterFlat N E wf).window j a = 0 := by
  obtain rfl : a = 0 := Subsingleton.elim _ _
  unfold ScatterDims.window
  rw [dif_neg]
  simp [ScatterDims.sKept, Shape.kept]

/-- Update `e` lands on element `i` exactly when its signed index is `i`. -/
theorem scatterFlat_resultIdx_iff (j : (⟨1, ![E]⟩ : Shape).Idx) (idx : IVec ⟨2, ![E, 1]⟩ w) (i : (⟨1, ![N]⟩ : Shape).Idx) :
    (scatterFlat N E wf).resultIdx? j idx = some i ↔ (idx (ix2 (j 0) (0 : Fin 1))).toInt = ((i 0).val : Int) := by
  have hi : (i 0).val < N := (i 0).isLt
  unfold ScatterDims.resultIdx?
  simp only [scatterFlat_start, scatterFlat_window, Nat.cast_zero, Int.add_zero]
  by_cases h : 0 ≤ (idx (ix2 (j 0) (0 : Fin 1))).toInt ∧ (idx (ix2 (j 0) (0 : Fin 1))).toInt < (N : Int)
  · rw [dif_pos (fun a => by obtain rfl : a = 0 := Subsingleton.elim _ _; exact h)]
    constructor
    · intro e
      have e0 := congrArg Fin.val (congrFun (Option.some.inj e) 0)
      simp only at e0
      omega
    · intro e
      refine congrArg some (funext fun a => ?_)
      obtain rfl : a = 0 := Subsingleton.elim _ _
      refine Fin.ext ?_
      simp only
      omega
  · rw [dif_neg (fun hh => h (hh 0))]
    constructor
    · intro e; exact absurd e (by simp)
    · intro e; exact absurd ⟨by omega, by omega⟩ h

/-- Element `i` ends as itself plus the sum of the updates whose signed index is `i`. -/
theorem scatterAddFlat_apply (x : (⟨1, ![N]⟩ : Shape).Idx → EReal) (idx : IVec ⟨2, ![E, 1]⟩ w)
    (upd : (⟨1, ![E]⟩ : Shape).Idx → EReal) (i : (⟨1, ![N]⟩ : Shape).Idx) :
    Ideal.hostScatterAdd (scatterFlat N E wf) x idx upd i
      = x i + ∑ j ∈ Finset.univ.filter (fun j : (⟨1, ![E]⟩ : Shape).Idx => (idx (ix2 (j 0) (0 : Fin 1))).toInt = ((i 0).val : Int)), upd j := by
  unfold Ideal.hostScatterAdd
  congr 2
  ext j
  simp only [Finset.mem_filter, Finset.mem_univ, true_and]
  exact scatterFlat_resultIdx_iff wf j idx i

end ScatterFlat

/-! ## A matrix gathered by rows at a column of indices -/

section GatherRows
variable {α : Type}

/-- The dimension numbers of `x[idx]` for `x : [N, C]`, `idx : [E, 1]`, result `[E, C]`. -/
abbrev gatherRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, k)` is the operand at row `idx[e, 0]`, read signed and clamped into `[0, N - 1]`, column `k`. -/
theorem gatherRows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (gatherRows N C E wf) x idx y
      = x (ix2 ⟨min (idx (ix2 (y 0) (0 : Fin 1))).toInt.toNat (N - 1), by omega⟩ (y 1)) := by
  have h10 : (1 : Fin 2) ∉ ([0] : List (Fin 2)) := List.mem_singleton.not.mpr (Fin.ne_of_val_ne Nat.one_ne_zero)
  -- the row axis: the clamped start, no batching, the axis collapsed
  have h0 : (gatherRows N C E wf).start y idx (0 : Fin 2) + (gatherRows N C E wf).batchCoord y (0 : Fin 2)
      + (gatherRows N C E wf).offCoord y (0 : Fin 2) = min (idx (ix2 (y 0) (0 : Fin 1))).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N C E wf).startIndexMap from List.mem_singleton.mpr rfl)]
    have hsi : (gatherRows N C E wf).siIdx y ⟨List.idxOf (0 : Fin 2) (gatherRows N C E wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  -- the column axis: no start index, no batching, the result's column
  have h1 : (gatherRows N C E wf).start y idx (1 : Fin 2) + (gatherRows N C E wf).batchCoord y (1 : Fin 2)
      + (gatherRows N C E wf).offCoord y (1 : Fin 2) = (y 1).val := by
    have hst : (gatherRows N C E wf).start y idx (1 : Fin 2) = 0 := by
      unfold GatherDims.start
      rw [dif_neg (show (1 : Fin 2) ∉ (gatherRows N C E wf).startIndexMap from h10)]
    have hk : (1 : Fin 2) ∈ (gatherRows N C E wf).sKept :=
      (GatherDims.mem_sKept _ _).mpr ⟨h10, List.not_mem_nil⟩
    rw [GatherDims.batchCoord_eq_zero _ _ _ List.not_mem_nil, hst]
    simp only [Nat.zero_add, Nat.add_zero]
    unfold GatherDims.offCoord
    rw [dif_pos hk]
    rfl
  unfold Host.gather
  congr 1
  funext a
  refine Fin.ext ?_
  match a with
  | ⟨0, _⟩ => exact h0
  | ⟨1, _⟩ => exact h1

/-- The same at an index given by its coordinates. -/
theorem gatherRows_apply_ix {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (gatherRows N C E wf) x idx (ix2 e k)
      = x (ix2 ⟨min (idx (ix2 e (0 : Fin 1))).toInt.toNat (N - 1), by omega⟩ k) :=
  gatherRows_apply hN wf x idx (ix2 e k)

end GatherRows

/-! ## A matrix accumulated by rows at a column of indices -/

section ScatterRows

/-- The dimension numbers of `x.at[idx].add(u)` for `x : [N, C]`, `idx : [E, 1]`, `u : [E, C]`. -/
abbrev scatterRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N C E w : Nat} (wf : ScatterDims.WF ⟨2, ![N, C]⟩ ⟨2, ![E, 1]⟩ ⟨2, ![E, C]⟩ [1] [0] [0] 1)

/-- On the row axis update `(e, k)`'s window starts at its index `idx[e, 0]`, read signed … -/
theorem scatterRows_start0 (j : (⟨2, ![E, C]⟩ : Shape).Idx) (idx : IVec ⟨2, ![E, 1]⟩ w) :
    (scatterRows N C E wf).start j idx (0 : Fin 2) = (idx (ix2 (j 0) (0 : Fin 1))).toInt := by
  unfold ScatterDims.start
  rw [dif_pos (show (0 : Fin 2) ∈ (scatterRows N C E wf).scatterDimsToOperandDims from List.mem_singleton.mpr rfl)]
  have hsi : (scatterRows N C E wf).siIdx j ⟨List.idxOf (0 : Fin 2) (scatterRows N C E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- … and on the column axis at `0`. -/
theorem scatterRows_start1 (j : (⟨2, ![E, C]⟩ : Shape).Idx) (idx : IVec ⟨2, ![E, 1]⟩ w) :
    (scatterRows N C E wf).start j idx (1 : Fin 2) = 0 := by
  unfold ScatterDims.start
  rw [dif_neg (show (1 : Fin 2) ∉ (scatterRows N C E wf).scatterDimsToOperandDims from
    List.mem_singleton.not.mpr (Fin.ne_of_val_ne Nat.one_ne_zero))]

/-- The row axis is inserted: the window has no coordinate on it … -/
theorem scatterRows_window0 (j : (⟨2, ![E, C]⟩ : Shape).Idx) : (scatterRows N C E wf).window j (0 : Fin 2) = 0 := by
  unfold ScatterDims.window
  rw [dif_neg]
  simp [ScatterDims.sKept, Shape.kept]

/-- … and on the column axis it is the update's column. -/
theorem scatterRows_window1 (j : (⟨2, ![E, C]⟩ : Shape).Idx) : (scatterRows N C E wf).window j (1 : Fin 2) = (j 1).val := by
  have hk : (1 : Fin 2) ∈ (scatterRows N C E wf).sKept := by simp [ScatterDims.sKept, Shape.kept]
  unfold ScatterDims.window
  rw [dif_pos hk]
  rfl

/-- Update `(e, k)` lands on element `(i, k')` exactly when its signed index is `i` and `k = k'`. -/
theorem scatterRows_resultIdx_iff (j : (⟨2, ![E, C]⟩ : Shape).Idx) (idx : IVec ⟨2, ![E, 1]⟩ w) (i : (⟨2, ![N, C]⟩ : Shape).Idx) :
    (scatterRows N C E wf).resultIdx? j idx = some i
      ↔ (idx (ix2 (j 0) (0 : Fin 1))).toInt = ((i 0).val : Int) ∧ (j 1).val = (i 1).val := by
  have hi0 : (i 0).val < N := (i 0).isLt
  have hi1 : (i 1).val < C := (i 1).isLt
  have hj1 : (j 1).val < C := (j 1).isLt
  -- the in-range condition, axis by axis
  have hcond : (∀ a, 0 ≤ (scatterRows N C E wf).start j idx a + ((scatterRows N C E wf).window j a : Int)
        ∧ (scatterRows N C E wf).start j idx a + ((scatterRows N C E wf).window j a : Int) < ((⟨2, ![N, C]⟩ : Shape).size a : Int))
      ↔ (0 ≤ (idx (ix2 (j 0) (0 : Fin 1))).toInt ∧ (idx (ix2 (j 0) (0 : Fin 1))).toInt < (N : Int)) := by
    constructor
    · intro hh
      have h0 := hh (0 : Fin 2)
      rw [scatterRows_start0, scatterRows_window0] at h0
      have hsz : ((⟨2, ![N, C]⟩ : Shape).size (0 : Fin 2) : Int) = (N : Int) := rfl
      rw [hsz] at h0
      exact ⟨by omega, by omega⟩
    · intro h a
      match a with
      | ⟨0, _⟩ =>
        show 0 ≤ (scatterRows N C E wf).start j idx (0 : Fin 2) + ((scatterRows N C E wf).window j (0 : Fin 2) : Int)
          ∧ (scatterRows N C E wf).start j idx (0 : Fin 2) + ((scatterRows N C E wf).window j (0 : Fin 2) : Int) < (N : Int)
        rw [scatterRows_start0, scatterRows_window0]
        exact ⟨by omega, by omega⟩
      | ⟨1, _⟩ =>
        show 0 ≤ (scatterRows N C E wf).start j idx (1 : Fin 2) + ((scatterRows N C E wf).window j (1 : Fin 2) : Int)
          ∧ (scatterRows N C E wf).start j idx (1 : Fin 2) + ((scatterRows N C E wf).window j (1 : Fin 2) : Int) < (C : Int)
        rw [scatterRows_start1, scatterRows_window1]
        exact ⟨by omega, by omega⟩
  unfold ScatterDims.resultIdx?
  by_cases h : 0 ≤ (idx (ix2 (j 0) (0 : Fin 1))).toInt ∧ (idx (ix2 (j 0) (0 : Fin 1))).toInt < (N : Int)
  · rw [dif_pos (hcond.mpr h)]
    constructor
    · intro e
      have e0 : ((scatterRows N C E wf).start j idx (0 : Fin 2) + ((scatterRows N C E wf).window j (0 : Fin 2) : Int)).toNat = (i 0).val :=
        congrArg Fin.val (congrFun (Option.some.inj e) (0 : Fin 2))
      have e1 : ((scatterRows N C E wf).start j idx (1 : Fin 2) + ((scatterRows N C E wf).window j (1 : Fin 2) : Int)).toNat = (i 1).val :=
        congrArg Fin.val (congrFun (Option.some.inj e) (1 : Fin 2))
      rw [scatterRows_start0, scatterRows_window0] at e0
      rw [scatterRows_start1, scatterRows_window1] at e1
      exact ⟨by omega, by omega⟩
    · rintro ⟨e0, e1⟩
      refine congrArg some (funext fun a => ?_)
      refine Fin.ext ?_
      match a with
      | ⟨0, _⟩ =>
        show ((scatterRows N C E wf).start j idx (0 : Fin 2) + ((scatterRows N C E wf).window j (0 : Fin 2) : Int)).toNat = (i 0).val
        rw [scatterRows_start0, scatterRows_window0]; omega
      | ⟨1, _⟩ =>
        show ((scatterRows N C E wf).start j idx (1 : Fin 2) + ((scatterRows N C E wf).window j (1 : Fin 2) : Int)).toNat = (i 1).val
        rw [scatterRows_start1, scatterRows_window1]; omega
  · rw [dif_neg (fun hh => h (hcond.mp hh))]
    constructor
    · intro e; exact absurd e (by simp)
    · rintro ⟨e0, -⟩; exact absurd ⟨by omega, by omega⟩ h

/-- Element `(i, k)` ends as itself plus the sum, over the updates `e` whose signed index is `i`, of update `(e, k)`. -/
theorem scatterAddRows_apply (x : (⟨2, ![N, C]⟩ : Shape).Idx → EReal) (idx : IVec ⟨2, ![E, 1]⟩ w)
    (upd : (⟨2, ![E, C]⟩ : Shape).Idx → EReal) (i : (⟨2, ![N, C]⟩ : Shape).Idx) :
    Ideal.hostScatterAdd (scatterRows N C E wf) x idx upd i
      = x i + ∑ e ∈ Finset.univ.filter (fun e : Fin E => (idx (ix2 e (0 : Fin 1))).toInt = ((i 0).val : Int)), upd (ix2 e (i 1)) := by
  unfold Ideal.hostScatterAdd
  congr 1
  symm
  refine Finset.sum_bij (fun e _ => (ix2 e (i 1) : (⟨2, ![E, C]⟩ : Shape).Idx)) ?_ ?_ ?_ ?_
  · intro e he
    have he' : (idx (ix2 e (0 : Fin 1))).toInt = ((i 0).val : Int) := (Finset.mem_filter.mp he).2
    exact Finset.mem_filter.mpr ⟨Finset.mem_univ _, (scatterRows_resultIdx_iff wf _ idx i).mpr ⟨he', rfl⟩⟩
  · intro e1 _ e2 _ h
    exact congrFun h (0 : Fin 2)
  · intro j hj
    have hj' := (scatterRows_resultIdx_iff wf j idx i).mp (Finset.mem_filter.mp hj).2
    refine ⟨j 0, Finset.mem_filter.mpr ⟨Finset.mem_univ _, hj'.1⟩, ?_⟩
    have h1 : j 1 = i 1 := Fin.ext hj'.2
    funext a
    match a with
    | ⟨0, _⟩ => rfl
    | ⟨1, _⟩ => exact h1.symm
  · intro e _; rfl

/-- The same at an index given by its coordinates. -/
theorem scatterAddRows_apply_ix (x : (⟨2, ![N, C]⟩ : Shape).Idx → EReal) (idx : IVec ⟨2, ![E, 1]⟩ w)
    (upd : (⟨2, ![E, C]⟩ : Shape).Idx → EReal) (p : Fin N) (q : Fin C) :
    Ideal.hostScatterAdd (scatterRows N C E wf) x idx upd (ix2 p q)
      = x (ix2 p q) + ∑ e ∈ Finset.univ.filter (fun e : Fin E => (idx (ix2 e (0 : Fin 1))).toInt = ((p.val : ℕ) : Int)), upd (ix2 e q) :=
  scatterAddRows_apply wf x idx upd (ix2 p q)

end ScatterRows

end Idealize.ShloMosaic.RowIndexing

end
-- ==== Proof.KerReadLemmas.lean ====
/-
  Pieces of the propagation step read at an index: a flat vector viewed as a column, a column spread over the columns
  of a matrix, the zero and one words broadcast to a shape, the index word moved up by the number of nodes when
  negative, the positive-degree test, and an accumulating scatter at a column of index words written as a sum over
  the edges whose word, read signed, is the element's number.
-/
import proofs.«161461_j70540542869949_1_alg».proof.Proof.KerTerm
import proofs.«161461_j70540542869949_1_alg».proof.Proof.LibRowIndexing
import Idealize.ShloMosaic.Lib.IdealHost
import Idealize.ShloMosaic.Lib.Pipeline.Value

noncomputable section

open scoped BigOperators

namespace Cert.KerTerm

open Cert.KernelIdeal Cert.Spec Idealize.ShloMosaic Idealize.ShloMosaic.ValueIdx

variable [Facts₀]
open Facts₀

/-- A flat vector viewed as a column reads, at `(e, u)`, the vector at `e`. -/
theorem col_apply {α : Type} {n : ℕ} (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) := by
  refine broadcastInDim_apply _ h x _ (ix1 e) fun a => ?_
  match a with
  | ⟨0, _⟩ =>
    show e.val = if n = 1 then 0 else e.val
    split
    · have := e.isLt; omega
    · rfl

/-- A column spread over the columns of a matrix reads, at `(p, c)`, the column at `(p, 0)`. -/
theorem spread_apply {α : Type} {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply _ h v _ (ix2 p (0 : Fin 1)) fun ax => ?_
  match ax with
  | ⟨0, _⟩ =>
    show p.val = if a = 1 then 0 else p.val
    split
    · have := p.isLt; omega
    · rfl
  | ⟨1, _⟩ => rfl

/-- The zero word and the one word broadcast to any shape read zero and one. -/
theorem zeros_apply {T : Shape} (h : (⟨0, ![]⟩ : Shape).BroadcastsInDim T ![]) (j : T.Idx) :
    broadcastInDim T ![] h (constant (F := Ideal) S_ .f32 0x00000000#32) j = (0 : EReal) :=
  (broadcastInDim_scalar_apply h _ j).trans Ideal.ofBits_zero_f32

theorem ones_apply {T : Shape} (h : (⟨0, ![]⟩ : Shape).BroadcastsInDim T ![]) (j : T.Idx) :
    broadcastInDim T ![] h (constant (F := Ideal) S_ .f32 0x3F800000#32) j = (1 : EReal) :=
  (broadcastInDim_scalar_apply h _ j).trans Ideal.ofBits_one_f32

/-- The signed comparison with zero and the wrapping addition select the wrapped word. -/
theorem wrap_select (x : BitVec 32) :
    Scalar.select (IntOp.cmpi .slt x 0#32) (IntOp.addi x 100000#32) x = wrapWord x := by
  unfold wrapWord Scalar.select IntOp.cmpi IntOp.addi
  by_cases h : x.toInt < 0
  · have hs : x.slt 0#32 = true := by simp [BitVec.slt, h]
    simp [hs, h]
  · have hs : x.slt 0#32 = false := by simp [BitVec.slt, h]
    simp [hs, h]

/-- An index word as a gather's start: the wrapped word. -/
theorem wrapCol_apply (a : IVec S640000 32) (e : Fin 640000) (u : Fin 1) :
    wrapCol a (ix2 e u) = wrapWord (a (ix1 e)) := by
  unfold wrapCol
  rw [col_apply]
  exact wrap_select (a (ix1 e))

/-- The positive-degree test selects the inverse square root or zero. -/
theorem disVec_apply (deg : FVec Ideal S100000 .f32) (r : Fin 100000) :
    disVec deg (ix1 r) = disOf (deg (ix1 r)) := by
  unfold disVec disOf
  rw [select_apply, cmpf_apply, zeros_apply]
  show Scalar.select (Ideal.cmp .ogt (deg (ix1 r)) 0) (Ideal.rsqrt (deg (ix1 r)))
    (broadcastInDim S100000 ![] bcast_S_S100000 (constant (F := Ideal) S_ .f32 0x00000000#32) (ix1 r)) = _
  rw [zeros_apply]
  unfold Scalar.select Ideal.cmp
  by_cases h : (0 : EReal) < deg (ix1 r)
  · simp [h]
  · simp [h]

/-- A sum over the indices of a flat shape filtered by the word at the coordinate is the same sum over the coordinate. -/
theorem sum_filter_idx1 {M : Type} [AddCommMonoid M] {n : ℕ} (a : IVec ⟨1, ![n]⟩ 32) (c : Int)
    (f : (⟨1, ![n]⟩ : Shape).Idx → M) :
    ∑ j ∈ Finset.univ.filter (fun j : (⟨1, ![n]⟩ : Shape).Idx => (a (ix1 (j 0))).toInt = c), f j
      = ∑ e ∈ Finset.univ.filter (fun e : Fin n => (a (ix1 e)).toInt = c), f (ix1 e) := by
  symm
  refine Finset.sum_bij (fun e _ => (ix1 e : (⟨1, ![n]⟩ : Shape).Idx)) ?_ ?_ ?_ ?_
  · intro e he
    exact Finset.mem_filter.mpr ⟨Finset.mem_univ _, (Finset.mem_filter.mp he).2⟩
  · intro e1 _ e2 _ h
    exact congrFun h (0 : Fin 1)
  · intro j hj
    exact ⟨j 0, Finset.mem_filter.mpr ⟨Finset.mem_univ _, (Finset.mem_filter.mp hj).2⟩, (eq_ix1 j).symm⟩
  · intro e _
    rfl

/-- A flat array accumulated at a column of index words that is a flat vector of words viewed as a column:
    element `r` ends as itself plus the updates whose word, read signed, is `r`. -/
theorem scatterFlat_col_apply {N E : ℕ} (wf : ScatterDims.WF ⟨1, ![N]⟩ ⟨2, ![E, 1]⟩ ⟨1, ![E]⟩ [] [0] [0] 1)
    (hb : (⟨1, ![E]⟩ : Shape).BroadcastsInDim ⟨2, ![E, 1]⟩ ![0])
    (x : (⟨1, ![N]⟩ : Shape).Idx → EReal) (a : IVec ⟨1, ![E]⟩ 32) (upd : (⟨1, ![E]⟩ : Shape).Idx → EReal) (r : Fin N) :
    Ideal.hostScatterAdd (RowIndexing.scatterFlat N E wf) x (broadcastInDim ⟨2, ![E, 1]⟩ ![0] hb a) upd (ix1 r)
      = x (ix1 r) + ∑ e ∈ Finset.univ.filter (fun e : Fin E => (a (ix1 e)).toInt = ((r.val : ℕ) : Int)), upd (ix1 e) := by
  rw [RowIndexing.scatterAddFlat_apply]
  congr 1
  have hc : ∀ j : (⟨1, ![E]⟩ : Shape).Idx,
      broadcastInDim ⟨2, ![E, 1]⟩ ![0] hb a (ix2 (j 0) (0 : Fin 1)) = a (ix1 (j 0)) := fun j => col_apply hb a (j 0) 0
  simp only [hc]
  exact sum_filter_idx1 a ((r.val : ℕ) : Int) upd

/-- The host's accumulating scatter at the extended reals is the sum form. -/
theorem hostScatterAdd_ideal {s si su : Shape} {w : ℕ} (d : ScatterDims s si su) (x : FVec Ideal s .f32) (idx : IVec si w)
    (upd : FVec Ideal su .f32) : Host.scatterAdd (F := Ideal) d x idx upd = Ideal.hostScatterAdd d x idx upd := rfl

end Cert.KerTerm

end
-- ==== Proof.KerReadProp.lean ====
/-
  One propagation step of the kernel program, read entry by entry.

  Node `r`'s degree is the sum of the weights of the edges whose target word, read signed, is `r`, plus one; `dis`
  is `disOf` of it. A gather at an index word reads the row `rowOf` of the word. So edge `e`'s coefficient is
  `dis(rowOf src[e]) · w[e] · dis(rowOf dst[e])`, its message at column `q` is `hl[rowOf src[e], q]` times the
  coefficient, and entry `(p, q)` after the step is the sum of the messages of the edges whose target word is `p`,
  plus `hl[p, q] · (dis p · dis p)`. With the bias added this is `selfApartAt` over the edge list
  `gs e = rowOf src[e]`, `gd e = rowOf dst[e]`, `tgt e = dst[e]` read signed, `w e = ew[e]`.
-/
import proofs.«161461_j70540542869949_1_alg».proof.Proof.KerReadLemmas

noncomputable section

open scoped BigOperators

namespace Cert.KerTerm

open Cert.KernelIdeal Cert.Spec Idealize.ShloMosaic Idealize.ShloMosaic.ValueIdx

variable [Facts₀]
open Facts₀

/-- The degree of node `r`: the weights of the edges whose target word is `r`, plus one. -/
theorem degOf_apply (dst : IVec S640000 32) (ew : FVec Ideal S640000 .f32) (r : Fin 100000) :
    degOf dst ew (ix1 r)
      = degAt (E := 640000) (fun e => (dst (ix1 e)).toInt) (fun e => ew (ix1 e)) r + 1 := by
  have hd : scatter_S100000_S640000x1_S640000_n_0_0_1
      = RowIndexing.scatterFlat 100000 640000 scatter_S100000_S640000x1_S640000_n_0_0_1_wf := rfl
  unfold degOf degAt
  rw [addf_apply, ones_apply, hostScatterAdd_ideal, hd, scatterFlat_col_apply, zeros_apply, zero_add]

/-- `dis` gathered at a wrapped index word reads `dis` at the word's row. -/
theorem gatherDis_apply (dis : FVec Ideal S100000 .f32) (a : IVec S640000 32) (e : Fin 640000) :
    Host.gather gather_S100000_S640000x1_S640000_n_0_n_n_0_1_1 dis (wrapCol a) (ix1 e)
      = dis (ix1 (rowOf (a (ix1 e)))) := by
  have hg : gather_S100000_S640000x1_S640000_n_0_n_n_0_1_1
      = RowIndexing.gatherFlat 100000 640000 gather_S100000_S640000x1_S640000_n_0_n_n_0_1_1_wf := rfl
  rw [hg, RowIndexing.gatherFlat_apply_ix (by norm_num)]
  exact congrArg (fun w : BitVec 32 => dis (ix1 (⟨min w.toInt.toNat 99999, by omega⟩ : Fin 100000)))
    (wrapCol_apply a e 0)

/-- A matrix gathered by rows at a wrapped index word reads the matrix at the word's row. -/
theorem gatherRows_apply (hl : FVec Ideal S100000x128 .f32) (a : IVec S640000 32) (e : Fin 640000) (q : Fin 128) :
    Host.gather gather_S100000x128_S640000x1_S640000x128_1_0_n_n_0_1_1128 hl (wrapCol a) (ix2 e q)
      = hl (ix2 (rowOf (a (ix1 e))) q) := by
  have hg : gather_S100000x128_S640000x1_S640000x128_1_0_n_n_0_1_1128
      = RowIndexing.gatherRows 100000 128 640000 gather_S100000x128_S640000x1_S640000x128_1_0_n_n_0_1_1128_wf := rfl
  rw [hg, RowIndexing.gatherRows_apply_ix (by norm_num)]
  exact congrArg (fun w : BitVec 32 => hl (ix2 (⟨min w.toInt.toNat 99999, by omega⟩ : Fin 100000) q))
    (wrapCol_apply a e 0)

/-- An edge's coefficient. -/
theorem normOf_apply (dis : FVec Ideal S100000 .f32) (src dst : IVec S640000 32) (ew : FVec Ideal S640000 .f32)
    (e : Fin 640000) :
    normOf dis src dst ew (ix1 e)
      = dis (ix1 (rowOf (src (ix1 e)))) * ew (ix1 e) * dis (ix1 (rowOf (dst (ix1 e)))) := by
  unfold normOf
  rw [mulf_apply, mulf_apply, gatherDis_apply, gatherDis_apply]

/-- An edge's message. -/
theorem msgOf_apply (hl : FVec Ideal S100000x128 .f32) (src : IVec S640000 32) (nrm : FVec Ideal S640000 .f32)
    (e : Fin 640000) (q : Fin 128) :
    msgOf hl src nrm (ix2 e q) = hl (ix2 (rowOf (src (ix1 e))) q) * nrm (ix1 e) := by
  unfold msgOf
  rw [mulf_apply, spread_apply, col_apply, gatherRows_apply]

/-- The messages summed at their targets. -/
theorem aggOf_apply (dst : IVec S640000 32) (msg : FVec Ideal S640000x128 .f32) (p : Fin 100000) (q : Fin 128) :
    aggOf dst msg (ix2 p q)
      = ∑ e ∈ Finset.univ.filter (fun e : Fin 640000 => (dst (ix1 e)).toInt = ((p.val : ℕ) : Int)), msg (ix2 e q) := by
  have hd : scatter_S100000x128_S640000x1_S640000x128_1_0_0_1
      = RowIndexing.scatterRows 100000 128 640000 scatter_S100000x128_S640000x1_S640000x128_1_0_0_1_wf := rfl
  have hc : ∀ e : Fin 640000,
      broadcastInDim S640000x1 ![0] bcast_S640000_S640000x1_0 dst (ix2 e (0 : Fin 1)) = dst (ix1 e) :=
    fun e => col_apply _ dst e 0
  unfold aggOf
  rw [hostScatterAdd_ideal, hd, RowIndexing.scatterAddRows_apply_ix, zeros_apply, zero_add]
  simp only [hc]

/-- The node's own row scaled by `dis · dis`. -/
theorem selfOf_apply (hl : FVec Ideal S100000x128 .f32) (dis : FVec Ideal S100000 .f32) (p : Fin 100000) (q : Fin 128) :
    selfOf hl dis (ix2 p q) = hl (ix2 p q) * (dis (ix1 p) * dis (ix1 p)) := by
  unfold selfOf
  rw [mulf_apply, spread_apply, col_apply, mulf_apply]

/-- One propagation step and the bias, entry by entry: the layer before normalisation with the self-loops kept apart,
    over the edge list read off the source and target words. -/
theorem prop_addBias_apply (hl : FVec Ideal S100000x128 .f32) (src dst : IVec S640000 32)
    (ew : FVec Ideal S640000 .f32) (b : Cert.Spec.Col 128) (p : Fin 100000) (q : Fin 128) :
    Cert.Spec.addBias (prop hl src dst ew) b (ix2 p q)
      = Cert.Spec.selfApartAt (E := 640000) (fun e => Cert.Spec.rowOf (src (ix1 e)))
          (fun e => Cert.Spec.rowOf (dst (ix1 e))) (fun e => (dst (ix1 e)).toInt) (fun e => ew (ix1 e)) hl b p q := by
  show prop hl src dst ew (ix2 p q) + b (ix1 q) = _
  unfold Cert.Spec.selfApartAt Cert.Spec.aggAt prop
  rw [addf_apply, aggOf_apply, selfOf_apply]
  simp only [msgOf_apply, normOf_apply, disVec_apply, degOf_apply]

end Cert.KerTerm

end
-- ==== Proof.RefReadSmall.lean ====
/-
  The reference's layout stretches, column means and normalisation, read entry by entry.

  Row `r` of the edge list, flattened, holds at `e` the list's entry `(r, e)`. A row of 128 numbers spread over
  the nodes holds at `(p, q)` the row's entry `q`. The sum over the nodes of a `[100000, 128]` array holds at `q`
  the sum over `p` of the entries `(p, q)` (the zero it starts from dropped). The column mean is that sum divided
  by the number of nodes, and the normalised positive part is, at `(p, q)`,
  `max ((γ_q · (z_pq − μ_q)) · rsqrt (σ²_q + ε) + β_q) 0`.
-/
import proofs.«161461_j70540542869949_1_alg».proof.Proof.RefTerm
import Idealize.ShloMosaic.Lib.IdealHost
import Idealize.ShloMosaic.Lib.ValueLayout
import Idealize.ShloMosaic.Lib.Pipeline.Value
import Idealize.ShloMosaic.PureOps.Ideal.Laws

noncomputable section

open scoped BigOperators

namespace Cert.RefTerm

open Cert.ReferenceIdeal Cert.ReferenceIdeal.Facts₀ Cert.ReferenceIdeal.Facts Cert.Spec
open Idealize.ShloMosaic Idealize.ShloMosaic.ValueIdx

variable [Facts]

/-! ## The edge list's rows -/

theorem srcOf_apply (ei : IVec S2x640000 32) (e : Fin 640000) : srcOf ei (ix1 e) = ei (ix2 (0 : Fin 2) e) := by
  unfold srcOf
  refine (shapeCast_1a_a_apply _ _ e).trans ?_
  exact slice2_axis0_apply 0 ei _ (0 : Fin 1) e (0 : Fin 2) rfl

theorem dstOf_apply (ei : IVec S2x640000 32) (e : Fin 640000) : dstOf ei (ix1 e) = ei (ix2 (1 : Fin 2) e) := by
  unfold dstOf
  refine (shapeCast_1a_a_apply _ _ e).trans ?_
  exact slice2_axis0_apply 1 ei _ (0 : Fin 1) e (1 : Fin 2) rfl

/-! ## A row spread over the nodes, and a number spread over a shape -/

theorem overNodes_apply (v : FVec Ideal S128 .f32) (p : Fin 100000) (q : Fin 128) : overNodes v (ix2 p q) = v (ix1 q) := by
  unfold overNodes
  refine (broadcastInDim_apply _ _ _ (ix2 p q) (ix2 (0 : Fin 1) q)
    (fun a => by match a with | ⟨0, _⟩ => rfl | ⟨1, _⟩ => rfl)).trans ?_
  exact broadcastInDim_apply _ _ _ (ix2 (0 : Fin 1) q) (ix1 q) (fun a => by match a with | ⟨0, _⟩ => rfl)

/-- A float word spread over a shape is that word's value at every index. -/
theorem splat_apply {s : Shape} (h : S_.BroadcastsInDim s (![] : Fin 0 → Fin s.rank)) (b : BitVec 32) (j : s.Idx) :
    broadcastInDim s ![] h (constant (F := Ideal) S_ .f32 b) j = Ideal.ofBits .f32 b :=
  broadcastInDim_scalar_apply h _ j

/-! ## Column sums and means -/

/-- The sum over the nodes, started from `init`, at column `q`. -/
theorem hostColSum_apply (h' : S100000x128.ReducesTo [0] S128) (x : FVec Ideal S100000x128 .f32) (init : EReal)
    (q : Fin 128) : Ideal.hostReduceAdd h' x init (ix1 q) = init + ∑ p : Fin 100000, x (ix2 p q) := by
  have h : S100000x128.Reduces [0] S128 := by decide
  refine (Ideal.hostReduceAdd_single h' h x init (ix1 q)).trans ?_
  refine congrArg (init + ·) (Finset.sum_congr rfl fun k _ => congrArg x ?_)
  funext c
  apply Fin.ext
  match c with
  | ⟨0, _⟩ => rfl
  | ⟨1, _⟩ => rfl

theorem colSumOf_apply (z : FVec Ideal S100000x128 .f32) (q : Fin 128) :
    colSumOf z (ix1 q) = ∑ p : Fin 100000, z (ix2 p q) := by
  unfold colSumOf
  refine (hostReduceAdd_apply z _ _ _ (ix1 q)).trans ?_
  refine (hostColSum_apply _ z _ q).trans ?_
  show Ideal.ofBits .f32 0x00000000#32 + _ = _
  rw [Ideal.ofBits_zero_f32, zero_add]

theorem meanOf_apply (z : FVec Ideal S100000x128 .f32) (q : Fin 128) : meanOf z (ix1 q) = Cert.Spec.meanAt z q := by
  unfold meanOf Cert.Spec.meanAt Cert.Spec.nNodes
  refine (hostDivf_apply _ _ (ix1 q)).trans ?_
  rw [colSumOf_apply, splat_apply]

/-! ## The normalised positive part -/

theorem bnRelu_apply (z : FVec Ideal S100000x128 .f32) (mean var g be : FVec Ideal S128 .f32) (p : Fin 100000) (q : Fin 128) :
    bnRelu z mean var g be (ix2 p q) = Cert.Spec.bnReluAt z mean var g be p q := by
  unfold bnRelu Cert.Spec.bnReluAt Cert.Spec.eps
  show max ((overNodes g (ix2 p q) * (z (ix2 p q) - overNodes mean (ix2 p q)))
        * overNodes (Host.rsqrt (F := Ideal)
            (addf var (broadcastInDim S128 ![] bcast_S_S128 (constant (F := Ideal) S_ .f32 0x3727C5AC#32)))) (ix2 p q)
      + overNodes be (ix2 p q))
    (broadcastInDim S100000x128 ![] bcast_S_S100000x128 (constant (F := Ideal) S_ .f32 0x00000000#32) (ix2 p q)) = _
  rw [overNodes_apply, overNodes_apply, overNodes_apply, overNodes_apply, splat_apply, Ideal.ofBits_zero_f32]
  show max ((g (ix1 q) * (z (ix2 p q) - mean (ix1 q)))
        * Ideal.rsqrt (var (ix1 q)
            + broadcastInDim S128 ![] bcast_S_S128 (constant (F := Ideal) S_ .f32 0x3727C5AC#32) (ix1 q))
      + be (ix1 q)) 0 = _
  rw [splat_apply]

theorem bnRelu_eq (z : FVec Ideal S100000x128 .f32) (mean var g be : FVec Ideal S128 .f32) :
    bnRelu z mean var g be = Cert.Spec.bnRelu z mean var g be := by
  funext i
  obtain ⟨p, q, rfl⟩ : ∃ (p : Fin 100000) (q : Fin 128), i = ix2 p q := ⟨i 0, i 1, eq_ix2 i⟩
  exact bnRelu_apply z mean var g be p q

end Cert.RefTerm

end
-- ==== Proof.LibPlainDot.lean ====
/-
  The plain matrix product read at an index.

  For a left operand `[M, K]`, a right operand `[K, N]` and a result `[M, N]` with the one contracted axis the left's
  columns and the right's rows, the operand indices at result index `(p, q)` and contraction position `k` are `(p, k)`
  and `(k, q)`; so the contraction's sum, taken over the contraction shape's indices, is the textbook
  `Σ_{k < K} lhs (p, k) · rhs (k, q)`. At the extended reals both a kernel's matrix unit product into a zero
  accumulator and the host's `dot_general` are that sum.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The left operand's row is the result's row … -/
theorem lhs_row (i : (⟨2, ![M, N]⟩ : Shape).Idx) (k : (DotDims.plain M K N).contr.Idx) :
    ((DotDims.plain M K N).lhsIdx i k (0 : Fin 2)).val = (i 0).val := by
  unfold DotDims.lhsIdx
  rw [dif_neg (show ¬ (0 : Fin 2) ∈ (DotDims.plain M K N).lhsBatch from List.not_mem_nil),
    dif_pos (show (0 : Fin 2) ∈ (DotDims.plain M K N).lhsNonContracting from List.mem_singleton.mpr rfl)]
  rfl

/-- … its column the contraction position; -/
theorem lhs_col (i : (⟨2, ![M, N]⟩ : Shape).Idx) (k : (DotDims.plain M K N).contr.Idx) :
    ((DotDims.plain M K N).lhsIdx i k (1 : Fin 2)).val = (k ⟨0, Nat.one_pos⟩).val :=
  (DotDims.plain M K N).lhsIdx_val_of_single rfl i k

/-- the right operand's row is the contraction position … -/
theorem rhs_row (i : (⟨2, ![M, N]⟩ : Shape).Idx) (k : (DotDims.plain M K N).contr.Idx) :
    ((DotDims.plain M K N).rhsIdx i k (0 : Fin 2)).val = (k ⟨0, Nat.one_pos⟩).val :=
  (DotDims.plain M K N).rhsIdx_val_of_single rfl i k

/-- … and its column the result's column. -/
theorem rhs_col (i : (⟨2, ![M, N]⟩ : Shape).Idx) (k : (DotDims.plain M K N).contr.Idx) :
    ((DotDims.plain M K N).rhsIdx i k (1 : Fin 2)).val = (i 1).val := by
  unfold DotDims.rhsIdx
  rw [dif_neg (show ¬ (1 : Fin 2) ∈ (DotDims.plain M K N).rhsBatch from List.not_mem_nil),
    dif_pos (show (1 : Fin 2) ∈ (DotDims.plain M K N).rhsNonContracting from List.mem_singleton.mpr rfl)]
  rfl

/-- The contraction's sum at result index `(p, q)` is `Σ_{k < K} lhs (p, k) · rhs (k, q)`. -/
theorem contraction_sum (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- A kernel's product into the zero accumulator, at `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply _ prec lhs rhs (ix2 p q)).trans (contraction_sum lhs rhs p q)

/-- The host's `dot_general`, at `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) :=
  (Ideal.dotGeneral_apply _ prec sched lhs rhs (ix2 p q)).trans (contraction_sum lhs rhs p q)

end Idealize.ShloMosaic.PlainDot

end
-- ==== Proof.RefReadEdgeW.lean ====
/-
  The reference's edge weights, read entry by entry.

  The hidden layer at edge `e`, unit `j` is the positive part of `∑_k ea[e,k] · Wm1[j,k] + bm1[j]`: the product with
  the transposed first weight matrix reads that matrix at `(j, k)`. The weight of edge `e` is
  `∑_j hidden[e,j] · Wm2[0,j] + bm2[0]`, the one column of the second product flattened.
-/
import proofs.«161461_j70540542869949_1_alg».proof.Proof.RefReadSmall
import proofs.«161461_j70540542869949_1_alg».proof.Proof.LibPlainDot
import proofs.«161461_j70540542869949_1_alg».proof.Proof.LibKeepdims

noncomputable section

open scoped BigOperators

namespace Cert.RefTerm

open Cert.ReferenceIdeal Cert.ReferenceIdeal.Facts₀ Cert.ReferenceIdeal.Facts Cert.Spec
open Idealize.ShloMosaic Idealize.ShloMosaic.ValueIdx

variable [Facts]

/-- The first product of the edge perceptron, at `(e, j)`. -/
theorem dotAttr_apply (lhs : FVec Ideal S640000x16 .f32) (rhs : FVec Ideal S16x128 .f32) (e : Fin 640000) (j : Fin 128) :
    Host.dotGeneral (F := Ideal) dot_S640000x16_S16x128_S640000x128_1_0_0_1_n_n none lhs rhs (ix2 e j)
      = ∑ k : Fin 16, lhs (ix2 e k) * rhs (ix2 k j) :=
  PlainDot.dotGeneral_apply none .single lhs rhs e j

/-- The second product of the edge perceptron, at `(e, u)`. -/
theorem dotHidden_apply (lhs : FVec Ideal S640000x128 .f32) (rhs : FVec Ideal S128x1 .f32) (e : Fin 640000) (u : Fin 1) :
    Host.dotGeneral (F := Ideal) dot_S640000x128_S128x1_S640000x1_1_0_0_1_n_n none lhs rhs (ix2 e u)
      = ∑ j : Fin 128, lhs (ix2 e j) * rhs (ix2 j u) :=
  PlainDot.dotGeneral_apply none .single lhs rhs e u

theorem edgeHidden_apply (ea : FVec Ideal S640000x16 .f32) (Wm1 : FVec Ideal S128x16 .f32) (bm1 : FVec Ideal S128 .f32)
    (e : Fin 640000) (j : Fin 128) :
    edgeHidden ea Wm1 bm1 (ix2 e j) = max ((∑ k : Fin 16, ea (ix2 e k) * Wm1 (ix2 j k)) + bm1 (ix1 j)) 0 := by
  unfold edgeHidden
  refine (maximumf_apply _ _ (ix2 e j)).trans ?_
  rw [splat_apply, Ideal.ofBits_zero_f32]
  refine congrArg (max · 0) ?_
  refine (addf_apply _ _ (ix2 e j)).trans ?_
  rw [dotAttr_apply]
  refine congrArg₂ (· + ·) (Finset.sum_congr rfl fun k _ => congrArg (ea (ix2 e k) * ·) (transpose_ix2_apply Wm1 _ k j)) ?_
  refine (broadcastInDim_apply _ _ _ (ix2 e j) (ix2 (0 : Fin 1) j)
    (fun a => by match a with | ⟨0, _⟩ => rfl | ⟨1, _⟩ => rfl)).trans ?_
  exact broadcastInDim_apply _ _ _ (ix2 (0 : Fin 1) j) (ix1 j) (fun a => by match a with | ⟨0, _⟩ => rfl)

theorem edgeW_apply (ea : FVec Ideal S640000x16 .f32) (Wm1 : FVec Ideal S128x16 .f32) (bm1 : FVec Ideal S128 .f32)
    (Wm2 : FVec Ideal S1x128 .f32) (bm2 : FVec Ideal S1 .f32) (e : Fin 640000) :
    edgeW ea Wm1 bm1 Wm2 bm2 (ix1 e) = Cert.Spec.edgeWAt ea Wm1 bm1 Wm2 bm2 e := by
  unfold edgeW Cert.Spec.edgeWAt
  refine (Keepdims.shapeCast_a1_a_apply _ _ e).trans ?_
  refine (addf_apply _ _ (ix2 e (0 : Fin 1))).trans ?_
  rw [dotHidden_apply]
  refine congrArg₂ (· + ·) (Finset.sum_congr rfl fun j _ => ?_) ?_
  · rw [edgeHidden_apply]
    exact congrArg (fun s => max ((∑ k : Fin 16, ea (ix2 e k) * Wm1 (ix2 j k)) + bm1 (ix1 j)) 0 * s)
      (transpose_ix2_apply Wm2 _ j (0 : Fin 1))
  · refine (broadcastInDim_apply _ _ _ (ix2 e (0 : Fin 1)) (ix2 (0 : Fin 1) (0 : Fin 1))
      (fun a => by match a with | ⟨0, _⟩ => rfl | ⟨1, _⟩ => rfl)).trans ?_
    exact broadcastInDim_apply _ _ _ (ix2 (0 : Fin 1) (0 : Fin 1)) (ix1 (0 : Fin 1)) (fun a => by match a with | ⟨0, _⟩ => rfl)

end Cert.RefTerm

end
-- ==== Proof.RefReadVar.lean ====
/-
  The reference's column variance, read entry by entry.

  The reference subtracts from every entry its column's mean (the column sum divided by the number of nodes, kept as a
  row), squares, sums over the nodes and divides by the number of nodes less a correction that is the integer zero;
  the quotient is guarded by that divisor being positive. The divisor is the number of nodes, which is positive, so
  the variance at column `q` is the mean of the squared deviations from the column's mean.
-/
import proofs.«161461_j70540542869949_1_alg».proof.Proof.RefReadSmall

noncomputable section

open scoped BigOperators

namespace Cert.RefTerm

open Cert.ReferenceIdeal Cert.ReferenceIdeal.Facts₀ Cert.ReferenceIdeal.Facts Cert.Spec
open Idealize.ShloMosaic Idealize.ShloMosaic.ValueIdx

variable [Facts]

/-- The number of nodes, as the float word spells it, is the real number 100000. -/
theorem nNodes_eq : Cert.Spec.nNodes = ((100000 : ℝ) : EReal) := by
  unfold Cert.Spec.nNodes
  simp [Ideal.ofBits, Ideal.ieee, -EReal.coe_mul]
  norm_num

theorem nNodes_pos : (0 : EReal) < Cert.Spec.nNodes := by
  rw [nNodes_eq]
  exact EReal.coe_pos.mpr (by norm_num)

/-- The divisor is the number of nodes: the correction is the integer zero. -/
theorem divisor_apply : divisor ix0 = Cert.Spec.nNodes := by
  unfold divisor Cert.Spec.nNodes
  show Ideal.ofBits .f32 0x47C35000#32 - ((((0#32 : BitVec 32).toInt : ℤ) : ℝ) : EReal) = _
  have h0 : (0#32 : BitVec 32).toInt = 0 := by decide
  rw [h0, Int.cast_zero, EReal.coe_zero, sub_zero]

/-- Every entry less its column's mean. -/
theorem centred_apply (z : FVec Ideal S100000x128 .f32) (p : Fin 100000) (q : Fin 128) :
    centred z (ix2 p q) = z (ix2 p q) - Cert.Spec.meanAt z q := by
  unfold centred Cert.Spec.meanAt Cert.Spec.nNodes
  refine (subf_apply _ _ (ix2 p q)).trans (congrArg (z (ix2 p q) - ·) ?_)
  refine (broadcastInDim_apply _ _ _ (ix2 p q) (ix2 (0 : Fin 1) q)
    (fun a => by match a with | ⟨0, _⟩ => rfl | ⟨1, _⟩ => rfl)).trans ?_
  refine (hostDivf_apply _ _ (ix2 (0 : Fin 1) q)).trans ?_
  have e1 : broadcastInDim S1x128 ![1] bcast_S128_S1x128_1 (colSumOf z) (ix2 (0 : Fin 1) q) = ∑ p : Fin 100000, z (ix2 p q) :=
    (broadcastInDim_apply _ _ _ (ix2 (0 : Fin 1) q) (ix1 q) (fun a => by match a with | ⟨0, _⟩ => rfl)).trans
      (colSumOf_apply z q)
  rw [splat_apply, e1]

theorem varOf_apply (z : FVec Ideal S100000x128 .f32) (q : Fin 128) : varOf z (ix1 q) = Cert.Spec.varDevAt z q := by
  unfold varOf Cert.Spec.varDevAt
  refine (select_apply _ _ _ (ix1 q)).trans ?_
  -- the guard holds
  have hc : broadcastInDim S128 ![] bcast_S_S128 (cmpf .ogt divisor (constant (F := Ideal) S_ .f32 0x00000000#32)) (ix1 q) = 1#1 := by
    refine (broadcastInDim_scalar_apply _ _ (ix1 q)).trans ?_
    show Ideal.cmp .ogt (divisor ix0) (Ideal.ofBits .f32 0x00000000#32) = 1#1
    rw [divisor_apply, Ideal.ofBits_zero_f32]
    show BitVec.ofBool (decide ((0 : EReal) < Cert.Spec.nNodes)) = 1#1
    rw [decide_eq_true nNodes_pos]
    rfl
  rw [hc, select_one]
  refine (hostDivf_apply _ _ (ix1 q)).trans ?_
  rw [colSumOf_apply, broadcastInDim_scalar_apply, divisor_apply]
  have e : ∀ p : Fin 100000, mulf (centred z) (centred z) (ix2 p q)
      = (z (ix2 p q) - Cert.Spec.meanAt z q) * (z (ix2 p q) - Cert.Spec.meanAt z q) := fun p => by
    refine (mulf_apply _ _ (ix2 p q)).trans ?_
    rw [centred_apply]
  exact congrArg (fun s => Ideal.div s Cert.Spec.nNodes) (Finset.sum_congr rfl fun p _ => e p)

end Cert.RefTerm

end
-- ==== Proof.RefReadCat.lean ====
/-
  The reference's extended edge list and weights, read entry by entry.

  The reference lists the self-loops after the edges: a column of 640000 edge ends followed by the node numbers
  0 … 99999, and the edge weights followed by 100000 ones. Position `k` below 640000 reads the edge's own entry;
  position `k` from 640000 on reads the node number `k − 640000`, and the weight one. An index word is moved up
  by the number of nodes when it is negative, read as a signed integer. A column of indices, viewed as the
  `[740000, 1]` array a gather or scatter takes, reads at `(k, 0)` the column's entry `k`.
-/
import proofs.«161461_j70540542869949_1_alg».proof.Proof.RefReadSmall

noncomputable section

open scoped BigOperators

namespace Cert.RefTerm

open Cert.ReferenceIdeal Cert.ReferenceIdeal.Facts₀ Cert.ReferenceIdeal.Facts Cert.Spec
open Idealize.ShloMosaic Idealize.ShloMosaic.ValueIdx

variable [Facts]

/-- A two-piece concatenation of a 640000-column and a 100000-column, below the seam. -/
theorem cat_left {α : Type} (x₁ : S640000.Idx → α) (x₂ : S100000.Idx → α) (k : Fin 740000) (hk : k.val < 640000) :
    concatenate S740000 0 [⟨S640000, x₁⟩, ⟨S100000, x₂⟩] concatenates_S640000_S100000_S740000_d0 (ix1 k)
      = x₁ (ix1 ⟨k.val, hk⟩) :=
  concatenate_pair_apply_left (0 : Fin 1) x₁ x₂ _ (ix1 k) rfl (ix1 ⟨k.val, hk⟩)
    (fun b => by match b with | ⟨0, _⟩ => rfl)

/-- The same from the seam on. -/
theorem cat_right {α : Type} (x₁ : S640000.Idx → α) (x₂ : S100000.Idx → α) (k : Fin 740000) (hk : ¬ k.val < 640000) :
    concatenate S740000 0 [⟨S640000, x₁⟩, ⟨S100000, x₂⟩] concatenates_S640000_S100000_S740000_d0 (ix1 k)
      = x₂ (ix1 ⟨k.val - 640000, by have := k.isLt; omega⟩) :=
  concatenate_pair_apply_right (0 : Fin 1) x₁ x₂ _ (ix1 k) rfl rfl (ix1 ⟨k.val - 640000, by have := k.isLt; omega⟩)
    (fun b hb => absurd (Subsingleton.elim _ _) hb)
    (by show (k.val - 640000) + 640000 = k.val; omega)

theorem catIdx_apply (a : IVec S640000 32) (k : Fin 740000) : catIdx a (ix1 k) = Cert.Spec.catWord a k := by
  unfold catIdx Cert.Spec.catWord
  by_cases hk : k.val < 640000
  · rw [dif_pos hk]; exact cat_left _ _ k hk
  · rw [dif_neg hk]; exact cat_right _ _ k hk

theorem catW_apply (ew : FVec Ideal S640000 .f32) (k : Fin 740000) : catW ew (ix1 k) = Cert.Spec.catWeight ew k := by
  unfold catW Cert.Spec.catWeight
  by_cases hk : k.val < 640000
  · rw [dif_pos hk]; exact cat_left _ _ k hk
  · rw [dif_neg hk]
    refine (cat_right _ _ k hk).trans ?_
    rw [splat_apply, Ideal.ofBits_one_f32]

theorem asColumn_apply (a : IVec S740000 32) (k : Fin 740000) : asColumn a (ix2 k (0 : Fin 1)) = a (ix1 k) := by
  unfold asColumn
  exact broadcastInDim_apply _ _ _ (ix2 k (0 : Fin 1)) (ix1 k) (fun b => by match b with | ⟨0, _⟩ => rfl)

/-- A signed comparison with zero reads the sign of the word as an integer. -/
theorem slt_zero_eq (x : BitVec 32) : IntOp.cmpi .slt x 0#32 = 1#1 ↔ x.toInt < 0 := by
  show BitVec.ofBool (x.slt 0#32) = 1#1 ↔ _
  rw [BitVec.slt_eq_decide]
  have h0 : (0#32 : BitVec 32).toInt = 0 := by decide
  rw [h0]
  by_cases h : x.toInt < 0
  · simp [h]
  · simp [h]

theorem wrapIdx_apply (a : IVec S740000 32) (k : Fin 740000) : wrapIdx a (ix1 k) = Cert.Spec.wrapWord (a (ix1 k)) := by
  unfold wrapIdx Cert.Spec.wrapWord
  refine (select_apply _ _ _ (ix1 k)).trans ?_
  show Scalar.select (IntOp.cmpi .slt (a (ix1 k))
      (broadcastInDim S740000 ![] bcast_S_S740000 (constantI S_ 32 0#32) (ix1 k)))
    (IntOp.addi (a (ix1 k)) (broadcastInDim S740000 ![] bcast_S_S740000 (constantI S_ 32 100000#32) (ix1 k))) (a (ix1 k)) = _
  rw [broadcastInDim_scalar_apply, broadcastInDim_scalar_apply]
  show Scalar.select (IntOp.cmpi .slt (a (ix1 k)) 0#32) (a (ix1 k) + 100000#32) (a (ix1 k)) = _
  by_cases h : (a (ix1 k)).toInt < 0
  · rw [(slt_zero_eq _).mpr h, select_one, if_pos h]
  · rw [eq_zero_of_ne_one (fun hc => h ((slt_zero_eq _).mp hc)), select_zero, if_neg h]

end Cert.RefTerm

end
-- ==== Proof.RefReadDeg.lean ====
/-
  The reference's degrees and edge normalisations, read entry by entry.

  The weighted in-degree of node `r` is the sum of the listed weights over the listed edges whose target word, read
  as a signed integer, is exactly `r` (an accumulating scatter drops a target outside the nodes). Its inverse square
  root where it is positive, zero elsewhere, is the node's `dis`. A per-node number read at a listed edge's end
  reads the node `rowOf` of that end's word: moved up when negative, then clamped into the nodes. The normalisation
  of listed edge `k` is `dis(source) · weight · dis(target)`.
-/
import proofs.«161461_j70540542869949_1_alg».proof.Proof.RefReadCat
import proofs.«161461_j70540542869949_1_alg».proof.Proof.LibRowIndexing

noncomputable section

open scoped BigOperators

namespace Cert.RefTerm

open Cert.ReferenceIdeal Cert.ReferenceIdeal.Facts₀ Cert.ReferenceIdeal.Facts Cert.Spec
open Idealize.ShloMosaic Idealize.ShloMosaic.ValueIdx Idealize.ShloMosaic.RowIndexing

variable [Facts]

/-- A sum over the indices of a column whose one coordinate satisfies `P` is the sum over the coordinates that do. -/
theorem sum_filter_ix1 {n : Nat} (P : Fin n → Prop) [DecidablePred P] (Q : (⟨1, ![n]⟩ : Shape).Idx → Prop) [DecidablePred Q]
    (hPQ : ∀ j, Q j ↔ P (j 0)) (f : (⟨1, ![n]⟩ : Shape).Idx → EReal) :
    ∑ j ∈ Finset.univ.filter Q, f j = ∑ e ∈ Finset.univ.filter P, f (ix1 e) := by
  refine Finset.sum_bij' (fun j _ => (j 0 : Fin n)) (fun e _ => (ix1 e : (⟨1, ![n]⟩ : Shape).Idx)) ?_ ?_ ?_ ?_ ?_
  · intro j hj; exact Finset.mem_filter.mpr ⟨Finset.mem_univ _, (hPQ j).mp (Finset.mem_filter.mp hj).2⟩
  · intro e he; exact Finset.mem_filter.mpr ⟨Finset.mem_univ _, (hPQ (ix1 e)).mpr (Finset.mem_filter.mp he).2⟩
  · intro j _; exact (eq_ix1 j).symm
  · intro e _; rfl
  · intro j _; exact congrArg f (eq_ix1 j)

/-- The accumulating scatter of a column of 740000 numbers into the nodes, at node `r`. -/
theorem scatterNodes_apply (x : FVec Ideal S100000 .f32) (idx : IVec S740000x1 32) (upd : FVec Ideal S740000 .f32)
    (r : Fin 100000) :
    Host.scatterAdd (F := Ideal) scatter_S100000_S740000x1_S740000_n_0_0_1 x idx upd (ix1 r)
      = x (ix1 r) + ∑ e ∈ Finset.univ.filter (fun e : Fin 740000 => (idx (ix2 e (0 : Fin 1))).toInt = ((r.val : ℕ) : Int)),
          upd (ix1 e) := by
  unfold Host.scatterAdd
  rw [Ideal.hostScatterAdd_def]
  refine (scatterAddFlat_apply (N := 100000) (E := 740000) scatter_S100000_S740000x1_S740000_n_0_0_1_wf x idx upd
    (ix1 r)).trans ?_
  refine congrArg (fun s => x (ix1 r) + s) ?_
  exact sum_filter_ix1 (n := 740000)
    (fun e : Fin 740000 => (idx (ix2 e (0 : Fin 1))).toInt = ((r.val : ℕ) : Int))
    (fun j : (⟨1, ![740000]⟩ : Shape).Idx => (idx (ix2 (j 0) (0 : Fin 1))).toInt = ((r.val : ℕ) : Int))
    (fun j => Iff.rfl) upd

/-- A per-node number gathered at a column of 740000 index words, at position `k`. -/
theorem gatherNodes_apply (x : FVec Ideal S100000 .f32) (idx : IVec S740000x1 32) (k : Fin 740000) :
    Host.gather gather_S100000_S740000x1_S740000_n_0_n_n_0_1_1 x idx (ix1 k)
      = x (ix1 ⟨min (idx (ix2 k (0 : Fin 1))).toInt.toNat 99999, by omega⟩) :=
  gatherFlat_apply_ix (N := 100000) (E := 740000) (by omega) gather_S100000_S740000x1_S740000_n_0_n_n_0_1_1_wf x idx k

theorem hostRsqrt_apply {s : Shape} (x : FVec Ideal s .f32) (i : s.Idx) :
    Host.rsqrt (F := Ideal) x i = Ideal.rsqrt (x i) := rfl

/-- The zero the choice falls back to, spread over a shape. -/
theorem id_splat_apply {s : Shape} (h : S_.BroadcastsInDim s (![] : Fin 0 → Fin s.rank)) (b : BitVec 32) (j : s.Idx) :
    broadcastInDim s ![] h (id (constant (F := Ideal) S_ .f32 b)) j = Ideal.ofBits .f32 b :=
  splat_apply h b j

theorem degree_apply (dst : IVec S640000 32) (ew : FVec Ideal S640000 .f32) (r : Fin 100000) :
    degree dst ew (ix1 r)
      = Cert.Spec.degAt (fun k : Fin 740000 => (Cert.Spec.catWord dst k).toInt) (Cert.Spec.catWeight ew) r := by
  unfold degree Cert.Spec.degAt
  rw [scatterNodes_apply, splat_apply, Ideal.ofBits_zero_f32, zero_add]
  refine Finset.sum_congr (Finset.filter_congr fun e _ => ?_) (fun e _ => catW_apply ew e)
  rw [asColumn_apply, catIdx_apply]

/-- A choice by the comparison "positive" is the inverse square root where positive, zero elsewhere. -/
theorem select_pos_rsqrt (D : EReal) :
    Scalar.select (Ideal.cmp .ogt D 0) (Ideal.rsqrt D) (0 : EReal) = Cert.Spec.disOf D := by
  unfold Cert.Spec.disOf
  show Scalar.select (BitVec.ofBool (decide ((0 : EReal) < D))) (Ideal.rsqrt D) (0 : EReal) = _
  by_cases h : (0 : EReal) < D
  · rw [decide_eq_true h, if_pos h]; exact select_one _ _
  · rw [decide_eq_false h, if_neg h]; exact select_zero _ _

theorem invSqrtDeg_apply (dst : IVec S640000 32) (ew : FVec Ideal S640000 .f32) (r : Fin 100000) :
    invSqrtDeg dst ew (ix1 r)
      = Cert.Spec.disOf (Cert.Spec.degAt (fun k : Fin 740000 => (Cert.Spec.catWord dst k).toInt) (Cert.Spec.catWeight ew) r) := by
  unfold invSqrtDeg
  refine (select_apply _ _ _ (ix1 r)).trans ?_
  rw [cmpf_apply, Ideal.cmpf_def, hostRsqrt_apply, splat_apply, id_splat_apply, Ideal.ofBits_zero_f32, degree_apply]
  exact select_pos_rsqrt _

theorem atEnds_apply (x : FVec Ideal S100000 .f32) (a : IVec S740000 32) (k : Fin 740000) :
    atEnds x a (ix1 k) = x (ix1 (Cert.Spec.rowOf (a (ix1 k)))) := by
  unfold atEnds
  rw [gatherNodes_apply]
  refine congrArg x (congrArg (ix1 (n := 100000)) (Fin.ext ?_))
  show min (asColumn (wrapIdx a) (ix2 k (0 : Fin 1))).toInt.toNat 99999
    = min (Cert.Spec.wrapWord (a (ix1 k))).toInt.toNat 99999
  rw [asColumn_apply, wrapIdx_apply]

theorem normOf_apply (src dst : IVec S640000 32) (ew : FVec Ideal S640000 .f32) (k : Fin 740000) :
    normOf src dst ew (ix1 k)
      = Cert.Spec.disOf (Cert.Spec.degAt (fun k : Fin 740000 => (Cert.Spec.catWord dst k).toInt) (Cert.Spec.catWeight ew)
            (Cert.Spec.rowOf (Cert.Spec.catWord src k)))
          * Cert.Spec.catWeight ew k
          * Cert.Spec.disOf (Cert.Spec.degAt (fun k : Fin 740000 => (Cert.Spec.catWord dst k).toInt) (Cert.Spec.catWeight ew)
            (Cert.Spec.rowOf (Cert.Spec.catWord dst k))) := by
  unfold normOf
  rw [mulf_apply, mulf_apply, atEnds_apply, atEnds_apply, catW_apply, catIdx_apply, catIdx_apply, invSqrtDeg_apply,
    invSqrtDeg_apply]

end Cert.RefTerm

end
-- ==== Proof.RefReadConv.lean ====
/-
  The reference's graph-convolution layer before normalisation, read entry by entry.

  The node features times the transposed weight matrix is, at `(p, q)`, `∑_k h[p,k] · W[q,k]`. What listed edge `k`
  sends on column `q` is its source node's entry of that product times the edge's normalisation; the layer at
  `(p, q)` is the sum of what is sent over the listed edges whose target word is exactly `p`, plus the bias: the
  layer with the self-loops listed among the edges.
-/
import proofs.«161461_j70540542869949_1_alg».proof.Proof.RefReadDeg
import proofs.«161461_j70540542869949_1_alg».proof.Proof.LibPlainDot

noncomputable section

open scoped BigOperators

namespace Cert.RefTerm

open Cert.ReferenceIdeal Cert.ReferenceIdeal.Facts₀ Cert.ReferenceIdeal.Facts Cert.Spec
open Idealize.ShloMosaic Idealize.ShloMosaic.ValueIdx Idealize.ShloMosaic.RowIndexing

variable [Facts]

/-- The layer's product, at `(p, q)`. -/
theorem dotNodes_apply (lhs : FVec Ideal S100000x128 .f32) (rhs : FVec Ideal S128x128 .f32) (p : Fin 100000) (q : Fin 128) :
    Host.dotGeneral (F := Ideal) dot_S100000x128_S128x128_S100000x128_1_0_0_1_n_n none lhs rhs (ix2 p q)
      = ∑ k : Fin 128, lhs (ix2 p k) * rhs (ix2 k q) :=
  PlainDot.dotGeneral_apply none .single lhs rhs p q

/-- Node rows gathered at a column of 740000 index words, at `(k, q)`. -/
theorem gatherRowsNodes_apply (x : FVec Ideal S100000x128 .f32) (idx : IVec S740000x1 32) (k : Fin 740000) (q : Fin 128) :
    Host.gather gather_S100000x128_S740000x1_S740000x128_1_0_n_n_0_1_1128 x idx (ix2 k q)
      = x (ix2 ⟨min (idx (ix2 k (0 : Fin 1))).toInt.toNat 99999, by omega⟩ q) :=
  gatherRows_apply_ix (N := 100000) (C := 128) (E := 740000) (by omega)
    gather_S100000x128_S740000x1_S740000x128_1_0_n_n_0_1_1128_wf x idx k q

/-- The accumulating scatter of 740000 rows into the node rows, at `(p, q)`. -/
theorem scatterRowsNodes_apply (x : FVec Ideal S100000x128 .f32) (idx : IVec S740000x1 32) (upd : FVec Ideal S740000x128 .f32)
    (p : Fin 100000) (q : Fin 128) :
    Host.scatterAdd (F := Ideal) scatter_S100000x128_S740000x1_S740000x128_1_0_0_1 x idx upd (ix2 p q)
      = x (ix2 p q) + ∑ e ∈ Finset.univ.filter (fun e : Fin 740000 => (idx (ix2 e (0 : Fin 1))).toInt = ((p.val : ℕ) : Int)),
          upd (ix2 e q) := by
  unfold Host.scatterAdd
  rw [Ideal.hostScatterAdd_def]
  exact scatterAddRows_apply_ix (N := 100000) (C := 128) (E := 740000)
    scatter_S100000x128_S740000x1_S740000x128_1_0_0_1_wf x idx upd p q

theorem linOf_apply (h : FVec Ideal S100000x128 .f32) (W : FVec Ideal S128x128 .f32) (p : Fin 100000) (q : Fin 128) :
    linOf h W (ix2 p q) = Cert.Spec.linAt h W p q := by
  unfold linOf Cert.Spec.linAt
  rw [dotNodes_apply]
  exact Finset.sum_congr rfl fun k _ => congrArg (fun s => h (ix2 p k) * s) (transpose_ix2_apply W _ k q)

theorem linOf_eq (h : FVec Ideal S100000x128 .f32) (W : FVec Ideal S128x128 .f32) : linOf h W = Cert.Spec.lin h W := by
  funext i
  obtain ⟨p, q, rfl⟩ : ∃ (p : Fin 100000) (q : Fin 128), i = ix2 p q := ⟨i 0, i 1, eq_ix2 i⟩
  exact linOf_apply h W p q

/-- A column of 740000 numbers spread along rows of 128, at `(k, q)`. -/
theorem overColumns_apply (v : FVec Ideal S740000 .f32) (k : Fin 740000) (q : Fin 128) :
    broadcastInDim S740000x128 ![0, 1] bcast_S740000x1_S740000x128_0_1
        (broadcastInDim S740000x1 ![0] bcast_S740000_S740000x1_0 v) (ix2 k q) = v (ix1 k) := by
  refine (broadcastInDim_apply _ _ _ (ix2 k q) (ix2 k (0 : Fin 1))
    (fun a => by match a with | ⟨0, _⟩ => rfl | ⟨1, _⟩ => rfl)).trans ?_
  exact broadcastInDim_apply _ _ _ (ix2 k (0 : Fin 1)) (ix1 k) (fun a => by match a with | ⟨0, _⟩ => rfl)

theorem msgOf_apply (h : FVec Ideal S100000x128 .f32) (src dst : IVec S640000 32) (ew : FVec Ideal S640000 .f32)
    (W : FVec Ideal S128x128 .f32) (k : Fin 740000) (q : Fin 128) :
    msgOf h src dst ew W (ix2 k q)
      = Cert.Spec.lin h W (ix2 (Cert.Spec.rowOf (Cert.Spec.catWord src k)) q) * normOf src dst ew (ix1 k) := by
  unfold msgOf
  rw [mulf_apply, gatherRowsNodes_apply, overColumns_apply, linOf_eq]
  refine congrArg (fun r : Fin 100000 => Cert.Spec.lin h W (ix2 r q) * normOf src dst ew (ix1 k)) (Fin.ext ?_)
  show min (asColumn (wrapIdx (catIdx src)) (ix2 k (0 : Fin 1))).toInt.toNat 99999
    = min (Cert.Spec.wrapWord (Cert.Spec.catWord src k)).toInt.toNat 99999
  rw [asColumn_apply, wrapIdx_apply, catIdx_apply]

theorem conv_apply (h : FVec Ideal S100000x128 .f32) (src dst : IVec S640000 32) (ew : FVec Ideal S640000 .f32)
    (W : FVec Ideal S128x128 .f32) (b : FVec Ideal S128 .f32) (p : Fin 100000) (q : Fin 128) :
    conv h src dst ew W b (ix2 p q)
      = Cert.Spec.selfListedAt (E := 740000) (fun k => Cert.Spec.rowOf (Cert.Spec.catWord src k))
          (fun k => Cert.Spec.rowOf (Cert.Spec.catWord dst k)) (fun k => (Cert.Spec.catWord dst k).toInt)
          (Cert.Spec.catWeight ew) (Cert.Spec.lin h W) b p q := by
  unfold conv Cert.Spec.selfListedAt Cert.Spec.aggAt
  rw [addf_apply, overNodes_apply, scatterRowsNodes_apply, splat_apply, Ideal.ofBits_zero_f32, zero_add]
  refine congrArg (fun s => s + b (ix1 q)) ?_
  refine Finset.sum_congr (Finset.filter_congr fun e _ => ?_) (fun e _ => ?_)
  · rw [asColumn_apply, catIdx_apply]
  · rw [msgOf_apply, normOf_apply]

end Cert.RefTerm

end
-- ==== Proof.RegionEdge.lean ====
/-
  The edge weights, as the block-by-block two-layer perceptron leaves them in its result column.

  The launch walks the 640000 edges in 80 blocks of 8000. At a point the body multiplies the point's block of edge
  attributes by the transposed first weight matrix into a zero accumulator, adds the first bias along the rows, takes
  the positive part, multiplies that by the transposed second weight row into a zero accumulator and adds the second
  bias. On the extended reals the changes of float format are the identity, a transpose swaps the two coordinates, a
  product into zero is the plain sum over the contracted axis, and the two casts and broadcasts of the biases read
  the one bias entry of the column; so entry `e` of what the point writes back is
  `∑ j, max (∑ k, ea[8000·t + e, k] · Wm1[j, k] + bm1[j]) 0 · Wm2[0, j] + bm2[0]`. The blocks tile the column, edge
  `r` lying in block `r / 8000`, so the column ends holding the edge weight of every edge.
-/
import proofs.«161461_j70540542869949_1_alg».proof.Proof.Gen.KernelIdeal.Frame
import proofs.«161461_j70540542869949_1_alg».proof.Proof.Spec
import proofs.«161461_j70540542869949_1_alg».proof.Proof.LibPlainDot
import Idealize.ShloMosaic.Lib.Pipeline.Value
import Idealize.ShloMosaic.Lib.ValueLayout

noncomputable section

open scoped BigOperators

namespace Cert.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-block access of a matrix and of a vector, however spelt. -/
theorem zeroOff0 : (![0, 0] : Fin 2 → Nat) = fun _ => 0 := funext fun a => by fin_cases a <;> rfl
theorem zeroOff0v : (![0] : Fin 1 → Nat) = fun _ => 0 := funext fun a => by fin_cases a <;> rfl

/-- The hidden layer at `(e, j)`: the positive part of the block's row `e` against the first weight's row `j`, plus
    the first bias at `j`. -/
theorem hidden0_apply (x0 : FVec Ideal ⟨2, ![8000, 16]⟩ .f32) (x1 : FVec Ideal ⟨2, ![128, 16]⟩ .f32)
    (x2 : FVec Ideal ⟨1, ![128]⟩ .f32)
    (hT : (⟨2, ![128, 16]⟩ : Shape).Transposes [1, 0] ⟨2, ![16, 128]⟩)
    (hC : (⟨1, ![128]⟩ : Shape).ShapeCasts ⟨2, ![1, 128]⟩)
    (hB : (⟨2, ![1, 128]⟩ : Shape).Broadcasts ⟨2, ![8000, 128]⟩) (e : Fin 8000) (j : Fin 128) :
    maximumf
        (addf
          (FloatOps.matmul (F := Ideal) (DotDims.plain 8000 16 128) none x0 (transpose ⟨2, ![16, 128]⟩ [1, 0] x1 hT)
            (constant ⟨2, ![8000, 128]⟩ .f32 0x00000000#32))
          (broadcastTo ⟨2, ![8000, 128]⟩ (shapeCast ⟨2, ![1, 128]⟩ x2 hC) hB))
        (broadcast ⟨2, ![8000, 128]⟩ (Scalar.ofBits (F := Ideal) .f32 0x00000000#32)) (ix2 e j)
      = max ((∑ k : Fin 16, x0 (ix2 e k) * x1 (ix2 j k)) + x2 (ix1 j)) 0 := by
  rw [maximumf_apply, addf_apply, broadcast_apply, PlainDot.matmul_zero_apply, broadcastTo_1b_ab_apply,
    shapeCast_a_1a_apply]
  rw [show Scalar.ofBits (F := Ideal) .f32 0x00000000#32 = (0 : EReal) from Ideal.ofBits_zero_f32]
  refine congrArg (fun z : EReal => max (z + x2 (ix1 j)) 0) (Finset.sum_congr rfl fun k _ => ?_)
  rw [transpose_ix2_apply]

/-- The body's result at `(e, u)`: the hidden layer of row `e` against the second weight's one row, plus the second
    bias. -/
theorem pay0_apply (x0 : Vec Ideal S8000x16 .f32) (x1 : Vec Ideal S128x16 .f32) (x2 : Vec Ideal S128 .f32)
    (x3 : Vec Ideal S1x128 .f32) (x4 : Vec Ideal S1 .f32) (e : Fin 8000) (u : Fin 1) :
    k0_pay1 (F := Ideal) x0 x1 x2 x3 x4 (ix2 e u)
      = (∑ j : Fin 128, max ((∑ k : Fin 16, x0 (ix2 e k) * x1 (ix2 j k)) + x2 (ix1 j)) 0 * x3 (ix2 u j))
        + x4 (ix1 u) := by
  unfold k0_pay1
  refine (addf_apply _ _ _).trans ?_
  refine congrArg₂ (fun y z : EReal => y + z) ?_ ?_
  · refine (PlainDot.matmul_zero_apply (M := 8000) (K := 128) (N := 1) none _ _ e u).trans ?_
    refine Finset.sum_congr rfl fun j _ => ?_
    exact congrArg₂ (fun y z : EReal => y * z) (hidden0_apply x0 x1 x2 _ _ _ e j)
      (transpose_ix2_apply (a := 1) (b := 128) x3 _ j u)
  · exact (broadcastTo_1b_ab_apply (a := 8000) (b := 1) _ _ e u).trans (shapeCast_a_1a_apply (a := 1) x4 _ (0 : Fin 1) u)

/-- A block whose row `e` is row `row e` of the attributes, against the whole weights and biases, gives the edge
    weights of those edges. -/
theorem pay0_edge (ea : Mat 640000 16) (Wm1 : Mat 128 16) (bm1 : Col 128) (Wm2 : Mat 1 128) (bm2 : Col 1)
    (x0 : Vec Ideal S8000x16 .f32) (x1 : Vec Ideal S128x16 .f32) (x2 : Vec Ideal S128 .f32)
    (x3 : Vec Ideal S1x128 .f32) (x4 : Vec Ideal S1 .f32) (row : Fin 8000 → Fin 640000)
    (h0 : ∀ e k, x0 (ix2 e k) = ea (ix2 (row e) k)) (h1 : ∀ j k, x1 (ix2 j k) = Wm1 (ix2 j k))
    (h2 : ∀ j, x2 (ix1 j) = bm1 (ix1 j)) (h3 : ∀ u j, x3 (ix2 u j) = Wm2 (ix2 u j)) (h4 : ∀ u, x4 (ix1 u) = bm2 (ix1 u))
    (e : Fin 8000) :
    k0_pay1 (F := Ideal) x0 x1 x2 x3 x4 (ix2 e (0 : Fin 1)) = edgeWAt ea Wm1 bm1 Wm2 bm2 (row e) := by
  rw [pay0_apply]
  unfold edgeWAt
  simp only [h0, h1, h2, h3, h4]

/-- The index maps over the grid: the attribute and result blocks move down the edges with the point, the weights'
    and biases' blocks stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- The attribute block at point `t` is rows `8000 t … 8000 t + 7999` of the attribute array. -/
theorem iblk0_0_apply (c : Dev nD) (t : Fin cfg0.N) (e : Fin 8000) (k : Fin 16) (i : Fin 640000)
    (hi : i.val = t.val * 8000 + e.val) :
    (iblk0 (F := Ideal) V c 0 t : Vec Ideal S8000x16 .f32) (ix2 e k)
      = (V c (Pipeline.arrRef spec0 0) : Mat 640000 16) (ix2 i k) := by
  obtain ⟨e0, e1, -⟩ := idx0 t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 8000 + 1 * e.val = i.val; rw [e0, hi]; omega
  | ⟨1, _⟩ => show win0_0.index t (1 : Fin 2) * 16 + 1 * k.val = k.val; rw [e1]; omega

/-- The first weight's block at every point is the whole matrix. -/
theorem iblk0_1_apply (c : Dev nD) (t : Fin cfg0.N) (j : Fin 128) (k : Fin 16) :
    (iblk0 (F := Ideal) V c 1 t : Vec Ideal S128x16 .f32) (ix2 j k)
      = (V c (Pipeline.arrRef spec0 1) : Mat 128 16) (ix2 j k) := by
  obtain ⟨-, -, e2, e3, -⟩ := idx0 t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 128 + 1 * j.val = j.val; rw [e2]; omega
  | ⟨1, _⟩ => show win0_1.index t (1 : Fin 2) * 16 + 1 * k.val = k.val; rw [e3]; omega

/-- The first bias's block at every point is the whole vector. -/
theorem iblk0_2_apply (c : Dev nD) (t : Fin cfg0.N) (j : Fin 128) :
    (iblk0 (F := Ideal) V c 2 t : Vec Ideal S128 .f32) (ix1 j) = (V c (Pipeline.arrRef spec0 2) : Col 128) (ix1 j) := by
  obtain ⟨-, -, -, -, e4, -⟩ := idx0 t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 1) * 128 + 1 * j.val = j.val; rw [e4]; omega

/-- The second weight's block at every point is the whole row. -/
theorem iblk0_3_apply (c : Dev nD) (t : Fin cfg0.N) (u : Fin 1) (j : Fin 128) :
    (iblk0 (F := Ideal) V c 3 t : Vec Ideal S1x128 .f32) (ix2 u j)
      = (V c (Pipeline.arrRef spec0 3) : Mat 1 128) (ix2 u j) := by
  obtain ⟨-, -, -, -, -, e5, e6, -⟩ := idx0 t
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 1 + 1 * u.val = u.val; rw [e5]; omega
  | ⟨1, _⟩ => show win0_3.index t (1 : Fin 2) * 128 + 1 * j.val = j.val; rw [e6]; omega

/-- The second bias's block at every point is the whole one-entry vector. -/
theorem iblk0_4_apply (c : Dev nD) (t : Fin cfg0.N) (u : Fin 1) :
    (iblk0 (F := Ideal) V c 4 t : Vec Ideal S1 .f32) (ix1 u) = (V c (Pipeline.arrRef spec0 4) : Col 1) (ix1 u) := by
  obtain ⟨-, -, -, -, -, -, -, e7, -⟩ := idx0 t
  unfold iblk0
  rw [View.read_apply]
  show V c (Pipeline.arrRef spec0 4) _ = V c (Pipeline.arrRef spec0 4) _
  refine congrArg _ (funext fun a => Fin.ext ?_)
  match a with
  | ⟨0, _⟩ => show win0_4.index t (0 : Fin 1) * 1 + 1 * u.val = u.val; rw [e7]; omega

/-- What point `t` writes back is block `t` of the edge weights. -/
theorem flushed0_eq (c : Dev nD) (t : Fin cfg0.N) :
    (dat0 (F := Ideal) V c).flushed 5 t
      = ((cfg0.win 5).blk t).view.read (Elt Ideal)
          (edgeW (V c (Pipeline.arrRef spec0 0)) (V c (Pipeline.arrRef spec0 1)) (V c (Pipeline.arrRef spec0 2))
            (V c (Pipeline.arrRef spec0 3)) (V c (Pipeline.arrRef spec0 4))) := by
  show (cfg0.win 5).cut (grid0.coords t) ((dat0 V c).after 5 t) = _
  rw [after0_5]
  unfold out0_5
  rw [View.canon_unit_zero zeroOff0]
  simp only [View.ld_unit_zero (S := S8000x16) zeroOff0, View.ld_unit_zero (S := S128x16) zeroOff0,
    View.ld_unit_zero (S := S128) zeroOff0v, View.ld_unit_zero (S := S1x128) zeroOff0,
    View.ld_unit_zero (S := S1) zeroOff0v]
  obtain ⟨-, -, -, -, -, -, -, -, e8, e9⟩ := idx0 t
  funext j
  obtain ⟨e, u, rfl⟩ : ∃ (e : Fin 8000) (u : Fin 1), j = ix2 e u := ⟨j 0, j 1, eq_ix2 j⟩
  obtain rfl : u = 0 := Subsingleton.elim _ _
  have hN : cfg0.N = 80 := N_0
  have hrow : ∀ e' : Fin 8000, t.val * 8000 + e'.val < 640000 := fun e' => by have := t.isLt; have := e'.isLt; omega
  have hemb : ((cfg0.win 5).blk t).view.emb (ix2 e (0 : Fin 1))
      = (ix2 (⟨t.val * 8000 + e.val, hrow e⟩ : Fin 640000) (0 : Fin 1) : S640000x1.Idx) := by
    funext a; apply Fin.ext
    match a with
    | ⟨0, _⟩ => show win0_5.index t (0 : Fin 2) * 8000 + 1 * e.val = t.val * 8000 + e.val; rw [e8]; omega
    | ⟨1, _⟩ => show win0_5.index t (1 : Fin 2) * 1 + 1 * 0 = 0; rw [e9]
  show k0_pay1 (F := Ideal) (iblk0 V c 0 t) (iblk0 V c 1 t) (iblk0 V c 2 t) (iblk0 V c 3 t) (iblk0 V c 4 t) (ix2 e (0 : Fin 1))
    = edgeW (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb (ix2 e (0 : Fin 1)))
  rw [hemb]
  exact pay0_edge _ _ _ _ _ _ _ _ _ _ (fun e' => ⟨t.val * 8000 + e'.val, hrow e'⟩)
    (fun e' k => iblk0_0_apply V c t e' k _ rfl) (fun j k => iblk0_1_apply V c t j k) (fun j => iblk0_2_apply V c t j)
    (fun u j => iblk0_3_apply V c t u j) (fun u => iblk0_4_apply V c t u) e

/-- An index of the result column is in point `t`'s block iff each coordinate is in the block's range on its axis. -/
theorem mem_blk0 (t : Fin cfg0.N) (i : S640000x1.Idx) :
    i ∈ ((cfg0.win 5).blk t).view.set
      ↔ ∀ a : Fin 2, win0_5.index t a * S8000x1.size a ≤ (i a).val ∧ (i a).val < win0_5.index t a * S8000x1.size a + S8000x1.size a := by
  show i ∈ ((View.whole main_v4).slice (win0_5.rect t)).set ↔ _
  rw [View.set_slice_whole, Rect.mem_set_unit]
  exact Iff.rfl

/-- Every edge lies in the block of the point `edge / 8000`. -/
theorem cover0 (i : S640000x1.Idx) :
    ∃ t : Fin cfg0.N, (cfg0.win 5).flush t = true ∧ i ∈ ((cfg0.win 5).blk t).view.set := by
  have hN : cfg0.N = 80 := N_0
  have hi0 : (i 0).val < 640000 := (i 0).isLt
  have hi1 : (i 1).val < 1 := (i 1).isLt
  let t : Fin cfg0.N := ⟨(i 0).val / 8000, by rw [hN]; omega⟩
  obtain ⟨-, -, -, -, -, -, -, -, e8, e9⟩ := idx0 t
  have ht : t.val = (i 0).val / 8000 := rfl
  refine ⟨t, flush0_5 t, ?_⟩
  rw [mem_blk0]
  intro a
  match a with
  | ⟨0, _⟩ => show win0_5.index t (0 : Fin 2) * 8000 ≤ (i 0).val ∧ (i 0).val < win0_5.index t (0 : Fin 2) * 8000 + 8000; rw [e8, ht]; omega
  | ⟨1, _⟩ => show win0_5.index t (1 : Fin 2) * 1 ≤ (i 1).val ∧ (i 1).val < win0_5.index t (1 : Fin 2) * 1 + 1; rw [e9]; omega

/-- The edge-weight column after its region: the two-layer perceptron of the attribute, weight and bias arrays the
    region finds. -/
theorem final0 (c : Dev nD) :
    (Gen.dat0 (F := Ideal) V c).arrAt 5 cfg0.N
      = Cert.Spec.edgeW (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed0_eq V c t) cover0

end Cert.Regions

end
-- ==== Proof.RegionLin1.lean ====
/-
  The dense product of the first layer, as the block-by-block matrix unit leaves it in its result array.

  The launch walks the 100000 node rows in 20 blocks of 5000. At a point the body multiplies the point's block of
  rows by the transposed weight matrix into a zero accumulator, so entry `(p, q)` of what the point writes back is
  `∑ k, x[5000·t + p, k] · W[q, k]`: the change of float format is the identity on the extended reals, the transpose
  swaps the weight's two coordinates, and the product into zero is the plain sum over the contracted axis. The blocks
  tile the array, row `r` lying in block `r / 5000`, so the array ends holding `x · Wᵀ` everywhere.
-/
import proofs.«161461_j70540542869949_1_alg».proof.Proof.Gen.KernelIdeal.Frame
import proofs.«161461_j70540542869949_1_alg».proof.Proof.Spec
import proofs.«161461_j70540542869949_1_alg».proof.Proof.LibPlainDot
import Idealize.ShloMosaic.Lib.Pipeline.Value
import Idealize.ShloMosaic.Lib.ValueLayout

noncomputable section

open scoped BigOperators

namespace Cert.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-block access, however spelt. -/
theorem zeroOff1 : (![0, 0] : Fin 2 → Nat) = fun _ => 0 := funext fun a => by fin_cases a <;> rfl

/-- The body's product at `(p, q)`: the block's row `p` against the weight's row `q`. -/
theorem pay1_apply (x0 : Vec Ideal S5000x128 .f32) (x1 : Vec Ideal S128x128 .f32) (p : Fin 5000) (q : Fin 128) :
    k1_pay1 (F := Ideal) x0 x1 (ix2 p q) = ∑ k : Fin 128, x0 (ix2 p k) * x1 (ix2 q k) := by
  unfold k1_pay1
  refine (PlainDot.matmul_zero_apply (M := 5000) (K := 128) (N := 128) none _ _ p q).trans ?_
  refine Finset.sum_congr rfl fun k _ => ?_
  exact congrArg (fun z => x0 (ix2 p k) * z) (transpose_ix2_apply (a := 128) (b := 128) x1 _ k q)

/-- A block whose row `p` is row `row p` of `A`, against the whole weight, is `A · Wᵀ` at those rows. -/
theorem pay1_lin (A : Mat 100000 128) (W : Mat 128 128) (x0 : Vec Ideal S5000x128 .f32) (x1 : Vec Ideal S128x128 .f32)
    (row : Fin 5000 → Fin 100000) (h0 : ∀ p k, x0 (ix2 p k) = A (ix2 (row p) k)) (h1 : ∀ q k, x1 (ix2 q k) = W (ix2 q k))
    (p : Fin 5000) (q : Fin 128) : k1_pay1 (F := Ideal) x0 x1 (ix2 p q) = linAt A W (row p) q := by
  rw [pay1_apply]
  unfold linAt
  exact Finset.sum_congr rfl fun k _ => by rw [h0, h1]

/-- The index maps over the grid: the feature and result blocks move down the rows with the point, the weight's
    block stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The feature block at point `t` is rows `5000 t … 5000 t + 4999` of the feature array. -/
theorem iblk1_0_apply (c : Dev nD) (t : Fin cfg1.N) (p : Fin 5000) (k : Fin 128) (i : Fin 100000)
    (hi : i.val = t.val * 5000 + p.val) :
    (iblk1 (F := Ideal) V c 0 t : Vec Ideal S5000x128 .f32) (ix2 p k)
      = (V c (Pipeline.arrRef spec1 0) : Mat 100000 128) (ix2 i k) := by
  obtain ⟨e0, e1, -⟩ := idx1 t
  unfold iblk1
  rw [View.read_apply]
  show V c (Pipeline.arrRef spec1 0) _ = V c (Pipeline.arrRef spec1 0) _
  refine congrArg _ (funext fun a => Fin.ext ?_)
  match a with
  | ⟨0, _⟩ => show win1_0.index t (0 : Fin 2) * 5000 + 1 * p.val = i.val; rw [e0, hi]; omega
  | ⟨1, _⟩ => show win1_0.index t (1 : Fin 2) * 128 + 1 * k.val = k.val; rw [e1]; omega

/-- The weight block at every point is the whole weight. -/
theorem iblk1_1_apply (c : Dev nD) (t : Fin cfg1.N) (q : Fin 128) (k : Fin 128) :
    (iblk1 (F := Ideal) V c 1 t : Vec Ideal S128x128 .f32) (ix2 q k)
      = (V c (Pipeline.arrRef spec1 1) : Mat 128 128) (ix2 q k) := by
  obtain ⟨-, -, e2, e3, -⟩ := idx1 t
  unfold iblk1
  rw [View.read_apply]
  show V c (Pipeline.arrRef spec1 1) _ = V c (Pipeline.arrRef spec1 1) _
  refine congrArg _ (funext fun a => Fin.ext ?_)
  match a with
  | ⟨0, _⟩ => show win1_1.index t (0 : Fin 2) * 128 + 1 * q.val = q.val; rw [e2]; omega
  | ⟨1, _⟩ => show win1_1.index t (1 : Fin 2) * 128 + 1 * k.val = k.val; rw [e3]; omega

/-- What point `t` writes back is block `t` of `x · Wᵀ`. -/
theorem flushed1_eq (c : Dev nD) (t : Fin cfg1.N) :
    (dat1 (F := Ideal) V c).flushed 2 t
      = ((cfg1.win 2).blk t).view.read (Elt Ideal) (lin (V c (Pipeline.arrRef spec1 0)) (V c (Pipeline.arrRef spec1 1))) := by
  show (cfg1.win 2).cut (grid1.coords t) ((dat1 V c).after 2 t) = _
  rw [after1_2]
  unfold out1_2
  rw [View.canon_unit_zero zeroOff1]
  simp only [View.ld_unit_zero (S := S5000x128) zeroOff1, View.ld_unit_zero (S := S128x128) zeroOff1]
  obtain ⟨-, -, -, -, e4, e5⟩ := idx1 t
  funext j
  obtain ⟨p, q, rfl⟩ : ∃ (p : Fin 5000) (q : Fin 128), j = ix2 p q := ⟨j 0, j 1, eq_ix2 j⟩
  have hN : cfg1.N = 20 := N_1
  have hrow : ∀ p' : Fin 5000, t.val * 5000 + p'.val < 100000 := fun p' => by have := t.isLt; have := p'.isLt; omega
  have hemb : ((cfg1.win 2).blk t).view.emb (ix2 p q)
      = (ix2 (⟨t.val * 5000 + p.val, hrow p⟩ : Fin 100000) q : S100000x128.Idx) := by
    funext a; apply Fin.ext
    match a with
    | ⟨0, _⟩ => show win1_2.index t (0 : Fin 2) * 5000 + 1 * p.val = t.val * 5000 + p.val; rw [e4]; omega
    | ⟨1, _⟩ => show win1_2.index t (1 : Fin 2) * 128 + 1 * q.val = q.val; rw [e5]; omega
  show k1_pay1 (F := Ideal) (iblk1 V c 0 t) (iblk1 V c 1 t) (ix2 p q)
    = lin (V c (Pipeline.arrRef spec1 0)) (V c (Pipeline.arrRef spec1 1)) (((cfg1.win 2).blk t).view.emb (ix2 p q))
  rw [hemb]
  exact pay1_lin _ _ _ _ (fun p' => ⟨t.val * 5000 + p'.val, hrow p'⟩) (fun p' k => iblk1_0_apply V c t p' k _ rfl)
    (fun q' k => iblk1_1_apply V c t q' k) p q

/-- An index of the result array is in point `t`'s block iff each coordinate is in the block's range on its axis. -/
theorem mem_blk1 (t : Fin cfg1.N) (i : S100000x128.Idx) :
    i ∈ ((cfg1.win 2).blk t).view.set
      ↔ ∀ a : Fin 2, win1_2.index t a * S5000x128.size a ≤ (i a).val ∧ (i a).val < win1_2.index t a * S5000x128.size a + S5000x128.size a := by
  show i ∈ ((View.whole main_v6).slice (win1_2.rect t)).set ↔ _
  rw [View.set_slice_whole, Rect.mem_set_unit]
  exact Iff.rfl

/-- Every row lies in the block of the point `row / 5000`. -/
theorem cover1 (i : S100000x128.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, e4, e5⟩ := idx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; rw [e4, ht]; omega
  | ⟨1, _⟩ => show win1_2.index t (1 : Fin 2) * 128 ≤ (i 1).val ∧ (i 1).val < win1_2.index t (1 : Fin 2) * 128 + 128; rw [e5]; omega

/-- The first layer's product array after its region: `x · Wᵀ` of the feature and weight arrays the region finds. -/
theorem final1 (c : Dev nD) :
    (Gen.dat1 (F := Ideal) V c).arrAt 2 cfg1.N
      = Cert.Spec.lin (V c (Pipeline.arrRef spec1 0)) (V c (Pipeline.arrRef spec1 1)) :=
  (dat1 (F := Ideal) V c).arrAt_eq_of_cover 2 _ (fun t _ => flushed1_eq V c t) cover1

end Cert.Regions

end
-- ==== Proof.RegionLin4.lean ====
/-
  The dense product of the second layer, as the block-by-block matrix unit leaves it in its result array.

  The launch walks the 100000 node rows in 20 blocks of 5000. At a point the body multiplies the point's block of
  rows by the transposed weight matrix into a zero accumulator, so entry `(p, q)` of what the point writes back is
  `∑ k, x[5000·t + p, k] · W[q, k]`: the change of float format and the cast of the block to its own shape are the
  identity on the extended reals, the transpose swaps the weight's two coordinates, and the product into zero is the
  plain sum over the contracted axis. The blocks tile the array, row `r` lying in block `r / 5000`, so the array ends
  holding `x · Wᵀ` everywhere.
-/
import proofs.«161461_j70540542869949_1_alg».proof.Proof.Gen.KernelIdeal.Frame
import proofs.«161461_j70540542869949_1_alg».proof.Proof.Spec
import proofs.«161461_j70540542869949_1_alg».proof.Proof.LibPlainDot
import Idealize.ShloMosaic.Lib.Pipeline.Value
import Idealize.ShloMosaic.Lib.ValueLayout

noncomputable section

open scoped BigOperators

namespace Cert.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-block access, however spelt. -/
theorem zeroOff4 : (![0, 0] : Fin 2 → Nat) = fun _ => 0 := funext fun a => by fin_cases a <;> rfl

/-- The body's product at `(p, q)`: the block's row `p` against the weight's row `q`. -/
theorem pay4_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 q k) := by
  unfold k4_pay1
  refine (PlainDot.matmul_zero_apply (M := 5000) (K := 128) (N := 128) none _ _ p q).trans ?_
  refine Finset.sum_congr rfl fun k _ => ?_
  exact congrArg₂ (fun y z : EReal => y * z) (congrFun (shapeCast_self x0 _) (ix2 p k))
    (transpose_ix2_apply (a := 128) (b := 128) x1 _ k q)

/-- A block whose row `p` is row `row p` of `A`, against the whole weight, is `A · Wᵀ` at those rows. -/
theorem pay4_lin (A : Mat 100000 128) (W : Mat 128 128) (x0 : Vec Ideal S5000x128 .f32) (x1 : Vec Ideal S128x128 .f32)
    (row : Fin 5000 → Fin 100000) (h0 : ∀ p k, x0 (ix2 p k) = A (ix2 (row p) k)) (h1 : ∀ q k, x1 (ix2 q k) = W (ix2 q k))
    (p : Fin 5000) (q : Fin 128) : k4_pay1 (F := Ideal) x0 x1 (ix2 p q) = linAt A W (row p) q := by
  rw [pay4_apply]
  unfold linAt
  exact Finset.sum_congr rfl fun k _ => by rw [h0, h1]

/-- The index maps over the grid: the feature and result blocks move down the rows with the point, the weight's
    block stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- The feature block at point `t` is rows `5000 t … 5000 t + 4999` of the feature array. -/
theorem iblk4_0_apply (c : Dev nD) (t : Fin cfg4.N) (p : Fin 5000) (k : Fin 128) (i : Fin 100000)
    (hi : i.val = t.val * 5000 + p.val) :
    (iblk4 (F := Ideal) V c 0 t : Vec Ideal S5000x128 .f32) (ix2 p k)
      = (V c (Pipeline.arrRef spec4 0) : Mat 100000 128) (ix2 i k) := by
  obtain ⟨e0, e1, -⟩ := idx4 t
  unfold iblk4
  rw [View.read_apply]
  show V c (Pipeline.arrRef spec4 0) _ = V c (Pipeline.arrRef spec4 0) _
  refine congrArg _ (funext fun a => Fin.ext ?_)
  match a with
  | ⟨0, _⟩ => show win4_0.index t (0 : Fin 2) * 5000 + 1 * p.val = i.val; rw [e0, hi]; omega
  | ⟨1, _⟩ => show win4_0.index t (1 : Fin 2) * 128 + 1 * k.val = k.val; rw [e1]; omega

/-- The weight block at every point is the whole weight. -/
theorem iblk4_1_apply (c : Dev nD) (t : Fin cfg4.N) (q : Fin 128) (k : Fin 128) :
    (iblk4 (F := Ideal) V c 1 t : Vec Ideal S128x128 .f32) (ix2 q k)
      = (V c (Pipeline.arrRef spec4 1) : Mat 128 128) (ix2 q k) := by
  obtain ⟨-, -, e2, e3, -⟩ := idx4 t
  unfold iblk4
  rw [View.read_apply]
  show V c (Pipeline.arrRef spec4 1) _ = V c (Pipeline.arrRef spec4 1) _
  refine congrArg _ (funext fun a => Fin.ext ?_)
  match a with
  | ⟨0, _⟩ => show win4_1.index t (0 : Fin 2) * 128 + 1 * q.val = q.val; rw [e2]; omega
  | ⟨1, _⟩ => show win4_1.index t (1 : Fin 2) * 128 + 1 * k.val = k.val; rw [e3]; omega

/-- What point `t` writes back is block `t` of `x · Wᵀ`. -/
theorem flushed4_eq (c : Dev nD) (t : Fin cfg4.N) :
    (dat4 (F := Ideal) V c).flushed 2 t
      = ((cfg4.win 2).blk t).view.read (Elt Ideal) (lin (V c (Pipeline.arrRef spec4 0)) (V c (Pipeline.arrRef spec4 1))) := by
  show (cfg4.win 2).cut (grid4.coords t) ((dat4 V c).after 2 t) = _
  rw [after4_2]
  unfold out4_2
  rw [View.canon_unit_zero zeroOff4]
  simp only [View.ld_unit_zero (S := S5000x128) zeroOff4, View.ld_unit_zero (S := S128x128) zeroOff4]
  obtain ⟨-, -, -, -, e4, e5⟩ := idx4 t
  funext j
  obtain ⟨p, q, rfl⟩ : ∃ (p : Fin 5000) (q : Fin 128), j = ix2 p q := ⟨j 0, j 1, eq_ix2 j⟩
  have hN : cfg4.N = 20 := N_4
  have hrow : ∀ p' : Fin 5000, t.val * 5000 + p'.val < 100000 := fun p' => by have := t.isLt; have := p'.isLt; omega
  have hemb : ((cfg4.win 2).blk t).view.emb (ix2 p q)
      = (ix2 (⟨t.val * 5000 + p.val, hrow p⟩ : Fin 100000) q : S100000x128.Idx) := by
    funext a; apply Fin.ext
    match a with
    | ⟨0, _⟩ => show win4_2.index t (0 : Fin 2) * 5000 + 1 * p.val = t.val * 5000 + p.val; rw [e4]; omega
    | ⟨1, _⟩ => show win4_2.index t (1 : Fin 2) * 128 + 1 * q.val = q.val; rw [e5]; omega
  show k4_pay1 (F := Ideal) (iblk4 V c 0 t) (iblk4 V c 1 t) (ix2 p q)
    = lin (V c (Pipeline.arrRef spec4 0)) (V c (Pipeline.arrRef spec4 1)) (((cfg4.win 2).blk t).view.emb (ix2 p q))
  rw [hemb]
  exact pay4_lin _ _ _ _ (fun p' => ⟨t.val * 5000 + p'.val, hrow p'⟩) (fun p' k => iblk4_0_apply V c t p' k _ rfl)
    (fun q' k => iblk4_1_apply V c t q' k) p q

/-- An index of the result array is in point `t`'s block iff each coordinate is in the block's range on its axis. -/
theorem mem_blk4 (t : Fin cfg4.N) (i : S100000x128.Idx) :
    i ∈ ((cfg4.win 2).blk t).view.set
      ↔ ∀ a : Fin 2, win4_2.index t a * S5000x128.size a ≤ (i a).val ∧ (i a).val < win4_2.index t a * S5000x128.size a + S5000x128.size a := by
  show i ∈ ((View.whole main_v60).slice (win4_2.rect t)).set ↔ _
  rw [View.set_slice_whole, Rect.mem_set_unit]
  exact Iff.rfl

/-- Every row lies in the block of the point `row / 5000`. -/
theorem cover4 (i : S100000x128.Idx) :
    ∃ t : Fin cfg4.N, (cfg4.win 2).flush t = true ∧ i ∈ ((cfg4.win 2).blk t).view.set := by
  have hN : cfg4.N = 20 := N_4
  have hi0 : (i 0).val < 100000 := (i 0).isLt
  have hi1 : (i 1).val < 128 := (i 1).isLt
  let t : Fin cfg4.N := ⟨(i 0).val / 5000, by rw [hN]; omega⟩
  obtain ⟨-, -, -, -, e4, e5⟩ := idx4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; rw [e4, ht]; omega
  | ⟨1, _⟩ => show win4_2.index t (1 : Fin 2) * 128 ≤ (i 1).val ∧ (i 1).val < win4_2.index t (1 : Fin 2) * 128 + 128; rw [e5]; omega

/-- The second layer's product array after its region: `x · Wᵀ` of the feature and weight arrays the region finds. -/
theorem final4 (c : Dev nD) :
    (Gen.dat4 (F := Ideal) V c).arrAt 2 cfg4.N
      = Cert.Spec.lin (V c (Pipeline.arrRef spec4 0)) (V c (Pipeline.arrRef spec4 1)) :=
  (dat4 (F := Ideal) V c).arrAt_eq_of_cover 2 _ (fun t _ => flushed4_eq V c t) cover4

end Cert.Regions

end
-- ==== Proof.RegionLin7.lean ====
/-
  The dense product of the third layer, as the block-by-block matrix unit leaves it in its result array.

  The launch walks the 100000 node rows in 20 blocks of 5000. At a point the body multiplies the point's block of
  rows by the transposed weight matrix into a zero accumulator, so entry `(p, q)` of what the point writes back is
  `∑ k, x[5000·t + p, k] · W[q, k]`: the change of float format and the cast of the block to its own shape are the
  identity on the extended reals, the transpose swaps the weight's two coordinates, and the product into zero is the
  plain sum over the contracted axis. The blocks tile the array, row `r` lying in block `r / 5000`, so the array ends
  holding `x · Wᵀ` everywhere.
-/
import proofs.«161461_j70540542869949_1_alg».proof.Proof.Gen.KernelIdeal.Frame
import proofs.«161461_j70540542869949_1_alg».proof.Proof.Spec
import proofs.«161461_j70540542869949_1_alg».proof.Proof.LibPlainDot
import Idealize.ShloMosaic.Lib.Pipeline.Value
import Idealize.ShloMosaic.Lib.ValueLayout

noncomputable section

open scoped BigOperators

namespace Cert.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-block access, however spelt. -/
theorem zeroOff7 : (![0, 0] : Fin 2 → Nat) = fun _ => 0 := funext fun a => by fin_cases a <;> rfl

/-- The body's product at `(p, q)`: the block's row `p` against the weight's row `q`. -/
theorem pay7_apply (x0 : Vec Ideal S5000x128 .f32) (x1 : Vec Ideal S128x128 .f32) (p : Fin 5000) (q : Fin 128) :
    k7_pay1 (F := Ideal) x0 x1 (ix2 p q) = ∑ k : Fin 128, x0 (ix2 p k) * x1 (ix2 q k) := by
  unfold k7_pay1
  refine (PlainDot.matmul_zero_apply (M := 5000) (K := 128) (N := 128) none _ _ p q).trans ?_
  refine Finset.sum_congr rfl fun k _ => ?_
  exact congrArg₂ (fun y z : EReal => y * z) (congrFun (shapeCast_self x0 _) (ix2 p k))
    (transpose_ix2_apply (a := 128) (b := 128) x1 _ k q)

/-- A block whose row `p` is row `row p` of `A`, against the whole weight, is `A · Wᵀ` at those rows. -/
theorem pay7_lin (A : Mat 100000 128) (W : Mat 128 128) (x0 : Vec Ideal S5000x128 .f32) (x1 : Vec Ideal S128x128 .f32)
    (row : Fin 5000 → Fin 100000) (h0 : ∀ p k, x0 (ix2 p k) = A (ix2 (row p) k)) (h1 : ∀ q k, x1 (ix2 q k) = W (ix2 q k))
    (p : Fin 5000) (q : Fin 128) : k7_pay1 (F := Ideal) x0 x1 (ix2 p q) = linAt A W (row p) q := by
  rw [pay7_apply]
  unfold linAt
  exact Finset.sum_congr rfl fun k _ => by rw [h0, h1]

/-- The index maps over the grid: the feature and result blocks move down the rows with the point, the weight's
    block stays. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

variable (V : (c : Dev nD) → (b : Ref sig .tc) → Buf (Elt Ideal) ((c : Thread nD τ).loc b))

/-- The feature block at point `t` is rows `5000 t … 5000 t + 4999` of the feature array. -/
theorem iblk7_0_apply (c : Dev nD) (t : Fin cfg7.N) (p : Fin 5000) (k : Fin 128) (i : Fin 100000)
    (hi : i.val = t.val * 5000 + p.val) :
    (iblk7 (F := Ideal) V c 0 t : Vec Ideal S5000x128 .f32) (ix2 p k)
      = (V c (Pipeline.arrRef spec7 0) : Mat 100000 128) (ix2 i k) := by
  obtain ⟨e0, e1, -⟩ := idx7 t
  unfold iblk7
  rw [View.read_apply]
  show V c (Pipeline.arrRef spec7 0) _ = V c (Pipeline.arrRef spec7 0) _
  refine congrArg _ (funext fun a => Fin.ext ?_)
  match a with
  | ⟨0, _⟩ => show win7_0.index t (0 : Fin 2) * 5000 + 1 * p.val = i.val; rw [e0, hi]; omega
  | ⟨1, _⟩ => show win7_0.index t (1 : Fin 2) * 128 + 1 * k.val = k.val; rw [e1]; omega

/-- The weight block at every point is the whole weight. -/
theorem iblk7_1_apply (c : Dev nD) (t : Fin cfg7.N) (q : Fin 128) (k : Fin 128) :
    (iblk7 (F := Ideal) V c 1 t : Vec Ideal S128x128 .f32) (ix2 q k)
      = (V c (Pipeline.arrRef spec7 1) : Mat 128 128) (ix2 q k) := by
  obtain ⟨-, -, e2, e3, -⟩ := idx7 t
  unfold iblk7
  rw [View.read_apply]
  show V c (Pipeline.arrRef spec7 1) _ = V c (Pipeline.arrRef spec7 1) _
  refine congrArg _ (funext fun a => Fin.ext ?_)
  match a with
  | ⟨0, _⟩ => show win7_1.index t (0 : Fin 2) * 128 + 1 * q.val = q.val; rw [e2]; omega
  | ⟨1, _⟩ => show win7_1.index t (1 : Fin 2) * 128 + 1 * k.val = k.val; rw [e3]; omega

/-- What point `t` writes back is block `t` of `x · Wᵀ`. -/
theorem flushed7_eq (c : Dev nD) (t : Fin cfg7.N) :
    (dat7 (F := Ideal) V c).flushed 2 t
      = ((cfg7.win 2).blk t).view.read (Elt Ideal) (lin (V c (Pipeline.arrRef spec7 0)) (V c (Pipeline.arrRef spec7 1))) := by
  show (cfg7.win 2).cut (grid7.coords t) ((dat7 V c).after 2 t) = _
  rw [after7_2]
  unfold out7_2
  rw [View.canon_unit_zero zeroOff7]
  simp only [View.ld_unit_zero (S := S5000x128) zeroOff7, View.ld_unit_zero (S := S128x128) zeroOff7]
  obtain ⟨-, -, -, -, e4, e5⟩ := idx7 t
  funext j
  obtain ⟨p, q, rfl⟩ : ∃ (p : Fin 5000) (q : Fin 128), j = ix2 p q := ⟨j 0, j 1, eq_ix2 j⟩
  have hN : cfg7.N = 20 := N_7
  have hrow : ∀ p' : Fin 5000, t.val * 5000 + p'.val < 100000 := fun p' => by have := t.isLt; have := p'.isLt; omega
  have hemb : ((cfg7.win 2).blk t).view.emb (ix2 p q)
      = (ix2 (⟨t.val * 5000 + p.val, hrow p⟩ : Fin 100000) q : S100000x128.Idx) := by
    funext a; apply Fin.ext
    match a with
    | ⟨0, _⟩ => show win7_2.index t (0 : Fin 2) * 5000 + 1 * p.val = t.val * 5000 + p.val; rw [e4]; omega
    | ⟨1, _⟩ => show win7_2.index t (1 : Fin 2) * 128 + 1 * q.val = q.val; rw [e5]; omega
  show k7_pay1 (F := Ideal) (iblk7 V c 0 t) (iblk7 V c 1 t) (ix2 p q)
    = lin (V c (Pipeline.arrRef spec7 0)) (V c (Pipeline.arrRef spec7 1)) (((cfg7.win 2).blk t).view.emb (ix2 p q))
  rw [hemb]
  exact pay7_lin _ _ _ _ (fun p' => ⟨t.val * 5000 + p'.val, hrow p'⟩) (fun p' k => iblk7_0_apply V c t p' k _ rfl)
    (fun q' k => iblk7_1_apply V c t q' k) p q

/-- An index of the result array is in point `t`'s block iff each coordinate is in the block's range on its axis. -/
theorem mem_blk7 (t : Fin cfg7.N) (i : S100000x128.Idx) :
    i ∈ ((cfg7.win 2).blk t).view.set
      ↔ ∀ a : Fin 2, win7_2.index t a * S5000x128.size a ≤ (i a).val ∧ (i a).val < win7_2.index t a * S5000x128.size a + S5000x128.size a := by
  show i ∈ ((View.whole main_v114).slice (win7_2.rect t)).set ↔ _
  rw [View.set_slice_whole, Rect.mem_set_unit]
  exact Iff.rfl

/-- Every row lies in the block of the point `row / 5000`. -/
theorem cover7 (i : S100000x128.Idx) :
    ∃ t : Fin cfg7.N, (cfg7.win 2).flush t = true ∧ i ∈ ((cfg7.win 2).blk t).view.set := by
  have hN : cfg7.N = 20 := N_7
  have hi0 : (i 0).val < 100000 := (i 0).isLt
  have hi1 : (i 1).val < 128 := (i 1).isLt
  let t : Fin cfg7.N := ⟨(i 0).val / 5000, by rw [hN]; omega⟩
  obtain ⟨-, -, -, -, e4, e5⟩ := idx7 t
  have ht : t.val = (i 0).val / 5000 := rfl
  refine ⟨t, flush7_2 t, ?_⟩
  rw [mem_blk7]
  intro a
  match a with
  | ⟨0, _⟩ => show win7_2.index t (0 : Fin 2) * 5000 ≤ (i 0).val ∧ (i 0).val < win7_2.index t (0 : Fin 2) * 5000 + 5000; rw [e4, ht]; omega
  | ⟨1, _⟩ => show win7_2.index t (1 : Fin 2) * 128 ≤ (i 1).val ∧ (i 1).val < win7_2.index t (1 : Fin 2) * 128 + 128; rw [e5]; omega

/-- The third layer's product array after its region: `x · Wᵀ` of the feature and weight arrays the region finds. -/
theorem final7 (c : Dev nD) :
    (Gen.dat7 (F := Ideal) V c).arrAt 2 cfg7.N
      = Cert.Spec.lin (V c (Pipeline.arrRef spec7 0)) (V c (Pipeline.arrRef spec7 1)) :=
  (dat7 (F := Ideal) V c).arrAt_eq_of_cover 2 _ (fun t _ => flushed7_eq V c t) cover7

end Cert.Regions

end
-- ==== Proof.RegionBn3.lean ====
/-
  The normalised positive part, as the block-by-block pointwise unit leaves it in its result array.

  The launch walks the 100000 node rows in 20 blocks of 5000. At a point the body reads the point's block of rows of
  the pre-activation array and the whole mean, variance, scale and shift rows, views each row as a one-row matrix
  spread over the block's rows, and stores `max ((γ · (z − μ)) · rsqrt (σ² + ε) + β) 0` entry by entry: entry
  `(p, q)` of what point `t` writes back reads row `5000 t + p` of the array and column `q` of the four rows. The
  blocks tile the array, row `r` lying in block `r / 5000`, so the array ends holding the normalised positive part
  everywhere.
-/
import proofs.«161461_j70540542869949_1_alg».proof.Proof.Gen.KernelIdeal.Frame
import proofs.«161461_j70540542869949_1_alg».proof.Proof.Spec
import Idealize.ShloMosaic.Lib.Pipeline.Value
import Idealize.ShloMosaic.Lib.ValueLayout
import Idealize.ShloMosaic.PureOps.Ideal.Laws

noncomputable section

namespace Cert.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-block access, however spelt, on one axis and on two. -/
theorem bnZeroA3 : (![0] : Fin 1 → Nat) = fun _ => 0 := funext fun a => by fin_cases a; rfl
theorem bnZeroB3 : (![0, 0] : Fin 2 → Nat) = fun _ => 0 := funext fun a => by fin_cases a <;> rfl

/-- The body's value at `(p, q)`: a row viewed as a one-row matrix and spread over the rows reads its column `q`;
    the inverse square root is taken entry by entry of that one-row matrix. -/
theorem bnPay3_apply (x0 : Vec Ideal S5000x128 .f32) (x1 x2 x3 x4 : Vec Ideal S128 .f32) (p : Fin 5000) (q : Fin 128) :
    k3_pay1 (F := Ideal) x0 x1 x2 x3 x4 (ix2 p q)
      = max ((x3 (ix1 q) * (x0 (ix2 p q) - x1 (ix1 q))) * Ideal.rsqrt (x2 (ix1 q) + eps) + x4 (ix1 q)) 0 := by
  unfold k3_pay1
  simp only [maximumf_apply, addf_apply, mulf_apply, subf_apply, broadcast_apply, broadcastTo_1b_ab_apply,
    Idealize.ShloMosaic.shapeCast_self, shapeCast_a_1a_apply]
  rw [show ∀ (v : FVec Ideal S1x128 .f32) (i : S1x128.Idx), rsqrt v i = Ideal.rsqrt (v i) from fun _ _ => rfl]
  simp only [addf_apply, broadcast_apply, shapeCast_a_1a_apply, Ideal.ofBits_def, Ideal.ofBits_zero_f32]
  rfl

/-- A block whose row `p` is row `row p` of `z`, with the four whole rows, is the normalised positive part of `z`
    at those rows. -/
theorem bnPay3_spec (z : Mat 100000 128) (mean var g be : Col 128) (x0 : Vec Ideal S5000x128 .f32)
    (x1 x2 x3 x4 : Vec Ideal S128 .f32) (row : Fin 5000 → Fin 100000)
    (h0 : ∀ p q, x0 (ix2 p q) = z (ix2 (row p) q)) (h1 : ∀ q, x1 (ix1 q) = mean (ix1 q))
    (h2 : ∀ q, x2 (ix1 q) = var (ix1 q)) (h3 : ∀ q, x3 (ix1 q) = g (ix1 q)) (h4 : ∀ q, x4 (ix1 q) = be (ix1 q))
    (p : Fin 5000) (q : Fin 128) :
    k3_pay1 (F := Ideal) x0 x1 x2 x3 x4 (ix2 p q) = bnReluAt z mean var g be (row p) q := by
  rw [bnPay3_apply, h0, h1, h2, h3, h4]
  rfl

/-- The index maps over the twenty points: the two big windows move together down the rows, block `t` at point `t`;
    the four small windows stay at their one block. -/
theorem bnIdx3 : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 1) = 0 ∧ win3_2.index t (0 : Fin 1) = 0
    ∧ win3_3.index t (0 : Fin 1) = 0 ∧ win3_4.index t (0 : Fin 1) = 0 :=
  (by decide +kernel : ∀ t : Fin grid3.N, _)

variable (V : (c : Dev nD) → (b : Ref sig .tc) → Buf (Elt Ideal) ((c : Thread nD τ).loc b))

/-- The pre-activation block at point `t` is rows `5000 t … 5000 t + 4999` of the pre-activation array. -/
theorem bnBlk3_0_apply (c : Dev nD) (t : Fin cfg3.N) (p : Fin 5000) (q : Fin 128) (i : Fin 100000)
    (hi : i.val = t.val * 5000 + p.val) :
    (iblk3 (F := Ideal) V c 0 t : Vec Ideal S5000x128 .f32) (ix2 p q)
      = (V c (Pipeline.arrRef spec3 0) : Mat 100000 128) (ix2 i q) := by
  obtain ⟨e0, e1, -⟩ := bnIdx3 t
  unfold iblk3
  rw [View.read_apply]
  show V c (Pipeline.arrRef spec3 0) _ = V c (Pipeline.arrRef spec3 0) _
  refine congrArg _ (funext fun a => Fin.ext ?_)
  match a with
  | ⟨0, _⟩ => show win3_0.index t (0 : Fin 2) * 5000 + 1 * p.val = i.val; rw [e0, hi]; omega
  | ⟨1, _⟩ => show win3_0.index t (1 : Fin 2) * 128 + 1 * q.val = q.val; rw [e1]; omega

/-- Small window 1's one block is its whole array. -/
theorem bnBlk3_1_apply (c : Dev nD) (t : Fin cfg3.N) (q : Fin 128) :
    (iblk3 (F := Ideal) V c 1 t : Vec Ideal S128 .f32) (ix1 q)
      = (V c (Pipeline.arrRef spec3 1) : Col 128) (ix1 q) := by
  obtain ⟨-, -, -, -, e1, e2, e3, e4⟩ := bnIdx3 t
  unfold iblk3
  rw [View.read_apply]
  show V c (Pipeline.arrRef spec3 1) _ = V c (Pipeline.arrRef spec3 1) _
  refine congrArg _ (funext fun a => Fin.ext ?_)
  match a with
  | ⟨0, _⟩ => show win3_1.index t (0 : Fin 1) * 128 + 1 * q.val = q.val; rw [e1]; omega

/-- Small window 2's one block is its whole array. -/
theorem bnBlk3_2_apply (c : Dev nD) (t : Fin cfg3.N) (q : Fin 128) :
    (iblk3 (F := Ideal) V c 2 t : Vec Ideal S128 .f32) (ix1 q)
      = (V c (Pipeline.arrRef spec3 2) : Col 128) (ix1 q) := by
  obtain ⟨-, -, -, -, e1, e2, e3, e4⟩ := bnIdx3 t
  unfold iblk3
  rw [View.read_apply]
  show V c (Pipeline.arrRef spec3 2) _ = V c (Pipeline.arrRef spec3 2) _
  refine congrArg _ (funext fun a => Fin.ext ?_)
  match a with
  | ⟨0, _⟩ => show win3_2.index t (0 : Fin 1) * 128 + 1 * q.val = q.val; rw [e2]; omega

/-- Small window 3's one block is its whole array. -/
theorem bnBlk3_3_apply (c : Dev nD) (t : Fin cfg3.N) (q : Fin 128) :
    (iblk3 (F := Ideal) V c 3 t : Vec Ideal S128 .f32) (ix1 q)
      = (V c (Pipeline.arrRef spec3 3) : Col 128) (ix1 q) := by
  obtain ⟨-, -, -, -, e1, e2, e3, e4⟩ := bnIdx3 t
  unfold iblk3
  rw [View.read_apply]
  show V c (Pipeline.arrRef spec3 3) _ = V c (Pipeline.arrRef spec3 3) _
  refine congrArg _ (funext fun a => Fin.ext ?_)
  match a with
  | ⟨0, _⟩ => show win3_3.index t (0 : Fin 1) * 128 + 1 * q.val = q.val; rw [e3]; omega

/-- Small window 4's one block is its whole array. -/
theorem bnBlk3_4_apply (c : Dev nD) (t : Fin cfg3.N) (q : Fin 128) :
    (iblk3 (F := Ideal) V c 4 t : Vec Ideal S128 .f32) (ix1 q)
      = (V c (Pipeline.arrRef spec3 4) : Col 128) (ix1 q) := by
  obtain ⟨-, -, -, -, e1, e2, e3, e4⟩ := bnIdx3 t
  unfold iblk3
  rw [View.read_apply]
  show V c (Pipeline.arrRef spec3 4) _ = V c (Pipeline.arrRef spec3 4) _
  refine congrArg _ (funext fun a => Fin.ext ?_)
  match a with
  | ⟨0, _⟩ => show win3_4.index t (0 : Fin 1) * 128 + 1 * q.val = q.val; rw [e4]; omega

/-- What the body leaves in the result window's buffer at point `t`: the payload of the five input blocks. -/
theorem bnAfter3 (c : Dev nD) (t : Fin cfg3.N) :
    (dat3 (F := Ideal) V c).flushed 5 t
      = (cfg3.win 5).cut (grid3.coords t)
          (k3_pay1 (F := Ideal) (iblk3 V c 0 t) (iblk3 V c 1 t) (iblk3 V c 2 t) (iblk3 V c 3 t) (iblk3 V c 4 t)) := by
  show (cfg3.win 5).cut (grid3.coords t) ((dat3 V c).after 5 t) = _
  rw [after3_5]
  unfold out3_5
  rw [View.canon_unit_zero bnZeroB3]
  simp only [View.ld_unit_zero (S := S5000x128) bnZeroB3, View.ld_unit_zero (S := S128) bnZeroA3]

/-- What point `t` writes back is block `t` of the normalised positive part. -/
theorem bnFlushed3_eq (c : Dev nD) (t : Fin cfg3.N) :
    (dat3 (F := Ideal) V c).flushed 5 t
      = ((cfg3.win 5).blk t).view.read (Elt Ideal)
          (bnRelu (V c (Pipeline.arrRef spec3 0)) (V c (Pipeline.arrRef spec3 1)) (V c (Pipeline.arrRef spec3 2)) (V c (Pipeline.arrRef spec3 3)) (V c (Pipeline.arrRef spec3 4))) := by
  rw [bnAfter3]
  obtain ⟨-, -, e2, e3, -⟩ := bnIdx3 t
  funext j
  obtain ⟨p, q, rfl⟩ : ∃ (p : Fin 5000) (q : Fin 128), j = ix2 p q := ⟨j 0, j 1, eq_ix2 j⟩
  have hN : cfg3.N = 20 := N_3
  have hrow : ∀ p' : Fin 5000, t.val * 5000 + p'.val < 100000 := fun p' => by have := t.isLt; have := p'.isLt; omega
  have hemb : ((cfg3.win 5).blk t).view.emb (ix2 p q)
      = (ix2 (⟨t.val * 5000 + p.val, hrow p⟩ : Fin 100000) q : S100000x128.Idx) := by
    funext a; apply Fin.ext
    match a with
    | ⟨0, _⟩ => show win3_5.index t (0 : Fin 2) * 5000 + 1 * p.val = t.val * 5000 + p.val; rw [e2]; omega
    | ⟨1, _⟩ => show win3_5.index t (1 : Fin 2) * 128 + 1 * q.val = q.val; rw [e3]; omega
  show k3_pay1 (F := Ideal) (iblk3 V c 0 t) (iblk3 V c 1 t) (iblk3 V c 2 t) (iblk3 V c 3 t) (iblk3 V c 4 t) (ix2 p q)
    = bnRelu (V c (Pipeline.arrRef spec3 0)) (V c (Pipeline.arrRef spec3 1)) (V c (Pipeline.arrRef spec3 2)) (V c (Pipeline.arrRef spec3 3)) (V c (Pipeline.arrRef spec3 4)) (((cfg3.win 5).blk t).view.emb (ix2 p q))
  rw [hemb]
  exact bnPay3_spec _ _ _ _ _ _ _ _ _ _ (fun p' => ⟨t.val * 5000 + p'.val, hrow p'⟩)
    (fun p' q' => bnBlk3_0_apply V c t p' q' _ rfl) (fun q' => bnBlk3_1_apply V c t q') (fun q' => bnBlk3_2_apply V c t q')
    (fun q' => bnBlk3_3_apply V c t q') (fun q' => bnBlk3_4_apply V c t q') p q

/-- An index of the result array is in point `t`'s block iff each coordinate is in the block's range on its axis. -/
theorem bnMem3 (t : Fin cfg3.N) (i : S100000x128.Idx) :
    i ∈ ((cfg3.win 5).blk t).view.set
      ↔ ∀ a : Fin 2, win3_5.index t a * S5000x128.size a ≤ (i a).val ∧ (i a).val < win3_5.index t a * S5000x128.size a + S5000x128.size a := by
  show i ∈ ((View.whole main_v59).slice (win3_5.rect t)).set ↔ _
  rw [View.set_slice_whole, Rect.mem_set_unit]
  exact Iff.rfl

/-- Every row lies in the block of the point `row / 5000`. -/
theorem bnCover3 (i : S100000x128.Idx) :
    ∃ t : Fin cfg3.N, (cfg3.win 5).flush t = true ∧ i ∈ ((cfg3.win 5).blk t).view.set := by
  have hN : cfg3.N = 20 := N_3
  have hi0 : (i 0).val < 100000 := (i 0).isLt
  have hi1 : (i 1).val < 128 := (i 1).isLt
  let t : Fin cfg3.N := ⟨(i 0).val / 5000, by rw [hN]; omega⟩
  obtain ⟨-, -, e2, e3, -⟩ := bnIdx3 t
  have ht : t.val = (i 0).val / 5000 := rfl
  refine ⟨t, flush3_5 t, ?_⟩
  rw [bnMem3]
  intro a
  match a with
  | ⟨0, _⟩ => show win3_5.index t (0 : Fin 2) * 5000 ≤ (i 0).val ∧ (i 0).val < win3_5.index t (0 : Fin 2) * 5000 + 5000; rw [e2, ht]; omega
  | ⟨1, _⟩ => show win3_5.index t (1 : Fin 2) * 128 ≤ (i 1).val ∧ (i 1).val < win3_5.index t (1 : Fin 2) * 128 + 128; rw [e3]; omega

/-- The result array after the region: the normalised positive part of the pre-activation array, column by column
    with the mean, variance, scale and shift rows the region finds. -/
theorem final3 (c : Dev nD) :
    (Gen.dat3 (F := Ideal) V c).arrAt 5 cfg3.N
      = Cert.Spec.bnRelu (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => bnFlushed3_eq V c t) bnCover3

end Cert.Regions

end
-- ==== Proof.RegionBn6.lean ====
/-
  The normalised positive part, as the block-by-block pointwise unit leaves it in its result array.

  The launch walks the 100000 node rows in 20 blocks of 5000. At a point the body reads the point's block of rows of
  the pre-activation array and the whole mean, variance, scale and shift rows, views each row as a one-row matrix
  spread over the block's rows, and stores `max ((γ · (z − μ)) · rsqrt (σ² + ε) + β) 0` entry by entry: entry
  `(p, q)` of what point `t` writes back reads row `5000 t + p` of the array and column `q` of the four rows. The
  blocks tile the array, row `r` lying in block `r / 5000`, so the array ends holding the normalised positive part
  everywhere.
-/
import proofs.«161461_j70540542869949_1_alg».proof.Proof.Gen.KernelIdeal.Frame
import proofs.«161461_j70540542869949_1_alg».proof.Proof.Spec
import Idealize.ShloMosaic.Lib.Pipeline.Value
import Idealize.ShloMosaic.Lib.ValueLayout
import Idealize.ShloMosaic.PureOps.Ideal.Laws

noncomputable section

namespace Cert.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-block access, however spelt, on one axis and on two. -/
theorem bnZeroA6 : (![0] : Fin 1 → Nat) = fun _ => 0 := funext fun a => by fin_cases a; rfl
theorem bnZeroB6 : (![0, 0] : Fin 2 → Nat) = fun _ => 0 := funext fun a => by fin_cases a <;> rfl

/-- The body's value at `(p, q)`: a row viewed as a one-row matrix and spread over the rows reads its column `q`;
    the inverse square root is taken entry by entry of that one-row matrix. -/
theorem bnPay6_apply (x0 : Vec Ideal S5000x128 .f32) (x1 x2 x3 x4 : Vec Ideal S128 .f32) (p : Fin 5000) (q : Fin 128) :
    k6_pay1 (F := Ideal) x0 x1 x2 x3 x4 (ix2 p q)
      = max ((x3 (ix1 q) * (x0 (ix2 p q) - x1 (ix1 q))) * Ideal.rsqrt (x2 (ix1 q) + eps) + x4 (ix1 q)) 0 := by
  unfold k6_pay1
  simp only [maximumf_apply, addf_apply, mulf_apply, subf_apply, broadcast_apply, broadcastTo_1b_ab_apply,
    Idealize.ShloMosaic.shapeCast_self, shapeCast_a_1a_apply]
  rw [show ∀ (v : FVec Ideal S1x128 .f32) (i : S1x128.Idx), rsqrt v i = Ideal.rsqrt (v i) from fun _ _ => rfl]
  simp only [addf_apply, broadcast_apply, shapeCast_a_1a_apply, Ideal.ofBits_def, Ideal.ofBits_zero_f32]
  rfl

/-- A block whose row `p` is row `row p` of `z`, with the four whole rows, is the normalised positive part of `z`
    at those rows. -/
theorem bnPay6_spec (z : Mat 100000 128) (mean var g be : Col 128) (x0 : Vec Ideal S5000x128 .f32)
    (x1 x2 x3 x4 : Vec Ideal S128 .f32) (row : Fin 5000 → Fin 100000)
    (h0 : ∀ p q, x0 (ix2 p q) = z (ix2 (row p) q)) (h1 : ∀ q, x1 (ix1 q) = mean (ix1 q))
    (h2 : ∀ q, x2 (ix1 q) = var (ix1 q)) (h3 : ∀ q, x3 (ix1 q) = g (ix1 q)) (h4 : ∀ q, x4 (ix1 q) = be (ix1 q))
    (p : Fin 5000) (q : Fin 128) :
    k6_pay1 (F := Ideal) x0 x1 x2 x3 x4 (ix2 p q) = bnReluAt z mean var g be (row p) q := by
  rw [bnPay6_apply, h0, h1, h2, h3, h4]
  rfl

/-- The index maps over the twenty points: the two big windows move together down the rows, block `t` at point `t`;
    the four small windows stay at their one block. -/
theorem bnIdx6 : ∀ t : Fin cfg6.N, win6_0.index t (0 : Fin 2) = t.val ∧ win6_0.index t (1 : Fin 2) = 0
    ∧ win6_5.index t (0 : Fin 2) = t.val ∧ win6_5.index t (1 : Fin 2) = 0
    ∧ win6_1.index t (0 : Fin 1) = 0 ∧ win6_2.index t (0 : Fin 1) = 0
    ∧ win6_3.index t (0 : Fin 1) = 0 ∧ win6_4.index t (0 : Fin 1) = 0 :=
  (by decide +kernel : ∀ t : Fin grid6.N, _)

variable (V : (c : Dev nD) → (b : Ref sig .tc) → Buf (Elt Ideal) ((c : Thread nD τ).loc b))

/-- The pre-activation block at point `t` is rows `5000 t … 5000 t + 4999` of the pre-activation array. -/
theorem bnBlk6_0_apply (c : Dev nD) (t : Fin cfg6.N) (p : Fin 5000) (q : Fin 128) (i : Fin 100000)
    (hi : i.val = t.val * 5000 + p.val) :
    (iblk6 (F := Ideal) V c 0 t : Vec Ideal S5000x128 .f32) (ix2 p q)
      = (V c (Pipeline.arrRef spec6 0) : Mat 100000 128) (ix2 i q) := by
  obtain ⟨e0, e1, -⟩ := bnIdx6 t
  unfold iblk6
  rw [View.read_apply]
  show V c (Pipeline.arrRef spec6 0) _ = V c (Pipeline.arrRef spec6 0) _
  refine congrArg _ (funext fun a => Fin.ext ?_)
  match a with
  | ⟨0, _⟩ => show win6_0.index t (0 : Fin 2) * 5000 + 1 * p.val = i.val; rw [e0, hi]; omega
  | ⟨1, _⟩ => show win6_0.index t (1 : Fin 2) * 128 + 1 * q.val = q.val; rw [e1]; omega

/-- Small window 1's one block is its whole array. -/
theorem bnBlk6_1_apply (c : Dev nD) (t : Fin cfg6.N) (q : Fin 128) :
    (iblk6 (F := Ideal) V c 1 t : Vec Ideal S128 .f32) (ix1 q)
      = (V c (Pipeline.arrRef spec6 1) : Col 128) (ix1 q) := by
  obtain ⟨-, -, -, -, e1, e2, e3, e4⟩ := bnIdx6 t
  unfold iblk6
  rw [View.read_apply]
  show V c (Pipeline.arrRef spec6 1) _ = V c (Pipeline.arrRef spec6 1) _
  refine congrArg _ (funext fun a => Fin.ext ?_)
  match a with
  | ⟨0, _⟩ => show win6_1.index t (0 : Fin 1) * 128 + 1 * q.val = q.val; rw [e1]; omega

/-- Small window 2's one block is its whole array. -/
theorem bnBlk6_2_apply (c : Dev nD) (t : Fin cfg6.N) (q : Fin 128) :
    (iblk6 (F := Ideal) V c 2 t : Vec Ideal S128 .f32) (ix1 q)
      = (V c (Pipeline.arrRef spec6 2) : Col 128) (ix1 q) := by
  obtain ⟨-, -, -, -, e1, e2, e3, e4⟩ := bnIdx6 t
  unfold iblk6
  rw [View.read_apply]
  show V c (Pipeline.arrRef spec6 2) _ = V c (Pipeline.arrRef spec6 2) _
  refine congrArg _ (funext fun a => Fin.ext ?_)
  match a with
  | ⟨0, _⟩ => show win6_2.index t (0 : Fin 1) * 128 + 1 * q.val = q.val; rw [e2]; omega

/-- Small window 3's one block is its whole array. -/
theorem bnBlk6_3_apply (c : Dev nD) (t : Fin cfg6.N) (q : Fin 128) :
    (iblk6 (F := Ideal) V c 3 t : Vec Ideal S128 .f32) (ix1 q)
      = (V c (Pipeline.arrRef spec6 3) : Col 128) (ix1 q) := by
  obtain ⟨-, -, -, -, e1, e2, e3, e4⟩ := bnIdx6 t
  unfold iblk6
  rw [View.read_apply]
  show V c (Pipeline.arrRef spec6 3) _ = V c (Pipeline.arrRef spec6 3) _
  refine congrArg _ (funext fun a => Fin.ext ?_)
  match a with
  | ⟨0, _⟩ => show win6_3.index t (0 : Fin 1) * 128 + 1 * q.val = q.val; rw [e3]; omega

/-- Small window 4's one block is its whole array. -/
theorem bnBlk6_4_apply (c : Dev nD) (t : Fin cfg6.N) (q : Fin 128) :
    (iblk6 (F := Ideal) V c 4 t : Vec Ideal S128 .f32) (ix1 q)
      = (V c (Pipeline.arrRef spec6 4) : Col 128) (ix1 q) := by
  obtain ⟨-, -, -, -, e1, e2, e3, e4⟩ := bnIdx6 t
  unfold iblk6
  rw [View.read_apply]
  show V c (Pipeline.arrRef spec6 4) _ = V c (Pipeline.arrRef spec6 4) _
  refine congrArg _ (funext fun a => Fin.ext ?_)
  match a with
  | ⟨0, _⟩ => show win6_4.index t (0 : Fin 1) * 128 + 1 * q.val = q.val; rw [e4]; omega

/-- What the body leaves in the result window's buffer at point `t`: the payload of the five input blocks. -/
theorem bnAfter6 (c : Dev nD) (t : Fin cfg6.N) :
    (dat6 (F := Ideal) V c).flushed 5 t
      = (cfg6.win 5).cut (grid6.coords t)
          (k6_pay1 (F := Ideal) (iblk6 V c 0 t) (iblk6 V c 1 t) (iblk6 V c 2 t) (iblk6 V c 3 t) (iblk6 V c 4 t)) := by
  show (cfg6.win 5).cut (grid6.coords t) ((dat6 V c).after 5 t) = _
  rw [after6_5]
  unfold out6_5
  rw [View.canon_unit_zero bnZeroB6]
  simp only [View.ld_unit_zero (S := S5000x128) bnZeroB6, View.ld_unit_zero (S := S128) bnZeroA6]

/-- What point `t` writes back is block `t` of the normalised positive part. -/
theorem bnFlushed6_eq (c : Dev nD) (t : Fin cfg6.N) :
    (dat6 (F := Ideal) V c).flushed 5 t
      = ((cfg6.win 5).blk t).view.read (Elt Ideal)
          (bnRelu (V c (Pipeline.arrRef spec6 0)) (V c (Pipeline.arrRef spec6 1)) (V c (Pipeline.arrRef spec6 2)) (V c (Pipeline.arrRef spec6 3)) (V c (Pipeline.arrRef spec6 4))) := by
  rw [bnAfter6]
  obtain ⟨-, -, e2, e3, -⟩ := bnIdx6 t
  funext j
  obtain ⟨p, q, rfl⟩ : ∃ (p : Fin 5000) (q : Fin 128), j = ix2 p q := ⟨j 0, j 1, eq_ix2 j⟩
  have hN : cfg6.N = 20 := N_6
  have hrow : ∀ p' : Fin 5000, t.val * 5000 + p'.val < 100000 := fun p' => by have := t.isLt; have := p'.isLt; omega
  have hemb : ((cfg6.win 5).blk t).view.emb (ix2 p q)
      = (ix2 (⟨t.val * 5000 + p.val, hrow p⟩ : Fin 100000) q : S100000x128.Idx) := by
    funext a; apply Fin.ext
    match a with
    | ⟨0, _⟩ => show win6_5.index t (0 : Fin 2) * 5000 + 1 * p.val = t.val * 5000 + p.val; rw [e2]; omega
    | ⟨1, _⟩ => show win6_5.index t (1 : Fin 2) * 128 + 1 * q.val = q.val; rw [e3]; omega
  show k6_pay1 (F := Ideal) (iblk6 V c 0 t) (iblk6 V c 1 t) (iblk6 V c 2 t) (iblk6 V c 3 t) (iblk6 V c 4 t) (ix2 p q)
    = bnRelu (V c (Pipeline.arrRef spec6 0)) (V c (Pipeline.arrRef spec6 1)) (V c (Pipeline.arrRef spec6 2)) (V c (Pipeline.arrRef spec6 3)) (V c (Pipeline.arrRef spec6 4)) (((cfg6.win 5).blk t).view.emb (ix2 p q))
  rw [hemb]
  exact bnPay6_spec _ _ _ _ _ _ _ _ _ _ (fun p' => ⟨t.val * 5000 + p'.val, hrow p'⟩)
    (fun p' q' => bnBlk6_0_apply V c t p' q' _ rfl) (fun q' => bnBlk6_1_apply V c t q') (fun q' => bnBlk6_2_apply V c t q')
    (fun q' => bnBlk6_3_apply V c t q') (fun q' => bnBlk6_4_apply V c t q') p q

/-- An index of the result array is in point `t`'s block iff each coordinate is in the block's range on its axis. -/
theorem bnMem6 (t : Fin cfg6.N) (i : S100000x128.Idx) :
    i ∈ ((cfg6.win 5).blk t).view.set
      ↔ ∀ a : Fin 2, win6_5.index t a * S5000x128.size a ≤ (i a).val ∧ (i a).val < win6_5.index t a * S5000x128.size a + S5000x128.size a := by
  show i ∈ ((View.whole main_v113).slice (win6_5.rect t)).set ↔ _
  rw [View.set_slice_whole, Rect.mem_set_unit]
  exact Iff.rfl

/-- Every row lies in the block of the point `row / 5000`. -/
theorem bnCover6 (i : S100000x128.Idx) :
    ∃ t : Fin cfg6.N, (cfg6.win 5).flush t = true ∧ i ∈ ((cfg6.win 5).blk t).view.set := by
  have hN : cfg6.N = 20 := N_6
  have hi0 : (i 0).val < 100000 := (i 0).isLt
  have hi1 : (i 1).val < 128 := (i 1).isLt
  let t : Fin cfg6.N := ⟨(i 0).val / 5000, by rw [hN]; omega⟩
  obtain ⟨-, -, e2, e3, -⟩ := bnIdx6 t
  have ht : t.val = (i 0).val / 5000 := rfl
  refine ⟨t, flush6_5 t, ?_⟩
  rw [bnMem6]
  intro a
  match a with
  | ⟨0, _⟩ => show win6_5.index t (0 : Fin 2) * 5000 ≤ (i 0).val ∧ (i 0).val < win6_5.index t (0 : Fin 2) * 5000 + 5000; rw [e2, ht]; omega
  | ⟨1, _⟩ => show win6_5.index t (1 : Fin 2) * 128 ≤ (i 1).val ∧ (i 1).val < win6_5.index t (1 : Fin 2) * 128 + 128; rw [e3]; omega

/-- The result array after the region: the normalised positive part of the pre-activation array, column by column
    with the mean, variance, scale and shift rows the region finds. -/
theorem final6 (c : Dev nD) :
    (Gen.dat6 (F := Ideal) V c).arrAt 5 cfg6.N
      = Cert.Spec.bnRelu (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 _ (fun t _ => bnFlushed6_eq V c t) bnCover6

end Cert.Regions

end
-- ==== Proof.RegionBn9.lean ====
/-
  The normalised positive part, as the block-by-block pointwise unit leaves it in its result array.

  The launch walks the 100000 node rows in 20 blocks of 5000. At a point the body reads the point's block of rows of
  the pre-activation array and the whole mean, variance, scale and shift rows, views each row as a one-row matrix
  spread over the block's rows, and stores `max ((γ · (z − μ)) · rsqrt (σ² + ε) + β) 0` entry by entry: entry
  `(p, q)` of what point `t` writes back reads row `5000 t + p` of the array and column `q` of the four rows. The
  blocks tile the array, row `r` lying in block `r / 5000`, so the array ends holding the normalised positive part
  everywhere.
-/
import proofs.«161461_j70540542869949_1_alg».proof.Proof.Gen.KernelIdeal.Frame
import proofs.«161461_j70540542869949_1_alg».proof.Proof.Spec
import Idealize.ShloMosaic.Lib.Pipeline.Value
import Idealize.ShloMosaic.Lib.ValueLayout
import Idealize.ShloMosaic.PureOps.Ideal.Laws

noncomputable section

namespace Cert.Regions

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- The zero offsets of a whole-block access, however spelt, on one axis and on two. -/
theorem bnZeroA9 : (![0] : Fin 1 → Nat) = fun _ => 0 := funext fun a => by fin_cases a; rfl
theorem bnZeroB9 : (![0, 0] : Fin 2 → Nat) = fun _ => 0 := funext fun a => by fin_cases a <;> rfl

/-- The body's value at `(p, q)`: a row viewed as a one-row matrix and spread over the rows reads its column `q`;
    the inverse square root is taken entry by entry of that one-row matrix. -/
theorem bnPay9_apply (x0 : Vec Ideal S5000x128 .f32) (x1 x2 x3 x4 : Vec Ideal S128 .f32) (p : Fin 5000) (q : Fin 128) :
    k9_pay1 (F := Ideal) x0 x1 x2 x3 x4 (ix2 p q)
      = max ((x3 (ix1 q) * (x0 (ix2 p q) - x1 (ix1 q))) * Ideal.rsqrt (x2 (ix1 q) + eps) + x4 (ix1 q)) 0 := by
  unfold k9_pay1
  simp only [maximumf_apply, addf_apply, mulf_apply, subf_apply, broadcast_apply, broadcastTo_1b_ab_apply,
    Idealize.ShloMosaic.shapeCast_self, shapeCast_a_1a_apply]
  rw [show ∀ (v : FVec Ideal S1x128 .f32) (i : S1x128.Idx), rsqrt v i = Ideal.rsqrt (v i) from fun _ _ => rfl]
  simp only [addf_apply, broadcast_apply, shapeCast_a_1a_apply, Ideal.ofBits_def, Ideal.ofBits_zero_f32]
  rfl

/-- A block whose row `p` is row `row p` of `z`, with the four whole rows, is the normalised positive part of `z`
    at those rows. -/
theorem bnPay9_spec (z : Mat 100000 128) (mean var g be : Col 128) (x0 : Vec Ideal S5000x128 .f32)
    (x1 x2 x3 x4 : Vec Ideal S128 .f32) (row : Fin 5000 → Fin 100000)
    (h0 : ∀ p q, x0 (ix2 p q) = z (ix2 (row p) q)) (h1 : ∀ q, x1 (ix1 q) = mean (ix1 q))
    (h2 : ∀ q, x2 (ix1 q) = var (ix1 q)) (h3 : ∀ q, x3 (ix1 q) = g (ix1 q)) (h4 : ∀ q, x4 (ix1 q) = be (ix1 q))
    (p : Fin 5000) (q : Fin 128) :
    k9_pay1 (F := Ideal) x0 x1 x2 x3 x4 (ix2 p q) = bnReluAt z mean var g be (row p) q := by
  rw [bnPay9_apply, h0, h1, h2, h3, h4]
  rfl

/-- The index maps over the twenty points: the two big windows move together down the rows, block `t` at point `t`;
    the four small windows stay at their one block. -/
theorem bnIdx9 : ∀ t : Fin cfg9.N, win9_0.index t (0 : Fin 2) = t.val ∧ win9_0.index t (1 : Fin 2) = 0
    ∧ win9_5.index t (0 : Fin 2) = t.val ∧ win9_5.index t (1 : Fin 2) = 0
    ∧ win9_1.index t (0 : Fin 1) = 0 ∧ win9_2.index t (0 : Fin 1) = 0
    ∧ win9_3.index t (0 : Fin 1) = 0 ∧ win9_4.index t (0 : Fin 1) = 0 :=
  (by decide +kernel : ∀ t : Fin grid9.N, _)

variable (V : (c : Dev nD) → (b : Ref sig .tc) → Buf (Elt Ideal) ((c : Thread nD τ).loc b))

/-- The pre-activation block at point `t` is rows `5000 t … 5000 t + 4999` of the pre-activation array. -/
theorem bnBlk9_0_apply (c : Dev nD) (t : Fin cfg9.N) (p : Fin 5000) (q : Fin 128) (i : Fin 100000)
    (hi : i.val = t.val * 5000 + p.val) :
    (iblk9 (F := Ideal) V c 0 t : Vec Ideal S5000x128 .f32) (ix2 p q)
      = (V c (Pipeline.arrRef spec9 0) : Mat 100000 128) (ix2 i q) := by
  obtain ⟨e0, e1, -⟩ := bnIdx9 t
  unfold iblk9
  rw [View.read_apply]
  show V c (Pipeline.arrRef spec9 0) _ = V c (Pipeline.arrRef spec9 0) _
  refine congrArg _ (funext fun a => Fin.ext ?_)
  match a with
  | ⟨0, _⟩ => show win9_0.index t (0 : Fin 2) * 5000 + 1 * p.val = i.val; rw [e0, hi]; omega
  | ⟨1, _⟩ => show win9_0.index t (1 : Fin 2) * 128 + 1 * q.val = q.val; rw [e1]; omega

/-- Small window 1's one block is its whole array. -/
theorem bnBlk9_1_apply (c : Dev nD) (t : Fin cfg9.N) (q : Fin 128) :
    (iblk9 (F := Ideal) V c 1 t : Vec Ideal S128 .f32) (ix1 q)
      = (V c (Pipeline.arrRef spec9 1) : Col 128) (ix1 q) := by
  obtain ⟨-, -, -, -, e1, e2, e3, e4⟩ := bnIdx9 t
  unfold iblk9
  rw [View.read_apply]
  show V c (Pipeline.arrRef spec9 1) _ = V c (Pipeline.arrRef spec9 1) _
  refine congrArg _ (funext fun a => Fin.ext ?_)
  match a with
  | ⟨0, _⟩ => show win9_1.index t (0 : Fin 1) * 128 + 1 * q.val = q.val; rw [e1]; omega

/-- Small window 2's one block is its whole array. -/
theorem bnBlk9_2_apply (c : Dev nD) (t : Fin cfg9.N) (q : Fin 128) :
    (iblk9 (F := Ideal) V c 2 t : Vec Ideal S128 .f32) (ix1 q)
      = (V c (Pipeline.arrRef spec9 2) : Col 128) (ix1 q) := by
  obtain ⟨-, -, -, -, e1, e2, e3, e4⟩ := bnIdx9 t
  unfold iblk9
  rw [View.read_apply]
  show V c (Pipeline.arrRef spec9 2) _ = V c (Pipeline.arrRef spec9 2) _
  refine congrArg _ (funext fun a => Fin.ext ?_)
  match a with
  | ⟨0, _⟩ => show win9_2.index t (0 : Fin 1) * 128 + 1 * q.val = q.val; rw [e2]; omega

/-- Small window 3's one block is its whole array. -/
theorem bnBlk9_3_apply (c : Dev nD) (t : Fin cfg9.N) (q : Fin 128) :
    (iblk9 (F := Ideal) V c 3 t : Vec Ideal S128 .f32) (ix1 q)
      = (V c (Pipeline.arrRef spec9 3) : Col 128) (ix1 q) := by
  obtain ⟨-, -, -, -, e1, e2, e3, e4⟩ := bnIdx9 t
  unfold iblk9
  rw [View.read_apply]
  show V c (Pipeline.arrRef spec9 3) _ = V c (Pipeline.arrRef spec9 3) _
  refine congrArg _ (funext fun a => Fin.ext ?_)
  match a with
  | ⟨0, _⟩ => show win9_3.index t (0 : Fin 1) * 128 + 1 * q.val = q.val; rw [e3]; omega

/-- Small window 4's one block is its whole array. -/
theorem bnBlk9_4_apply (c : Dev nD) (t : Fin cfg9.N) (q : Fin 128) :
    (iblk9 (F := Ideal) V c 4 t : Vec Ideal S128 .f32) (ix1 q)
      = (V c (Pipeline.arrRef spec9 4) : Col 128) (ix1 q) := by
  obtain ⟨-, -, -, -, e1, e2, e3, e4⟩ := bnIdx9 t
  unfold iblk9
  rw [View.read_apply]
  show V c (Pipeline.arrRef spec9 4) _ = V c (Pipeline.arrRef spec9 4) _
  refine congrArg _ (funext fun a => Fin.ext ?_)
  match a with
  | ⟨0, _⟩ => show win9_4.index t (0 : Fin 1) * 128 + 1 * q.val = q.val; rw [e4]; omega

/-- What the body leaves in the result window's buffer at point `t`: the payload of the five input blocks. -/
theorem bnAfter9 (c : Dev nD) (t : Fin cfg9.N) :
    (dat9 (F := Ideal) V c).flushed 5 t
      = (cfg9.win 5).cut (grid9.coords t)
          (k9_pay1 (F := Ideal) (iblk9 V c 0 t) (iblk9 V c 1 t) (iblk9 V c 2 t) (iblk9 V c 3 t) (iblk9 V c 4 t)) := by
  show (cfg9.win 5).cut (grid9.coords t) ((dat9 V c).after 5 t) = _
  rw [after9_5]
  unfold out9_5
  rw [View.canon_unit_zero bnZeroB9]
  simp only [View.ld_unit_zero (S := S5000x128) bnZeroB9, View.ld_unit_zero (S := S128) bnZeroA9]

/-- What point `t` writes back is block `t` of the normalised positive part. -/
theorem bnFlushed9_eq (c : Dev nD) (t : Fin cfg9.N) :
    (dat9 (F := Ideal) V c).flushed 5 t
      = ((cfg9.win 5).blk t).view.read (Elt Ideal)
          (bnRelu (V c (Pipeline.arrRef spec9 0)) (V c (Pipeline.arrRef spec9 1)) (V c (Pipeline.arrRef spec9 2)) (V c (Pipeline.arrRef spec9 3)) (V c (Pipeline.arrRef spec9 4))) := by
  rw [bnAfter9]
  obtain ⟨-, -, e2, e3, -⟩ := bnIdx9 t
  funext j
  obtain ⟨p, q, rfl⟩ : ∃ (p : Fin 5000) (q : Fin 128), j = ix2 p q := ⟨j 0, j 1, eq_ix2 j⟩
  have hN : cfg9.N = 20 := N_9
  have hrow : ∀ p' : Fin 5000, t.val * 5000 + p'.val < 100000 := fun p' => by have := t.isLt; have := p'.isLt; omega
  have hemb : ((cfg9.win 5).blk t).view.emb (ix2 p q)
      = (ix2 (⟨t.val * 5000 + p.val, hrow p⟩ : Fin 100000) q : S100000x128.Idx) := by
    funext a; apply Fin.ext
    match a with
    | ⟨0, _⟩ => show win9_5.index t (0 : Fin 2) * 5000 + 1 * p.val = t.val * 5000 + p.val; rw [e2]; omega
    | ⟨1, _⟩ => show win9_5.index t (1 : Fin 2) * 128 + 1 * q.val = q.val; rw [e3]; omega
  show k9_pay1 (F := Ideal) (iblk9 V c 0 t) (iblk9 V c 1 t) (iblk9 V c 2 t) (iblk9 V c 3 t) (iblk9 V c 4 t) (ix2 p q)
    = bnRelu (V c (Pipeline.arrRef spec9 0)) (V c (Pipeline.arrRef spec9 1)) (V c (Pipeline.arrRef spec9 2)) (V c (Pipeline.arrRef spec9 3)) (V c (Pipeline.arrRef spec9 4)) (((cfg9.win 5).blk t).view.emb (ix2 p q))
  rw [hemb]
  exact bnPay9_spec _ _ _ _ _ _ _ _ _ _ (fun p' => ⟨t.val * 5000 + p'.val, hrow p'⟩)
    (fun p' q' => bnBlk9_0_apply V c t p' q' _ rfl) (fun q' => bnBlk9_1_apply V c t q') (fun q' => bnBlk9_2_apply V c t q')
    (fun q' => bnBlk9_3_apply V c t q') (fun q' => bnBlk9_4_apply V c t q') p q

/-- An index of the result array is in point `t`'s block iff each coordinate is in the block's range on its axis. -/
theorem bnMem9 (t : Fin cfg9.N) (i : S100000x128.Idx) :
    i ∈ ((cfg9.win 5).blk t).view.set
      ↔ ∀ a : Fin 2, win9_5.index t a * S5000x128.size a ≤ (i a).val ∧ (i a).val < win9_5.index t a * S5000x128.size a + S5000x128.size a := by
  show i ∈ ((View.whole main_v167).slice (win9_5.rect t)).set ↔ _
  rw [View.set_slice_whole, Rect.mem_set_unit]
  exact Iff.rfl

/-- Every row lies in the block of the point `row / 5000`. -/
theorem bnCover9 (i : S100000x128.Idx) :
    ∃ t : Fin cfg9.N, (cfg9.win 5).flush t = true ∧ i ∈ ((cfg9.win 5).blk t).view.set := by
  have hN : cfg9.N = 20 := N_9
  have hi0 : (i 0).val < 100000 := (i 0).isLt
  have hi1 : (i 1).val < 128 := (i 1).isLt
  let t : Fin cfg9.N := ⟨(i 0).val / 5000, by rw [hN]; omega⟩
  obtain ⟨-, -, e2, e3, -⟩ := bnIdx9 t
  have ht : t.val = (i 0).val / 5000 := rfl
  refine ⟨t, flush9_5 t, ?_⟩
  rw [bnMem9]
  intro a
  match a with
  | ⟨0, _⟩ => show win9_5.index t (0 : Fin 2) * 5000 ≤ (i 0).val ∧ (i 0).val < win9_5.index t (0 : Fin 2) * 5000 + 5000; rw [e2, ht]; omega
  | ⟨1, _⟩ => show win9_5.index t (1 : Fin 2) * 128 ≤ (i 1).val ∧ (i 1).val < win9_5.index t (1 : Fin 2) * 128 + 128; rw [e3]; omega

/-- The result array after the region: the normalised positive part of the pre-activation array, column by column
    with the mean, variance, scale and shift rows the region finds. -/
theorem final9 (c : Dev nD) :
    (Gen.dat9 (F := Ideal) V c).arrAt 5 cfg9.N
      = Cert.Spec.bnRelu (V c (Pipeline.arrRef spec9 0)) (V c (Pipeline.arrRef spec9 1)) (V c (Pipeline.arrRef spec9 2)) (V c (Pipeline.arrRef spec9 3)) (V c (Pipeline.arrRef spec9 4)) :=
  (dat9 (F := Ideal) V c).arrAt_eq_of_cover 5 _ (fun t _ => bnFlushed9_eq V c t) bnCover9

end Cert.Regions

end
-- ==== Proof.RegionStatsLib.lean ====
/-
  Sums over the 100000 rows of a feature matrix, cut into the 20 blocks of 5000 rows a column-statistics pass visits,
  and the three pure steps of that pass read at an index over the extended reals.

  A function of a row is extended by zero past the last row, so that the sum over the rows below a bound is a sum
  over a range of naturals: the rows below `5000 (n + 1)` are those below `5000 n` and the `5000` rows of block `n`,
  and the rows below `100000` are all of them. The steps: a block with a bias row added to every row; a column's sum
  over a block's rows; a row of running sums with a row of block sums added.
-/
import proofs.«161461_j70540542869949_1_alg».proof.Proof.Spec
import Idealize.ShloMosaic.PureOps.Ideal.Laws
import Idealize.ShloMosaic.Lib.ValueLayout

noncomputable section

open scoped BigOperators

namespace Cert.Regions

open Idealize.ShloMosaic Idealize.ShloMosaic.ValueIdx

/-! ## Zero offsets -/

/-- The offsets of a whole rank-2 block, and of a whole rank-1 block, are zero on every axis. -/
theorem zeros2 : (![0, 0] : Fin 2 → Nat) = fun _ => 0 := funext fun a => by fin_cases a <;> rfl
theorem zeros1 : (![0] : Fin 1 → Nat) = fun _ => 0 := funext fun a => by fin_cases a <;> rfl

/-! ## Rows below a bound -/

/-- A function of a row, as a function of a natural: zero past the last row. -/
def rowsOr (f : Fin 100000 → EReal) (p : ℕ) : EReal := if h : p < 100000 then f ⟨p, h⟩ else 0

/-- At a row it is the function. -/
theorem rowsOr_of_lt (f : Fin 100000 → EReal) (p : ℕ) (h : p < 100000) : rowsOr f p = f ⟨p, h⟩ := dif_pos h

/-- The sum over the rows below `100000` is the sum over all rows. -/
theorem sum_rows_all (f : Fin 100000 → EReal) : ∑ p ∈ Finset.range 100000, rowsOr f p = ∑ p : Fin 100000, f p := by
  rw [Finset.sum_range]
  exact Finset.sum_congr rfl fun p _ => rowsOr_of_lt f p.val p.isLt

/-- The rows below `5000 (n + 1)` are the rows below `5000 n` and the rows of block `n`. -/
theorem sum_rows_succ (f : Fin 100000 → EReal) (n : ℕ) :
    ∑ p ∈ Finset.range (5000 * (n + 1)), rowsOr f p
      = ∑ p ∈ Finset.range (5000 * n), rowsOr f p + ∑ r : Fin 5000, rowsOr f (5000 * n + r.val) := by
  rw [show 5000 * (n + 1) = 5000 * n + 5000 from by ring, Finset.sum_range_add, Finset.sum_range (fun r => rowsOr f (5000 * n + r))]

/-- The rows below `5000` are the rows of block `0`. -/
theorem sum_rows_first (f : Fin 100000 → EReal) :
    ∑ p ∈ Finset.range (5000 * (0 + 1)), rowsOr f p = ∑ r : Fin 5000, rowsOr f (5000 * 0 + r.val) := by
  rw [sum_rows_succ, Nat.mul_zero, Finset.range_zero, Finset.sum_empty, zero_add]

/-! ## The pass's steps at an index -/

/-- A block with a bias row added to every row, at `(r, q)`: the block's entry plus the bias's entry `q`. -/
theorem addRow_apply (x0 : FVec Ideal ⟨2, ![5000, 128]⟩ .f32) (x1 : FVec Ideal ⟨1, ![128]⟩ .f32)
    (h0 : (⟨2, ![5000, 128]⟩ : Shape).ShapeCasts ⟨2, ![5000, 128]⟩) (h1 : (⟨1, ![128]⟩ : Shape).ShapeCasts ⟨2, ![1, 128]⟩)
    (h2 : (⟨2, ![1, 128]⟩ : Shape).Broadcasts ⟨2, ![5000, 128]⟩) (r : Fin 5000) (q : Fin 128) :
    addf (shapeCast ⟨2, ![5000, 128]⟩ x0 h0) (broadcastTo ⟨2, ![5000, 128]⟩ (shapeCast ⟨2, ![1, 128]⟩ x1 h1) h2) (ix2 r q)
      = x0 (ix2 r q) + x1 (ix1 q) := by
  rw [addf_apply, shapeCast_self, broadcastTo_1b_ab_apply, shapeCast_a_1a_apply]

/-- A block's sum along its rows, at column `q`: the sum over the rows of the entries of that column. -/
theorem colReduce_apply (y : FVec Ideal ⟨2, ![5000, 128]⟩ .f32) (h : Shape.Reduces ⟨2, ![5000, 128]⟩ [0] ⟨1, ![128]⟩)
    (hφ : FKind.Formats .f32) (hacc : (0x00000000#32 : BitVec 32) = FKind.add.neutral .f32 hφ) (q : Fin 128) :
    multiReduction .add [0] ⟨1, ![128]⟩ y 0x00000000#32 h hφ hacc (ix1 q) = ∑ r : Fin 5000, y (ix2 r q) := by
  refine (Ideal.multiReduction_add_single y 0x00000000#32 h hφ hacc (ix1 q)).trans ?_
  show ∑ r : Fin 5000, y (h.lift (ix1 q) r) = _
  refine Finset.sum_congr rfl fun r _ => congrArg y ?_
  funext a
  match a with
  | ⟨0, _⟩ => rfl
  | ⟨1, _⟩ => rfl

/-- A row of running sums with a row of block sums added, at column `q`. -/
theorem accRow_apply (xo : FVec Ideal ⟨2, ![1, 128]⟩ .f32) (v : FVec Ideal ⟨1, ![128]⟩ .f32)
    (h0 : (⟨2, ![1, 128]⟩ : Shape).ShapeCasts ⟨2, ![1, 128]⟩) (h1 : (⟨1, ![128]⟩ : Shape).ShapeCasts ⟨2, ![1, 128]⟩) (q : Fin 128) :
    addf (shapeCast ⟨2, ![1, 128]⟩ xo h0) (shapeCast ⟨2, ![1, 128]⟩ v h1) (ix2 (0 : Fin 1) q) = xo (ix2 (0 : Fin 1) q) + v (ix1 q) := by
  rw [addf_apply, shapeCast_self, shapeCast_a_1a_apply]

/-- The zero row an accumulator starts from, at any index. -/
theorem zeroRow_apply (j : (⟨2, ![1, 128]⟩ : Shape).Idx) :
    (broadcast ⟨2, ![1, 128]⟩ (Scalar.ofBits (F := Ideal) .f32 0x00000000#32) : FVec Ideal ⟨2, ![1, 128]⟩ .f32) j = 0 :=
  Ideal.ofBits_zero_f32

/-! ## The column statistics at an index of the one-row array -/

/-- The column sums, and the column sums of squares, at column `q` of their one row. -/
theorem colSum_apply (z : Cert.Spec.Mat 100000 128) (q : Fin 128) :
    Cert.Spec.colSum z (ix2 (0 : Fin 1) q) = ∑ p : Fin 100000, z (ix2 p q) := rfl
theorem colSumSq_apply (z : Cert.Spec.Mat 100000 128) (q : Fin 128) :
    Cert.Spec.colSumSq z (ix2 (0 : Fin 1) q) = ∑ p : Fin 100000, z (ix2 p q) * z (ix2 p q) := rfl

/-- A row of 128 values that agrees with a one-row array `G` at every column, read at an index `j`, is `G` at any
    index `k` of the same column. -/
theorem oneRow_point (y : FVec Ideal ⟨2, ![1, 128]⟩ .f32) (G : Cert.Spec.Mat 1 128)
    (hy : ∀ q : Fin 128, y (ix2 (0 : Fin 1) q) = G (ix2 (0 : Fin 1) q))
    (j k : (⟨2, ![1, 128]⟩ : Shape).Idx) (hk1 : (k 1).val = (j 1).val) : y j = G k := by
  obtain ⟨u, q, rfl⟩ : ∃ (u : Fin 1) (q : Fin 128), j = ix2 u q := ⟨j 0, j 1, eq_ix2 j⟩
  obtain rfl : u = 0 := Subsingleton.elim _ _
  have e : k = ix2 (0 : Fin 1) q := by
    funext a
    match a with
    | ⟨0, _⟩ => exact Subsingleton.elim (α := Fin 1) _ _
    | ⟨1, _⟩ => exact Fin.ext hk1
  rw [e]
  exact hy q

end Cert.Regions

end
-- ==== Proof.RegionStats2.lean ====
/-
  What the column-statistics pass number 2 leaves in its three output arrays.

  The pass walks the 100000 rows of a feature matrix in 20 blocks of 5000 rows. At every block it writes the block with
  a bias row added to every row, and adds the block's column sums, and its column sums of squares, onto two rows of 128
  running sums that it carries from block to block; at the first block it first sets both rows to zero. The two rows are
  written out once, after the last block.

  So the first output is the feature matrix with the bias added to every row, entry by entry: block `t` holds rows
  `5000 t … 5000 t + 4999`, and the blocks cover all rows. After block `n` the row of sums holds, in column `q`, the sum
  of column `q` of that matrix over the rows below `5000 (n + 1)` (by induction on `n`: zero plus the first block's sum,
  then the sum so far plus the next block's sum; only the grouping of a sum of extended reals is used), so after the last
  block it holds the column sums over all rows; the row of sums of squares likewise.
-/
import proofs.«161461_j70540542869949_1_alg».proof.Proof.Gen.KernelIdeal.Frame
import proofs.«161461_j70540542869949_1_alg».proof.Proof.Spec
import proofs.«161461_j70540542869949_1_alg».proof.Proof.RegionStatsLib
import Idealize.ShloMosaic.Lib.Pipeline.Value
import Idealize.ShloMosaic.Lib.ValueLayout
import Idealize.ShloMosaic.Lib.Tactic

noncomputable section

open scoped BigOperators

namespace Cert.Regions

open Idealize.ShloMosaic Idealize.ShloMosaic.TcCoe Idealize.SL.Sem Idealize.ShloMosaic.ValueIdx
open Idealize.ShloMosaic.Pipeline (Dat)
open Cert.KernelIdeal Cert.KernelIdeal.Gen Cert.Spec

/-! ## What each of the body's two cases leaves in the three blocks, for any float values -/

section Pieces

variable {F : FTy → Type} [FloatOps F]

/-- A later point leaves, in the block of window 2, the block of features with the bias row added. -/
theorem out2_B_2_eq (c : Dev nD) (i : grid2.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (x0 : Vec F S5000x128 .f32) (x1 : Vec F S128 .f32) (xo3 xo4 : Vec F S1x128 .f32) :
    out2_B_2 c i arg1 harg1 arg2 harg2 arg3 harg3 arg4 harg4 arg5 harg5 hc0 x0 x1 xo3 xo4 = k2_pay3 x0 x1 := by
  unfold out2_B_2
  rw [View.read_writes_eq_canon _ _ _ (cover2_B_2 c i arg1 harg1 arg2 harg2 arg3 harg3 arg4 harg4 arg5 harg5 hc0 x0 x1 xo3 xo4)]
  unfold kernelRun2_B
  dsimp only
  try sl_unfold_words
  rw [View.canon_unit_zero (S := S5000x128) zeros2]
  simp only [View.readAt_eq_ld, harg1.read_unread, harg2.read_unread, View.ld_unit_zero (S := S5000x128) zeros2, View.ld_unit_zero (S := S128) zeros1]

/-- The first point leaves the same there. -/
theorem out2_A_2_eq (c : Dev nD) (i : grid2.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond2_0 i) (x0 : Vec F S5000x128 .f32) (x1 : Vec F S128 .f32) :
    out2_A_2 c i arg1 harg1 arg2 harg2 arg3 harg3 arg4 harg4 arg5 harg5 hc0 x0 x1 = k2_pay3 x0 x1 := by
  unfold out2_A_2
  rw [View.read_writes_eq_canon _ _ _ (cover2_A_2 c i arg1 harg1 arg2 harg2 arg3 harg3 arg4 harg4 arg5 harg5 hc0 x0 x1)]
  unfold kernelRun2_A
  dsimp only
  try sl_unfold_words
  rw [View.canon_unit_zero (S := S5000x128) zeros2]
  simp only [View.readAt_eq_ld, harg1.read_unread, harg2.read_unread, View.ld_unit_zero (S := S5000x128) zeros2, View.ld_unit_zero (S := S128) zeros1]

/-- A later point adds the block's column sums onto the row of sums the point before left. -/
theorem out2_B_3_eq (c : Dev nD) (i : grid2.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (x0 : Vec F S5000x128 .f32) (x1 : Vec F S128 .f32) (xo3 xo4 : Vec F S1x128 .f32) :
    out2_B_3 c i arg1 harg1 arg2 harg2 arg3 harg3 arg4 harg4 arg5 harg5 hc0 x0 x1 xo3 xo4 = k2_pay4 x0 x1 xo3 := by
  unfold out2_B_3
  rw [View.read_writes_eq_canon _ _ _ (cover2_B_3 c i arg1 harg1 arg2 harg2 arg3 harg3 arg4 harg4 arg5 harg5 hc0 x0 x1 xo3 xo4)]
  unfold kernelRun2_B
  dsimp only
  try sl_unfold_words
  rw [View.canon_unit_zero (S := S1x128) zeros2]
  simp only [View.readAt_eq_ld, harg1.read_unread, harg2.read_unread, harg4.read_unread, View.ld_unit_zero (S := S5000x128) zeros2, View.ld_unit_zero (S := S128) zeros1, View.ld_unit_zero (S := S1x128) zeros2]

/-- The first point adds them onto the zero row it has just stored. -/
theorem out2_A_3_eq (c : Dev nD) (i : grid2.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond2_0 i) (x0 : Vec F S5000x128 .f32) (x1 : Vec F S128 .f32) :
    out2_A_3 c i arg1 harg1 arg2 harg2 arg3 harg3 arg4 harg4 arg5 harg5 hc0 x0 x1 = k2_pay4 x0 x1 (k2_pay1 (F := F)) := by
  unfold out2_A_3
  rw [View.read_writes_eq_canon _ _ _ (cover2_A_3 c i arg1 harg1 arg2 harg2 arg3 harg3 arg4 harg4 arg5 harg5 hc0 x0 x1)]
  unfold kernelRun2_A
  dsimp only
  sl_unfold_words
  rw [View.canon_cons_unit_zero (S := S1x128) zeros2, View.readCov_unit_zero (S := S1x128) _ zeros2]
  simp only [View.readAt_eq_ld, harg1.read_unread, harg2.read_unread, View.ld_unit_zero (S := S5000x128) zeros2, View.ld_unit_zero (S := S128) zeros1]

/-- A later point adds the block's column sums of squares onto the row the point before left. -/
theorem out2_B_4_eq (c : Dev nD) (i : grid2.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond2_0 i) (x0 : Vec F S5000x128 .f32) (x1 : Vec F S128 .f32) (xo3 xo4 : Vec F S1x128 .f32) :
    out2_B_4 c i arg1 harg1 arg2 harg2 arg3 harg3 arg4 harg4 arg5 harg5 hc0 x0 x1 xo3 xo4 = k2_pay5 x0 x1 xo4 := by
  unfold out2_B_4
  rw [View.read_writes_eq_canon _ _ _ (cover2_B_4 c i arg1 harg1 arg2 harg2 arg3 harg3 arg4 harg4 arg5 harg5 hc0 x0 x1 xo3 xo4)]
  unfold kernelRun2_B
  dsimp only
  try sl_unfold_words
  rw [View.canon_unit_zero (S := S1x128) zeros2]
  simp only [View.readAt_eq_ld, harg1.read_unread, harg2.read_unread, harg5.read_unread, View.ld_unit_zero (S := S5000x128) zeros2, View.ld_unit_zero (S := S128) zeros1, View.ld_unit_zero (S := S1x128) zeros2]

/-- The first point adds them onto the zero row it has just stored. -/
theorem out2_A_4_eq (c : Dev nD) (i : grid2.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond2_0 i) (x0 : Vec F S5000x128 .f32) (x1 : Vec F S128 .f32) :
    out2_A_4 c i arg1 harg1 arg2 harg2 arg3 harg3 arg4 harg4 arg5 harg5 hc0 x0 x1 = k2_pay5 x0 x1 (k2_pay2 (F := F)) := by
  unfold out2_A_4
  rw [View.read_writes_eq_canon _ _ _ (cover2_A_4 c i arg1 harg1 arg2 harg2 arg3 harg3 arg4 harg4 arg5 harg5 hc0 x0 x1)]
  unfold kernelRun2_A
  dsimp only
  sl_unfold_words
  rw [View.canon_cons_unit_zero (S := S1x128) zeros2, View.readCov_unit_zero (S := S1x128) _ zeros2]
  simp only [View.readAt_eq_ld, harg1.read_unread, harg2.read_unread, View.ld_unit_zero (S := S5000x128) zeros2, View.ld_unit_zero (S := S128) zeros1]

variable (V : (c : Dev nD) → (b : Ref sig .tc) → Buf (Elt F) ((c : Thread nD τ).loc b))

/-- After the first block: the block with the bias added, and each row of sums at zero plus the block's sums. -/
theorem outs2_first (c : Dev nD) (t : Fin cfg2.N) (h0 : t.val % 20 = 0) :
    outsAt2 V c t.val t.isLt
      = (k2_pay3 (iblk2 V c 0 t) (iblk2 V c 1 t), k2_pay4 (iblk2 V c 0 t) (iblk2 V c 1 t) (k2_pay1 (F := F)),
          k2_pay5 (iblk2 V c 0 t) (iblk2 V c 1 t) (k2_pay2 (F := F))) := by
  rw [outsAt2_A V c t h0]
  refine congrArg₂ Prod.mk ?_ (congrArg₂ Prod.mk ?_ ?_)
  · exact out2_A_2_eq c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t)
  · exact out2_A_3_eq c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t)
  · exact out2_A_4_eq c (grid2.coords t) (ms2_0 t) (hs2_0 t) (ms2_1 t) (hs2_1 t) (ms2_2 t) (hs2_2 t) (ms2_3 t) (hs2_3 t) (ms2_4 t) (hs2_4 t) ((hcond2_0 t).mpr h0) (iblk2 V c 0 t) (iblk2 V c 1 t)

/-- After a later block: the block with the bias added, and each row of sums at what the block before left plus the
    block's sums. -/
theorem outs2_later (c : Dev nD) (t : Fin cfg2.N) (h0 : ¬t.val % 20 = 0) :
    outsAt2 V c t.val t.isLt
      = (k2_pay3 (iblk2 V c 0 t) (iblk2 V c 1 t), k2_pay4 (iblk2 V c 0 t) (iblk2 V c 1 t) (outsAt2 V c (t.val - 1) (Nat.lt_of_le_of_lt (Nat.sub_le _ _) t.isLt)).2.1,
          k2_pay5 (iblk2 V c 0 t) (iblk2 V c 1 t) (outsAt2 V c (t.val - 1) (Nat.lt_of_le_of_lt (Nat.sub_le _ _) t.isLt)).2.2) := by
  rw [outsAt2_B V c t h0]
  refine congrArg₂ Prod.mk ?_ (congrArg₂ Prod.mk ?_ ?_)
  · exact out2_B_2_eq c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2
  · exact out2_B_3_eq c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2
  · exact out2_B_4_eq c (grid2.coords t) (ms2_0 t) (hs2_0 t) (ms2_1 t) (hs2_1 t) (ms2_2 t) (hs2_2 t) (ms2_3 t) (hs2_3 t) (ms2_4 t) (hs2_4 t) (fun h => h0 ((hcond2_0 t).mp h)) (iblk2 V c 0 t) (iblk2 V c 1 t) (outsAt2 V c (t.val - 1) (Nat.lt_of_le_of_lt (Nat.sub_le _ _) t.isLt)).2.1 (outsAt2 V c (t.val - 1) (Nat.lt_of_le_of_lt (Nat.sub_le _ _) t.isLt)).2.2

/-- At every block the first output's block is the input block with the bias added. -/
theorem outs2_bias (c : Dev nD) (t : Fin cfg2.N) :
    (outsAt2 V c t.val t.isLt).1 = k2_pay3 (iblk2 V c 0 t) (iblk2 V c 1 t) := by
  by_cases h0 : t.val % 20 = 0
  · rw [outs2_first V c t h0]
  · rw [outs2_later V c t h0]

end Pieces

/-! ## The three steps at an index, over the extended reals -/

/-- The block with the bias added, at row `r` and column `q`. -/
theorem bias2_apply (x0 : Vec Ideal S5000x128 .f32) (x1 : Vec Ideal S128 .f32) (r : Fin 5000) (q : Fin 128) :
    k2_pay3 (F := Ideal) x0 x1 (ix2 r q) = x0 (ix2 r q) + x1 (ix1 q) :=
  addRow_apply x0 x1 _ _ _ r q

/-- A row of sums after a block, at column `q`: what it held plus the column's sum over the block's rows. -/
theorem sum2_apply (x0 : Vec Ideal S5000x128 .f32) (x1 : Vec Ideal S128 .f32) (xo : Vec Ideal S1x128 .f32) (q : Fin 128) :
    k2_pay4 (F := Ideal) x0 x1 xo (ix2 (0 : Fin 1) q)
      = xo (ix2 (0 : Fin 1) q) + ∑ r : Fin 5000, (x0 (ix2 r q) + x1 (ix1 q)) := by
  refine (accRow_apply xo _ _ _ q).trans ?_
  refine congrArg (xo (ix2 (0 : Fin 1) q) + ·) ?_
  refine (colReduce_apply _ _ _ _ q).trans ?_
  exact Finset.sum_congr rfl fun r _ => bias2_apply x0 x1 r q

/-- A row of sums of squares after a block, at column `q`. -/
theorem sumsq2_apply (x0 : Vec Ideal S5000x128 .f32) (x1 : Vec Ideal S128 .f32) (xo : Vec Ideal S1x128 .f32) (q : Fin 128) :
    k2_pay5 (F := Ideal) x0 x1 xo (ix2 (0 : Fin 1) q)
      = xo (ix2 (0 : Fin 1) q) + ∑ r : Fin 5000, (x0 (ix2 r q) + x1 (ix1 q)) * (x0 (ix2 r q) + x1 (ix1 q)) := by
  refine (accRow_apply xo _ _ _ q).trans ?_
  refine congrArg (xo (ix2 (0 : Fin 1) q) + ·) ?_
  refine (colReduce_apply _ _ _ _ q).trans ?_
  refine Finset.sum_congr rfl fun r _ => ?_
  refine (mulf_apply _ _ (ix2 r q)).trans ?_
  rw [bias2_apply x0 x1 r q]

/-- The two zero rows. -/
theorem zero2a_apply (j : S1x128.Idx) : k2_pay1 (F := Ideal) j = 0 := zeroRow_apply j
theorem zero2b_apply (j : S1x128.Idx) : k2_pay2 (F := Ideal) j = 0 := zeroRow_apply j

/-! ## The blocks as rows of the arrays -/

section AtIdeal

variable (V : (c : Dev nD) → (b : Ref sig .tc) → Buf (Elt Ideal) ((c : Thread nD τ).loc b))

/-- The index maps over the grid: the feature blocks move down one block per point, everything else stays. -/
theorem idx2_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Block `t` of the features holds rows `5000 t + r`. -/
theorem blk2_0_apply (c : Dev nD) (t : Fin cfg2.N) (r : Fin 5000) (q : Fin 128) (k : S100000x128.Idx)
    (hk0 : (k 0).val = 5000 * t.val + r.val) (hk1 : (k 1).val = q.val) :
    (iblk2 V c 0 t : Vec Ideal S5000x128 .f32) (ix2 r q) = ((V c (Pipeline.arrRef spec2 0)) : S100000x128.Idx → Elt Ideal .f32) k := by
  obtain ⟨e0, e1, -⟩ := idx2_facts t
  unfold iblk2
  rw [View.read_apply]
  show V c (Pipeline.arrRef spec2 0) _ = V c (Pipeline.arrRef spec2 0) _
  congr 1
  funext a
  apply Fin.ext
  match a with
  | ⟨0, _⟩ => show win2_0.index t 0 * 5000 + 1 * r.val = (k 0).val; rw [e0, hk0]; omega
  | ⟨1, _⟩ => show win2_0.index t 1 * 128 + 1 * q.val = (k 1).val; rw [e1, hk1]; omega

/-- The bias's one block is the bias. -/
theorem blk2_1_apply (c : Dev nD) (t : Fin cfg2.N) (q : Fin 128) :
    (iblk2 V c 1 t : Vec Ideal S128 .f32) (ix1 q) = ((V c (Pipeline.arrRef spec2 1)) : S128.Idx → Elt Ideal .f32) (ix1 q) := by
  obtain ⟨-, -, e2, -⟩ := idx2_facts t
  unfold iblk2
  rw [View.read_apply]
  show V c (Pipeline.arrRef spec2 1) _ = V c (Pipeline.arrRef spec2 1) _
  congr 1
  funext a
  apply Fin.ext
  match a with
  | ⟨0, _⟩ => show win2_1.index t 0 * 128 + 1 * q.val = q.val; rw [e2]; omega

/-! ## The rows of sums after each block -/

/-- An entry of block `t` with the bias added is the entry of row `5000 t + r` of the whole matrix with the bias added. -/
theorem row2_apply (c : Dev nD) (t : Fin cfg2.N) (r : Fin 5000) (q : Fin 128) (a b : EReal)
    (ha : a = (iblk2 V c 0 t : Vec Ideal S5000x128 .f32) (ix2 r q)) (hb : b = (iblk2 V c 1 t : Vec Ideal S128 .f32) (ix1 q)) :
    a + b = rowsOr (fun p => (addBias (V c (Pipeline.arrRef spec2 0)) (V c (Pipeline.arrRef spec2 1))) (ix2 p q)) (5000 * t.val + r.val) := by
  have hN : t.val < 20 := lt_of_lt_of_eq t.isLt (show cfg2.N = 20 from N_2)
  have h : 5000 * t.val + r.val < 100000 := by have := r.isLt; omega
  rw [ha, hb, rowsOr_of_lt _ _ h, blk2_0_apply V c t r q (ix2 ⟨5000 * t.val + r.val, h⟩ q) rfl rfl, blk2_1_apply V c t q]
  rfl

/-- After block `n` the row of sums holds, in column `q`, the column's sum over the rows below `5000 (n + 1)`. -/
theorem sum2_inv (c : Dev nD) (q : Fin 128) : ∀ (n : ℕ) (h : n < cfg2.N),
    (outsAt2 V c n h).2.1 (ix2 (0 : Fin 1) q)
      = ∑ p ∈ Finset.range (5000 * (n + 1)), rowsOr (fun p => (addBias (V c (Pipeline.arrRef spec2 0)) (V c (Pipeline.arrRef spec2 1))) (ix2 p q)) p
  | 0, h => by
    rw [outs2_first V c ⟨0, h⟩ rfl]
    dsimp only
    refine (sum2_apply (iblk2 V c 0 ⟨0, h⟩) (iblk2 V c 1 ⟨0, h⟩) (k2_pay1 (F := Ideal)) q).trans ?_
    rw [zero2a_apply, zero_add, sum_rows_first]
    exact Finset.sum_congr rfl fun r _ => row2_apply V c ⟨0, h⟩ r q _ _ rfl rfl
  | n + 1, h => by
    have hN : cfg2.N = 20 := N_2
    have hB : ¬(⟨n + 1, h⟩ : Fin cfg2.N).val % 20 = 0 := by dsimp only; omega
    rw [outs2_later V c ⟨n + 1, h⟩ hB]
    dsimp only
    refine (sum2_apply (iblk2 V c 0 ⟨n + 1, h⟩) (iblk2 V c 1 ⟨n + 1, h⟩) _ q).trans ?_
    rw [sum_rows_succ]
    exact congrArg₂ (· + ·) (sum2_inv c q n _) (Finset.sum_congr rfl fun r _ => row2_apply V c ⟨n + 1, h⟩ r q _ _ rfl rfl)

/-- After block `n` the row of sums of squares holds, in column `q`, the sum of the column's squares over the rows below
    `5000 (n + 1)`. -/
theorem sumsq2_inv (c : Dev nD) (q : Fin 128) : ∀ (n : ℕ) (h : n < cfg2.N),
    (outsAt2 V c n h).2.2 (ix2 (0 : Fin 1) q)
      = ∑ p ∈ Finset.range (5000 * (n + 1)), rowsOr (fun p => (addBias (V c (Pipeline.arrRef spec2 0)) (V c (Pipeline.arrRef spec2 1))) (ix2 p q) * (addBias (V c (Pipeline.arrRef spec2 0)) (V c (Pipeline.arrRef spec2 1))) (ix2 p q)) p
  | 0, h => by
    rw [outs2_first V c ⟨0, h⟩ rfl]
    dsimp only
    refine (sumsq2_apply (iblk2 V c 0 ⟨0, h⟩) (iblk2 V c 1 ⟨0, h⟩) (k2_pay2 (F := Ideal)) q).trans ?_
    rw [zero2b_apply, zero_add, sum_rows_first]
    refine Finset.sum_congr rfl fun r _ => ?_
    rw [row2_apply V c ⟨0, h⟩ r q _ _ rfl rfl]
    have hr : 5000 * (⟨0, h⟩ : Fin cfg2.N).val + r.val < 100000 := by have := r.isLt; dsimp only; omega
    rw [rowsOr_of_lt _ _ hr, rowsOr_of_lt _ _ hr]
  | n + 1, h => by
    have hN : cfg2.N = 20 := N_2
    have hB : ¬(⟨n + 1, h⟩ : Fin cfg2.N).val % 20 = 0 := by dsimp only; omega
    rw [outs2_later V c ⟨n + 1, h⟩ hB]
    dsimp only
    refine (sumsq2_apply (iblk2 V c 0 ⟨n + 1, h⟩) (iblk2 V c 1 ⟨n + 1, h⟩) _ q).trans ?_
    rw [sum_rows_succ]
    refine congrArg₂ (· + ·) (sumsq2_inv c q n _) (Finset.sum_congr rfl fun r _ => ?_)
    rw [row2_apply V c ⟨n + 1, h⟩ r q _ _ rfl rfl]
    have hr : 5000 * (⟨n + 1, h⟩ : Fin cfg2.N).val + r.val < 100000 := by have := r.isLt; dsimp only; omega
    rw [rowsOr_of_lt _ _ hr, rowsOr_of_lt _ _ hr]

/-! ## What the pass leaves in the three arrays -/

/-- An entry of a block with the bias added, as an entry of the whole matrix with the bias added: for a block whose
    rows are rows `5000 tv + r` of the matrix `X` and a bias block that is the bias `b`. -/
theorem bias2_point (x0 : Vec Ideal S5000x128 .f32) (x1 : Vec Ideal S128 .f32) (X : Mat 100000 128) (b : Col 128) (tv : ℕ)
    (hx0 : ∀ (r : Fin 5000) (q : Fin 128) (k : S100000x128.Idx), (k 0).val = 5000 * tv + r.val → (k 1).val = q.val →
      x0 (ix2 r q) = X k)
    (hx1 : ∀ q : Fin 128, x1 (ix1 q) = b (ix1 q))
    (j : S5000x128.Idx) (k : S100000x128.Idx) (hk0 : (k 0).val = 5000 * tv + (j 0).val) (hk1 : (k 1).val = (j 1).val) :
    k2_pay3 (F := Ideal) x0 x1 j = addBias X b k := by
  obtain ⟨r, q, rfl⟩ : ∃ (r : Fin 5000) (q : Fin 128), j = ix2 r q := ⟨j 0, j 1, eq_ix2 j⟩
  rw [bias2_apply, hx0 r q k hk0 hk1, hx1 q]
  show X k + b (ix1 q) = X k + b (ix1 (k 1))
  have e : k 1 = q := Fin.ext hk1
  rw [e]

/-- What block `t` writes back to the first output is block `t` of the matrix with the bias added. -/
theorem flushed2_2_eq (c : Dev nD) (t : Fin cfg2.N) :
    (dat2 (F := Ideal) V c).flushed 2 t = ((cfg2.win 2).blk t).view.read (Elt Ideal) (addBias (V c (Pipeline.arrRef spec2 0)) (V c (Pipeline.arrRef spec2 1))) := by
  obtain ⟨-, -, -, e3, e4, -⟩ := idx2_facts t
  show (cfg2.win 2).cut (grid2.coords t) ((dat2 V c).after 2 t) = _
  rw [after2_2, outs2_bias V c t]
  funext j
  show k2_pay3 (F := Ideal) (iblk2 V c 0 t) (iblk2 V c 1 t) j = (addBias (V c (Pipeline.arrRef spec2 0)) (V c (Pipeline.arrRef spec2 1))) (((cfg2.win 2).blk t).view.emb j)
  refine bias2_point (iblk2 V c 0 t) (iblk2 V c 1 t) (V c (Pipeline.arrRef spec2 0)) (V c (Pipeline.arrRef spec2 1)) t.val
    (fun r q k h0 h1 => blk2_0_apply V c t r q k h0 h1) (fun q => blk2_1_apply V c t q) j _ ?_ ?_
  · show win2_2.index t 0 * 5000 + 1 * (j 0).val = 5000 * t.val + (j 0).val
    rw [e3]; omega
  · show win2_2.index t 1 * 128 + 1 * (j 1).val = (j 1).val
    rw [e4]; omega

/-- THE FIRST OUTPUT: the matrix with the bias added to every row. -/
theorem final2_pre (c : Dev nD) : (Gen.dat2 (F := Ideal) V c).arrAt 2 cfg2.N = Cert.Spec.addBias (V c (Pipeline.arrRef spec2 0)) (V c (Pipeline.arrRef spec2 1)) :=
  (dat2 V c).arrAt_eq_of_cover 2 (addBias (V c (Pipeline.arrRef spec2 0)) (V c (Pipeline.arrRef spec2 1))) (fun t _ => flushed2_2_eq V c t) fun i => by
    have hi0 : (i 0 : Nat) < 100000 := (i 0).isLt
    have hi1 : (i 1 : Nat) < 128 := (i 1).isLt
    obtain ⟨t, ht⟩ : ∃ t : Fin cfg2.N, t.val = (i 0 : Nat) / 5000 :=
      ⟨⟨(i 0 : Nat) / 5000, by rw [show cfg2.N = 20 from N_2]; omega⟩, rfl⟩
    obtain ⟨-, -, -, e3, e4, -⟩ := idx2_facts t
    refine ⟨t, flush2_2 t, ?_⟩
    show i ∈ ((View.whole main_v50_0).slice (win2_2.rect t)).set
    rw [View.set_slice_whole, Rect.mem_set_unit]
    intro a
    match a with
    | ⟨0, _⟩ =>
      show win2_2.index t 0 * 5000 ≤ (i 0 : Nat) ∧ (i 0 : Nat) < win2_2.index t 0 * 5000 + 5000
      rw [e3]; omega
    | ⟨1, _⟩ =>
      show win2_2.index t 1 * 128 ≤ (i 1 : Nat) ∧ (i 1 : Nat) < win2_2.index t 1 * 128 + 128
      rw [e4]; omega

/-- The last block's row of sums holds the column sums over all rows. -/
theorem sum2_last (c : Dev nD) (t : Fin cfg2.N) (h19 : t.val = 19) (q : Fin 128) :
    (outsAt2 V c t.val t.isLt).2.1 (ix2 (0 : Fin 1) q) = colSum (addBias (V c (Pipeline.arrRef spec2 0)) (V c (Pipeline.arrRef spec2 1))) (ix2 (0 : Fin 1) q) :=
  (sum2_inv V c q t.val t.isLt).trans (by rw [h19, colSum_apply]; exact sum_rows_all _)

/-- The last block's row of sums of squares holds the column sums of squares over all rows. -/
theorem sumsq2_last (c : Dev nD) (t : Fin cfg2.N) (h19 : t.val = 19) (q : Fin 128) :
    (outsAt2 V c t.val t.isLt).2.2 (ix2 (0 : Fin 1) q) = colSumSq (addBias (V c (Pipeline.arrRef spec2 0)) (V c (Pipeline.arrRef spec2 1))) (ix2 (0 : Fin 1) q) :=
  (sumsq2_inv V c q t.val t.isLt).trans (by rw [h19, colSumSq_apply]; exact sum_rows_all _)

/-- The one write-back of the row of sums, after the last block, writes the column sums. -/
theorem flushed2_3_eq (c : Dev nD) (t : Fin cfg2.N) (hf : (cfg2.win 3).flush t = true) :
    (dat2 (F := Ideal) V c).flushed 3 t = ((cfg2.win 3).blk t).view.read (Elt Ideal) (colSum (addBias (V c (Pipeline.arrRef spec2 0)) (V c (Pipeline.arrRef spec2 1)))) := by
  have hN : cfg2.N = 20 := N_2
  have h19 : t.val = 19 := by have := (flush2_3 t).mp hf; have := t.isLt; omega
  obtain ⟨-, -, -, -, -, e5, e6, -⟩ := idx2_facts t
  have key : ∀ G : Mat 1 128, (∀ q : Fin 128, (outsAt2 V c t.val t.isLt).2.1 (ix2 (0 : Fin 1) q) = G (ix2 (0 : Fin 1) q)) →
      (cfg2.win 3).cut (grid2.coords t) (outsAt2 V c t.val t.isLt).2.1 = ((cfg2.win 3).blk t).view.read (Elt Ideal) G := by
    intro G hG
    funext j
    show (outsAt2 V c t.val t.isLt).2.1 j = G (((cfg2.win 3).blk t).view.emb j)
    refine oneRow_point (outsAt2 V c t.val t.isLt).2.1 G hG j _ ?_
    show win2_3.index t 1 * 128 + 1 * (j 1).val = (j 1).val
    rw [e6]; omega
  show (cfg2.win 3).cut (grid2.coords t) ((dat2 V c).after 3 t) = _
  rw [after2_3]
  exact key _ (fun q => sum2_last V c t h19 q)

/-- The one write-back of the row of sums of squares writes the column sums of squares. -/
theorem flushed2_4_eq (c : Dev nD) (t : Fin cfg2.N) (hf : (cfg2.win 4).flush t = true) :
    (dat2 (F := Ideal) V c).flushed 4 t = ((cfg2.win 4).blk t).view.read (Elt Ideal) (colSumSq (addBias (V c (Pipeline.arrRef spec2 0)) (V c (Pipeline.arrRef spec2 1)))) := by
  have hN : cfg2.N = 20 := N_2
  have h19 : t.val = 19 := by have := (flush2_4 t).mp hf; have := t.isLt; omega
  obtain ⟨-, -, -, -, -, -, -, e7, e8⟩ := idx2_facts t
  have key : ∀ G : Mat 1 128, (∀ q : Fin 128, (outsAt2 V c t.val t.isLt).2.2 (ix2 (0 : Fin 1) q) = G (ix2 (0 : Fin 1) q)) →
      (cfg2.win 4).cut (grid2.coords t) (outsAt2 V c t.val t.isLt).2.2 = ((cfg2.win 4).blk t).view.read (Elt Ideal) G := by
    intro G hG
    funext j
    show (outsAt2 V c t.val t.isLt).2.2 j = G (((cfg2.win 4).blk t).view.emb j)
    refine oneRow_point (outsAt2 V c t.val t.isLt).2.2 G hG j _ ?_
    show win2_4.index t 1 * 128 + 1 * (j 1).val = (j 1).val
    rw [e8]; omega
  show (cfg2.win 4).cut (grid2.coords t) ((dat2 V c).after 4 t) = _
  rw [after2_4]
  exact key _ (fun q => sumsq2_last V c t h19 q)

/-- The last point, whose block is the whole one-row array. -/
theorem last2_lt : 19 < cfg2.N := lt_of_lt_of_eq (by decide : 19 < 20) (show cfg2.N = 20 from N_2).symm

/-- THE SECOND OUTPUT: the column sums of the matrix with the bias added. -/
theorem final2_sum (c : Dev nD) : (Gen.dat2 (F := Ideal) V c).arrAt 3 cfg2.N = Cert.Spec.colSum (Cert.Spec.addBias (V c (Pipeline.arrRef spec2 0)) (V c (Pipeline.arrRef spec2 1))) :=
  (dat2 V c).arrAt_eq_of_cover 3 (colSum (addBias (V c (Pipeline.arrRef spec2 0)) (V c (Pipeline.arrRef spec2 1)))) (flushed2_3_eq V c) fun i => by
    have hi0 : (i 0 : Nat) < 1 := (i 0).isLt
    have hi1 : (i 1 : Nat) < 128 := (i 1).isLt
    obtain ⟨-, -, -, -, -, e5, e6, -⟩ := idx2_facts ⟨19, last2_lt⟩
    refine ⟨⟨19, last2_lt⟩, (flush2_3 _).mpr rfl, ?_⟩
    show i ∈ ((View.whole main_v50_1).slice (win2_3.rect ⟨19, last2_lt⟩)).set
    rw [View.set_slice_whole, Rect.mem_set_unit]
    intro a
    match a with
    | ⟨0, _⟩ =>
      show win2_3.index ⟨19, last2_lt⟩ 0 * 1 ≤ (i 0 : Nat) ∧ (i 0 : Nat) < win2_3.index ⟨19, last2_lt⟩ 0 * 1 + 1
      rw [e5]; omega
    | ⟨1, _⟩ =>
      show win2_3.index ⟨19, last2_lt⟩ 1 * 128 ≤ (i 1 : Nat) ∧ (i 1 : Nat) < win2_3.index ⟨19, last2_lt⟩ 1 * 128 + 128
      rw [e6]; omega

/-- THE THIRD OUTPUT: the column sums of squares of the matrix with the bias added. -/
theorem final2_sumsq (c : Dev nD) : (Gen.dat2 (F := Ideal) V c).arrAt 4 cfg2.N = Cert.Spec.colSumSq (Cert.Spec.addBias (V c (Pipeline.arrRef spec2 0)) (V c (Pipeline.arrRef spec2 1))) :=
  (dat2 V c).arrAt_eq_of_cover 4 (colSumSq (addBias (V c (Pipeline.arrRef spec2 0)) (V c (Pipeline.arrRef spec2 1)))) (flushed2_4_eq V c) fun i => by
    have hi0 : (i 0 : Nat) < 1 := (i 0).isLt
    have hi1 : (i 1 : Nat) < 128 := (i 1).isLt
    obtain ⟨-, -, -, -, -, -, -, e7, e8⟩ := idx2_facts ⟨19, last2_lt⟩
    refine ⟨⟨19, last2_lt⟩, (flush2_4 _).mpr rfl, ?_⟩
    show i ∈ ((View.whole main_v50_2).slice (win2_4.rect ⟨19, last2_lt⟩)).set
    rw [View.set_slice_whole, Rect.mem_set_unit]
    intro a
    match a with
    | ⟨0, _⟩ =>
      show win2_4.index ⟨19, last2_lt⟩ 0 * 1 ≤ (i 0 : Nat) ∧ (i 0 : Nat) < win2_4.index ⟨19, last2_lt⟩ 0 * 1 + 1
      rw [e7]; omega
    | ⟨1, _⟩ =>
      show win2_4.index ⟨19, last2_lt⟩ 1 * 128 ≤ (i 1 : Nat) ∧ (i 1 : Nat) < win2_4.index ⟨19, last2_lt⟩ 1 * 128 + 128
      rw [e8]; omega

end AtIdeal

end Cert.Regions

end
-- ==== Proof.RegionStats5.lean ====
/-
  What the column-statistics pass number 5 leaves in its three output arrays.

  The pass walks the 100000 rows of a feature matrix in 20 blocks of 5000 rows. At every block it writes the block with
  a bias row added to every row, and adds the block's column sums, and its column sums of squares, onto two rows of 128
  running sums that it carries from block to block; at the first block it first sets both rows to zero. The two rows are
  written out once, after the last block.

  So the first output is the feature matrix with the bias added to every row, entry by entry: block `t` holds rows
  `5000 t … 5000 t + 4999`, and the blocks cover all rows. After block `n` the row of sums holds, in column `q`, the sum
  of column `q` of that matrix over the rows below `5000 (n + 1)` (by induction on `n`: zero plus the first block's sum,
  then the sum so far plus the next block's sum; only the grouping of a sum of extended reals is used), so after the last
  block it holds the column sums over all rows; the row of sums of squares likewise.
-/
import proofs.«161461_j70540542869949_1_alg».proof.Proof.Gen.KernelIdeal.Frame
import proofs.«161461_j70540542869949_1_alg».proof.Proof.Spec
import proofs.«161461_j70540542869949_1_alg».proof.Proof.RegionStatsLib
import Idealize.ShloMosaic.Lib.Pipeline.Value
import Idealize.ShloMosaic.Lib.ValueLayout
import Idealize.ShloMosaic.Lib.Tactic

noncomputable section

open scoped BigOperators

namespace Cert.Regions

open Idealize.ShloMosaic Idealize.ShloMosaic.TcCoe Idealize.SL.Sem Idealize.ShloMosaic.ValueIdx
open Idealize.ShloMosaic.Pipeline (Dat)
open Cert.KernelIdeal Cert.KernelIdeal.Gen Cert.Spec

/-! ## What each of the body's two cases leaves in the three blocks, for any float values -/

section Pieces

variable {F : FTy → Type} [FloatOps F]

/-- A later point leaves, in the block of window 2, the block of features with the bias row added. -/
theorem out5_B_2_eq (c : Dev nD) (i : grid5.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond5_0 i) (x0 : Vec F S5000x128 .f32) (x1 : Vec F S128 .f32) (xo3 xo4 : Vec F S1x128 .f32) :
    out5_B_2 c i arg1 harg1 arg2 harg2 arg3 harg3 arg4 harg4 arg5 harg5 hc0 x0 x1 xo3 xo4 = k5_pay3 x0 x1 := by
  unfold out5_B_2
  rw [View.read_writes_eq_canon _ _ _ (cover5_B_2 c i arg1 harg1 arg2 harg2 arg3 harg3 arg4 harg4 arg5 harg5 hc0 x0 x1 xo3 xo4)]
  unfold kernelRun5_B
  dsimp only
  try sl_unfold_words
  rw [View.canon_unit_zero (S := S5000x128) zeros2]
  simp only [View.readAt_eq_ld, harg1.read_unread, harg2.read_unread, View.ld_unit_zero (S := S5000x128) zeros2, View.ld_unit_zero (S := S128) zeros1]

/-- The first point leaves the same there. -/
theorem out5_A_2_eq (c : Dev nD) (i : grid5.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond5_0 i) (x0 : Vec F S5000x128 .f32) (x1 : Vec F S128 .f32) :
    out5_A_2 c i arg1 harg1 arg2 harg2 arg3 harg3 arg4 harg4 arg5 harg5 hc0 x0 x1 = k5_pay3 x0 x1 := by
  unfold out5_A_2
  rw [View.read_writes_eq_canon _ _ _ (cover5_A_2 c i arg1 harg1 arg2 harg2 arg3 harg3 arg4 harg4 arg5 harg5 hc0 x0 x1)]
  unfold kernelRun5_A
  dsimp only
  try sl_unfold_words
  rw [View.canon_unit_zero (S := S5000x128) zeros2]
  simp only [View.readAt_eq_ld, harg1.read_unread, harg2.read_unread, View.ld_unit_zero (S := S5000x128) zeros2, View.ld_unit_zero (S := S128) zeros1]

/-- A later point adds the block's column sums onto the row of sums the point before left. -/
theorem out5_B_3_eq (c : Dev nD) (i : grid5.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond5_0 i) (x0 : Vec F S5000x128 .f32) (x1 : Vec F S128 .f32) (xo3 xo4 : Vec F S1x128 .f32) :
    out5_B_3 c i arg1 harg1 arg2 harg2 arg3 harg3 arg4 harg4 arg5 harg5 hc0 x0 x1 xo3 xo4 = k5_pay4 x0 x1 xo3 := by
  unfold out5_B_3
  rw [View.read_writes_eq_canon _ _ _ (cover5_B_3 c i arg1 harg1 arg2 harg2 arg3 harg3 arg4 harg4 arg5 harg5 hc0 x0 x1 xo3 xo4)]
  unfold kernelRun5_B
  dsimp only
  try sl_unfold_words
  rw [View.canon_unit_zero (S := S1x128) zeros2]
  simp only [View.readAt_eq_ld, harg1.read_unread, harg2.read_unread, harg4.read_unread, View.ld_unit_zero (S := S5000x128) zeros2, View.ld_unit_zero (S := S128) zeros1, View.ld_unit_zero (S := S1x128) zeros2]

/-- The first point adds them onto the zero row it has just stored. -/
theorem out5_A_3_eq (c : Dev nD) (i : grid5.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond5_0 i) (x0 : Vec F S5000x128 .f32) (x1 : Vec F S128 .f32) :
    out5_A_3 c i arg1 harg1 arg2 harg2 arg3 harg3 arg4 harg4 arg5 harg5 hc0 x0 x1 = k5_pay4 x0 x1 (k5_pay1 (F := F)) := by
  unfold out5_A_3
  rw [View.read_writes_eq_canon _ _ _ (cover5_A_3 c i arg1 harg1 arg2 harg2 arg3 harg3 arg4 harg4 arg5 harg5 hc0 x0 x1)]
  unfold kernelRun5_A
  dsimp only
  sl_unfold_words
  rw [View.canon_cons_unit_zero (S := S1x128) zeros2, View.readCov_unit_zero (S := S1x128) _ zeros2]
  simp only [View.readAt_eq_ld, harg1.read_unread, harg2.read_unread, View.ld_unit_zero (S := S5000x128) zeros2, View.ld_unit_zero (S := S128) zeros1]

/-- A later point adds the block's column sums of squares onto the row the point before left. -/
theorem out5_B_4_eq (c : Dev nD) (i : grid5.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond5_0 i) (x0 : Vec F S5000x128 .f32) (x1 : Vec F S128 .f32) (xo3 xo4 : Vec F S1x128 .f32) :
    out5_B_4 c i arg1 harg1 arg2 harg2 arg3 harg3 arg4 harg4 arg5 harg5 hc0 x0 x1 xo3 xo4 = k5_pay5 x0 x1 xo4 := by
  unfold out5_B_4
  rw [View.read_writes_eq_canon _ _ _ (cover5_B_4 c i arg1 harg1 arg2 harg2 arg3 harg3 arg4 harg4 arg5 harg5 hc0 x0 x1 xo3 xo4)]
  unfold kernelRun5_B
  dsimp only
  try sl_unfold_words
  rw [View.canon_unit_zero (S := S1x128) zeros2]
  simp only [View.readAt_eq_ld, harg1.read_unread, harg2.read_unread, harg5.read_unread, View.ld_unit_zero (S := S5000x128) zeros2, View.ld_unit_zero (S := S128) zeros1, View.ld_unit_zero (S := S1x128) zeros2]

/-- The first point adds them onto the zero row it has just stored. -/
theorem out5_A_4_eq (c : Dev nD) (i : grid5.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond5_0 i) (x0 : Vec F S5000x128 .f32) (x1 : Vec F S128 .f32) :
    out5_A_4 c i arg1 harg1 arg2 harg2 arg3 harg3 arg4 harg4 arg5 harg5 hc0 x0 x1 = k5_pay5 x0 x1 (k5_pay2 (F := F)) := by
  unfold out5_A_4
  rw [View.read_writes_eq_canon _ _ _ (cover5_A_4 c i arg1 harg1 arg2 harg2 arg3 harg3 arg4 harg4 arg5 harg5 hc0 x0 x1)]
  unfold kernelRun5_A
  dsimp only
  sl_unfold_words
  rw [View.canon_cons_unit_zero (S := S1x128) zeros2, View.readCov_unit_zero (S := S1x128) _ zeros2]
  simp only [View.readAt_eq_ld, harg1.read_unread, harg2.read_unread, View.ld_unit_zero (S := S5000x128) zeros2, View.ld_unit_zero (S := S128) zeros1]

variable (V : (c : Dev nD) → (b : Ref sig .tc) → Buf (Elt F) ((c : Thread nD τ).loc b))

/-- After the first block: the block with the bias added, and each row of sums at zero plus the block's sums. -/
theorem outs5_first (c : Dev nD) (t : Fin cfg5.N) (h0 : t.val % 20 = 0) :
    outsAt5 V c t.val t.isLt
      = (k5_pay3 (iblk5 V c 0 t) (iblk5 V c 1 t), k5_pay4 (iblk5 V c 0 t) (iblk5 V c 1 t) (k5_pay1 (F := F)),
          k5_pay5 (iblk5 V c 0 t) (iblk5 V c 1 t) (k5_pay2 (F := F))) := by
  rw [outsAt5_A V c t h0]
  refine congrArg₂ Prod.mk ?_ (congrArg₂ Prod.mk ?_ ?_)
  · exact out5_A_2_eq c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)
  · exact out5_A_3_eq c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)
  · exact out5_A_4_eq c (grid5.coords t) (ms5_0 t) (hs5_0 t) (ms5_1 t) (hs5_1 t) (ms5_2 t) (hs5_2 t) (ms5_3 t) (hs5_3 t) (ms5_4 t) (hs5_4 t) ((hcond5_0 t).mpr h0) (iblk5 V c 0 t) (iblk5 V c 1 t)

/-- After a later block: the block with the bias added, and each row of sums at what the block before left plus the
    block's sums. -/
theorem outs5_later (c : Dev nD) (t : Fin cfg5.N) (h0 : ¬t.val % 20 = 0) :
    outsAt5 V c t.val t.isLt
      = (k5_pay3 (iblk5 V c 0 t) (iblk5 V c 1 t), k5_pay4 (iblk5 V c 0 t) (iblk5 V c 1 t) (outsAt5 V c (t.val - 1) (Nat.lt_of_le_of_lt (Nat.sub_le _ _) t.isLt)).2.1,
          k5_pay5 (iblk5 V c 0 t) (iblk5 V c 1 t) (outsAt5 V c (t.val - 1) (Nat.lt_of_le_of_lt (Nat.sub_le _ _) t.isLt)).2.2) := by
  rw [outsAt5_B V c t h0]
  refine congrArg₂ Prod.mk ?_ (congrArg₂ Prod.mk ?_ ?_)
  · exact out5_B_2_eq c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2
  · exact out5_B_3_eq c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2
  · exact out5_B_4_eq c (grid5.coords t) (ms5_0 t) (hs5_0 t) (ms5_1 t) (hs5_1 t) (ms5_2 t) (hs5_2 t) (ms5_3 t) (hs5_3 t) (ms5_4 t) (hs5_4 t) (fun h => h0 ((hcond5_0 t).mp h)) (iblk5 V c 0 t) (iblk5 V c 1 t) (outsAt5 V c (t.val - 1) (Nat.lt_of_le_of_lt (Nat.sub_le _ _) t.isLt)).2.1 (outsAt5 V c (t.val - 1) (Nat.lt_of_le_of_lt (Nat.sub_le _ _) t.isLt)).2.2

/-- At every block the first output's block is the input block with the bias added. -/
theorem outs5_bias (c : Dev nD) (t : Fin cfg5.N) :
    (outsAt5 V c t.val t.isLt).1 = k5_pay3 (iblk5 V c 0 t) (iblk5 V c 1 t) := by
  by_cases h0 : t.val % 20 = 0
  · rw [outs5_first V c t h0]
  · rw [outs5_later V c t h0]

end Pieces

/-! ## The three steps at an index, over the extended reals -/

/-- The block with the bias added, at row `r` and column `q`. -/
theorem bias5_apply (x0 : Vec Ideal S5000x128 .f32) (x1 : Vec Ideal S128 .f32) (r : Fin 5000) (q : Fin 128) :
    k5_pay3 (F := Ideal) x0 x1 (ix2 r q) = x0 (ix2 r q) + x1 (ix1 q) :=
  addRow_apply x0 x1 _ _ _ r q

/-- A row of sums after a block, at column `q`: what it held plus the column's sum over the block's rows. -/
theorem sum5_apply (x0 : Vec Ideal S5000x128 .f32) (x1 : Vec Ideal S128 .f32) (xo : Vec Ideal S1x128 .f32) (q : Fin 128) :
    k5_pay4 (F := Ideal) x0 x1 xo (ix2 (0 : Fin 1) q)
      = xo (ix2 (0 : Fin 1) q) + ∑ r : Fin 5000, (x0 (ix2 r q) + x1 (ix1 q)) := by
  refine (accRow_apply xo _ _ _ q).trans ?_
  refine congrArg (xo (ix2 (0 : Fin 1) q) + ·) ?_
  refine (colReduce_apply _ _ _ _ q).trans ?_
  exact Finset.sum_congr rfl fun r _ => bias5_apply x0 x1 r q

/-- A row of sums of squares after a block, at column `q`. -/
theorem sumsq5_apply (x0 : Vec Ideal S5000x128 .f32) (x1 : Vec Ideal S128 .f32) (xo : Vec Ideal S1x128 .f32) (q : Fin 128) :
    k5_pay5 (F := Ideal) x0 x1 xo (ix2 (0 : Fin 1) q)
      = xo (ix2 (0 : Fin 1) q) + ∑ r : Fin 5000, (x0 (ix2 r q) + x1 (ix1 q)) * (x0 (ix2 r q) + x1 (ix1 q)) := by
  refine (accRow_apply xo _ _ _ q).trans ?_
  refine congrArg (xo (ix2 (0 : Fin 1) q) + ·) ?_
  refine (colReduce_apply _ _ _ _ q).trans ?_
  refine Finset.sum_congr rfl fun r _ => ?_
  refine (mulf_apply _ _ (ix2 r q)).trans ?_
  rw [bias5_apply x0 x1 r q]

/-- The two zero rows. -/
theorem zero5a_apply (j : S1x128.Idx) : k5_pay1 (F := Ideal) j = 0 := zeroRow_apply j
theorem zero5b_apply (j : S1x128.Idx) : k5_pay2 (F := Ideal) j = 0 := zeroRow_apply j

/-! ## The blocks as rows of the arrays -/

section AtIdeal

variable (V : (c : Dev nD) → (b : Ref sig .tc) → Buf (Elt Ideal) ((c : Thread nD τ).loc b))

/-- The index maps over the grid: the feature blocks move down one block per point, everything else stays. -/
theorem idx5_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Block `t` of the features holds rows `5000 t + r`. -/
theorem blk5_0_apply (c : Dev nD) (t : Fin cfg5.N) (r : Fin 5000) (q : Fin 128) (k : S100000x128.Idx)
    (hk0 : (k 0).val = 5000 * t.val + r.val) (hk1 : (k 1).val = q.val) :
    (iblk5 V c 0 t : Vec Ideal S5000x128 .f32) (ix2 r q) = ((V c (Pipeline.arrRef spec5 0)) : S100000x128.Idx → Elt Ideal .f32) k := by
  obtain ⟨e0, e1, -⟩ := idx5_facts t
  unfold iblk5
  rw [View.read_apply]
  show V c (Pipeline.arrRef spec5 0) _ = V c (Pipeline.arrRef spec5 0) _
  congr 1
  funext a
  apply Fin.ext
  match a with
  | ⟨0, _⟩ => show win5_0.index t 0 * 5000 + 1 * r.val = (k 0).val; rw [e0, hk0]; omega
  | ⟨1, _⟩ => show win5_0.index t 1 * 128 + 1 * q.val = (k 1).val; rw [e1, hk1]; omega

/-- The bias's one block is the bias. -/
theorem blk5_1_apply (c : Dev nD) (t : Fin cfg5.N) (q : Fin 128) :
    (iblk5 V c 1 t : Vec Ideal S128 .f32) (ix1 q) = ((V c (Pipeline.arrRef spec5 1)) : S128.Idx → Elt Ideal .f32) (ix1 q) := by
  obtain ⟨-, -, e2, -⟩ := idx5_facts t
  unfold iblk5
  rw [View.read_apply]
  show V c (Pipeline.arrRef spec5 1) _ = V c (Pipeline.arrRef spec5 1) _
  congr 1
  funext a
  apply Fin.ext
  match a with
  | ⟨0, _⟩ => show win5_1.index t 0 * 128 + 1 * q.val = q.val; rw [e2]; omega

/-! ## The rows of sums after each block -/

/-- An entry of block `t` with the bias added is the entry of row `5000 t + r` of the whole matrix with the bias added. -/
theorem row5_apply (c : Dev nD) (t : Fin cfg5.N) (r : Fin 5000) (q : Fin 128) (a b : EReal)
    (ha : a = (iblk5 V c 0 t : Vec Ideal S5000x128 .f32) (ix2 r q)) (hb : b = (iblk5 V c 1 t : Vec Ideal S128 .f32) (ix1 q)) :
    a + b = rowsOr (fun p => (addBias (V c (Pipeline.arrRef spec5 0)) (V c (Pipeline.arrRef spec5 1))) (ix2 p q)) (5000 * t.val + r.val) := by
  have hN : t.val < 20 := lt_of_lt_of_eq t.isLt (show cfg5.N = 20 from N_5)
  have h : 5000 * t.val + r.val < 100000 := by have := r.isLt; omega
  rw [ha, hb, rowsOr_of_lt _ _ h, blk5_0_apply V c t r q (ix2 ⟨5000 * t.val + r.val, h⟩ q) rfl rfl, blk5_1_apply V c t q]
  rfl

/-- After block `n` the row of sums holds, in column `q`, the column's sum over the rows below `5000 (n + 1)`. -/
theorem sum5_inv (c : Dev nD) (q : Fin 128) : ∀ (n : ℕ) (h : n < cfg5.N),
    (outsAt5 V c n h).2.1 (ix2 (0 : Fin 1) q)
      = ∑ p ∈ Finset.range (5000 * (n + 1)), rowsOr (fun p => (addBias (V c (Pipeline.arrRef spec5 0)) (V c (Pipeline.arrRef spec5 1))) (ix2 p q)) p
  | 0, h => by
    rw [outs5_first V c ⟨0, h⟩ rfl]
    dsimp only
    refine (sum5_apply (iblk5 V c 0 ⟨0, h⟩) (iblk5 V c 1 ⟨0, h⟩) (k5_pay1 (F := Ideal)) q).trans ?_
    rw [zero5a_apply, zero_add, sum_rows_first]
    exact Finset.sum_congr rfl fun r _ => row5_apply V c ⟨0, h⟩ r q _ _ rfl rfl
  | n + 1, h => by
    have hN : cfg5.N = 20 := N_5
    have hB : ¬(⟨n + 1, h⟩ : Fin cfg5.N).val % 20 = 0 := by dsimp only; omega
    rw [outs5_later V c ⟨n + 1, h⟩ hB]
    dsimp only
    refine (sum5_apply (iblk5 V c 0 ⟨n + 1, h⟩) (iblk5 V c 1 ⟨n + 1, h⟩) _ q).trans ?_
    rw [sum_rows_succ]
    exact congrArg₂ (· + ·) (sum5_inv c q n _) (Finset.sum_congr rfl fun r _ => row5_apply V c ⟨n + 1, h⟩ r q _ _ rfl rfl)

/-- After block `n` the row of sums of squares holds, in column `q`, the sum of the column's squares over the rows below
    `5000 (n + 1)`. -/
theorem sumsq5_inv (c : Dev nD) (q : Fin 128) : ∀ (n : ℕ) (h : n < cfg5.N),
    (outsAt5 V c n h).2.2 (ix2 (0 : Fin 1) q)
      = ∑ p ∈ Finset.range (5000 * (n + 1)), rowsOr (fun p => (addBias (V c (Pipeline.arrRef spec5 0)) (V c (Pipeline.arrRef spec5 1))) (ix2 p q) * (addBias (V c (Pipeline.arrRef spec5 0)) (V c (Pipeline.arrRef spec5 1))) (ix2 p q)) p
  | 0, h => by
    rw [outs5_first V c ⟨0, h⟩ rfl]
    dsimp only
    refine (sumsq5_apply (iblk5 V c 0 ⟨0, h⟩) (iblk5 V c 1 ⟨0, h⟩) (k5_pay2 (F := Ideal)) q).trans ?_
    rw [zero5b_apply, zero_add, sum_rows_first]
    refine Finset.sum_congr rfl fun r _ => ?_
    rw [row5_apply V c ⟨0, h⟩ r q _ _ rfl rfl]
    have hr : 5000 * (⟨0, h⟩ : Fin cfg5.N).val + r.val < 100000 := by have := r.isLt; dsimp only; omega
    rw [rowsOr_of_lt _ _ hr, rowsOr_of_lt _ _ hr]
  | n + 1, h => by
    have hN : cfg5.N = 20 := N_5
    have hB : ¬(⟨n + 1, h⟩ : Fin cfg5.N).val % 20 = 0 := by dsimp only; omega
    rw [outs5_later V c ⟨n + 1, h⟩ hB]
    dsimp only
    refine (sumsq5_apply (iblk5 V c 0 ⟨n + 1, h⟩) (iblk5 V c 1 ⟨n + 1, h⟩) _ q).trans ?_
    rw [sum_rows_succ]
    refine congrArg₂ (· + ·) (sumsq5_inv c q n _) (Finset.sum_congr rfl fun r _ => ?_)
    rw [row5_apply V c ⟨n + 1, h⟩ r q _ _ rfl rfl]
    have hr : 5000 * (⟨n + 1, h⟩ : Fin cfg5.N).val + r.val < 100000 := by have := r.isLt; dsimp only; omega
    rw [rowsOr_of_lt _ _ hr, rowsOr_of_lt _ _ hr]

/-! ## What the pass leaves in the three arrays -/

/-- An entry of a block with the bias added, as an entry of the whole matrix with the bias added: for a block whose
    rows are rows `5000 tv + r` of the matrix `X` and a bias block that is the bias `b`. -/
theorem bias5_point (x0 : Vec Ideal S5000x128 .f32) (x1 : Vec Ideal S128 .f32) (X : Mat 100000 128) (b : Col 128) (tv : ℕ)
    (hx0 : ∀ (r : Fin 5000) (q : Fin 128) (k : S100000x128.Idx), (k 0).val = 5000 * tv + r.val → (k 1).val = q.val →
      x0 (ix2 r q) = X k)
    (hx1 : ∀ q : Fin 128, x1 (ix1 q) = b (ix1 q))
    (j : S5000x128.Idx) (k : S100000x128.Idx) (hk0 : (k 0).val = 5000 * tv + (j 0).val) (hk1 : (k 1).val = (j 1).val) :
    k5_pay3 (F := Ideal) x0 x1 j = addBias X b k := by
  obtain ⟨r, q, rfl⟩ : ∃ (r : Fin 5000) (q : Fin 128), j = ix2 r q := ⟨j 0, j 1, eq_ix2 j⟩
  rw [bias5_apply, hx0 r q k hk0 hk1, hx1 q]
  show X k + b (ix1 q) = X k + b (ix1 (k 1))
  have e : k 1 = q := Fin.ext hk1
  rw [e]

/-- What block `t` writes back to the first output is block `t` of the matrix with the bias added. -/
theorem flushed5_2_eq (c : Dev nD) (t : Fin cfg5.N) :
    (dat5 (F := Ideal) V c).flushed 2 t = ((cfg5.win 2).blk t).view.read (Elt Ideal) (addBias (V c (Pipeline.arrRef spec5 0)) (V c (Pipeline.arrRef spec5 1))) := by
  obtain ⟨-, -, -, e3, e4, -⟩ := idx5_facts t
  show (cfg5.win 2).cut (grid5.coords t) ((dat5 V c).after 2 t) = _
  rw [after5_2, outs5_bias V c t]
  funext j
  show k5_pay3 (F := Ideal) (iblk5 V c 0 t) (iblk5 V c 1 t) j = (addBias (V c (Pipeline.arrRef spec5 0)) (V c (Pipeline.arrRef spec5 1))) (((cfg5.win 2).blk t).view.emb j)
  refine bias5_point (iblk5 V c 0 t) (iblk5 V c 1 t) (V c (Pipeline.arrRef spec5 0)) (V c (Pipeline.arrRef spec5 1)) t.val
    (fun r q k h0 h1 => blk5_0_apply V c t r q k h0 h1) (fun q => blk5_1_apply V c t q) j _ ?_ ?_
  · show win5_2.index t 0 * 5000 + 1 * (j 0).val = 5000 * t.val + (j 0).val
    rw [e3]; omega
  · show win5_2.index t 1 * 128 + 1 * (j 1).val = (j 1).val
    rw [e4]; omega

/-- THE FIRST OUTPUT: the matrix with the bias added to every row. -/
theorem final5_pre (c : Dev nD) : (Gen.dat5 (F := Ideal) V c).arrAt 2 cfg5.N = Cert.Spec.addBias (V c (Pipeline.arrRef spec5 0)) (V c (Pipeline.arrRef spec5 1)) :=
  (dat5 V c).arrAt_eq_of_cover 2 (addBias (V c (Pipeline.arrRef spec5 0)) (V c (Pipeline.arrRef spec5 1))) (fun t _ => flushed5_2_eq V c t) fun i => by
    have hi0 : (i 0 : Nat) < 100000 := (i 0).isLt
    have hi1 : (i 1 : Nat) < 128 := (i 1).isLt
    obtain ⟨t, ht⟩ : ∃ t : Fin cfg5.N, t.val = (i 0 : Nat) / 5000 :=
      ⟨⟨(i 0 : Nat) / 5000, by rw [show cfg5.N = 20 from N_5]; omega⟩, rfl⟩
    obtain ⟨-, -, -, e3, e4, -⟩ := idx5_facts t
    refine ⟨t, flush5_2 t, ?_⟩
    show i ∈ ((View.whole main_v104_0).slice (win5_2.rect t)).set
    rw [View.set_slice_whole, Rect.mem_set_unit]
    intro a
    match a with
    | ⟨0, _⟩ =>
      show win5_2.index t 0 * 5000 ≤ (i 0 : Nat) ∧ (i 0 : Nat) < win5_2.index t 0 * 5000 + 5000
      rw [e3]; omega
    | ⟨1, _⟩ =>
      show win5_2.index t 1 * 128 ≤ (i 1 : Nat) ∧ (i 1 : Nat) < win5_2.index t 1 * 128 + 128
      rw [e4]; omega

/-- The last block's row of sums holds the column sums over all rows. -/
theorem sum5_last (c : Dev nD) (t : Fin cfg5.N) (h19 : t.val = 19) (q : Fin 128) :
    (outsAt5 V c t.val t.isLt).2.1 (ix2 (0 : Fin 1) q) = colSum (addBias (V c (Pipeline.arrRef spec5 0)) (V c (Pipeline.arrRef spec5 1))) (ix2 (0 : Fin 1) q) :=
  (sum5_inv V c q t.val t.isLt).trans (by rw [h19, colSum_apply]; exact sum_rows_all _)

/-- The last block's row of sums of squares holds the column sums of squares over all rows. -/
theorem sumsq5_last (c : Dev nD) (t : Fin cfg5.N) (h19 : t.val = 19) (q : Fin 128) :
    (outsAt5 V c t.val t.isLt).2.2 (ix2 (0 : Fin 1) q) = colSumSq (addBias (V c (Pipeline.arrRef spec5 0)) (V c (Pipeline.arrRef spec5 1))) (ix2 (0 : Fin 1) q) :=
  (sumsq5_inv V c q t.val t.isLt).trans (by rw [h19, colSumSq_apply]; exact sum_rows_all _)

/-- The one write-back of the row of sums, after the last block, writes the column sums. -/
theorem flushed5_3_eq (c : Dev nD) (t : Fin cfg5.N) (hf : (cfg5.win 3).flush t = true) :
    (dat5 (F := Ideal) V c).flushed 3 t = ((cfg5.win 3).blk t).view.read (Elt Ideal) (colSum (addBias (V c (Pipeline.arrRef spec5 0)) (V c (Pipeline.arrRef spec5 1)))) := by
  have hN : cfg5.N = 20 := N_5
  have h19 : t.val = 19 := by have := (flush5_3 t).mp hf; have := t.isLt; omega
  obtain ⟨-, -, -, -, -, e5, e6, -⟩ := idx5_facts t
  have key : ∀ G : Mat 1 128, (∀ q : Fin 128, (outsAt5 V c t.val t.isLt).2.1 (ix2 (0 : Fin 1) q) = G (ix2 (0 : Fin 1) q)) →
      (cfg5.win 3).cut (grid5.coords t) (outsAt5 V c t.val t.isLt).2.1 = ((cfg5.win 3).blk t).view.read (Elt Ideal) G := by
    intro G hG
    funext j
    show (outsAt5 V c t.val t.isLt).2.1 j = G (((cfg5.win 3).blk t).view.emb j)
    refine oneRow_point (outsAt5 V c t.val t.isLt).2.1 G hG j _ ?_
    show win5_3.index t 1 * 128 + 1 * (j 1).val = (j 1).val
    rw [e6]; omega
  show (cfg5.win 3).cut (grid5.coords t) ((dat5 V c).after 3 t) = _
  rw [after5_3]
  exact key _ (fun q => sum5_last V c t h19 q)

/-- The one write-back of the row of sums of squares writes the column sums of squares. -/
theorem flushed5_4_eq (c : Dev nD) (t : Fin cfg5.N) (hf : (cfg5.win 4).flush t = true) :
    (dat5 (F := Ideal) V c).flushed 4 t = ((cfg5.win 4).blk t).view.read (Elt Ideal) (colSumSq (addBias (V c (Pipeline.arrRef spec5 0)) (V c (Pipeline.arrRef spec5 1)))) := by
  have hN : cfg5.N = 20 := N_5
  have h19 : t.val = 19 := by have := (flush5_4 t).mp hf; have := t.isLt; omega
  obtain ⟨-, -, -, -, -, -, -, e7, e8⟩ := idx5_facts t
  have key : ∀ G : Mat 1 128, (∀ q : Fin 128, (outsAt5 V c t.val t.isLt).2.2 (ix2 (0 : Fin 1) q) = G (ix2 (0 : Fin 1) q)) →
      (cfg5.win 4).cut (grid5.coords t) (outsAt5 V c t.val t.isLt).2.2 = ((cfg5.win 4).blk t).view.read (Elt Ideal) G := by
    intro G hG
    funext j
    show (outsAt5 V c t.val t.isLt).2.2 j = G (((cfg5.win 4).blk t).view.emb j)
    refine oneRow_point (outsAt5 V c t.val t.isLt).2.2 G hG j _ ?_
    show win5_4.index t 1 * 128 + 1 * (j 1).val = (j 1).val
    rw [e8]; omega
  show (cfg5.win 4).cut (grid5.coords t) ((dat5 V c).after 4 t) = _
  rw [after5_4]
  exact key _ (fun q => sumsq5_last V c t h19 q)

/-- The last point, whose block is the whole one-row array. -/
theorem last5_lt : 19 < cfg5.N := lt_of_lt_of_eq (by decide : 19 < 20) (show cfg5.N = 20 from N_5).symm

/-- THE SECOND OUTPUT: the column sums of the matrix with the bias added. -/
theorem final5_sum (c : Dev nD) : (Gen.dat5 (F := Ideal) V c).arrAt 3 cfg5.N = Cert.Spec.colSum (Cert.Spec.addBias (V c (Pipeline.arrRef spec5 0)) (V c (Pipeline.arrRef spec5 1))) :=
  (dat5 V c).arrAt_eq_of_cover 3 (colSum (addBias (V c (Pipeline.arrRef spec5 0)) (V c (Pipeline.arrRef spec5 1)))) (flushed5_3_eq V c) fun i => by
    have hi0 : (i 0 : Nat) < 1 := (i 0).isLt
    have hi1 : (i 1 : Nat) < 128 := (i 1).isLt
    obtain ⟨-, -, -, -, -, e5, e6, -⟩ := idx5_facts ⟨19, last5_lt⟩
    refine ⟨⟨19, last5_lt⟩, (flush5_3 _).mpr rfl, ?_⟩
    show i ∈ ((View.whole main_v104_1).slice (win5_3.rect ⟨19, last5_lt⟩)).set
    rw [View.set_slice_whole, Rect.mem_set_unit]
    intro a
    match a with
    | ⟨0, _⟩ =>
      show win5_3.index ⟨19, last5_lt⟩ 0 * 1 ≤ (i 0 : Nat) ∧ (i 0 : Nat) < win5_3.index ⟨19, last5_lt⟩ 0 * 1 + 1
      rw [e5]; omega
    | ⟨1, _⟩ =>
      show win5_3.index ⟨19, last5_lt⟩ 1 * 128 ≤ (i 1 : Nat) ∧ (i 1 : Nat) < win5_3.index ⟨19, last5_lt⟩ 1 * 128 + 128
      rw [e6]; omega

/-- THE THIRD OUTPUT: the column sums of squares of the matrix with the bias added. -/
theorem final5_sumsq (c : Dev nD) : (Gen.dat5 (F := Ideal) V c).arrAt 4 cfg5.N = Cert.Spec.colSumSq (Cert.Spec.addBias (V c (Pipeline.arrRef spec5 0)) (V c (Pipeline.arrRef spec5 1))) :=
  (dat5 V c).arrAt_eq_of_cover 4 (colSumSq (addBias (V c (Pipeline.arrRef spec5 0)) (V c (Pipeline.arrRef spec5 1)))) (flushed5_4_eq V c) fun i => by
    have hi0 : (i 0 : Nat) < 1 := (i 0).isLt
    have hi1 : (i 1 : Nat) < 128 := (i 1).isLt
    obtain ⟨-, -, -, -, -, -, -, e7, e8⟩ := idx5_facts ⟨19, last5_lt⟩
    refine ⟨⟨19, last5_lt⟩, (flush5_4 _).mpr rfl, ?_⟩
    show i ∈ ((View.whole main_v104_2).slice (win5_4.rect ⟨19, last5_lt⟩)).set
    rw [View.set_slice_whole, Rect.mem_set_unit]
    intro a
    match a with
    | ⟨0, _⟩ =>
      show win5_4.index ⟨19, last5_lt⟩ 0 * 1 ≤ (i 0 : Nat) ∧ (i 0 : Nat) < win5_4.index ⟨19, last5_lt⟩ 0 * 1 + 1
      rw [e7]; omega
    | ⟨1, _⟩ =>
      show win5_4.index ⟨19, last5_lt⟩ 1 * 128 ≤ (i 1 : Nat) ∧ (i 1 : Nat) < win5_4.index ⟨19, last5_lt⟩ 1 * 128 + 128
      rw [e8]; omega

end AtIdeal

end Cert.Regions

end
-- ==== Proof.RegionStats8.lean ====
/-
  What the column-statistics pass number 8 leaves in its three output arrays.

  The pass walks the 100000 rows of a feature matrix in 20 blocks of 5000 rows. At every block it writes the block with
  a bias row added to every row, and adds the block's column sums, and its column sums of squares, onto two rows of 128
  running sums that it carries from block to block; at the first block it first sets both rows to zero. The two rows are
  written out once, after the last block.

  So the first output is the feature matrix with the bias added to every row, entry by entry: block `t` holds rows
  `5000 t … 5000 t + 4999`, and the blocks cover all rows. After block `n` the row of sums holds, in column `q`, the sum
  of column `q` of that matrix over the rows below `5000 (n + 1)` (by induction on `n`: zero plus the first block's sum,
  then the sum so far plus the next block's sum; only the grouping of a sum of extended reals is used), so after the last
  block it holds the column sums over all rows; the row of sums of squares likewise.
-/
import proofs.«161461_j70540542869949_1_alg».proof.Proof.Gen.KernelIdeal.Frame
import proofs.«161461_j70540542869949_1_alg».proof.Proof.Spec
import proofs.«161461_j70540542869949_1_alg».proof.Proof.RegionStatsLib
import Idealize.ShloMosaic.Lib.Pipeline.Value
import Idealize.ShloMosaic.Lib.ValueLayout
import Idealize.ShloMosaic.Lib.Tactic

noncomputable section

open scoped BigOperators

namespace Cert.Regions

open Idealize.ShloMosaic Idealize.ShloMosaic.TcCoe Idealize.SL.Sem Idealize.ShloMosaic.ValueIdx
open Idealize.ShloMosaic.Pipeline (Dat)
open Cert.KernelIdeal Cert.KernelIdeal.Gen Cert.Spec

/-! ## What each of the body's two cases leaves in the three blocks, for any float values -/

section Pieces

variable {F : FTy → Type} [FloatOps F]

/-- A later point leaves, in the block of window 2, the block of features with the bias row added. -/
theorem out8_B_2_eq (c : Dev nD) (i : grid8.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond8_0 i) (x0 : Vec F S5000x128 .f32) (x1 : Vec F S128 .f32) (xo3 xo4 : Vec F S1x128 .f32) :
    out8_B_2 c i arg1 harg1 arg2 harg2 arg3 harg3 arg4 harg4 arg5 harg5 hc0 x0 x1 xo3 xo4 = k8_pay3 x0 x1 := by
  unfold out8_B_2
  rw [View.read_writes_eq_canon _ _ _ (cover8_B_2 c i arg1 harg1 arg2 harg2 arg3 harg3 arg4 harg4 arg5 harg5 hc0 x0 x1 xo3 xo4)]
  unfold kernelRun8_B
  dsimp only
  try sl_unfold_words
  rw [View.canon_unit_zero (S := S5000x128) zeros2]
  simp only [View.readAt_eq_ld, harg1.read_unread, harg2.read_unread, View.ld_unit_zero (S := S5000x128) zeros2, View.ld_unit_zero (S := S128) zeros1]

/-- The first point leaves the same there. -/
theorem out8_A_2_eq (c : Dev nD) (i : grid8.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond8_0 i) (x0 : Vec F S5000x128 .f32) (x1 : Vec F S128 .f32) :
    out8_A_2 c i arg1 harg1 arg2 harg2 arg3 harg3 arg4 harg4 arg5 harg5 hc0 x0 x1 = k8_pay3 x0 x1 := by
  unfold out8_A_2
  rw [View.read_writes_eq_canon _ _ _ (cover8_A_2 c i arg1 harg1 arg2 harg2 arg3 harg3 arg4 harg4 arg5 harg5 hc0 x0 x1)]
  unfold kernelRun8_A
  dsimp only
  try sl_unfold_words
  rw [View.canon_unit_zero (S := S5000x128) zeros2]
  simp only [View.readAt_eq_ld, harg1.read_unread, harg2.read_unread, View.ld_unit_zero (S := S5000x128) zeros2, View.ld_unit_zero (S := S128) zeros1]

/-- A later point adds the block's column sums onto the row of sums the point before left. -/
theorem out8_B_3_eq (c : Dev nD) (i : grid8.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond8_0 i) (x0 : Vec F S5000x128 .f32) (x1 : Vec F S128 .f32) (xo3 xo4 : Vec F S1x128 .f32) :
    out8_B_3 c i arg1 harg1 arg2 harg2 arg3 harg3 arg4 harg4 arg5 harg5 hc0 x0 x1 xo3 xo4 = k8_pay4 x0 x1 xo3 := by
  unfold out8_B_3
  rw [View.read_writes_eq_canon _ _ _ (cover8_B_3 c i arg1 harg1 arg2 harg2 arg3 harg3 arg4 harg4 arg5 harg5 hc0 x0 x1 xo3 xo4)]
  unfold kernelRun8_B
  dsimp only
  try sl_unfold_words
  rw [View.canon_unit_zero (S := S1x128) zeros2]
  simp only [View.readAt_eq_ld, harg1.read_unread, harg2.read_unread, harg4.read_unread, View.ld_unit_zero (S := S5000x128) zeros2, View.ld_unit_zero (S := S128) zeros1, View.ld_unit_zero (S := S1x128) zeros2]

/-- The first point adds them onto the zero row it has just stored. -/
theorem out8_A_3_eq (c : Dev nD) (i : grid8.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond8_0 i) (x0 : Vec F S5000x128 .f32) (x1 : Vec F S128 .f32) :
    out8_A_3 c i arg1 harg1 arg2 harg2 arg3 harg3 arg4 harg4 arg5 harg5 hc0 x0 x1 = k8_pay4 x0 x1 (k8_pay1 (F := F)) := by
  unfold out8_A_3
  rw [View.read_writes_eq_canon _ _ _ (cover8_A_3 c i arg1 harg1 arg2 harg2 arg3 harg3 arg4 harg4 arg5 harg5 hc0 x0 x1)]
  unfold kernelRun8_A
  dsimp only
  sl_unfold_words
  rw [View.canon_cons_unit_zero (S := S1x128) zeros2, View.readCov_unit_zero (S := S1x128) _ zeros2]
  simp only [View.readAt_eq_ld, harg1.read_unread, harg2.read_unread, View.ld_unit_zero (S := S5000x128) zeros2, View.ld_unit_zero (S := S128) zeros1]

/-- A later point adds the block's column sums of squares onto the row the point before left. -/
theorem out8_B_4_eq (c : Dev nD) (i : grid8.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : ¬cond8_0 i) (x0 : Vec F S5000x128 .f32) (x1 : Vec F S128 .f32) (xo3 xo4 : Vec F S1x128 .f32) :
    out8_B_4 c i arg1 harg1 arg2 harg2 arg3 harg3 arg4 harg4 arg5 harg5 hc0 x0 x1 xo3 xo4 = k8_pay5 x0 x1 xo4 := by
  unfold out8_B_4
  rw [View.read_writes_eq_canon _ _ _ (cover8_B_4 c i arg1 harg1 arg2 harg2 arg3 harg3 arg4 harg4 arg5 harg5 hc0 x0 x1 xo3 xo4)]
  unfold kernelRun8_B
  dsimp only
  try sl_unfold_words
  rw [View.canon_unit_zero (S := S1x128) zeros2]
  simp only [View.readAt_eq_ld, harg1.read_unread, harg2.read_unread, harg5.read_unread, View.ld_unit_zero (S := S5000x128) zeros2, View.ld_unit_zero (S := S128) zeros1, View.ld_unit_zero (S := S1x128) zeros2]

/-- The first point adds them onto the zero row it has just stored. -/
theorem out8_A_4_eq (c : Dev nD) (i : grid8.Coords) (arg1 : Memref sig .tc .vmem S5000x128 .f32) (harg1 : arg1.IsWhole) (arg2 : Memref sig .tc .vmem S128 .f32) (harg2 : arg2.IsWhole) (arg3 : Memref sig .tc .vmem S5000x128 .f32) (harg3 : arg3.IsWhole) (arg4 : Memref sig .tc .vmem S1x128 .f32) (harg4 : arg4.IsWhole) (arg5 : Memref sig .tc .vmem S1x128 .f32) (harg5 : arg5.IsWhole) (hc0 : cond8_0 i) (x0 : Vec F S5000x128 .f32) (x1 : Vec F S128 .f32) :
    out8_A_4 c i arg1 harg1 arg2 harg2 arg3 harg3 arg4 harg4 arg5 harg5 hc0 x0 x1 = k8_pay5 x0 x1 (k8_pay2 (F := F)) := by
  unfold out8_A_4
  rw [View.read_writes_eq_canon _ _ _ (cover8_A_4 c i arg1 harg1 arg2 harg2 arg3 harg3 arg4 harg4 arg5 harg5 hc0 x0 x1)]
  unfold kernelRun8_A
  dsimp only
  sl_unfold_words
  rw [View.canon_cons_unit_zero (S := S1x128) zeros2, View.readCov_unit_zero (S := S1x128) _ zeros2]
  simp only [View.readAt_eq_ld, harg1.read_unread, harg2.read_unread, View.ld_unit_zero (S := S5000x128) zeros2, View.ld_unit_zero (S := S128) zeros1]

variable (V : (c : Dev nD) → (b : Ref sig .tc) → Buf (Elt F) ((c : Thread nD τ).loc b))

/-- After the first block: the block with the bias added, and each row of sums at zero plus the block's sums. -/
theorem outs8_first (c : Dev nD) (t : Fin cfg8.N) (h0 : t.val % 20 = 0) :
    outsAt8 V c t.val t.isLt
      = (k8_pay3 (iblk8 V c 0 t) (iblk8 V c 1 t), k8_pay4 (iblk8 V c 0 t) (iblk8 V c 1 t) (k8_pay1 (F := F)),
          k8_pay5 (iblk8 V c 0 t) (iblk8 V c 1 t) (k8_pay2 (F := F))) := by
  rw [outsAt8_A V c t h0]
  refine congrArg₂ Prod.mk ?_ (congrArg₂ Prod.mk ?_ ?_)
  · exact out8_A_2_eq c (grid8.coords t) (ms8_0 t) (hs8_0 t) (ms8_1 t) (hs8_1 t) (ms8_2 t) (hs8_2 t) (ms8_3 t) (hs8_3 t) (ms8_4 t) (hs8_4 t) ((hcond8_0 t).mpr h0) (iblk8 V c 0 t) (iblk8 V c 1 t)
  · exact out8_A_3_eq c (grid8.coords t) (ms8_0 t) (hs8_0 t) (ms8_1 t) (hs8_1 t) (ms8_2 t) (hs8_2 t) (ms8_3 t) (hs8_3 t) (ms8_4 t) (hs8_4 t) ((hcond8_0 t).mpr h0) (iblk8 V c 0 t) (iblk8 V c 1 t)
  · exact out8_A_4_eq c (grid8.coords t) (ms8_0 t) (hs8_0 t) (ms8_1 t) (hs8_1 t) (ms8_2 t) (hs8_2 t) (ms8_3 t) (hs8_3 t) (ms8_4 t) (hs8_4 t) ((hcond8_0 t).mpr h0) (iblk8 V c 0 t) (iblk8 V c 1 t)

/-- After a later block: the block with the bias added, and each row of sums at what the block before left plus the
    block's sums. -/
theorem outs8_later (c : Dev nD) (t : Fin cfg8.N) (h0 : ¬t.val % 20 = 0) :
    outsAt8 V c t.val t.isLt
      = (k8_pay3 (iblk8 V c 0 t) (iblk8 V c 1 t), k8_pay4 (iblk8 V c 0 t) (iblk8 V c 1 t) (outsAt8 V c (t.val - 1) (Nat.lt_of_le_of_lt (Nat.sub_le _ _) t.isLt)).2.1,
          k8_pay5 (iblk8 V c 0 t) (iblk8 V c 1 t) (outsAt8 V c (t.val - 1) (Nat.lt_of_le_of_lt (Nat.sub_le _ _) t.isLt)).2.2) := by
  rw [outsAt8_B V c t h0]
  refine congrArg₂ Prod.mk ?_ (congrArg₂ Prod.mk ?_ ?_)
  · exact out8_B_2_eq c (grid8.coords t) (ms8_0 t) (hs8_0 t) (ms8_1 t) (hs8_1 t) (ms8_2 t) (hs8_2 t) (ms8_3 t) (hs8_3 t) (ms8_4 t) (hs8_4 t) (fun h => h0 ((hcond8_0 t).mp h)) (iblk8 V c 0 t) (iblk8 V c 1 t) (outsAt8 V c (t.val - 1) (Nat.lt_of_le_of_lt (Nat.sub_le _ _) t.isLt)).2.1 (outsAt8 V c (t.val - 1) (Nat.lt_of_le_of_lt (Nat.sub_le _ _) t.isLt)).2.2
  · exact out8_B_3_eq c (grid8.coords t) (ms8_0 t) (hs8_0 t) (ms8_1 t) (hs8_1 t) (ms8_2 t) (hs8_2 t) (ms8_3 t) (hs8_3 t) (ms8_4 t) (hs8_4 t) (fun h => h0 ((hcond8_0 t).mp h)) (iblk8 V c 0 t) (iblk8 V c 1 t) (outsAt8 V c (t.val - 1) (Nat.lt_of_le_of_lt (Nat.sub_le _ _) t.isLt)).2.1 (outsAt8 V c (t.val - 1) (Nat.lt_of_le_of_lt (Nat.sub_le _ _) t.isLt)).2.2
  · exact out8_B_4_eq c (grid8.coords t) (ms8_0 t) (hs8_0 t) (ms8_1 t) (hs8_1 t) (ms8_2 t) (hs8_2 t) (ms8_3 t) (hs8_3 t) (ms8_4 t) (hs8_4 t) (fun h => h0 ((hcond8_0 t).mp h)) (iblk8 V c 0 t) (iblk8 V c 1 t) (outsAt8 V c (t.val - 1) (Nat.lt_of_le_of_lt (Nat.sub_le _ _) t.isLt)).2.1 (outsAt8 V c (t.val - 1) (Nat.lt_of_le_of_lt (Nat.sub_le _ _) t.isLt)).2.2

/-- At every block the first output's block is the input block with the bias added. -/
theorem outs8_bias (c : Dev nD) (t : Fin cfg8.N) :
    (outsAt8 V c t.val t.isLt).1 = k8_pay3 (iblk8 V c 0 t) (iblk8 V c 1 t) := by
  by_cases h0 : t.val % 20 = 0
  · rw [outs8_first V c t h0]
  · rw [outs8_later V c t h0]

end Pieces

/-! ## The three steps at an index, over the extended reals -/

/-- The block with the bias added, at row `r` and column `q`. -/
theorem bias8_apply (x0 : Vec Ideal S5000x128 .f32) (x1 : Vec Ideal S128 .f32) (r : Fin 5000) (q : Fin 128) :
    k8_pay3 (F := Ideal) x0 x1 (ix2 r q) = x0 (ix2 r q) + x1 (ix1 q) :=
  addRow_apply x0 x1 _ _ _ r q

/-- A row of sums after a block, at column `q`: what it held plus the column's sum over the block's rows. -/
theorem sum8_apply (x0 : Vec Ideal S5000x128 .f32) (x1 : Vec Ideal S128 .f32) (xo : Vec Ideal S1x128 .f32) (q : Fin 128) :
    k8_pay4 (F := Ideal) x0 x1 xo (ix2 (0 : Fin 1) q)
      = xo (ix2 (0 : Fin 1) q) + ∑ r : Fin 5000, (x0 (ix2 r q) + x1 (ix1 q)) := by
  refine (accRow_apply xo _ _ _ q).trans ?_
  refine congrArg (xo (ix2 (0 : Fin 1) q) + ·) ?_
  refine (colReduce_apply _ _ _ _ q).trans ?_
  exact Finset.sum_congr rfl fun r _ => bias8_apply x0 x1 r q

/-- A row of sums of squares after a block, at column `q`. -/
theorem sumsq8_apply (x0 : Vec Ideal S5000x128 .f32) (x1 : Vec Ideal S128 .f32) (xo : Vec Ideal S1x128 .f32) (q : Fin 128) :
    k8_pay5 (F := Ideal) x0 x1 xo (ix2 (0 : Fin 1) q)
      = xo (ix2 (0 : Fin 1) q) + ∑ r : Fin 5000, (x0 (ix2 r q) + x1 (ix1 q)) * (x0 (ix2 r q) + x1 (ix1 q)) := by
  refine (accRow_apply xo _ _ _ q).trans ?_
  refine congrArg (xo (ix2 (0 : Fin 1) q) + ·) ?_
  refine (colReduce_apply _ _ _ _ q).trans ?_
  refine Finset.sum_congr rfl fun r _ => ?_
  refine (mulf_apply _ _ (ix2 r q)).trans ?_
  rw [bias8_apply x0 x1 r q]

/-- The two zero rows. -/
theorem zero8a_apply (j : S1x128.Idx) : k8_pay1 (F := Ideal) j = 0 := zeroRow_apply j
theorem zero8b_apply (j : S1x128.Idx) : k8_pay2 (F := Ideal) j = 0 := zeroRow_apply j

/-! ## The blocks as rows of the arrays -/

section AtIdeal

variable (V : (c : Dev nD) → (b : Ref sig .tc) → Buf (Elt Ideal) ((c : Thread nD τ).loc b))

/-- The index maps over the grid: the feature blocks move down one block per point, everything else stays. -/
theorem idx8_facts : ∀ t : Fin cfg8.N, win8_0.index t (0 : Fin 2) = t.val ∧ win8_0.index t (1 : Fin 2) = 0
    ∧ win8_1.index t (0 : Fin 1) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Block `t` of the features holds rows `5000 t + r`. -/
theorem blk8_0_apply (c : Dev nD) (t : Fin cfg8.N) (r : Fin 5000) (q : Fin 128) (k : S100000x128.Idx)
    (hk0 : (k 0).val = 5000 * t.val + r.val) (hk1 : (k 1).val = q.val) :
    (iblk8 V c 0 t : Vec Ideal S5000x128 .f32) (ix2 r q) = ((V c (Pipeline.arrRef spec8 0)) : S100000x128.Idx → Elt Ideal .f32) k := by
  obtain ⟨e0, e1, -⟩ := idx8_facts t
  unfold iblk8
  rw [View.read_apply]
  show V c (Pipeline.arrRef spec8 0) _ = V c (Pipeline.arrRef spec8 0) _
  congr 1
  funext a
  apply Fin.ext
  match a with
  | ⟨0, _⟩ => show win8_0.index t 0 * 5000 + 1 * r.val = (k 0).val; rw [e0, hk0]; omega
  | ⟨1, _⟩ => show win8_0.index t 1 * 128 + 1 * q.val = (k 1).val; rw [e1, hk1]; omega

/-- The bias's one block is the bias. -/
theorem blk8_1_apply (c : Dev nD) (t : Fin cfg8.N) (q : Fin 128) :
    (iblk8 V c 1 t : Vec Ideal S128 .f32) (ix1 q) = ((V c (Pipeline.arrRef spec8 1)) : S128.Idx → Elt Ideal .f32) (ix1 q) := by
  obtain ⟨-, -, e2, -⟩ := idx8_facts t
  unfold iblk8
  rw [View.read_apply]
  show V c (Pipeline.arrRef spec8 1) _ = V c (Pipeline.arrRef spec8 1) _
  congr 1
  funext a
  apply Fin.ext
  match a with
  | ⟨0, _⟩ => show win8_1.index t 0 * 128 + 1 * q.val = q.val; rw [e2]; omega

/-! ## The rows of sums after each block -/

/-- An entry of block `t` with the bias added is the entry of row `5000 t + r` of the whole matrix with the bias added. -/
theorem row8_apply (c : Dev nD) (t : Fin cfg8.N) (r : Fin 5000) (q : Fin 128) (a b : EReal)
    (ha : a = (iblk8 V c 0 t : Vec Ideal S5000x128 .f32) (ix2 r q)) (hb : b = (iblk8 V c 1 t : Vec Ideal S128 .f32) (ix1 q)) :
    a + b = rowsOr (fun p => (addBias (V c (Pipeline.arrRef spec8 0)) (V c (Pipeline.arrRef spec8 1))) (ix2 p q)) (5000 * t.val + r.val) := by
  have hN : t.val < 20 := lt_of_lt_of_eq t.isLt (show cfg8.N = 20 from N_8)
  have h : 5000 * t.val + r.val < 100000 := by have := r.isLt; omega
  rw [ha, hb, rowsOr_of_lt _ _ h, blk8_0_apply V c t r q (ix2 ⟨5000 * t.val + r.val, h⟩ q) rfl rfl, blk8_1_apply V c t q]
  rfl

/-- After block `n` the row of sums holds, in column `q`, the column's sum over the rows below `5000 (n + 1)`. -/
theorem sum8_inv (c : Dev nD) (q : Fin 128) : ∀ (n : ℕ) (h : n < cfg8.N),
    (outsAt8 V c n h).2.1 (ix2 (0 : Fin 1) q)
      = ∑ p ∈ Finset.range (5000 * (n + 1)), rowsOr (fun p => (addBias (V c (Pipeline.arrRef spec8 0)) (V c (Pipeline.arrRef spec8 1))) (ix2 p q)) p
  | 0, h => by
    rw [outs8_first V c ⟨0, h⟩ rfl]
    dsimp only
    refine (sum8_apply (iblk8 V c 0 ⟨0, h⟩) (iblk8 V c 1 ⟨0, h⟩) (k8_pay1 (F := Ideal)) q).trans ?_
    rw [zero8a_apply, zero_add, sum_rows_first]
    exact Finset.sum_congr rfl fun r _ => row8_apply V c ⟨0, h⟩ r q _ _ rfl rfl
  | n + 1, h => by
    have hN : cfg8.N = 20 := N_8
    have hB : ¬(⟨n + 1, h⟩ : Fin cfg8.N).val % 20 = 0 := by dsimp only; omega
    rw [outs8_later V c ⟨n + 1, h⟩ hB]
    dsimp only
    refine (sum8_apply (iblk8 V c 0 ⟨n + 1, h⟩) (iblk8 V c 1 ⟨n + 1, h⟩) _ q).trans ?_
    rw [sum_rows_succ]
    exact congrArg₂ (· + ·) (sum8_inv c q n _) (Finset.sum_congr rfl fun r _ => row8_apply V c ⟨n + 1, h⟩ r q _ _ rfl rfl)

/-- After block `n` the row of sums of squares holds, in column `q`, the sum of the column's squares over the rows below
    `5000 (n + 1)`. -/
theorem sumsq8_inv (c : Dev nD) (q : Fin 128) : ∀ (n : ℕ) (h : n < cfg8.N),
    (outsAt8 V c n h).2.2 (ix2 (0 : Fin 1) q)
      = ∑ p ∈ Finset.range (5000 * (n + 1)), rowsOr (fun p => (addBias (V c (Pipeline.arrRef spec8 0)) (V c (Pipeline.arrRef spec8 1))) (ix2 p q) * (addBias (V c (Pipeline.arrRef spec8 0)) (V c (Pipeline.arrRef spec8 1))) (ix2 p q)) p
  | 0, h => by
    rw [outs8_first V c ⟨0, h⟩ rfl]
    dsimp only
    refine (sumsq8_apply (iblk8 V c 0 ⟨0, h⟩) (iblk8 V c 1 ⟨0, h⟩) (k8_pay2 (F := Ideal)) q).trans ?_
    rw [zero8b_apply, zero_add, sum_rows_first]
    refine Finset.sum_congr rfl fun r _ => ?_
    rw [row8_apply V c ⟨0, h⟩ r q _ _ rfl rfl]
    have hr : 5000 * (⟨0, h⟩ : Fin cfg8.N).val + r.val < 100000 := by have := r.isLt; dsimp only; omega
    rw [rowsOr_of_lt _ _ hr, rowsOr_of_lt _ _ hr]
  | n + 1, h => by
    have hN : cfg8.N = 20 := N_8
    have hB : ¬(⟨n + 1, h⟩ : Fin cfg8.N).val % 20 = 0 := by dsimp only; omega
    rw [outs8_later V c ⟨n + 1, h⟩ hB]
    dsimp only
    refine (sumsq8_apply (iblk8 V c 0 ⟨n + 1, h⟩) (iblk8 V c 1 ⟨n + 1, h⟩) _ q).trans ?_
    rw [sum_rows_succ]
    refine congrArg₂ (· + ·) (sumsq8_inv c q n _) (Finset.sum_congr rfl fun r _ => ?_)
    rw [row8_apply V c ⟨n + 1, h⟩ r q _ _ rfl rfl]
    have hr : 5000 * (⟨n + 1, h⟩ : Fin cfg8.N).val + r.val < 100000 := by have := r.isLt; dsimp only; omega
    rw [rowsOr_of_lt _ _ hr, rowsOr_of_lt _ _ hr]

/-! ## What the pass leaves in the three arrays -/

/-- An entry of a block with the bias added, as an entry of the whole matrix with the bias added: for a block whose
    rows are rows `5000 tv + r` of the matrix `X` and a bias block that is the bias `b`. -/
theorem bias8_point (x0 : Vec Ideal S5000x128 .f32) (x1 : Vec Ideal S128 .f32) (X : Mat 100000 128) (b : Col 128) (tv : ℕ)
    (hx0 : ∀ (r : Fin 5000) (q : Fin 128) (k : S100000x128.Idx), (k 0).val = 5000 * tv + r.val → (k 1).val = q.val →
      x0 (ix2 r q) = X k)
    (hx1 : ∀ q : Fin 128, x1 (ix1 q) = b (ix1 q))
    (j : S5000x128.Idx) (k : S100000x128.Idx) (hk0 : (k 0).val = 5000 * tv + (j 0).val) (hk1 : (k 1).val = (j 1).val) :
    k8_pay3 (F := Ideal) x0 x1 j = addBias X b k := by
  obtain ⟨r, q, rfl⟩ : ∃ (r : Fin 5000) (q : Fin 128), j = ix2 r q := ⟨j 0, j 1, eq_ix2 j⟩
  rw [bias8_apply, hx0 r q k hk0 hk1, hx1 q]
  show X k + b (ix1 q) = X k + b (ix1 (k 1))
  have e : k 1 = q := Fin.ext hk1
  rw [e]

/-- What block `t` writes back to the first output is block `t` of the matrix with the bias added. -/
theorem flushed8_2_eq (c : Dev nD) (t : Fin cfg8.N) :
    (dat8 (F := Ideal) V c).flushed 2 t = ((cfg8.win 2).blk t).view.read (Elt Ideal) (addBias (V c (Pipeline.arrRef spec8 0)) (V c (Pipeline.arrRef spec8 1))) := by
  obtain ⟨-, -, -, e3, e4, -⟩ := idx8_facts t
  show (cfg8.win 2).cut (grid8.coords t) ((dat8 V c).after 2 t) = _
  rw [after8_2, outs8_bias V c t]
  funext j
  show k8_pay3 (F := Ideal) (iblk8 V c 0 t) (iblk8 V c 1 t) j = (addBias (V c (Pipeline.arrRef spec8 0)) (V c (Pipeline.arrRef spec8 1))) (((cfg8.win 2).blk t).view.emb j)
  refine bias8_point (iblk8 V c 0 t) (iblk8 V c 1 t) (V c (Pipeline.arrRef spec8 0)) (V c (Pipeline.arrRef spec8 1)) t.val
    (fun r q k h0 h1 => blk8_0_apply V c t r q k h0 h1) (fun q => blk8_1_apply V c t q) j _ ?_ ?_
  · show win8_2.index t 0 * 5000 + 1 * (j 0).val = 5000 * t.val + (j 0).val
    rw [e3]; omega
  · show win8_2.index t 1 * 128 + 1 * (j 1).val = (j 1).val
    rw [e4]; omega

/-- THE FIRST OUTPUT: the matrix with the bias added to every row. -/
theorem final8_pre (c : Dev nD) : (Gen.dat8 (F := Ideal) V c).arrAt 2 cfg8.N = Cert.Spec.addBias (V c (Pipeline.arrRef spec8 0)) (V c (Pipeline.arrRef spec8 1)) :=
  (dat8 V c).arrAt_eq_of_cover 2 (addBias (V c (Pipeline.arrRef spec8 0)) (V c (Pipeline.arrRef spec8 1))) (fun t _ => flushed8_2_eq V c t) fun i => by
    have hi0 : (i 0 : Nat) < 100000 := (i 0).isLt
    have hi1 : (i 1 : Nat) < 128 := (i 1).isLt
    obtain ⟨t, ht⟩ : ∃ t : Fin cfg8.N, t.val = (i 0 : Nat) / 5000 :=
      ⟨⟨(i 0 : Nat) / 5000, by rw [show cfg8.N = 20 from N_8]; omega⟩, rfl⟩
    obtain ⟨-, -, -, e3, e4, -⟩ := idx8_facts t
    refine ⟨t, flush8_2 t, ?_⟩
    show i ∈ ((View.whole main_v158_0).slice (win8_2.rect t)).set
    rw [View.set_slice_whole, Rect.mem_set_unit]
    intro a
    match a with
    | ⟨0, _⟩ =>
      show win8_2.index t 0 * 5000 ≤ (i 0 : Nat) ∧ (i 0 : Nat) < win8_2.index t 0 * 5000 + 5000
      rw [e3]; omega
    | ⟨1, _⟩ =>
      show win8_2.index t 1 * 128 ≤ (i 1 : Nat) ∧ (i 1 : Nat) < win8_2.index t 1 * 128 + 128
      rw [e4]; omega

/-- The last block's row of sums holds the column sums over all rows. -/
theorem sum8_last (c : Dev nD) (t : Fin cfg8.N) (h19 : t.val = 19) (q : Fin 128) :
    (outsAt8 V c t.val t.isLt).2.1 (ix2 (0 : Fin 1) q) = colSum (addBias (V c (Pipeline.arrRef spec8 0)) (V c (Pipeline.arrRef spec8 1))) (ix2 (0 : Fin 1) q) :=
  (sum8_inv V c q t.val t.isLt).trans (by rw [h19, colSum_apply]; exact sum_rows_all _)

/-- The last block's row of sums of squares holds the column sums of squares over all rows. -/
theorem sumsq8_last (c : Dev nD) (t : Fin cfg8.N) (h19 : t.val = 19) (q : Fin 128) :
    (outsAt8 V c t.val t.isLt).2.2 (ix2 (0 : Fin 1) q) = colSumSq (addBias (V c (Pipeline.arrRef spec8 0)) (V c (Pipeline.arrRef spec8 1))) (ix2 (0 : Fin 1) q) :=
  (sumsq8_inv V c q t.val t.isLt).trans (by rw [h19, colSumSq_apply]; exact sum_rows_all _)

/-- The one write-back of the row of sums, after the last block, writes the column sums. -/
theorem flushed8_3_eq (c : Dev nD) (t : Fin cfg8.N) (hf : (cfg8.win 3).flush t = true) :
    (dat8 (F := Ideal) V c).flushed 3 t = ((cfg8.win 3).blk t).view.read (Elt Ideal) (colSum (addBias (V c (Pipeline.arrRef spec8 0)) (V c (Pipeline.arrRef spec8 1)))) := by
  have hN : cfg8.N = 20 := N_8
  have h19 : t.val = 19 := by have := (flush8_3 t).mp hf; have := t.isLt; omega
  obtain ⟨-, -, -, -, -, e5, e6, -⟩ := idx8_facts t
  have key : ∀ G : Mat 1 128, (∀ q : Fin 128, (outsAt8 V c t.val t.isLt).2.1 (ix2 (0 : Fin 1) q) = G (ix2 (0 : Fin 1) q)) →
      (cfg8.win 3).cut (grid8.coords t) (outsAt8 V c t.val t.isLt).2.1 = ((cfg8.win 3).blk t).view.read (Elt Ideal) G := by
    intro G hG
    funext j
    show (outsAt8 V c t.val t.isLt).2.1 j = G (((cfg8.win 3).blk t).view.emb j)
    refine oneRow_point (outsAt8 V c t.val t.isLt).2.1 G hG j _ ?_
    show win8_3.index t 1 * 128 + 1 * (j 1).val = (j 1).val
    rw [e6]; omega
  show (cfg8.win 3).cut (grid8.coords t) ((dat8 V c).after 3 t) = _
  rw [after8_3]
  exact key _ (fun q => sum8_last V c t h19 q)

/-- The one write-back of the row of sums of squares writes the column sums of squares. -/
theorem flushed8_4_eq (c : Dev nD) (t : Fin cfg8.N) (hf : (cfg8.win 4).flush t = true) :
    (dat8 (F := Ideal) V c).flushed 4 t = ((cfg8.win 4).blk t).view.read (Elt Ideal) (colSumSq (addBias (V c (Pipeline.arrRef spec8 0)) (V c (Pipeline.arrRef spec8 1)))) := by
  have hN : cfg8.N = 20 := N_8
  have h19 : t.val = 19 := by have := (flush8_4 t).mp hf; have := t.isLt; omega
  obtain ⟨-, -, -, -, -, -, -, e7, e8⟩ := idx8_facts t
  have key : ∀ G : Mat 1 128, (∀ q : Fin 128, (outsAt8 V c t.val t.isLt).2.2 (ix2 (0 : Fin 1) q) = G (ix2 (0 : Fin 1) q)) →
      (cfg8.win 4).cut (grid8.coords t) (outsAt8 V c t.val t.isLt).2.2 = ((cfg8.win 4).blk t).view.read (Elt Ideal) G := by
    intro G hG
    funext j
    show (outsAt8 V c t.val t.isLt).2.2 j = G (((cfg8.win 4).blk t).view.emb j)
    refine oneRow_point (outsAt8 V c t.val t.isLt).2.2 G hG j _ ?_
    show win8_4.index t 1 * 128 + 1 * (j 1).val = (j 1).val
    rw [e8]; omega
  show (cfg8.win 4).cut (grid8.coords t) ((dat8 V c).after 4 t) = _
  rw [after8_4]
  exact key _ (fun q => sumsq8_last V c t h19 q)

/-- The last point, whose block is the whole one-row array. -/
theorem last8_lt : 19 < cfg8.N := lt_of_lt_of_eq (by decide : 19 < 20) (show cfg8.N = 20 from N_8).symm

/-- THE SECOND OUTPUT: the column sums of the matrix with the bias added. -/
theorem final8_sum (c : Dev nD) : (Gen.dat8 (F := Ideal) V c).arrAt 3 cfg8.N = Cert.Spec.colSum (Cert.Spec.addBias (V c (Pipeline.arrRef spec8 0)) (V c (Pipeline.arrRef spec8 1))) :=
  (dat8 V c).arrAt_eq_of_cover 3 (colSum (addBias (V c (Pipeline.arrRef spec8 0)) (V c (Pipeline.arrRef spec8 1)))) (flushed8_3_eq V c) fun i => by
    have hi0 : (i 0 : Nat) < 1 := (i 0).isLt
    have hi1 : (i 1 : Nat) < 128 := (i 1).isLt
    obtain ⟨-, -, -, -, -, e5, e6, -⟩ := idx8_facts ⟨19, last8_lt⟩
    refine ⟨⟨19, last8_lt⟩, (flush8_3 _).mpr rfl, ?_⟩
    show i ∈ ((View.whole main_v158_1).slice (win8_3.rect ⟨19, last8_lt⟩)).set
    rw [View.set_slice_whole, Rect.mem_set_unit]
    intro a
    match a with
    | ⟨0, _⟩ =>
      show win8_3.index ⟨19, last8_lt⟩ 0 * 1 ≤ (i 0 : Nat) ∧ (i 0 : Nat) < win8_3.index ⟨19, last8_lt⟩ 0 * 1 + 1
      rw [e5]; omega
    | ⟨1, _⟩ =>
      show win8_3.index ⟨19, last8_lt⟩ 1 * 128 ≤ (i 1 : Nat) ∧ (i 1 : Nat) < win8_3.index ⟨19, last8_lt⟩ 1 * 128 + 128
      rw [e6]; omega

/-- THE THIRD OUTPUT: the column sums of squares of the matrix with the bias added. -/
theorem final8_sumsq (c : Dev nD) : (Gen.dat8 (F := Ideal) V c).arrAt 4 cfg8.N = Cert.Spec.colSumSq (Cert.Spec.addBias (V c (Pipeline.arrRef spec8 0)) (V c (Pipeline.arrRef spec8 1))) :=
  (dat8 V c).arrAt_eq_of_cover 4 (colSumSq (addBias (V c (Pipeline.arrRef spec8 0)) (V c (Pipeline.arrRef spec8 1)))) (flushed8_4_eq V c) fun i => by
    have hi0 : (i 0 : Nat) < 1 := (i 0).isLt
    have hi1 : (i 1 : Nat) < 128 := (i 1).isLt
    obtain ⟨-, -, -, -, -, -, -, e7, e8⟩ := idx8_facts ⟨19, last8_lt⟩
    refine ⟨⟨19, last8_lt⟩, (flush8_4 _).mpr rfl, ?_⟩
    show i ∈ ((View.whole main_v158_2).slice (win8_4.rect ⟨19, last8_lt⟩)).set
    rw [View.set_slice_whole, Rect.mem_set_unit]
    intro a
    match a with
    | ⟨0, _⟩ =>
      show win8_4.index ⟨19, last8_lt⟩ 0 * 1 ≤ (i 0 : Nat) ∧ (i 0 : Nat) < win8_4.index ⟨19, last8_lt⟩ 0 * 1 + 1
      rw [e7]; omega
    | ⟨1, _⟩ =>
      show win8_4.index ⟨19, last8_lt⟩ 1 * 128 ≤ (i 1 : Nat) ∧ (i 1 : Nat) < win8_4.index ⟨19, last8_lt⟩ 1 * 128 + 128
      rw [e8]; omega

end AtIdeal

end Cert.Regions

end
-- ==== Proof.Parts.lean ====
/-
  The five conjuncts of the claim, from their parts.

  The three frames are the generated frame theorems of the two kernel programs and the reference's run with its result
  dropped. The kernel's idealization changed nothing, so nothing is to be preserved. For the algebraic conjunct both
  runs end with their result buffer at one pure function of the launch contents of the arguments: the kernel program's
  through the fold of its segments, each pipelined region's arrays read as the region's whole-array function; the
  reference's through its operations in order. The arguments agree, the float arguments are real by the precondition,
  and on real arguments the two functions are equal.
-/
import proofs.«161461_j70540542869949_1_alg».proof.Defs
import proofs.«161461_j70540542869949_1_alg».proof.Proof.Gen.Kernel.Frame
import proofs.«161461_j70540542869949_1_alg».proof.Proof.Gen.KernelIdeal.Frame
import proofs.«161461_j70540542869949_1_alg».proof.Proof.Gen.ReferenceIdeal
import proofs.«161461_j70540542869949_1_alg».proof.Proof.Gen.Pre_finite_inputs
import proofs.«161461_j70540542869949_1_alg».proof.Proof.KerRun
import proofs.«161461_j70540542869949_1_alg».proof.Proof.KerFold
import proofs.«161461_j70540542869949_1_alg».proof.Proof.RefRun
import proofs.«161461_j70540542869949_1_alg».proof.Proof.RefRunResult
import proofs.«161461_j70540542869949_1_alg».proof.Proof.ResultEq
import proofs.«161461_j70540542869949_1_alg».proof.Proof.PreFinite
import proofs.«161461_j70540542869949_1_alg».proof.Proof.KerReadSmall
import proofs.«161461_j70540542869949_1_alg».proof.Proof.KerReadProp
import proofs.«161461_j70540542869949_1_alg».proof.Proof.RefReadSmall
import proofs.«161461_j70540542869949_1_alg».proof.Proof.RefReadEdgeW
import proofs.«161461_j70540542869949_1_alg».proof.Proof.RefReadVar
import proofs.«161461_j70540542869949_1_alg».proof.Proof.RefReadConv
import proofs.«161461_j70540542869949_1_alg».proof.Proof.RegionEdge
import proofs.«161461_j70540542869949_1_alg».proof.Proof.RegionLin1
import proofs.«161461_j70540542869949_1_alg».proof.Proof.RegionLin4
import proofs.«161461_j70540542869949_1_alg».proof.Proof.RegionLin7
import proofs.«161461_j70540542869949_1_alg».proof.Proof.RegionBn3
import proofs.«161461_j70540542869949_1_alg».proof.Proof.RegionBn6
import proofs.«161461_j70540542869949_1_alg».proof.Proof.RegionBn9
import proofs.«161461_j70540542869949_1_alg».proof.Proof.RegionStats2
import proofs.«161461_j70540542869949_1_alg».proof.Proof.RegionStats5
import proofs.«161461_j70540542869949_1_alg».proof.Proof.RegionStats8

-- every mention of a buffer's contents looks its type up in the programs' tables of buffers
set_option maxHeartbeats 4000000
set_option maxRecDepth 16384

noncomputable section

namespace Cert.Proof.Parts

open Idealize.ShloMosaic Idealize.SL.Sem

/-- The programs' operations read at an index, collected. -/
theorem readings : Cert.ResultEq.Readings where
  kSrc := Cert.KerTerm.srcOf_apply
  kDst := Cert.KerTerm.dstOf_apply
  kEw := Cert.KerTerm.ewFlat_apply
  kProp := Cert.KerTerm.prop_addBias_apply
  kMean := Cert.KerTerm.meanOf_apply
  kVar := Cert.KerTerm.varOf_apply
  rSrc := Cert.RefTerm.srcOf_apply
  rDst := Cert.RefTerm.dstOf_apply
  rEw := Cert.RefTerm.edgeW_apply
  rConv := Cert.RefTerm.conv_apply
  rMean := Cert.RefTerm.meanOf_apply
  rVar := Cert.RefTerm.varOf_apply
  rBn := Cert.RefTerm.bnRelu_eq
  tails := fun _ _ _ _ => rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2) (Cert.RefRun.run_raw m ρ)

theorem algebraic : Cert.algebraic_KernelIdeal_ReferenceIdeal := by
  intro m ρ m' ρ' hpre hagree
  refine ⟨fun c => Cert.KerTerm.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)), ?_, ?_⟩
  · exact (θ_run (Cert.KernelIdeal.defs (F := Ideal)) _ _).mono
      (fun r h c => ⟨(h c).1.trans (Cert.KerRun.W25_result m ρ c Cert.Regions.final0 Cert.Regions.final1 Cert.Regions.final2_pre Cert.Regions.final2_sum Cert.Regions.final2_sumsq Cert.Regions.final3 Cert.Regions.final4 Cert.Regions.final5_pre Cert.Regions.final5_sum Cert.Regions.final5_sumsq Cert.Regions.final6 Cert.Regions.final7 Cert.Regions.final8_pre Cert.Regions.final8_sum Cert.Regions.final8_sumsq Cert.Regions.final9), (h c).2⟩)
      (Cert.KerRun.run_W m ρ)
  · refine (θ_run (Cert.ReferenceIdeal.defs (F := Ideal)) _ _).mono (fun r h c => ⟨?_, (h c).2⟩) (Cert.RefRun.run m' ρ')
    obtain ⟨e0, e1, e2, e3, e4, e5, e6, e7, e8, e9, e10, e11, e12, e13, e14, e15, e16, e17, e18, e19, e20, e21⟩ := hagree c
    obtain ⟨f0, f2, f4, f5, f6, f7, f8, f9, f10, f11, f12, f13, f14, f15, f16, f17, f18, f19, f20, f21⟩ :=
      Cert.PreFinite.of_pre m hpre c
    rw [(h c).1, e0, e1, e2, e3, e4, e5, e6, e7, e8, e9, e10, e11, e12, e13, e14, e15, e16, e17, e18, e19, e20, e21]
    exact (Cert.ResultEq.result_eq readings _ _ _ _ _ _ _ _ _ _ _ _ _ _ _ _ _ _ _ _ _ _
      f0 f2 f4 f5 f6 f7 f8 f9 f10 f11 f12 f13 f14 f15 f16 f17 f18 f19).symm

end Cert.Proof.Parts

end
-- ==== Proof.lean ====
/-
  A three-layer graph convolution with batch normalisation and a mean pool over graphs: the kernel program, its
  idealization and the reference compute one function of their arguments on the extended reals.

  The kernel program computes the edge weights (a two-layer perceptron of the edge attributes), and for each layer the
  dense product, the batch statistics and the normalised positive part, in pipelined regions that work through the
  nodes block by block; between the regions the host gathers each edge's source row, scales it by
  `dis(source) · weight · dis(target)`, sums what arrives at each node, and adds the node's own row scaled by `dis²`.
  The reference lists the self-loops as 100000 extra edges of weight one, and takes the variance as the mean of the
  squared deviations where the kernel program takes the mean of the squares less the squared mean.

  Frames: the generated frame theorems for the two kernel programs; the reference's run with its result dropped.
  Nothing was rewritten by the idealization, so nothing is to be preserved. Equal results: each region's output array is
  its whole-array function of the region's inputs (the blocks tile the arrays; the statistics are accumulated over the
  twenty blocks); each program's result is then one pure function of the launch contents of its arguments; read entry by
  entry the two functions differ by the placing of the self-loops, which only the commutative-monoid laws of the extended
  reals undo, and by the form of the variance, equal on real columns; the precondition makes every float argument real and
  each layer keeps its entries real.
-/
import proofs.«161461_j70540542869949_1_alg».proof.Defs
import proofs.«161461_j70540542869949_1_alg».proof.Proof.Gen.Kernel
import proofs.«161461_j70540542869949_1_alg».proof.Proof.Gen.KernelIdeal
import proofs.«161461_j70540542869949_1_alg».proof.Proof.Gen.ReferenceIdeal
import proofs.«161461_j70540542869949_1_alg».proof.Proof.Gen.Pre_finite_inputs
import proofs.«161461_j70540542869949_1_alg».proof.Proof.Parts

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, trivial, Parts.algebraic⟩

end Cert.Proof

end
